-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v188)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v188) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v251) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S64x128 : Shape := ⟨2, ![64, 128]⟩
abbrev S64 : Shape := ⟨1, ![64]⟩
abbrev S32x64 : Shape := ⟨2, ![32, 64]⟩
abbrev S32 : Shape := ⟨1, ![32]⟩
abbrev S10x32 : Shape := ⟨2, ![10, 32]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S10x32 : S_.BroadcastsInDim S10x32 (![] : Fin 0 → Fin S10x32.rank)
  reducesTo_S10x32_S_d0_1 : S10x32.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_arg13 : FVec F S10x32 .f32) (main_arg14 : FVec F S10 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S10x32 .f32 := Host.absf main_arg13
  let main_cst_20 : FVec F S_ .f32 := constant S_ .f32 0x7F800000#32
  let main_v55 : FVec F S10x32 .f32 := broadcastInDim S10x32 ![] bcast_S_S10x32 main_cst_20
  let main_v56 : IVec S10x32 1 := cmpf .olt main_v54 main_v55
  let main_c_21 : IVec S_ 1 := constantI S_ 1 1#1
  let main_v57 : IVec S_ 1 := (fun x v => Host.reduce IntOp.andi x v reducesTo_S10x32_S_d0_1 h_S_) main_v56 main_c_21
  let main_v58 : IVec S_ 1 := andi main_v53 main_v57
  let main_v59 : FVec F S10 .f32 := Host.absf main_arg14
  let main_cst_22 : FVec F S_ .f32 := constant S_ .f32 0x7F800000#32
  let main_v60 : FVec F S10 .f32 := broadcastInDim S10 ![] bcast_S_S10 main_cst_22
  let main_v61 : IVec S10 1 := cmpf .olt main_v59 main_v60
  let main_c_23 : IVec S_ 1 := constantI S_ 1 1#1
  let main_v62 : IVec S_ 1 := (fun x v => Host.reduce IntOp.andi x v reducesTo_S10_S_d0 h_S_) main_v61 main_c_23
  let main_v63 : IVec S_ 1 := andi main_v58 main_v62
  main_v63

def fn_part2 {F : FTy → Type} [FloatOps F] (main_arg9 : FVec F S64x128 .f32) (main_arg10 : FVec F S64 .f32) (main_arg11 : FVec F S32x64 .f32) (main_arg12 : FVec F S32 .f32) (main_arg13 : FVec F S10x32 .f32) (main_arg14 : FVec F S10 .f32) (main_v33 : IVec S_ 1) : IVec S_ 1 :=
  let main_v34 : FVec F S64x128 .f32 := Host.absf main_arg9
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S32x64 .f32 := Host.absf main_arg11
  let main_cst_16 : FVec F S_ .f32 := constant S_ .f32 0x7F800000#32
  let main_v45 : FVec F S32x64 .f32 := broadcastInDim S32x64 ![] bcast_S_S32x64 main_cst_16
  let main_v46 : IVec S32x64 1 := cmpf .olt main_v44 main_v45
  let main_c_17 : IVec S_ 1 := constantI S_ 1 1#1
  let main_v47 : IVec S_ 1 := (fun x v => Host.reduce IntOp.andi x v reducesTo_S32x64_S_d0_1 h_S_) main_v46 main_c_17
  let main_v48 : IVec S_ 1 := andi main_v43 main_v47
  let main_v49 : FVec F S32 .f32 := Host.absf main_arg12
  let main_cst_18 : FVec F S_ .f32 := constant S_ .f32 0x7F800000#32
  let main_v50 : FVec F S32 .f32 := broadcastInDim S32 ![] bcast_S_S32 main_cst_18
  fn_part3 (F := F) main_arg13 main_arg14 main_v48 main_v49 main_v50

def fn_part1 {F : FTy → Type} [FloatOps F] (main_arg6 : FVec F S4x128 .f32) (main_arg7 : FVec F S4x128 .f32) (main_arg8 : FVec F S4x128 .f32) (main_arg9 : FVec F S64x128 .f32) (main_arg10 : FVec F S64 .f32) (main_arg11 : FVec F S32x64 .f32) (main_arg12 : FVec F S32 .f32) (main_arg13 : FVec F S10x32 .f32) (main_arg14 : FVec F S10 .f32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S4x128 .f32 := Host.absf main_arg6
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S4x128 .f32 := Host.absf main_arg7
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S4x128 .f32 := Host.absf main_arg8
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S50000x128 .f32) (main_arg1 : IVec S2x600000 32) (main_arg2 : IVec S50000 32) (main_arg3 : FVec F S128x128 .f32) (main_arg4 : FVec F S128 .f32) (main_arg5 : FVec F S4x128x128 .f32) (main_arg6 : FVec F S4x128 .f32) (main_arg7 : FVec F S4x128 .f32) (main_arg8 : FVec F S4x128 .f32) (main_arg9 : FVec F S64x128 .f32) (main_arg10 : FVec F S64 .f32) (main_arg11 : FVec F S32x64 .f32) (main_arg12 : FVec F S32 .f32) (main_arg13 : FVec F S10x32 .f32) (main_arg14 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S4x128x128 .f32 := Host.absf main_arg5
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg6 main_arg7 main_arg8 main_arg9 main_arg10 main_arg11 main_arg12 main_arg13 main_arg14 main_v13 main_v16
-- ==== Kernel.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S64x128 : Shape := ⟨2, ![64, 128]⟩
abbrev S64 : Shape := ⟨1, ![64]⟩
abbrev S32x64 : Shape := ⟨2, ![32, 64]⟩
abbrev S32 : Shape := ⟨1, ![32]⟩
abbrev S10x32 : Shape := ⟨2, ![10, 32]⟩
abbrev S10 : Shape := ⟨1, ![10]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S1x128 : Shape := ⟨2, ![1, 128]⟩
abbrev S5000x128 : Shape := ⟨2, ![5000, 128]⟩
abbrev S1x128x128 : Shape := ⟨3, ![1, 128, 128]⟩
abbrev S650000x128 : Shape := ⟨2, ![650000, 128]⟩
abbrev S50000x1 : Shape := ⟨2, ![50000, 1]⟩
abbrev S128x1 : Shape := ⟨2, ![128, 1]⟩
abbrev S128x64 : Shape := ⟨2, ![128, 64]⟩
abbrev S1x64 : Shape := ⟨2, ![1, 64]⟩
abbrev S64x32 : Shape := ⟨2, ![64, 32]⟩
abbrev S1x32 : Shape := ⟨2, ![1, 32]⟩
abbrev S32x10 : Shape := ⟨2, ![32, 10]⟩
abbrev S1x10 : Shape := ⟨2, ![1, 10]⟩
abbrev S128x10 : Shape := ⟨2, ![128, 10]⟩
abbrev S128x32 : Shape := ⟨2, ![128, 32]⟩

abbrev nBuf : Space → Nat
  | .hbm => 327
  | .vmem => 82
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S128x128, .f32⟩
  | 4 => ⟨S128, .f32⟩
  | 5 => ⟨S4x128x128, .f32⟩
  | 6 => ⟨S4x128, .f32⟩
  | 7 => ⟨S4x128, .f32⟩
  | 8 => ⟨S4x128, .f32⟩
  | 9 => ⟨S64x128, .f32⟩
  | 10 => ⟨S64, .f32⟩
  | 11 => ⟨S32x64, .f32⟩
  | 12 => ⟨S32, .f32⟩
  | 13 => ⟨S10x32, .f32⟩
  | 14 => ⟨S10, .f32⟩
  | 15 => ⟨S50000, .i32⟩
  | 16 => ⟨S1x600000, .i32⟩
  | 17 => ⟨S600000, .i32⟩
  | 18 => ⟨S650000, .i32⟩
  | 19 => ⟨S1x600000, .i32⟩
  | 20 => ⟨S600000, .i32⟩
  | 21 => ⟨S650000, .i32⟩
  | 22 => ⟨S_, .f32⟩
  | 23 => ⟨S650000, .f32⟩
  | 24 => ⟨S_, .f32⟩
  | 25 => ⟨S50000, .f32⟩
  | 26 => ⟨S650000x1, .i32⟩
  | 27 => ⟨S50000, .f32⟩
  | 28 => ⟨S_, .f32⟩
  | 29 => ⟨S50000, .f32⟩
  | 30 => ⟨S50000, .i1⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S650000, .i32⟩
  | 38 => ⟨S650000, .i1⟩
  | 39 => ⟨S_, .i32⟩
  | 40 => ⟨S650000, .i32⟩
  | 41 => ⟨S650000, .i32⟩
  | 42 => ⟨S650000, .i32⟩
  | 43 => ⟨S650000x1, .i32⟩
  | 44 => ⟨S650000, .f32⟩
  | 45 => ⟨S_, .i32⟩
  | 46 => ⟨S650000, .i32⟩
  | 47 => ⟨S650000, .i1⟩
  | 48 => ⟨S_, .i32⟩
  | 49 => ⟨S650000, .i32⟩
  | 50 => ⟨S650000, .i32⟩
  | 51 => ⟨S650000, .i32⟩
  | 52 => ⟨S650000x1, .i32⟩
  | 53 => ⟨S650000, .f32⟩
  | 54 => ⟨S650000, .f32⟩
  | 55 => ⟨S_, .f32⟩
  | 56 => ⟨S1x128, .f32⟩
  | 57 => ⟨S128x128, .f32⟩
  | 58 => ⟨S1x128, .f32⟩
  | 59 => ⟨S50000x128, .f32⟩
  | 60 => ⟨S1x128x128, .f32⟩
  | 61 => ⟨S128x128, .f32⟩
  | 62 => ⟨S128x128, .f32⟩
  | 63 => ⟨S50000x128, .f32⟩
  | 64 => ⟨S_, .i32⟩
  | 65 => ⟨S650000, .i32⟩
  | 66 => ⟨S650000, .i1⟩
  | 67 => ⟨S_, .i32⟩
  | 68 => ⟨S650000, .i32⟩
  | 69 => ⟨S650000, .i32⟩
  | 70 => ⟨S650000, .i32⟩
  | 71 => ⟨S650000x1, .i32⟩
  | 72 => ⟨S650000x128, .f32⟩
  | 73 => ⟨S650000x1, .f32⟩
  | 74 => ⟨S650000x128, .f32⟩
  | 75 => ⟨S650000x128, .f32⟩
  | 76 => ⟨S_, .f32⟩
  | 77 => ⟨S50000x128, .f32⟩
  | 78 => ⟨S650000x1, .i32⟩
  | 79 => ⟨S50000x128, .f32⟩
  | 80 => ⟨S_, .f32⟩
  | 81 => ⟨S128, .f32⟩
  | 82 => ⟨S_, .f32⟩
  | 83 => ⟨S128, .f32⟩
  | 84 => ⟨S128, .f32⟩
  | 85 => ⟨S_, .i32⟩
  | 86 => ⟨S_, .f32⟩
  | 87 => ⟨S128, .f32⟩
  | 88 => ⟨S1x128, .f32⟩
  | 89 => ⟨S_, .f32⟩
  | 90 => ⟨S1x128, .f32⟩
  | 91 => ⟨S1x128, .f32⟩
  | 92 => ⟨S50000x128, .f32⟩
  | 93 => ⟨S50000x128, .f32⟩
  | 94 => ⟨S50000x128, .f32⟩
  | 95 => ⟨S_, .f32⟩
  | 96 => ⟨S_, .f32⟩
  | 97 => ⟨S_, .f32⟩
  | 98 => ⟨S_, .f32⟩
  | 99 => ⟨S128, .f32⟩
  | 100 => ⟨S128, .f32⟩
  | 101 => ⟨S128, .f32⟩
  | 102 => ⟨S_, .f32⟩
  | 103 => ⟨S_, .i1⟩
  | 104 => ⟨S_, .f32⟩
  | 105 => ⟨S_, .f32⟩
  | 106 => ⟨S128, .f32⟩
  | 107 => ⟨S128, .f32⟩
  | 108 => ⟨S1x128, .f32⟩
  | 109 => ⟨S128, .f32⟩
  | 110 => ⟨S128, .f32⟩
  | 111 => ⟨S1x128, .f32⟩
  | 112 => ⟨S1x128, .f32⟩
  | 113 => ⟨S1x128, .f32⟩
  | 114 => ⟨S1x128, .f32⟩
  | 115 => ⟨S128, .f32⟩
  | 116 => ⟨S1x128, .f32⟩
  | 117 => ⟨S1x128, .f32⟩
  | 118 => ⟨S128, .f32⟩
  | 119 => ⟨S1x128, .f32⟩
  | 120 => ⟨S50000x128, .f32⟩
  | 121 => ⟨S1x128x128, .f32⟩
  | 122 => ⟨S128x128, .f32⟩
  | 123 => ⟨S128x128, .f32⟩
  | 124 => ⟨S50000x128, .f32⟩
  | 125 => ⟨S_, .i32⟩
  | 126 => ⟨S650000, .i32⟩
  | 127 => ⟨S650000, .i1⟩
  | _ => ⟨S50000x128, .f32⟩

abbrev hbmTy0_1 (i : Nat) : BufTy := match i % 128 with
  | 0 => ⟨S_, .i32⟩
  | 1 => ⟨S650000, .i32⟩
  | 2 => ⟨S650000, .i32⟩
  | 3 => ⟨S650000, .i32⟩
  | 4 => ⟨S650000x1, .i32⟩
  | 5 => ⟨S650000x128, .f32⟩
  | 6 => ⟨S650000x1, .f32⟩
  | 7 => ⟨S650000x128, .f32⟩
  | 8 => ⟨S650000x128, .f32⟩
  | 9 => ⟨S_, .f32⟩
  | 10 => ⟨S50000x128, .f32⟩
  | 11 => ⟨S650000x1, .i32⟩
  | 12 => ⟨S50000x128, .f32⟩
  | 13 => ⟨S_, .f32⟩
  | 14 => ⟨S128, .f32⟩
  | 15 => ⟨S_, .f32⟩
  | 16 => ⟨S128, .f32⟩
  | 17 => ⟨S128, .f32⟩
  | 18 => ⟨S_, .i32⟩
  | 19 => ⟨S_, .f32⟩
  | 20 => ⟨S128, .f32⟩
  | 21 => ⟨S1x128, .f32⟩
  | 22 => ⟨S_, .f32⟩
  | 23 => ⟨S1x128, .f32⟩
  | 24 => ⟨S1x128, .f32⟩
  | 25 => ⟨S50000x128, .f32⟩
  | 26 => ⟨S50000x128, .f32⟩
  | 27 => ⟨S50000x128, .f32⟩
  | 28 => ⟨S_, .f32⟩
  | 29 => ⟨S_, .f32⟩
  | 30 => ⟨S_, .f32⟩
  | 31 => ⟨S_, .f32⟩
  | 32 => ⟨S128, .f32⟩
  | 33 => ⟨S128, .f32⟩
  | 34 => ⟨S128, .f32⟩
  | 35 => ⟨S_, .f32⟩
  | 36 => ⟨S_, .i1⟩
  | 37 => ⟨S_, .f32⟩
  | 38 => ⟨S_, .f32⟩
  | 39 => ⟨S128, .f32⟩
  | 40 => ⟨S128, .f32⟩
  | 41 => ⟨S1x128, .f32⟩
  | 42 => ⟨S128, .f32⟩
  | 43 => ⟨S128, .f32⟩
  | 44 => ⟨S1x128, .f32⟩
  | 45 => ⟨S1x128, .f32⟩
  | 46 => ⟨S1x128, .f32⟩
  | 47 => ⟨S1x128, .f32⟩
  | 48 => ⟨S128, .f32⟩
  | 49 => ⟨S1x128, .f32⟩
  | 50 => ⟨S1x128, .f32⟩
  | 51 => ⟨S128, .f32⟩
  | 52 => ⟨S1x128, .f32⟩
  | 53 => ⟨S50000x128, .f32⟩
  | 54 => ⟨S1x128x128, .f32⟩
  | 55 => ⟨S128x128, .f32⟩
  | 56 => ⟨S128x128, .f32⟩
  | 57 => ⟨S50000x128, .f32⟩
  | 58 => ⟨S_, .i32⟩
  | 59 => ⟨S650000, .i32⟩
  | 60 => ⟨S650000, .i1⟩
  | 61 => ⟨S_, .i32⟩
  | 62 => ⟨S650000, .i32⟩
  | 63 => ⟨S650000, .i32⟩
  | 64 => ⟨S650000, .i32⟩
  | 65 => ⟨S650000x1, .i32⟩
  | 66 => ⟨S650000x128, .f32⟩
  | 67 => ⟨S650000x1, .f32⟩
  | 68 => ⟨S650000x128, .f32⟩
  | 69 => ⟨S650000x128, .f32⟩
  | 70 => ⟨S_, .f32⟩
  | 71 => ⟨S50000x128, .f32⟩
  | 72 => ⟨S650000x1, .i32⟩
  | 73 => ⟨S50000x128, .f32⟩
  | 74 => ⟨S_, .f32⟩
  | 75 => ⟨S128, .f32⟩
  | 76 => ⟨S_, .f32⟩
  | 77 => ⟨S128, .f32⟩
  | 78 => ⟨S128, .f32⟩
  | 79 => ⟨S_, .i32⟩
  | 80 => ⟨S_, .f32⟩
  | 81 => ⟨S128, .f32⟩
  | 82 => ⟨S1x128, .f32⟩
  | 83 => ⟨S_, .f32⟩
  | 84 => ⟨S1x128, .f32⟩
  | 85 => ⟨S1x128, .f32⟩
  | 86 => ⟨S50000x128, .f32⟩
  | 87 => ⟨S50000x128, .f32⟩
  | 88 => ⟨S50000x128, .f32⟩
  | 89 => ⟨S_, .f32⟩
  | 90 => ⟨S_, .f32⟩
  | 91 => ⟨S_, .f32⟩
  | 92 => ⟨S_, .f32⟩
  | 93 => ⟨S128, .f32⟩
  | 94 => ⟨S128, .f32⟩
  | 95 => ⟨S128, .f32⟩
  | 96 => ⟨S_, .f32⟩
  | 97 => ⟨S_, .i1⟩
  | 98 => ⟨S_, .f32⟩
  | 99 => ⟨S_, .f32⟩
  | 100 => ⟨S128, .f32⟩
  | 101 => ⟨S128, .f32⟩
  | 102 => ⟨S1x128, .f32⟩
  | 103 => ⟨S128, .f32⟩
  | 104 => ⟨S128, .f32⟩
  | 105 => ⟨S1x128, .f32⟩
  | 106 => ⟨S1x128, .f32⟩
  | 107 => ⟨S1x128, .f32⟩
  | 108 => ⟨S1x128, .f32⟩
  | 109 => ⟨S128, .f32⟩
  | 110 => ⟨S1x128, .f32⟩
  | 111 => ⟨S1x128, .f32⟩
  | 112 => ⟨S128, .f32⟩
  | 113 => ⟨S1x128, .f32⟩
  | 114 => ⟨S50000x128, .f32⟩
  | 115 => ⟨S1x128x128, .f32⟩
  | 116 => ⟨S128x128, .f32⟩
  | 117 => ⟨S128x128, .f32⟩
  | 118 => ⟨S50000x128, .f32⟩
  | 119 => ⟨S_, .i32⟩
  | 120 => ⟨S650000, .i32⟩
  | 121 => ⟨S650000, .i1⟩
  | 122 => ⟨S_, .i32⟩
  | 123 => ⟨S650000, .i32⟩
  | 124 => ⟨S650000, .i32⟩
  | 125 => ⟨S650000, .i32⟩
  | 126 => ⟨S650000x1, .i32⟩
  | 127 => ⟨S650000x128, .f32⟩
  | _ => ⟨S50000x128, .f32⟩

abbrev hbmTy0_2 (i : Nat) : BufTy := match i % 128 with
  | 0 => ⟨S650000x1, .f32⟩
  | 1 => ⟨S650000x128, .f32⟩
  | 2 => ⟨S650000x128, .f32⟩
  | 3 => ⟨S_, .f32⟩
  | 4 => ⟨S50000x128, .f32⟩
  | 5 => ⟨S650000x1, .i32⟩
  | 6 => ⟨S50000x128, .f32⟩
  | 7 => ⟨S_, .f32⟩
  | 8 => ⟨S128, .f32⟩
  | 9 => ⟨S_, .f32⟩
  | 10 => ⟨S128, .f32⟩
  | 11 => ⟨S128, .f32⟩
  | 12 => ⟨S_, .i32⟩
  | 13 => ⟨S_, .f32⟩
  | 14 => ⟨S128, .f32⟩
  | 15 => ⟨S1x128, .f32⟩
  | 16 => ⟨S_, .f32⟩
  | 17 => ⟨S1x128, .f32⟩
  | 18 => ⟨S1x128, .f32⟩
  | 19 => ⟨S50000x128, .f32⟩
  | 20 => ⟨S50000x128, .f32⟩
  | 21 => ⟨S50000x128, .f32⟩
  | 22 => ⟨S_, .f32⟩
  | 23 => ⟨S_, .f32⟩
  | 24 => ⟨S_, .f32⟩
  | 25 => ⟨S_, .f32⟩
  | 26 => ⟨S128, .f32⟩
  | 27 => ⟨S128, .f32⟩
  | 28 => ⟨S128, .f32⟩
  | 29 => ⟨S_, .f32⟩
  | 30 => ⟨S_, .i1⟩
  | 31 => ⟨S_, .f32⟩
  | 32 => ⟨S_, .f32⟩
  | 33 => ⟨S128, .f32⟩
  | 34 => ⟨S128, .f32⟩
  | 35 => ⟨S1x128, .f32⟩
  | 36 => ⟨S128, .f32⟩
  | 37 => ⟨S128, .f32⟩
  | 38 => ⟨S1x128, .f32⟩
  | 39 => ⟨S1x128, .f32⟩
  | 40 => ⟨S1x128, .f32⟩
  | 41 => ⟨S1x128, .f32⟩
  | 42 => ⟨S128, .f32⟩
  | 43 => ⟨S1x128, .f32⟩
  | 44 => ⟨S1x128, .f32⟩
  | 45 => ⟨S128, .f32⟩
  | 46 => ⟨S1x128, .f32⟩
  | 47 => ⟨S50000x128, .f32⟩
  | 48 => ⟨S_, .f32⟩
  | 49 => ⟨S128x128, .f32⟩
  | 50 => ⟨S50000x1, .i32⟩
  | 51 => ⟨S128x128, .f32⟩
  | 52 => ⟨S_, .f32⟩
  | 53 => ⟨S50000, .f32⟩
  | 54 => ⟨S_, .f32⟩
  | 55 => ⟨S128, .f32⟩
  | 56 => ⟨S50000x1, .i32⟩
  | 57 => ⟨S128, .f32⟩
  | 58 => ⟨S_, .f32⟩
  | 59 => ⟨S128, .f32⟩
  | 60 => ⟨S128, .f32⟩
  | 61 => ⟨S128x1, .f32⟩
  | 62 => ⟨S128x128, .f32⟩
  | 63 => ⟨S128x128, .f32⟩
  | 64 => ⟨S128x64, .f32⟩
  | 65 => ⟨S1x64, .f32⟩
  | 66 => ⟨S64x32, .f32⟩
  | 67 => ⟨S1x32, .f32⟩
  | 68 => ⟨S32x10, .f32⟩
  | 69 => ⟨S1x10, .f32⟩
  | 70 => ⟨S128x10, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S128x128, .f32⟩
  | .local _ .vmem, ⟨26, _⟩ => ⟨S1x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S128x128, .f32⟩
  | .local _ .vmem, ⟨43, _⟩ => ⟨S1x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S1x128, .f32⟩
  | .local _ .vmem, ⟨51, _⟩ => ⟨S1x128, .f32⟩
  | .local _ .vmem, ⟨52, _⟩ => ⟨S1x128, .f32⟩
  | .local _ .vmem, ⟨53, _⟩ => ⟨S1x128, .f32⟩
  | .local _ .vmem, ⟨54, _⟩ => ⟨S1x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S5000x128, .f32⟩
  | .local _ .vmem, ⟨59, _⟩ => ⟨S128x128, .f32⟩
  | .local _ .vmem, ⟨60, _⟩ => ⟨S1x128, .f32⟩
  | .local _ .vmem, ⟨61, _⟩ => ⟨S5000x128, .f32⟩
  | .local _ .vmem, ⟨62, _⟩ => ⟨S5000x128, .f32⟩
  | .local _ .vmem, ⟨63, _⟩ => ⟨S5000x128, .f32⟩
  | .local _ .vmem, ⟨64, _⟩ => ⟨S5000x128, .f32⟩
  | .local _ .vmem, ⟨65, _⟩ => ⟨S5000x128, .f32⟩
  | .local _ .vmem, ⟨66, _⟩ => ⟨S5000x128, .f32⟩
  | .local _ .vmem, ⟨67, _⟩ => ⟨S1x128, .f32⟩
  | .local _ .vmem, ⟨68, _⟩ => ⟨S1x128, .f32⟩
  | .local _ .vmem, ⟨69, _⟩ => ⟨S1x128, .f32⟩
  | .local _ .vmem, ⟨70, _⟩ => ⟨S1x128, .f32⟩
  | .local _ .vmem, ⟨71, _⟩ => ⟨S1x128, .f32⟩
  | .local _ .vmem, ⟨72, _⟩ => ⟨S5000x128, .f32⟩
  | .local _ .vmem, ⟨73, _⟩ => ⟨S5000x128, .f32⟩
  | .local _ .vmem, ⟨74, _⟩ => ⟨S128x128, .f32⟩
  | .local _ .vmem, ⟨75, _⟩ => ⟨S128x64, .f32⟩
  | .local _ .vmem, ⟨76, _⟩ => ⟨S1x64, .f32⟩
  | .local _ .vmem, ⟨77, _⟩ => ⟨S64x32, .f32⟩
  | .local _ .vmem, ⟨78, _⟩ => ⟨S1x32, .f32⟩
  | .local _ .vmem, ⟨79, _⟩ => ⟨S32x10, .f32⟩
  | .local _ .vmem, ⟨80, _⟩ => ⟨S1x10, .f32⟩
  | .local _ .vmem, ⟨81, _⟩ => ⟨S128x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | _, _ => false

abbrev semScoped : Fin 0 → Bool
  | ⟨_, h⟩ => absurd h (Nat.not_lt_zero _)

abbrev dmaSemScoped : Fin 82 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | _ => false

abbrev sig : RefSig :=
  ofTc nBuf bufTy 0 82 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v14 : Ref sig .tc := ⟨.hbm, 35, rfl⟩
abbrev main_c : Ref sig .tc := ⟨.hbm, 36, rfl⟩
abbrev main_v15 : Ref sig .tc := ⟨.hbm, 37, rfl⟩
abbrev main_v16 : Ref sig .tc := ⟨.hbm, 38, rfl⟩
abbrev main_c_3 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_4 : Ref sig .tc := ⟨.hbm, 45, rfl⟩
abbrev main_v22 : Ref sig .tc := ⟨.hbm, 46, rfl⟩
abbrev main_v23 : Ref sig .tc := ⟨.hbm, 47, rfl⟩
abbrev main_c_5 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_6 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_7 : Ref sig .tc := ⟨.hbm, 64, rfl⟩
abbrev main_v38 : Ref sig .tc := ⟨.hbm, 65, rfl⟩
abbrev main_v39 : Ref sig .tc := ⟨.hbm, 66, rfl⟩
abbrev main_c_8 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_9 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_10 : Ref sig .tc := ⟨.hbm, 80, rfl⟩
abbrev main_v51 : Ref sig .tc := ⟨.hbm, 81, rfl⟩
abbrev main_cst_11 : Ref sig .tc := ⟨.hbm, 82, rfl⟩
abbrev main_v52 : Ref sig .tc := ⟨.hbm, 83, rfl⟩
abbrev main_v53 : Ref sig .tc := ⟨.hbm, 84, rfl⟩
abbrev main_c_12 : Ref sig .tc := ⟨.hbm, 85, rfl⟩
abbrev main_call1_cst : Ref sig .tc := ⟨.hbm, 86, rfl⟩
abbrev main_call1_v0 : Ref sig .tc := ⟨.hbm, 87, rfl⟩
abbrev main_call1_v1 : Ref sig .tc := ⟨.hbm, 88, rfl⟩
abbrev main_call1_cst_0 : Ref sig .tc := ⟨.hbm, 89, rfl⟩
abbrev main_call1_v2 : Ref sig .tc := ⟨.hbm, 90, rfl⟩
abbrev main_call1_v3 : Ref sig .tc := ⟨.hbm, 91, rfl⟩
abbrev main_call1_v4 : Ref sig .tc := ⟨.hbm, 92, rfl⟩
abbrev main_call1_v5 : Ref sig .tc := ⟨.hbm, 93, rfl⟩
abbrev main_call1_v6 : Ref sig .tc := ⟨.hbm, 94, rfl⟩
abbrev main_call1_v7 : Ref sig .tc := ⟨.hbm, 95, rfl⟩
abbrev main_call1_cst_1 : Ref sig .tc := ⟨.hbm, 96, rfl⟩
abbrev main_call1_v8 : Ref sig .tc := ⟨.hbm, 97, rfl⟩
abbrev main_call1_cst_2 : Ref sig .tc := ⟨.hbm, 98, rfl⟩
abbrev main_call1_v9 : Ref sig .tc := ⟨.hbm, 99, rfl⟩
abbrev main_call1_v10 : Ref sig .tc := ⟨.hbm, 100, rfl⟩
abbrev main_call1_v11 : Ref sig .tc := ⟨.hbm, 101, rfl⟩
abbrev main_call1_cst_3 : Ref sig .tc := ⟨.hbm, 102, rfl⟩
abbrev main_call1_v12 : Ref sig .tc := ⟨.hbm, 103, rfl⟩
abbrev main_call1_cst_4 : Ref sig .tc := ⟨.hbm, 104, rfl⟩
abbrev main_call1_call0_v0 : Ref sig .tc := ⟨.hbm, 105, rfl⟩
abbrev main_call1_call0_v1 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_c_13 : Ref sig .tc := ⟨.hbm, 125, rfl⟩
abbrev main_v72 : Ref sig .tc := ⟨.hbm, 126, rfl⟩
abbrev main_v73 : Ref sig .tc := ⟨.hbm, 127, rfl⟩
abbrev main_c_14 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_cst_15 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_cst_16 : Ref sig .tc := ⟨.hbm, 141, rfl⟩
abbrev main_v85 : Ref sig .tc := ⟨.hbm, 142, rfl⟩
abbrev main_cst_17 : Ref sig .tc := ⟨.hbm, 143, rfl⟩
abbrev main_v86 : Ref sig .tc := ⟨.hbm, 144, rfl⟩
abbrev main_v87 : Ref sig .tc := ⟨.hbm, 145, rfl⟩
abbrev main_c_18 : Ref sig .tc := ⟨.hbm, 146, rfl⟩
abbrev main_call2_cst : Ref sig .tc := ⟨.hbm, 147, rfl⟩
abbrev main_call2_v0 : Ref sig .tc := ⟨.hbm, 148, rfl⟩
abbrev main_call2_v1 : Ref sig .tc := ⟨.hbm, 149, rfl⟩
abbrev main_call2_cst_0 : Ref sig .tc := ⟨.hbm, 150, rfl⟩
abbrev main_call2_v2 : Ref sig .tc := ⟨.hbm, 151, rfl⟩
abbrev main_call2_v3 : Ref sig .tc := ⟨.hbm, 152, rfl⟩
abbrev main_call2_v4 : Ref sig .tc := ⟨.hbm, 153, rfl⟩
abbrev main_call2_v5 : Ref sig .tc := ⟨.hbm, 154, rfl⟩
abbrev main_call2_v6 : Ref sig .tc := ⟨.hbm, 155, rfl⟩
abbrev main_call2_v7 : Ref sig .tc := ⟨.hbm, 156, rfl⟩
abbrev main_call2_cst_1 : Ref sig .tc := ⟨.hbm, 157, rfl⟩
abbrev main_call2_v8 : Ref sig .tc := ⟨.hbm, 158, rfl⟩
abbrev main_call2_cst_2 : Ref sig .tc := ⟨.hbm, 159, rfl⟩
abbrev main_call2_v9 : Ref sig .tc := ⟨.hbm, 160, rfl⟩
abbrev main_call2_v10 : Ref sig .tc := ⟨.hbm, 161, rfl⟩
abbrev main_call2_v11 : Ref sig .tc := ⟨.hbm, 162, rfl⟩
abbrev main_call2_cst_3 : Ref sig .tc := ⟨.hbm, 163, rfl⟩
abbrev main_call2_v12 : Ref sig .tc := ⟨.hbm, 164, rfl⟩
abbrev main_call2_cst_4 : Ref sig .tc := ⟨.hbm, 165, rfl⟩
abbrev main_call2_call0_v0 : Ref sig .tc := ⟨.hbm, 166, rfl⟩
abbrev main_call2_call0_v1 : Ref sig .tc := ⟨.hbm, 167, rfl⟩
abbrev main_v88 : Ref sig .tc := ⟨.hbm, 168, rfl⟩
abbrev main_v89 : Ref sig .tc := ⟨.hbm, 169, rfl⟩
abbrev main_v90 : Ref sig .tc := ⟨.hbm, 170, rfl⟩
abbrev main_v91 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩
abbrev main_v95 : Ref sig .tc := ⟨.hbm, 175, rfl⟩
abbrev main_v96 : Ref sig .tc := ⟨.hbm, 176, rfl⟩
abbrev main_v97 : Ref sig .tc := ⟨.hbm, 177, rfl⟩
abbrev main_v98 : Ref sig .tc := ⟨.hbm, 178, rfl⟩
abbrev main_v99 : Ref sig .tc := ⟨.hbm, 179, rfl⟩
abbrev main_v100 : Ref sig .tc := ⟨.hbm, 180, rfl⟩
abbrev main_v101 : Ref sig .tc := ⟨.hbm, 181, rfl⟩
abbrev main_v102 : Ref sig .tc := ⟨.hbm, 182, rfl⟩
abbrev main_v103 : Ref sig .tc := ⟨.hbm, 183, rfl⟩
abbrev main_v104 : Ref sig .tc := ⟨.hbm, 184, rfl⟩
abbrev main_v105 : Ref sig .tc := ⟨.hbm, 185, rfl⟩
abbrev main_c_19 : Ref sig .tc := ⟨.hbm, 186, rfl⟩
abbrev main_v106 : Ref sig .tc := ⟨.hbm, 187, rfl⟩
abbrev main_v107 : Ref sig .tc := ⟨.hbm, 188, rfl⟩
abbrev main_c_20 : Ref sig .tc := ⟨.hbm, 189, rfl⟩
abbrev main_v108 : Ref sig .tc := ⟨.hbm, 190, rfl⟩
abbrev main_v109 : Ref sig .tc := ⟨.hbm, 191, rfl⟩
abbrev main_v110 : Ref sig .tc := ⟨.hbm, 192, rfl⟩
abbrev main_v111 : Ref sig .tc := ⟨.hbm, 193, rfl⟩
abbrev main_v112 : Ref sig .tc := ⟨.hbm, 194, rfl⟩
abbrev main_v113 : Ref sig .tc := ⟨.hbm, 195, rfl⟩
abbrev main_v114 : Ref sig .tc := ⟨.hbm, 196, rfl⟩
abbrev main_v115 : Ref sig .tc := ⟨.hbm, 197, rfl⟩
abbrev main_cst_21 : Ref sig .tc := ⟨.hbm, 198, rfl⟩
abbrev main_v116 : Ref sig .tc := ⟨.hbm, 199, rfl⟩
abbrev main_v117 : Ref sig .tc := ⟨.hbm, 200, rfl⟩
abbrev main_v118 : Ref sig .tc := ⟨.hbm, 201, rfl⟩
abbrev main_cst_22 : Ref sig .tc := ⟨.hbm, 202, rfl⟩
abbrev main_v119 : Ref sig .tc := ⟨.hbm, 203, rfl⟩
abbrev main_cst_23 : Ref sig .tc := ⟨.hbm, 204, rfl⟩
abbrev main_v120 : Ref sig .tc := ⟨.hbm, 205, rfl⟩
abbrev main_v121 : Ref sig .tc := ⟨.hbm, 206, rfl⟩
abbrev main_c_24 : Ref sig .tc := ⟨.hbm, 207, rfl⟩
abbrev main_call3_cst : Ref sig .tc := ⟨.hbm, 208, rfl⟩
abbrev main_call3_v0 : Ref sig .tc := ⟨.hbm, 209, rfl⟩
abbrev main_call3_v1 : Ref sig .tc := ⟨.hbm, 210, rfl⟩
abbrev main_call3_cst_0 : Ref sig .tc := ⟨.hbm, 211, rfl⟩
abbrev main_call3_v2 : Ref sig .tc := ⟨.hbm, 212, rfl⟩
abbrev main_call3_v3 : Ref sig .tc := ⟨.hbm, 213, rfl⟩
abbrev main_call3_v4 : Ref sig .tc := ⟨.hbm, 214, rfl⟩
abbrev main_call3_v5 : Ref sig .tc := ⟨.hbm, 215, rfl⟩
abbrev main_call3_v6 : Ref sig .tc := ⟨.hbm, 216, rfl⟩
abbrev main_call3_v7 : Ref sig .tc := ⟨.hbm, 217, rfl⟩
abbrev main_call3_cst_1 : Ref sig .tc := ⟨.hbm, 218, rfl⟩
abbrev main_call3_v8 : Ref sig .tc := ⟨.hbm, 219, rfl⟩
abbrev main_call3_cst_2 : Ref sig .tc := ⟨.hbm, 220, rfl⟩
abbrev main_call3_v9 : Ref sig .tc := ⟨.hbm, 221, rfl⟩
abbrev main_call3_v10 : Ref sig .tc := ⟨.hbm, 222, rfl⟩
abbrev main_call3_v11 : Ref sig .tc := ⟨.hbm, 223, rfl⟩
abbrev main_call3_cst_3 : Ref sig .tc := ⟨.hbm, 224, rfl⟩
abbrev main_call3_v12 : Ref sig .tc := ⟨.hbm, 225, rfl⟩
abbrev main_call3_cst_4 : Ref sig .tc := ⟨.hbm, 226, rfl⟩
abbrev main_call3_call0_v0 : Ref sig .tc := ⟨.hbm, 227, rfl⟩
abbrev main_call3_call0_v1 : Ref sig .tc := ⟨.hbm, 228, rfl⟩
abbrev main_v122 : Ref sig .tc := ⟨.hbm, 229, rfl⟩
abbrev main_v123 : Ref sig .tc := ⟨.hbm, 230, rfl⟩
abbrev main_v124 : Ref sig .tc := ⟨.hbm, 231, rfl⟩
abbrev main_v125 : Ref sig .tc := ⟨.hbm, 232, rfl⟩
abbrev main_v126 : Ref sig .tc := ⟨.hbm, 233, rfl⟩
abbrev main_v127 : Ref sig .tc := ⟨.hbm, 234, rfl⟩
abbrev main_v128 : Ref sig .tc := ⟨.hbm, 235, rfl⟩
abbrev main_v129 : Ref sig .tc := ⟨.hbm, 236, rfl⟩
abbrev main_v130 : Ref sig .tc := ⟨.hbm, 237, rfl⟩
abbrev main_v131 : Ref sig .tc := ⟨.hbm, 238, rfl⟩
abbrev main_v132 : Ref sig .tc := ⟨.hbm, 239, rfl⟩
abbrev main_v133 : Ref sig .tc := ⟨.hbm, 240, rfl⟩
abbrev main_v134 : Ref sig .tc := ⟨.hbm, 241, rfl⟩
abbrev main_v135 : Ref sig .tc := ⟨.hbm, 242, rfl⟩
abbrev main_v136 : Ref sig .tc := ⟨.hbm, 243, rfl⟩
abbrev main_v137 : Ref sig .tc := ⟨.hbm, 244, rfl⟩
abbrev main_v138 : Ref sig .tc := ⟨.hbm, 245, rfl⟩
abbrev main_v139 : Ref sig .tc := ⟨.hbm, 246, rfl⟩
abbrev main_c_25 : Ref sig .tc := ⟨.hbm, 247, rfl⟩
abbrev main_v140 : Ref sig .tc := ⟨.hbm, 248, rfl⟩
abbrev main_v141 : Ref sig .tc := ⟨.hbm, 249, rfl⟩
abbrev main_c_26 : Ref sig .tc := ⟨.hbm, 250, rfl⟩
abbrev main_v142 : Ref sig .tc := ⟨.hbm, 251, rfl⟩
abbrev main_v143 : Ref sig .tc := ⟨.hbm, 252, rfl⟩
abbrev main_v144 : Ref sig .tc := ⟨.hbm, 253, rfl⟩
abbrev main_v145 : Ref sig .tc := ⟨.hbm, 254, rfl⟩
abbrev main_v146 : Ref sig .tc := ⟨.hbm, 255, rfl⟩
abbrev main_v147 : Ref sig .tc := ⟨.hbm, 256, rfl⟩
abbrev main_v148 : Ref sig .tc := ⟨.hbm, 257, rfl⟩
abbrev main_v149 : Ref sig .tc := ⟨.hbm, 258, rfl⟩
abbrev main_cst_27 : Ref sig .tc := ⟨.hbm, 259, rfl⟩
abbrev main_v150 : Ref sig .tc := ⟨.hbm, 260, rfl⟩
abbrev main_v151 : Ref sig .tc := ⟨.hbm, 261, rfl⟩
abbrev main_v152 : Ref sig .tc := ⟨.hbm, 262, rfl⟩
abbrev main_cst_28 : Ref sig .tc := ⟨.hbm, 263, rfl⟩
abbrev main_v153 : Ref sig .tc := ⟨.hbm, 264, rfl⟩
abbrev main_cst_29 : Ref sig .tc := ⟨.hbm, 265, rfl⟩
abbrev main_v154 : Ref sig .tc := ⟨.hbm, 266, rfl⟩
abbrev main_v155 : Ref sig .tc := ⟨.hbm, 267, rfl⟩
abbrev main_c_30 : Ref sig .tc := ⟨.hbm, 268, rfl⟩
abbrev main_call4_cst : Ref sig .tc := ⟨.hbm, 269, rfl⟩
abbrev main_call4_v0 : Ref sig .tc := ⟨.hbm, 270, rfl⟩
abbrev main_call4_v1 : Ref sig .tc := ⟨.hbm, 271, rfl⟩
abbrev main_call4_cst_0 : Ref sig .tc := ⟨.hbm, 272, rfl⟩
abbrev main_call4_v2 : Ref sig .tc := ⟨.hbm, 273, rfl⟩
abbrev main_call4_v3 : Ref sig .tc := ⟨.hbm, 274, rfl⟩
abbrev main_call4_v4 : Ref sig .tc := ⟨.hbm, 275, rfl⟩
abbrev main_call4_v5 : Ref sig .tc := ⟨.hbm, 276, rfl⟩
abbrev main_call4_v6 : Ref sig .tc := ⟨.hbm, 277, rfl⟩
abbrev main_call4_v7 : Ref sig .tc := ⟨.hbm, 278, rfl⟩
abbrev main_call4_cst_1 : Ref sig .tc := ⟨.hbm, 279, rfl⟩
abbrev main_call4_v8 : Ref sig .tc := ⟨.hbm, 280, rfl⟩
abbrev main_call4_cst_2 : Ref sig .tc := ⟨.hbm, 281, rfl⟩
abbrev main_call4_v9 : Ref sig .tc := ⟨.hbm, 282, rfl⟩
abbrev main_call4_v10 : Ref sig .tc := ⟨.hbm, 283, rfl⟩
abbrev main_call4_v11 : Ref sig .tc := ⟨.hbm, 284, rfl⟩
abbrev main_call4_cst_3 : Ref sig .tc := ⟨.hbm, 285, rfl⟩
abbrev main_call4_v12 : Ref sig .tc := ⟨.hbm, 286, rfl⟩
abbrev main_call4_cst_4 : Ref sig .tc := ⟨.hbm, 287, rfl⟩
abbrev main_call4_call0_v0 : Ref sig .tc := ⟨.hbm, 288, rfl⟩
abbrev main_call4_call0_v1 : Ref sig .tc := ⟨.hbm, 289, rfl⟩
abbrev main_v156 : Ref sig .tc := ⟨.hbm, 290, rfl⟩
abbrev main_v157 : Ref sig .tc := ⟨.hbm, 291, rfl⟩
abbrev main_v158 : Ref sig .tc := ⟨.hbm, 292, rfl⟩
abbrev main_v159 : Ref sig .tc := ⟨.hbm, 293, rfl⟩
abbrev main_v160 : Ref sig .tc := ⟨.hbm, 294, rfl⟩
abbrev main_v161 : Ref sig .tc := ⟨.hbm, 295, rfl⟩
abbrev main_v162 : Ref sig .tc := ⟨.hbm, 296, rfl⟩
abbrev main_v163 : Ref sig .tc := ⟨.hbm, 297, rfl⟩
abbrev main_v164 : Ref sig .tc := ⟨.hbm, 298, rfl⟩
abbrev main_v165 : Ref sig .tc := ⟨.hbm, 299, rfl⟩
abbrev main_v166 : Ref sig .tc := ⟨.hbm, 300, rfl⟩
abbrev main_v167 : Ref sig .tc := ⟨.hbm, 301, rfl⟩
abbrev main_v168 : Ref sig .tc := ⟨.hbm, 302, rfl⟩
abbrev main_v169 : Ref sig .tc := ⟨.hbm, 303, rfl⟩
abbrev main_cst_31 : Ref sig .tc := ⟨.hbm, 304, rfl⟩
abbrev main_v170 : Ref sig .tc := ⟨.hbm, 305, rfl⟩
abbrev main_v171 : Ref sig .tc := ⟨.hbm, 306, rfl⟩
abbrev main_v172 : Ref sig .tc := ⟨.hbm, 307, rfl⟩
abbrev main_cst_32 : Ref sig .tc := ⟨.hbm, 308, rfl⟩
abbrev main_v173 : Ref sig .tc := ⟨.hbm, 309, rfl⟩
abbrev main_cst_33 : Ref sig .tc := ⟨.hbm, 310, rfl⟩
abbrev main_v174 : Ref sig .tc := ⟨.hbm, 311, rfl⟩
abbrev main_v175 : Ref sig .tc := ⟨.hbm, 312, rfl⟩
abbrev main_v176 : Ref sig .tc := ⟨.hbm, 313, rfl⟩
abbrev main_cst_34 : Ref sig .tc := ⟨.hbm, 314, rfl⟩
abbrev main_v177 : Ref sig .tc := ⟨.hbm, 315, rfl⟩
abbrev main_v178 : Ref sig .tc := ⟨.hbm, 316, rfl⟩
abbrev main_v179 : Ref sig .tc := ⟨.hbm, 317, rfl⟩
abbrev main_v180 : Ref sig .tc := ⟨.hbm, 318, rfl⟩
abbrev main_v181 : Ref sig .tc := ⟨.hbm, 319, rfl⟩
abbrev main_v182 : Ref sig .tc := ⟨.hbm, 320, rfl⟩
abbrev main_v183 : Ref sig .tc := ⟨.hbm, 321, rfl⟩
abbrev main_v184 : Ref sig .tc := ⟨.hbm, 322, rfl⟩
abbrev main_v185 : Ref sig .tc := ⟨.hbm, 323, rfl⟩
abbrev main_v186 : Ref sig .tc := ⟨.hbm, 324, rfl⟩
abbrev main_v187 : Ref sig .tc := ⟨.hbm, 325, rfl⟩
abbrev main_v188 : Ref sig .tc := ⟨.hbm, 326, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg7_0 : Ref sig .tc := ⟨.vmem, 21, rfl⟩
abbrev cc2_stg7_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg3_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg4_0 : Ref sig .tc := ⟨.vmem, 35, rfl⟩
abbrev cc4_stg5_0 : Ref sig .tc := ⟨.vmem, 36, rfl⟩
abbrev cc4_stg6_0 : Ref sig .tc := ⟨.vmem, 37, rfl⟩
abbrev cc4_stg7_0 : Ref sig .tc := ⟨.vmem, 38, rfl⟩
abbrev cc4_stg7_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg3_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg1_1 : Ref sig .tc := ⟨.vmem, 49, rfl⟩
abbrev cc6_stg2_0 : Ref sig .tc := ⟨.vmem, 50, rfl⟩
abbrev cc6_stg3_0 : Ref sig .tc := ⟨.vmem, 51, rfl⟩
abbrev cc6_stg4_0 : Ref sig .tc := ⟨.vmem, 52, rfl⟩
abbrev cc6_stg5_0 : Ref sig .tc := ⟨.vmem, 53, rfl⟩
abbrev cc6_stg6_0 : Ref sig .tc := ⟨.vmem, 54, rfl⟩
abbrev cc6_stg7_0 : Ref sig .tc := ⟨.vmem, 55, rfl⟩
abbrev cc6_stg7_1 : Ref sig .tc := ⟨.vmem, 56, rfl⟩
abbrev cc7_stg0_0 : Ref sig .tc := ⟨.vmem, 57, rfl⟩
abbrev cc7_stg0_1 : Ref sig .tc := ⟨.vmem, 58, rfl⟩
abbrev cc7_stg1_0 : Ref sig .tc := ⟨.vmem, 59, rfl⟩
abbrev cc7_stg2_0 : Ref sig .tc := ⟨.vmem, 60, rfl⟩
abbrev cc7_stg3_0 : Ref sig .tc := ⟨.vmem, 61, rfl⟩
abbrev cc7_stg3_1 : Ref sig .tc := ⟨.vmem, 62, rfl⟩
abbrev cc8_stg0_0 : Ref sig .tc := ⟨.vmem, 63, rfl⟩
abbrev cc8_stg0_1 : Ref sig .tc := ⟨.vmem, 64, rfl⟩
abbrev cc8_stg1_0 : Ref sig .tc := ⟨.vmem, 65, rfl⟩
abbrev cc8_stg1_1 : Ref sig .tc := ⟨.vmem, 66, rfl⟩
abbrev cc8_stg2_0 : Ref sig .tc := ⟨.vmem, 67, rfl⟩
abbrev cc8_stg3_0 : Ref sig .tc := ⟨.vmem, 68, rfl⟩
abbrev cc8_stg4_0 : Ref sig .tc := ⟨.vmem, 69, rfl⟩
abbrev cc8_stg5_0 : Ref sig .tc := ⟨.vmem, 70, rfl⟩
abbrev cc8_stg6_0 : Ref sig .tc := ⟨.vmem, 71, rfl⟩
abbrev cc8_stg7_0 : Ref sig .tc := ⟨.vmem, 72, rfl⟩
abbrev cc8_stg7_1 : Ref sig .tc := ⟨.vmem, 73, rfl⟩
abbrev cc9_stg0_0 : Ref sig .tc := ⟨.vmem, 74, rfl⟩
abbrev cc9_stg1_0 : Ref sig .tc := ⟨.vmem, 75, rfl⟩
abbrev cc9_stg2_0 : Ref sig .tc := ⟨.vmem, 76, rfl⟩
abbrev cc9_stg3_0 : Ref sig .tc := ⟨.vmem, 77, rfl⟩
abbrev cc9_stg4_0 : Ref sig .tc := ⟨.vmem, 78, rfl⟩
abbrev cc9_stg5_0 : Ref sig .tc := ⟨.vmem, 79, rfl⟩
abbrev cc9_stg6_0 : Ref sig .tc := ⟨.vmem, 80, rfl⟩
abbrev cc9_stg7_0 : Ref sig .tc := ⟨.vmem, 81, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem7_0 : DmaSem sig := 21
abbrev cc2_sem7_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem3_0 : DmaSem sig := 27
abbrev cc3_sem3_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem3_0 : DmaSem sig := 34
abbrev cc4_sem4_0 : DmaSem sig := 35
abbrev cc4_sem5_0 : DmaSem sig := 36
abbrev cc4_sem6_0 : DmaSem sig := 37
abbrev cc4_sem7_0 : DmaSem sig := 38
abbrev cc4_sem7_1 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem3_1 : DmaSem sig := 45
abbrev cc6_sem0_0 : DmaSem sig := 46
abbrev cc6_sem0_1 : DmaSem sig := 47
abbrev cc6_sem1_0 : DmaSem sig := 48
abbrev cc6_sem1_1 : DmaSem sig := 49
abbrev cc6_sem2_0 : DmaSem sig := 50
abbrev cc6_sem3_0 : DmaSem sig := 51
abbrev cc6_sem4_0 : DmaSem sig := 52
abbrev cc6_sem5_0 : DmaSem sig := 53
abbrev cc6_sem6_0 : DmaSem sig := 54
abbrev cc6_sem7_0 : DmaSem sig := 55
abbrev cc6_sem7_1 : DmaSem sig := 56
abbrev cc7_sem0_0 : DmaSem sig := 57
abbrev cc7_sem0_1 : DmaSem sig := 58
abbrev cc7_sem1_0 : DmaSem sig := 59
abbrev cc7_sem2_0 : DmaSem sig := 60
abbrev cc7_sem3_0 : DmaSem sig := 61
abbrev cc7_sem3_1 : DmaSem sig := 62
abbrev cc8_sem0_0 : DmaSem sig := 63
abbrev cc8_sem0_1 : DmaSem sig := 64
abbrev cc8_sem1_0 : DmaSem sig := 65
abbrev cc8_sem1_1 : DmaSem sig := 66
abbrev cc8_sem2_0 : DmaSem sig := 67
abbrev cc8_sem3_0 : DmaSem sig := 68
abbrev cc8_sem4_0 : DmaSem sig := 69
abbrev cc8_sem5_0 : DmaSem sig := 70
abbrev cc8_sem6_0 : DmaSem sig := 71
abbrev cc8_sem7_0 : DmaSem sig := 72
abbrev cc8_sem7_1 : DmaSem sig := 73
abbrev cc9_sem0_0 : DmaSem sig := 74
abbrev cc9_sem1_0 : DmaSem sig := 75
abbrev cc9_sem2_0 : DmaSem sig := 76
abbrev cc9_sem3_0 : DmaSem sig := 77
abbrev cc9_sem4_0 : DmaSem sig := 78
abbrev cc9_sem5_0 : DmaSem sig := 79
abbrev cc9_sem6_0 : DmaSem sig := 80
abbrev cc9_sem7_0 : DmaSem sig := 81

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S5000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S5000x128 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x128 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 2 → Memref sig .tc .vmem S5000x128 .f32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 1 → Memref sig .tc .vmem S128x128 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![false]

abbrev stage9_1 : Fin 1 → Memref sig .tc .vmem S128x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S64x32 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x32 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S32x10 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x10 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 1 → Memref sig .tc .vmem S128x10 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![false]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S_S1x128 : S_.BroadcastsInDim S1x128 (![] : Fin 0 → Fin S1x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S4x128x128_S1x128x128_0_0_0 : S4x128x128.Slices ![0, 0, 0] S1x128x128
  shapeCasts_S1x128x128_S128x128 : S1x128x128.ShapeCasts S128x128
  shapeCasts_S5000x128_S5000x128 : S5000x128.ShapeCasts S5000x128
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S4x128_S1x128_0_0 : S4x128.Slices ![0, 0] S1x128
  shapeCasts_S1x128_S128 : S1x128.ShapeCasts S128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S128x128 : S_.BroadcastsInDim S128x128 (![] : Fin 0 → Fin S128x128.rank)
  bcast_S50000_S50000x1_0 : S50000.BroadcastsInDim S50000x1 (![0] : Fin 1 → Fin S50000x1.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  transposes_S64x128_S128x64_1_0 : S64x128.Transposes [1, 0] S128x64
  shapeCasts_S64_S1x64 : S64.ShapeCasts S1x64
  transposes_S32x64_S64x32_1_0 : S32x64.Transposes [1, 0] S64x32
  shapeCasts_S32_S1x32 : S32.ShapeCasts S1x32
  transposes_S10x32_S32x10_1_0 : S10x32.Transposes [1, 0] S32x10
  shapeCasts_S10_S1x10 : S10.ShapeCasts S1x10
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S128x64 : S1x64.Broadcasts S128x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S128x32 : S1x32.Broadcasts S128x32
  inb_S32x10_S32x10_0_0 : ∀ a, (![0, 0] : Fin 2 → Nat) a + S32x10.size a ≤ S32x10.size a
  h_S32x10 : 0 < S32x10.numel
  shapeCasts_S32x10_S32x10 : S32x10.ShapeCasts S32x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S128x10 : S1x10.Broadcasts S128x10
  inb_S128x10_S128x10_0_0 : ∀ a, (![0, 0] : Fin 2 → Nat) a + S128x10.size a ≤ S128x10.size a
  h_S128x10 : 0 < S128x10.numel
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S5000x128_S128x128_S5000x128_1_0_0_1_n_n_wf : DotDims.WF S5000x128 S128x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  scatter_S128x128_S50000x1_S50000x128_1_0_0_1_wf : ScatterDims.WF S128x128 S50000x1 S50000x128 [1] [0] [0] 1
  scatter_S128_S50000x1_S50000_n_0_0_1_wf : ScatterDims.WF S128 S50000x1 S50000 [] [0] [0] 1
  dot_S128x128_S128x64_S128x64_1_0_0_1_n_n_wf : DotDims.WF S128x128 S128x64 S128x64 [1] [0] [0] [1] [] []
  dot_S128x64_S64x32_S128x32_1_0_0_1_n_n_wf : DotDims.WF S128x64 S64x32 S128x32 [1] [0] [0] [1] [] []
  dot_S128x32_S32x10_S128x10_1_0_0_1_n_n_wf : DotDims.WF S128x32 S32x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S50000x128.size a
  hwx2_7 : ∀ i : grid2.Coords, EltTy.bits .f32 = 32 ∨ (Rect.block (s := S50000x128) S5000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x128.size a ≤ S50000x128.size a
  hwx4_7 : ∀ i : grid4.Coords, EltTy.bits .f32 = 32 ∨ (Rect.block (s := S50000x128) S5000x128.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S50000x128.size a
  hwx5_3 : ∀ i : grid5.Coords, EltTy.bits .f32 = 32 ∨ (Rect.block (s := S50000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S50000x128.size a
  hwx6_1 : ∀ i : grid6.Coords, EltTy.bits .f32 = 32 ∨ (Rect.block (s := S50000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S5000x128.size a ≤ S50000x128.size a
  hwx6_7 : ∀ i : grid6.Coords, EltTy.bits .f32 = 32 ∨ (Rect.block (s := S50000x128) S5000x128.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x128.size a ≤ S50000x128.size a
  hwx7_3 : ∀ i : grid7.Coords, EltTy.bits .f32 = 32 ∨ (Rect.block (s := S50000x128) S5000x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x128.size a ≤ S50000x128.size a
  hwx8_1 : ∀ i : grid8.Coords, EltTy.bits .f32 = 32 ∨ (Rect.block (s := S50000x128) S5000x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x128.size a ≤ S1x128.size a
  hwx8_5 : ∀ i : grid8.Coords, EltTy.bits .f32 = 32 ∨ (Rect.block (s := S1x128) S1x128.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x128.size a ≤ S1x128.size a
  hwx8_6 : ∀ i : grid8.Coords, EltTy.bits .f32 = 32 ∨ (Rect.block (s := S1x128) S1x128.size (cc8_transform_6 i) (hinb8_6 i)).WholeWords (EltTy.packing .f32)
  hstage8_7 : ∀ j, (stage8_7 j).IsWhole
  nbuf8_7 : grid8.bufCount reads8_7 false = 2
  hreads8_7 : ∀ i i' : grid8.Coords, (∀ a, reads8_7 a = true → i a = i' a) → cc8_transform_7 i = cc8_transform_7 i'
  hinb8_7 : ∀ (i : grid8.Coords) a, (cc8_transform_7 i a + 1) * S5000x128.size a ≤ S50000x128.size a
  hwx8_7 : ∀ i : grid8.Coords, EltTy.bits .f32 = 32 ∨ (Rect.block (s := S50000x128) S5000x128.size (cc8_transform_7 i) (hinb8_7 i)).WholeWords (EltTy.packing .f32)
  hrank9 : 0 < grid9.rank
  hstage9_0 : ∀ j, (stage9_0 j).IsWhole
  nbuf9_0 : grid9.bufCount reads9_0 true = 1
  hreads9_0 : ∀ i i' : grid9.Coords, (∀ a, reads9_0 a = true → i a = i' a) → cc9_transform_0 i = cc9_transform_0 i'
  hinb9_0 : ∀ (i : grid9.Coords) a, (cc9_transform_0 i a + 1) * S128x128.size a ≤ S128x128.size a
  hwx9_0 : ∀ i : grid9.Coords, EltTy.bits .f32 = 32 ∨ (Rect.block (s := S128x128) S128x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x64.size a ≤ S128x64.size a
  hwx9_1 : ∀ i : grid9.Coords, EltTy.bits .f32 = 32 ∨ (Rect.block (s := S128x64) S128x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x64.size a ≤ S1x64.size a
  hwx9_2 : ∀ i : grid9.Coords, EltTy.bits .f32 = 32 ∨ (Rect.block (s := S1x64) S1x64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S64x32.size a ≤ S64x32.size a
  hwx9_3 : ∀ i : grid9.Coords, EltTy.bits .f32 = 32 ∨ (Rect.block (s := S64x32) S64x32.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x32.size a ≤ S1x32.size a
  hwx9_4 : ∀ i : grid9.Coords, EltTy.bits .f32 = 32 ∨ (Rect.block (s := S1x32) S1x32.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S32x10.size a ≤ S32x10.size a
  hwx9_5 : ∀ i : grid9.Coords, EltTy.bits .f32 = 32 ∨ (Rect.block (s := S32x10) S32x10.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S1x10.size a ≤ S1x10.size a
  hwx9_6 : ∀ i : grid9.Coords, EltTy.bits .f32 = 32 ∨ (Rect.block (s := S1x10) S1x10.size (cc9_transform_6 i) (hinb9_6 i)).WholeWords (EltTy.packing .f32)
  hstage9_7 : ∀ j, (stage9_7 j).IsWhole
  nbuf9_7 : grid9.bufCount reads9_7 true = 1
  hreads9_7 : ∀ i i' : grid9.Coords, (∀ a, reads9_7 a = true → i a = i' a) → cc9_transform_7 i = cc9_transform_7 i'
  hinb9_7 : ∀ (i : grid9.Coords) a, (cc9_transform_7 i a + 1) * S128x10.size a ≤ S128x10.size a
  hwx9_7 : ∀ i : grid9.Coords, EltTy.bits .f32 = 32 ∨ (Rect.block (s := S128x10) S128x10.size (cc9_transform_7 i) (hinb9_7 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S128x128_S128x64_S128x64_1_0_0_1_n_n : DotDims S128x128 S128x64 S128x64 where
  lhsContracting := [1]
  rhsContracting := [0]
  lhsNonContracting := [0]
  rhsNonContracting := [1]
  lhsBatch := []
  rhsBatch := []
  wf := dot_S128x128_S128x64_S128x64_1_0_0_1_n_n_wf
def dot_S128x64_S64x32_S128x32_1_0_0_1_n_n : DotDims S128x64 S64x32 S128x32 where
  lhsContracting := [1]
  rhsContracting := [0]
  lhsNonContracting := [0]
  rhsNonContracting := [1]
  lhsBatch := []
  rhsBatch := []
  wf := dot_S128x64_S64x32_S128x32_1_0_0_1_n_n_wf
def dot_S128x32_S32x10_S128x10_1_0_0_1_n_n : DotDims S128x32 S32x10 S128x10 where
  lhsContracting := [1]
  rhsContracting := [0]
  lhsNonContracting := [0]
  rhsNonContracting := [1]
  lhsBatch := []
  rhsBatch := []
  wf := dot_S128x32_S32x10_S128x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v33) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v50) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v60) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v63) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v66) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v58) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v59) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v67) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v67) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v70) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v30) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v71) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v84) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v67) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v94) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v97) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v100) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v92) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v93) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v101) S5000x128.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v101) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v104) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v30) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v105) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v118) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v101) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v128) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v131) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v134) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v126) S1x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v127) S1x128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v135) S5000x128.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v135) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v138) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v30) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v139) S5000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v152) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v135) S5000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v162) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v165) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v168) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v160) S1x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v161) S1x128.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v169) S5000x128.size cc8_transform_7 reads8_7 true false 2 stage8_7 sem8_7
    hrank8 hreads8_7 hinb8_7 nbuf8_7 (Memref.isWhole_whole _) hwx8_7 hstage8_7

abbrev win8 : Fin 8 → Pipeline.Window sig grid8 := fun | 0 => win8_0 | 1 => win8_1 | 2 => win8_2 | 3 => win8_3 | 4 => win8_4 | 5 => win8_5 | 6 => win8_6 | 7 => win8_7 | ⟨_ + 8, h⟩ => absurd h (Nat.not_lt.2 (Nat.le_add_left _ _))
abbrev spec8 : Fin 8 → Pipeline.WinSpec sig grid8.rank := fun w => (win8 w).toWinSpec

abbrev win9_0 : Pipeline.Window sig grid9 :=
  Pipeline.Window.ofSpec (Memref.whole main_v181) S128x128.size cc9_transform_0 reads9_0 false true 1 stage9_0 sem9_0
    hrank9 hreads9_0 hinb9_0 nbuf9_0 (Memref.isWhole_whole _) hwx9_0 hstage9_0

abbrev win9_1 : Pipeline.Window sig grid9 :=
  Pipeline.Window.ofSpec (Memref.whole main_v182) S128x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v183) S1x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v184) S64x32.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v185) S1x32.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v186) S32x10.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v187) S1x10.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_v188) S128x10.size cc9_transform_7 reads9_7 true true 1 stage9_7 sem9_7
    hrank9 hreads9_7 hinb9_7 nbuf9_7 (Memref.isWhole_whole _) hwx9_7 hstage9_7

abbrev win9 : Fin 8 → Pipeline.Window sig grid9 := fun | 0 => win9_0 | 1 => win9_1 | 2 => win9_2 | 3 => win9_3 | 4 => win9_4 | 5 => win9_5 | 6 => win9_6 | 7 => win9_7 | ⟨_ + 8, h⟩ => absurd h (Nat.not_lt.2 (Nat.le_add_left _ _))
abbrev spec9 : Fin 8 → Pipeline.WinSpec sig grid9.rank := fun w => (win9 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S64x128 : Shape := ⟨2, ![64, 128]⟩
abbrev S64 : Shape := ⟨1, ![64]⟩
abbrev S32x64 : Shape := ⟨2, ![32, 64]⟩
abbrev S32 : Shape := ⟨1, ![32]⟩
abbrev S10x32 : Shape := ⟨2, ![10, 32]⟩
abbrev S10 : Shape := ⟨1, ![10]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S1x128 : Shape := ⟨2, ![1, 128]⟩
abbrev S1x128x128 : Shape := ⟨3, ![1, 128, 128]⟩
abbrev S650000x128 : Shape := ⟨2, ![650000, 128]⟩
abbrev S50000x1 : Shape := ⟨2, ![50000, 1]⟩
abbrev S128x1 : Shape := ⟨2, ![128, 1]⟩
abbrev S128x64 : Shape := ⟨2, ![128, 64]⟩
abbrev S1x64 : Shape := ⟨2, ![1, 64]⟩
abbrev S64x32 : Shape := ⟨2, ![64, 32]⟩
abbrev S128x32 : Shape := ⟨2, ![128, 32]⟩
abbrev S1x32 : Shape := ⟨2, ![1, 32]⟩
abbrev S32x10 : Shape := ⟨2, ![32, 10]⟩
abbrev S128x10 : Shape := ⟨2, ![128, 10]⟩
abbrev S1x10 : Shape := ⟨2, ![1, 10]⟩

abbrev nBuf : Space → Nat
  | .hbm => 405
  | .vmem => 0
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S128x128, .f32⟩
  | 4 => ⟨S128, .f32⟩
  | 5 => ⟨S4x128x128, .f32⟩
  | 6 => ⟨S4x128, .f32⟩
  | 7 => ⟨S4x128, .f32⟩
  | 8 => ⟨S4x128, .f32⟩
  | 9 => ⟨S64x128, .f32⟩
  | 10 => ⟨S64, .f32⟩
  | 11 => ⟨S32x64, .f32⟩
  | 12 => ⟨S32, .f32⟩
  | 13 => ⟨S10x32, .f32⟩
  | 14 => ⟨S10, .f32⟩
  | 15 => ⟨S50000, .i32⟩
  | 16 => ⟨S1x600000, .i32⟩
  | 17 => ⟨S600000, .i32⟩
  | 18 => ⟨S650000, .i32⟩
  | 19 => ⟨S1x600000, .i32⟩
  | 20 => ⟨S600000, .i32⟩
  | 21 => ⟨S650000, .i32⟩
  | 22 => ⟨S_, .f32⟩
  | 23 => ⟨S650000, .f32⟩
  | 24 => ⟨S_, .f32⟩
  | 25 => ⟨S50000, .f32⟩
  | 26 => ⟨S650000x1, .i32⟩
  | 27 => ⟨S50000, .f32⟩
  | 28 => ⟨S_, .f32⟩
  | 29 => ⟨S50000, .f32⟩
  | 30 => ⟨S50000, .i1⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S650000, .i32⟩
  | 38 => ⟨S650000, .i1⟩
  | 39 => ⟨S_, .i32⟩
  | 40 => ⟨S650000, .i32⟩
  | 41 => ⟨S650000, .i32⟩
  | 42 => ⟨S650000, .i32⟩
  | 43 => ⟨S650000x1, .i32⟩
  | 44 => ⟨S650000, .f32⟩
  | 45 => ⟨S_, .i32⟩
  | 46 => ⟨S650000, .i32⟩
  | 47 => ⟨S650000, .i1⟩
  | 48 => ⟨S_, .i32⟩
  | 49 => ⟨S650000, .i32⟩
  | 50 => ⟨S650000, .i32⟩
  | 51 => ⟨S650000, .i32⟩
  | 52 => ⟨S650000x1, .i32⟩
  | 53 => ⟨S650000, .f32⟩
  | 54 => ⟨S650000, .f32⟩
  | 55 => ⟨S128x128, .f32⟩
  | 56 => ⟨S50000x128, .f32⟩
  | 57 => ⟨S1x128, .f32⟩
  | 58 => ⟨S50000x128, .f32⟩
  | 59 => ⟨S50000x128, .f32⟩
  | 60 => ⟨S1x128x128, .f32⟩
  | 61 => ⟨S128x128, .f32⟩
  | 62 => ⟨S1x128, .f32⟩
  | 63 => ⟨S128, .f32⟩
  | 64 => ⟨S128x128, .f32⟩
  | 65 => ⟨S50000x128, .f32⟩
  | 66 => ⟨S_, .i32⟩
  | 67 => ⟨S650000, .i32⟩
  | 68 => ⟨S650000, .i1⟩
  | 69 => ⟨S_, .i32⟩
  | 70 => ⟨S650000, .i32⟩
  | 71 => ⟨S650000, .i32⟩
  | 72 => ⟨S650000, .i32⟩
  | 73 => ⟨S650000x1, .i32⟩
  | 74 => ⟨S650000x128, .f32⟩
  | 75 => ⟨S650000x1, .f32⟩
  | 76 => ⟨S650000x128, .f32⟩
  | 77 => ⟨S650000x128, .f32⟩
  | 78 => ⟨S_, .f32⟩
  | 79 => ⟨S50000x128, .f32⟩
  | 80 => ⟨S650000x1, .i32⟩
  | 81 => ⟨S50000x128, .f32⟩
  | 82 => ⟨S1x128, .f32⟩
  | 83 => ⟨S50000x128, .f32⟩
  | 84 => ⟨S50000x128, .f32⟩
  | 85 => ⟨S1x128, .f32⟩
  | 86 => ⟨S128, .f32⟩
  | 87 => ⟨S1x128, .f32⟩
  | 88 => ⟨S128, .f32⟩
  | 89 => ⟨S_, .f32⟩
  | 90 => ⟨S128, .f32⟩
  | 91 => ⟨S_, .f32⟩
  | 92 => ⟨S128, .f32⟩
  | 93 => ⟨S128, .f32⟩
  | 94 => ⟨S_, .i32⟩
  | 95 => ⟨S_, .f32⟩
  | 96 => ⟨S128, .f32⟩
  | 97 => ⟨S1x128, .f32⟩
  | 98 => ⟨S_, .f32⟩
  | 99 => ⟨S1x128, .f32⟩
  | 100 => ⟨S1x128, .f32⟩
  | 101 => ⟨S50000x128, .f32⟩
  | 102 => ⟨S50000x128, .f32⟩
  | 103 => ⟨S50000x128, .f32⟩
  | 104 => ⟨S_, .f32⟩
  | 105 => ⟨S_, .f32⟩
  | 106 => ⟨S_, .f32⟩
  | 107 => ⟨S_, .f32⟩
  | 108 => ⟨S128, .f32⟩
  | 109 => ⟨S128, .f32⟩
  | 110 => ⟨S128, .f32⟩
  | 111 => ⟨S_, .f32⟩
  | 112 => ⟨S_, .i1⟩
  | 113 => ⟨S_, .f32⟩
  | 114 => ⟨S_, .f32⟩
  | 115 => ⟨S128, .f32⟩
  | 116 => ⟨S128, .f32⟩
  | 117 => ⟨S1x128, .f32⟩
  | 118 => ⟨S50000x128, .f32⟩
  | 119 => ⟨S50000x128, .f32⟩
  | 120 => ⟨S_, .f32⟩
  | 121 => ⟨S128, .f32⟩
  | 122 => ⟨S128, .f32⟩
  | 123 => ⟨S128, .f32⟩
  | 124 => ⟨S1x128, .f32⟩
  | 125 => ⟨S50000x128, .f32⟩
  | 126 => ⟨S50000x128, .f32⟩
  | 127 => ⟨S1x128, .f32⟩
  | _ => ⟨S50000x128, .f32⟩

abbrev hbmTy0_1 (i : Nat) : BufTy := match i % 128 with
  | 0 => ⟨S50000x128, .f32⟩
  | 1 => ⟨S50000x128, .f32⟩
  | 2 => ⟨S1x128, .f32⟩
  | 3 => ⟨S50000x128, .f32⟩
  | 4 => ⟨S50000x128, .f32⟩
  | 5 => ⟨S_, .f32⟩
  | 6 => ⟨S50000x128, .f32⟩
  | 7 => ⟨S50000x128, .f32⟩
  | 8 => ⟨S50000x128, .f32⟩
  | 9 => ⟨S1x128x128, .f32⟩
  | 10 => ⟨S128x128, .f32⟩
  | 11 => ⟨S1x128, .f32⟩
  | 12 => ⟨S128, .f32⟩
  | 13 => ⟨S128x128, .f32⟩
  | 14 => ⟨S50000x128, .f32⟩
  | 15 => ⟨S_, .i32⟩
  | 16 => ⟨S650000, .i32⟩
  | 17 => ⟨S650000, .i1⟩
  | 18 => ⟨S_, .i32⟩
  | 19 => ⟨S650000, .i32⟩
  | 20 => ⟨S650000, .i32⟩
  | 21 => ⟨S650000, .i32⟩
  | 22 => ⟨S650000x1, .i32⟩
  | 23 => ⟨S650000x128, .f32⟩
  | 24 => ⟨S650000x1, .f32⟩
  | 25 => ⟨S650000x128, .f32⟩
  | 26 => ⟨S650000x128, .f32⟩
  | 27 => ⟨S_, .f32⟩
  | 28 => ⟨S50000x128, .f32⟩
  | 29 => ⟨S650000x1, .i32⟩
  | 30 => ⟨S50000x128, .f32⟩
  | 31 => ⟨S1x128, .f32⟩
  | 32 => ⟨S50000x128, .f32⟩
  | 33 => ⟨S50000x128, .f32⟩
  | 34 => ⟨S1x128, .f32⟩
  | 35 => ⟨S128, .f32⟩
  | 36 => ⟨S1x128, .f32⟩
  | 37 => ⟨S128, .f32⟩
  | 38 => ⟨S_, .f32⟩
  | 39 => ⟨S128, .f32⟩
  | 40 => ⟨S_, .f32⟩
  | 41 => ⟨S128, .f32⟩
  | 42 => ⟨S128, .f32⟩
  | 43 => ⟨S_, .i32⟩
  | 44 => ⟨S_, .f32⟩
  | 45 => ⟨S128, .f32⟩
  | 46 => ⟨S1x128, .f32⟩
  | 47 => ⟨S_, .f32⟩
  | 48 => ⟨S1x128, .f32⟩
  | 49 => ⟨S1x128, .f32⟩
  | 50 => ⟨S50000x128, .f32⟩
  | 51 => ⟨S50000x128, .f32⟩
  | 52 => ⟨S50000x128, .f32⟩
  | 53 => ⟨S_, .f32⟩
  | 54 => ⟨S_, .f32⟩
  | 55 => ⟨S_, .f32⟩
  | 56 => ⟨S_, .f32⟩
  | 57 => ⟨S128, .f32⟩
  | 58 => ⟨S128, .f32⟩
  | 59 => ⟨S128, .f32⟩
  | 60 => ⟨S_, .f32⟩
  | 61 => ⟨S_, .i1⟩
  | 62 => ⟨S_, .f32⟩
  | 63 => ⟨S_, .f32⟩
  | 64 => ⟨S128, .f32⟩
  | 65 => ⟨S128, .f32⟩
  | 66 => ⟨S1x128, .f32⟩
  | 67 => ⟨S50000x128, .f32⟩
  | 68 => ⟨S50000x128, .f32⟩
  | 69 => ⟨S_, .f32⟩
  | 70 => ⟨S128, .f32⟩
  | 71 => ⟨S128, .f32⟩
  | 72 => ⟨S128, .f32⟩
  | 73 => ⟨S1x128, .f32⟩
  | 74 => ⟨S50000x128, .f32⟩
  | 75 => ⟨S50000x128, .f32⟩
  | 76 => ⟨S1x128, .f32⟩
  | 77 => ⟨S50000x128, .f32⟩
  | 78 => ⟨S50000x128, .f32⟩
  | 79 => ⟨S1x128, .f32⟩
  | 80 => ⟨S50000x128, .f32⟩
  | 81 => ⟨S50000x128, .f32⟩
  | 82 => ⟨S_, .f32⟩
  | 83 => ⟨S50000x128, .f32⟩
  | 84 => ⟨S50000x128, .f32⟩
  | 85 => ⟨S50000x128, .f32⟩
  | 86 => ⟨S1x128x128, .f32⟩
  | 87 => ⟨S128x128, .f32⟩
  | 88 => ⟨S1x128, .f32⟩
  | 89 => ⟨S128, .f32⟩
  | 90 => ⟨S128x128, .f32⟩
  | 91 => ⟨S50000x128, .f32⟩
  | 92 => ⟨S_, .i32⟩
  | 93 => ⟨S650000, .i32⟩
  | 94 => ⟨S650000, .i1⟩
  | 95 => ⟨S_, .i32⟩
  | 96 => ⟨S650000, .i32⟩
  | 97 => ⟨S650000, .i32⟩
  | 98 => ⟨S650000, .i32⟩
  | 99 => ⟨S650000x1, .i32⟩
  | 100 => ⟨S650000x128, .f32⟩
  | 101 => ⟨S650000x1, .f32⟩
  | 102 => ⟨S650000x128, .f32⟩
  | 103 => ⟨S650000x128, .f32⟩
  | 104 => ⟨S_, .f32⟩
  | 105 => ⟨S50000x128, .f32⟩
  | 106 => ⟨S650000x1, .i32⟩
  | 107 => ⟨S50000x128, .f32⟩
  | 108 => ⟨S1x128, .f32⟩
  | 109 => ⟨S50000x128, .f32⟩
  | 110 => ⟨S50000x128, .f32⟩
  | 111 => ⟨S1x128, .f32⟩
  | 112 => ⟨S128, .f32⟩
  | 113 => ⟨S1x128, .f32⟩
  | 114 => ⟨S128, .f32⟩
  | 115 => ⟨S_, .f32⟩
  | 116 => ⟨S128, .f32⟩
  | 117 => ⟨S_, .f32⟩
  | 118 => ⟨S128, .f32⟩
  | 119 => ⟨S128, .f32⟩
  | 120 => ⟨S_, .i32⟩
  | 121 => ⟨S_, .f32⟩
  | 122 => ⟨S128, .f32⟩
  | 123 => ⟨S1x128, .f32⟩
  | 124 => ⟨S_, .f32⟩
  | 125 => ⟨S1x128, .f32⟩
  | 126 => ⟨S1x128, .f32⟩
  | 127 => ⟨S50000x128, .f32⟩
  | _ => ⟨S50000x128, .f32⟩

abbrev hbmTy0_2 (i : Nat) : BufTy := match i % 128 with
  | 0 => ⟨S50000x128, .f32⟩
  | 1 => ⟨S50000x128, .f32⟩
  | 2 => ⟨S_, .f32⟩
  | 3 => ⟨S_, .f32⟩
  | 4 => ⟨S_, .f32⟩
  | 5 => ⟨S_, .f32⟩
  | 6 => ⟨S128, .f32⟩
  | 7 => ⟨S128, .f32⟩
  | 8 => ⟨S128, .f32⟩
  | 9 => ⟨S_, .f32⟩
  | 10 => ⟨S_, .i1⟩
  | 11 => ⟨S_, .f32⟩
  | 12 => ⟨S_, .f32⟩
  | 13 => ⟨S128, .f32⟩
  | 14 => ⟨S128, .f32⟩
  | 15 => ⟨S1x128, .f32⟩
  | 16 => ⟨S50000x128, .f32⟩
  | 17 => ⟨S50000x128, .f32⟩
  | 18 => ⟨S_, .f32⟩
  | 19 => ⟨S128, .f32⟩
  | 20 => ⟨S128, .f32⟩
  | 21 => ⟨S128, .f32⟩
  | 22 => ⟨S1x128, .f32⟩
  | 23 => ⟨S50000x128, .f32⟩
  | 24 => ⟨S50000x128, .f32⟩
  | 25 => ⟨S1x128, .f32⟩
  | 26 => ⟨S50000x128, .f32⟩
  | 27 => ⟨S50000x128, .f32⟩
  | 28 => ⟨S1x128, .f32⟩
  | 29 => ⟨S50000x128, .f32⟩
  | 30 => ⟨S50000x128, .f32⟩
  | 31 => ⟨S_, .f32⟩
  | 32 => ⟨S50000x128, .f32⟩
  | 33 => ⟨S50000x128, .f32⟩
  | 34 => ⟨S50000x128, .f32⟩
  | 35 => ⟨S1x128x128, .f32⟩
  | 36 => ⟨S128x128, .f32⟩
  | 37 => ⟨S1x128, .f32⟩
  | 38 => ⟨S128, .f32⟩
  | 39 => ⟨S128x128, .f32⟩
  | 40 => ⟨S50000x128, .f32⟩
  | 41 => ⟨S_, .i32⟩
  | 42 => ⟨S650000, .i32⟩
  | 43 => ⟨S650000, .i1⟩
  | 44 => ⟨S_, .i32⟩
  | 45 => ⟨S650000, .i32⟩
  | 46 => ⟨S650000, .i32⟩
  | 47 => ⟨S650000, .i32⟩
  | 48 => ⟨S650000x1, .i32⟩
  | 49 => ⟨S650000x128, .f32⟩
  | 50 => ⟨S650000x1, .f32⟩
  | 51 => ⟨S650000x128, .f32⟩
  | 52 => ⟨S650000x128, .f32⟩
  | 53 => ⟨S_, .f32⟩
  | 54 => ⟨S50000x128, .f32⟩
  | 55 => ⟨S650000x1, .i32⟩
  | 56 => ⟨S50000x128, .f32⟩
  | 57 => ⟨S1x128, .f32⟩
  | 58 => ⟨S50000x128, .f32⟩
  | 59 => ⟨S50000x128, .f32⟩
  | 60 => ⟨S1x128, .f32⟩
  | 61 => ⟨S128, .f32⟩
  | 62 => ⟨S1x128, .f32⟩
  | 63 => ⟨S128, .f32⟩
  | 64 => ⟨S_, .f32⟩
  | 65 => ⟨S128, .f32⟩
  | 66 => ⟨S_, .f32⟩
  | 67 => ⟨S128, .f32⟩
  | 68 => ⟨S128, .f32⟩
  | 69 => ⟨S_, .i32⟩
  | 70 => ⟨S_, .f32⟩
  | 71 => ⟨S128, .f32⟩
  | 72 => ⟨S1x128, .f32⟩
  | 73 => ⟨S_, .f32⟩
  | 74 => ⟨S1x128, .f32⟩
  | 75 => ⟨S1x128, .f32⟩
  | 76 => ⟨S50000x128, .f32⟩
  | 77 => ⟨S50000x128, .f32⟩
  | 78 => ⟨S50000x128, .f32⟩
  | 79 => ⟨S_, .f32⟩
  | 80 => ⟨S_, .f32⟩
  | 81 => ⟨S_, .f32⟩
  | 82 => ⟨S_, .f32⟩
  | 83 => ⟨S128, .f32⟩
  | 84 => ⟨S128, .f32⟩
  | 85 => ⟨S128, .f32⟩
  | 86 => ⟨S_, .f32⟩
  | 87 => ⟨S_, .i1⟩
  | 88 => ⟨S_, .f32⟩
  | 89 => ⟨S_, .f32⟩
  | 90 => ⟨S128, .f32⟩
  | 91 => ⟨S128, .f32⟩
  | 92 => ⟨S1x128, .f32⟩
  | 93 => ⟨S50000x128, .f32⟩
  | 94 => ⟨S50000x128, .f32⟩
  | 95 => ⟨S_, .f32⟩
  | 96 => ⟨S128, .f32⟩
  | 97 => ⟨S128, .f32⟩
  | 98 => ⟨S128, .f32⟩
  | 99 => ⟨S1x128, .f32⟩
  | 100 => ⟨S50000x128, .f32⟩
  | 101 => ⟨S50000x128, .f32⟩
  | 102 => ⟨S1x128, .f32⟩
  | 103 => ⟨S50000x128, .f32⟩
  | 104 => ⟨S50000x128, .f32⟩
  | 105 => ⟨S1x128, .f32⟩
  | 106 => ⟨S50000x128, .f32⟩
  | 107 => ⟨S50000x128, .f32⟩
  | 108 => ⟨S_, .f32⟩
  | 109 => ⟨S50000x128, .f32⟩
  | 110 => ⟨S50000x128, .f32⟩
  | 111 => ⟨S50000x128, .f32⟩
  | 112 => ⟨S_, .f32⟩
  | 113 => ⟨S128x128, .f32⟩
  | 114 => ⟨S50000x1, .i32⟩
  | 115 => ⟨S128x128, .f32⟩
  | 116 => ⟨S_, .f32⟩
  | 117 => ⟨S50000, .f32⟩
  | 118 => ⟨S_, .f32⟩
  | 119 => ⟨S128, .f32⟩
  | 120 => ⟨S50000x1, .i32⟩
  | 121 => ⟨S128, .f32⟩
  | 122 => ⟨S_, .f32⟩
  | 123 => ⟨S128, .f32⟩
  | 124 => ⟨S128, .f32⟩
  | 125 => ⟨S128x1, .f32⟩
  | 126 => ⟨S128x128, .f32⟩
  | 127 => ⟨S128x128, .f32⟩
  | _ => ⟨S50000x128, .f32⟩

abbrev hbmTy0_3 (i : Nat) : BufTy := match i % 128 with
  | 0 => ⟨S128x64, .f32⟩
  | 1 => ⟨S128x64, .f32⟩
  | 2 => ⟨S1x64, .f32⟩
  | 3 => ⟨S128x64, .f32⟩
  | 4 => ⟨S128x64, .f32⟩
  | 5 => ⟨S_, .f32⟩
  | 6 => ⟨S128x64, .f32⟩
  | 7 => ⟨S128x64, .f32⟩
  | 8 => ⟨S64x32, .f32⟩
  | 9 => ⟨S128x32, .f32⟩
  | 10 => ⟨S1x32, .f32⟩
  | 11 => ⟨S128x32, .f32⟩
  | 12 => ⟨S128x32, .f32⟩
  | 13 => ⟨S_, .f32⟩
  | 14 => ⟨S128x32, .f32⟩
  | 15 => ⟨S128x32, .f32⟩
  | 16 => ⟨S32x10, .f32⟩
  | 17 => ⟨S128x10, .f32⟩
  | 18 => ⟨S1x10, .f32⟩
  | 19 => ⟨S128x10, .f32⟩
  | 20 => ⟨S128x10, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v14 : Ref sig .tc := ⟨.hbm, 35, rfl⟩
abbrev main_c : Ref sig .tc := ⟨.hbm, 36, rfl⟩
abbrev main_v15 : Ref sig .tc := ⟨.hbm, 37, rfl⟩
abbrev main_v16 : Ref sig .tc := ⟨.hbm, 38, rfl⟩
abbrev main_c_3 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_4 : Ref sig .tc := ⟨.hbm, 45, rfl⟩
abbrev main_v22 : Ref sig .tc := ⟨.hbm, 46, rfl⟩
abbrev main_v23 : Ref sig .tc := ⟨.hbm, 47, rfl⟩
abbrev main_c_5 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_c_6 : Ref sig .tc := ⟨.hbm, 66, rfl⟩
abbrev main_v41 : Ref sig .tc := ⟨.hbm, 67, rfl⟩
abbrev main_v42 : Ref sig .tc := ⟨.hbm, 68, rfl⟩
abbrev main_c_7 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_8 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_9 : Ref sig .tc := ⟨.hbm, 89, rfl⟩
abbrev main_v61 : Ref sig .tc := ⟨.hbm, 90, rfl⟩
abbrev main_cst_10 : Ref sig .tc := ⟨.hbm, 91, rfl⟩
abbrev main_v62 : Ref sig .tc := ⟨.hbm, 92, rfl⟩
abbrev main_v63 : Ref sig .tc := ⟨.hbm, 93, rfl⟩
abbrev main_c_11 : Ref sig .tc := ⟨.hbm, 94, rfl⟩
abbrev main_call1_cst : Ref sig .tc := ⟨.hbm, 95, rfl⟩
abbrev main_call1_v0 : Ref sig .tc := ⟨.hbm, 96, rfl⟩
abbrev main_call1_v1 : Ref sig .tc := ⟨.hbm, 97, rfl⟩
abbrev main_call1_cst_0 : Ref sig .tc := ⟨.hbm, 98, rfl⟩
abbrev main_call1_v2 : Ref sig .tc := ⟨.hbm, 99, rfl⟩
abbrev main_call1_v3 : Ref sig .tc := ⟨.hbm, 100, rfl⟩
abbrev main_call1_v4 : Ref sig .tc := ⟨.hbm, 101, rfl⟩
abbrev main_call1_v5 : Ref sig .tc := ⟨.hbm, 102, rfl⟩
abbrev main_call1_v6 : Ref sig .tc := ⟨.hbm, 103, rfl⟩
abbrev main_call1_v7 : Ref sig .tc := ⟨.hbm, 104, rfl⟩
abbrev main_call1_cst_1 : Ref sig .tc := ⟨.hbm, 105, rfl⟩
abbrev main_call1_v8 : Ref sig .tc := ⟨.hbm, 106, rfl⟩
abbrev main_call1_cst_2 : Ref sig .tc := ⟨.hbm, 107, rfl⟩
abbrev main_call1_v9 : Ref sig .tc := ⟨.hbm, 108, rfl⟩
abbrev main_call1_v10 : Ref sig .tc := ⟨.hbm, 109, rfl⟩
abbrev main_call1_v11 : Ref sig .tc := ⟨.hbm, 110, rfl⟩
abbrev main_call1_cst_3 : Ref sig .tc := ⟨.hbm, 111, rfl⟩
abbrev main_call1_v12 : Ref sig .tc := ⟨.hbm, 112, rfl⟩
abbrev main_call1_cst_4 : Ref sig .tc := ⟨.hbm, 113, rfl⟩
abbrev main_call1_call0_v0 : Ref sig .tc := ⟨.hbm, 114, rfl⟩
abbrev main_call1_call0_v1 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_cst_12 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_call2_cst : Ref sig .tc := ⟨.hbm, 133, rfl⟩
abbrev main_call2_v0 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_c_13 : Ref sig .tc := ⟨.hbm, 143, rfl⟩
abbrev main_v88 : Ref sig .tc := ⟨.hbm, 144, rfl⟩
abbrev main_v89 : Ref sig .tc := ⟨.hbm, 145, rfl⟩
abbrev main_c_14 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_cst_15 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_cst_16 : Ref sig .tc := ⟨.hbm, 166, rfl⟩
abbrev main_v108 : Ref sig .tc := ⟨.hbm, 167, rfl⟩
abbrev main_cst_17 : Ref sig .tc := ⟨.hbm, 168, rfl⟩
abbrev main_v109 : Ref sig .tc := ⟨.hbm, 169, rfl⟩
abbrev main_v110 : Ref sig .tc := ⟨.hbm, 170, rfl⟩
abbrev main_c_18 : Ref sig .tc := ⟨.hbm, 171, rfl⟩
abbrev main_call3_cst : Ref sig .tc := ⟨.hbm, 172, rfl⟩
abbrev main_call3_v0 : Ref sig .tc := ⟨.hbm, 173, rfl⟩
abbrev main_call3_v1 : Ref sig .tc := ⟨.hbm, 174, rfl⟩
abbrev main_call3_cst_0 : Ref sig .tc := ⟨.hbm, 175, rfl⟩
abbrev main_call3_v2 : Ref sig .tc := ⟨.hbm, 176, rfl⟩
abbrev main_call3_v3 : Ref sig .tc := ⟨.hbm, 177, rfl⟩
abbrev main_call3_v4 : Ref sig .tc := ⟨.hbm, 178, rfl⟩
abbrev main_call3_v5 : Ref sig .tc := ⟨.hbm, 179, rfl⟩
abbrev main_call3_v6 : Ref sig .tc := ⟨.hbm, 180, rfl⟩
abbrev main_call3_v7 : Ref sig .tc := ⟨.hbm, 181, rfl⟩
abbrev main_call3_cst_1 : Ref sig .tc := ⟨.hbm, 182, rfl⟩
abbrev main_call3_v8 : Ref sig .tc := ⟨.hbm, 183, rfl⟩
abbrev main_call3_cst_2 : Ref sig .tc := ⟨.hbm, 184, rfl⟩
abbrev main_call3_v9 : Ref sig .tc := ⟨.hbm, 185, rfl⟩
abbrev main_call3_v10 : Ref sig .tc := ⟨.hbm, 186, rfl⟩
abbrev main_call3_v11 : Ref sig .tc := ⟨.hbm, 187, rfl⟩
abbrev main_call3_cst_3 : Ref sig .tc := ⟨.hbm, 188, rfl⟩
abbrev main_call3_v12 : Ref sig .tc := ⟨.hbm, 189, rfl⟩
abbrev main_call3_cst_4 : Ref sig .tc := ⟨.hbm, 190, rfl⟩
abbrev main_call3_call0_v0 : Ref sig .tc := ⟨.hbm, 191, rfl⟩
abbrev main_call3_call0_v1 : Ref sig .tc := ⟨.hbm, 192, rfl⟩
abbrev main_v111 : Ref sig .tc := ⟨.hbm, 193, rfl⟩
abbrev main_v112 : Ref sig .tc := ⟨.hbm, 194, rfl⟩
abbrev main_v113 : Ref sig .tc := ⟨.hbm, 195, rfl⟩
abbrev main_v114 : Ref sig .tc := ⟨.hbm, 196, rfl⟩
abbrev main_cst_19 : Ref sig .tc := ⟨.hbm, 197, rfl⟩
abbrev main_v115 : Ref sig .tc := ⟨.hbm, 198, rfl⟩
abbrev main_v116 : Ref sig .tc := ⟨.hbm, 199, rfl⟩
abbrev main_v117 : Ref sig .tc := ⟨.hbm, 200, rfl⟩
abbrev main_v118 : Ref sig .tc := ⟨.hbm, 201, rfl⟩
abbrev main_v119 : Ref sig .tc := ⟨.hbm, 202, rfl⟩
abbrev main_v120 : Ref sig .tc := ⟨.hbm, 203, rfl⟩
abbrev main_v121 : Ref sig .tc := ⟨.hbm, 204, rfl⟩
abbrev main_v122 : Ref sig .tc := ⟨.hbm, 205, rfl⟩
abbrev main_v123 : Ref sig .tc := ⟨.hbm, 206, rfl⟩
abbrev main_v124 : Ref sig .tc := ⟨.hbm, 207, rfl⟩
abbrev main_v125 : Ref sig .tc := ⟨.hbm, 208, rfl⟩
abbrev main_v126 : Ref sig .tc := ⟨.hbm, 209, rfl⟩
abbrev main_call4_cst : Ref sig .tc := ⟨.hbm, 210, rfl⟩
abbrev main_call4_v0 : Ref sig .tc := ⟨.hbm, 211, rfl⟩
abbrev main_v127 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_v131 : Ref sig .tc := ⟨.hbm, 216, rfl⟩
abbrev main_v132 : Ref sig .tc := ⟨.hbm, 217, rfl⟩
abbrev main_v133 : Ref sig .tc := ⟨.hbm, 218, rfl⟩
abbrev main_v134 : Ref sig .tc := ⟨.hbm, 219, rfl⟩
abbrev main_c_20 : Ref sig .tc := ⟨.hbm, 220, rfl⟩
abbrev main_v135 : Ref sig .tc := ⟨.hbm, 221, rfl⟩
abbrev main_v136 : Ref sig .tc := ⟨.hbm, 222, rfl⟩
abbrev main_c_21 : Ref sig .tc := ⟨.hbm, 223, rfl⟩
abbrev main_v137 : Ref sig .tc := ⟨.hbm, 224, rfl⟩
abbrev main_v138 : Ref sig .tc := ⟨.hbm, 225, rfl⟩
abbrev main_v139 : Ref sig .tc := ⟨.hbm, 226, rfl⟩
abbrev main_v140 : Ref sig .tc := ⟨.hbm, 227, rfl⟩
abbrev main_v141 : Ref sig .tc := ⟨.hbm, 228, rfl⟩
abbrev main_v142 : Ref sig .tc := ⟨.hbm, 229, rfl⟩
abbrev main_v143 : Ref sig .tc := ⟨.hbm, 230, rfl⟩
abbrev main_v144 : Ref sig .tc := ⟨.hbm, 231, rfl⟩
abbrev main_cst_22 : Ref sig .tc := ⟨.hbm, 232, rfl⟩
abbrev main_v145 : Ref sig .tc := ⟨.hbm, 233, rfl⟩
abbrev main_v146 : Ref sig .tc := ⟨.hbm, 234, rfl⟩
abbrev main_v147 : Ref sig .tc := ⟨.hbm, 235, rfl⟩
abbrev main_v148 : Ref sig .tc := ⟨.hbm, 236, rfl⟩
abbrev main_v149 : Ref sig .tc := ⟨.hbm, 237, rfl⟩
abbrev main_v150 : Ref sig .tc := ⟨.hbm, 238, rfl⟩
abbrev main_v151 : Ref sig .tc := ⟨.hbm, 239, rfl⟩
abbrev main_v152 : Ref sig .tc := ⟨.hbm, 240, rfl⟩
abbrev main_v153 : Ref sig .tc := ⟨.hbm, 241, rfl⟩
abbrev main_v154 : Ref sig .tc := ⟨.hbm, 242, rfl⟩
abbrev main_cst_23 : Ref sig .tc := ⟨.hbm, 243, rfl⟩
abbrev main_v155 : Ref sig .tc := ⟨.hbm, 244, rfl⟩
abbrev main_cst_24 : Ref sig .tc := ⟨.hbm, 245, rfl⟩
abbrev main_v156 : Ref sig .tc := ⟨.hbm, 246, rfl⟩
abbrev main_v157 : Ref sig .tc := ⟨.hbm, 247, rfl⟩
abbrev main_c_25 : Ref sig .tc := ⟨.hbm, 248, rfl⟩
abbrev main_call5_cst : Ref sig .tc := ⟨.hbm, 249, rfl⟩
abbrev main_call5_v0 : Ref sig .tc := ⟨.hbm, 250, rfl⟩
abbrev main_call5_v1 : Ref sig .tc := ⟨.hbm, 251, rfl⟩
abbrev main_call5_cst_0 : Ref sig .tc := ⟨.hbm, 252, rfl⟩
abbrev main_call5_v2 : Ref sig .tc := ⟨.hbm, 253, rfl⟩
abbrev main_call5_v3 : Ref sig .tc := ⟨.hbm, 254, rfl⟩
abbrev main_call5_v4 : Ref sig .tc := ⟨.hbm, 255, rfl⟩
abbrev main_call5_v5 : Ref sig .tc := ⟨.hbm, 256, rfl⟩
abbrev main_call5_v6 : Ref sig .tc := ⟨.hbm, 257, rfl⟩
abbrev main_call5_v7 : Ref sig .tc := ⟨.hbm, 258, rfl⟩
abbrev main_call5_cst_1 : Ref sig .tc := ⟨.hbm, 259, rfl⟩
abbrev main_call5_v8 : Ref sig .tc := ⟨.hbm, 260, rfl⟩
abbrev main_call5_cst_2 : Ref sig .tc := ⟨.hbm, 261, rfl⟩
abbrev main_call5_v9 : Ref sig .tc := ⟨.hbm, 262, rfl⟩
abbrev main_call5_v10 : Ref sig .tc := ⟨.hbm, 263, rfl⟩
abbrev main_call5_v11 : Ref sig .tc := ⟨.hbm, 264, rfl⟩
abbrev main_call5_cst_3 : Ref sig .tc := ⟨.hbm, 265, rfl⟩
abbrev main_call5_v12 : Ref sig .tc := ⟨.hbm, 266, rfl⟩
abbrev main_call5_cst_4 : Ref sig .tc := ⟨.hbm, 267, rfl⟩
abbrev main_call5_call0_v0 : Ref sig .tc := ⟨.hbm, 268, rfl⟩
abbrev main_call5_call0_v1 : Ref sig .tc := ⟨.hbm, 269, rfl⟩
abbrev main_v158 : Ref sig .tc := ⟨.hbm, 270, rfl⟩
abbrev main_v159 : Ref sig .tc := ⟨.hbm, 271, rfl⟩
abbrev main_v160 : Ref sig .tc := ⟨.hbm, 272, rfl⟩
abbrev main_v161 : Ref sig .tc := ⟨.hbm, 273, rfl⟩
abbrev main_cst_26 : Ref sig .tc := ⟨.hbm, 274, rfl⟩
abbrev main_v162 : Ref sig .tc := ⟨.hbm, 275, rfl⟩
abbrev main_v163 : Ref sig .tc := ⟨.hbm, 276, rfl⟩
abbrev main_v164 : Ref sig .tc := ⟨.hbm, 277, rfl⟩
abbrev main_v165 : Ref sig .tc := ⟨.hbm, 278, rfl⟩
abbrev main_v166 : Ref sig .tc := ⟨.hbm, 279, rfl⟩
abbrev main_v167 : Ref sig .tc := ⟨.hbm, 280, rfl⟩
abbrev main_v168 : Ref sig .tc := ⟨.hbm, 281, rfl⟩
abbrev main_v169 : Ref sig .tc := ⟨.hbm, 282, rfl⟩
abbrev main_v170 : Ref sig .tc := ⟨.hbm, 283, rfl⟩
abbrev main_v171 : Ref sig .tc := ⟨.hbm, 284, rfl⟩
abbrev main_v172 : Ref sig .tc := ⟨.hbm, 285, rfl⟩
abbrev main_v173 : Ref sig .tc := ⟨.hbm, 286, rfl⟩
abbrev main_call6_cst : Ref sig .tc := ⟨.hbm, 287, rfl⟩
abbrev main_call6_v0 : Ref sig .tc := ⟨.hbm, 288, rfl⟩
abbrev main_v174 : Ref sig .tc := ⟨.hbm, 289, rfl⟩
abbrev main_v175 : Ref sig .tc := ⟨.hbm, 290, rfl⟩
abbrev main_v176 : Ref sig .tc := ⟨.hbm, 291, rfl⟩
abbrev main_v177 : Ref sig .tc := ⟨.hbm, 292, rfl⟩
abbrev main_v178 : Ref sig .tc := ⟨.hbm, 293, rfl⟩
abbrev main_v179 : Ref sig .tc := ⟨.hbm, 294, rfl⟩
abbrev main_v180 : Ref sig .tc := ⟨.hbm, 295, rfl⟩
abbrev main_v181 : Ref sig .tc := ⟨.hbm, 296, rfl⟩
abbrev main_c_27 : Ref sig .tc := ⟨.hbm, 297, rfl⟩
abbrev main_v182 : Ref sig .tc := ⟨.hbm, 298, rfl⟩
abbrev main_v183 : Ref sig .tc := ⟨.hbm, 299, rfl⟩
abbrev main_c_28 : Ref sig .tc := ⟨.hbm, 300, rfl⟩
abbrev main_v184 : Ref sig .tc := ⟨.hbm, 301, rfl⟩
abbrev main_v185 : Ref sig .tc := ⟨.hbm, 302, rfl⟩
abbrev main_v186 : Ref sig .tc := ⟨.hbm, 303, rfl⟩
abbrev main_v187 : Ref sig .tc := ⟨.hbm, 304, rfl⟩
abbrev main_v188 : Ref sig .tc := ⟨.hbm, 305, rfl⟩
abbrev main_v189 : Ref sig .tc := ⟨.hbm, 306, rfl⟩
abbrev main_v190 : Ref sig .tc := ⟨.hbm, 307, rfl⟩
abbrev main_v191 : Ref sig .tc := ⟨.hbm, 308, rfl⟩
abbrev main_cst_29 : Ref sig .tc := ⟨.hbm, 309, rfl⟩
abbrev main_v192 : Ref sig .tc := ⟨.hbm, 310, rfl⟩
abbrev main_v193 : Ref sig .tc := ⟨.hbm, 311, rfl⟩
abbrev main_v194 : Ref sig .tc := ⟨.hbm, 312, rfl⟩
abbrev main_v195 : Ref sig .tc := ⟨.hbm, 313, rfl⟩
abbrev main_v196 : Ref sig .tc := ⟨.hbm, 314, rfl⟩
abbrev main_v197 : Ref sig .tc := ⟨.hbm, 315, rfl⟩
abbrev main_v198 : Ref sig .tc := ⟨.hbm, 316, rfl⟩
abbrev main_v199 : Ref sig .tc := ⟨.hbm, 317, rfl⟩
abbrev main_v200 : Ref sig .tc := ⟨.hbm, 318, rfl⟩
abbrev main_v201 : Ref sig .tc := ⟨.hbm, 319, rfl⟩
abbrev main_cst_30 : Ref sig .tc := ⟨.hbm, 320, rfl⟩
abbrev main_v202 : Ref sig .tc := ⟨.hbm, 321, rfl⟩
abbrev main_cst_31 : Ref sig .tc := ⟨.hbm, 322, rfl⟩
abbrev main_v203 : Ref sig .tc := ⟨.hbm, 323, rfl⟩
abbrev main_v204 : Ref sig .tc := ⟨.hbm, 324, rfl⟩
abbrev main_c_32 : Ref sig .tc := ⟨.hbm, 325, rfl⟩
abbrev main_call7_cst : Ref sig .tc := ⟨.hbm, 326, rfl⟩
abbrev main_call7_v0 : Ref sig .tc := ⟨.hbm, 327, rfl⟩
abbrev main_call7_v1 : Ref sig .tc := ⟨.hbm, 328, rfl⟩
abbrev main_call7_cst_0 : Ref sig .tc := ⟨.hbm, 329, rfl⟩
abbrev main_call7_v2 : Ref sig .tc := ⟨.hbm, 330, rfl⟩
abbrev main_call7_v3 : Ref sig .tc := ⟨.hbm, 331, rfl⟩
abbrev main_call7_v4 : Ref sig .tc := ⟨.hbm, 332, rfl⟩
abbrev main_call7_v5 : Ref sig .tc := ⟨.hbm, 333, rfl⟩
abbrev main_call7_v6 : Ref sig .tc := ⟨.hbm, 334, rfl⟩
abbrev main_call7_v7 : Ref sig .tc := ⟨.hbm, 335, rfl⟩
abbrev main_call7_cst_1 : Ref sig .tc := ⟨.hbm, 336, rfl⟩
abbrev main_call7_v8 : Ref sig .tc := ⟨.hbm, 337, rfl⟩
abbrev main_call7_cst_2 : Ref sig .tc := ⟨.hbm, 338, rfl⟩
abbrev main_call7_v9 : Ref sig .tc := ⟨.hbm, 339, rfl⟩
abbrev main_call7_v10 : Ref sig .tc := ⟨.hbm, 340, rfl⟩
abbrev main_call7_v11 : Ref sig .tc := ⟨.hbm, 341, rfl⟩
abbrev main_call7_cst_3 : Ref sig .tc := ⟨.hbm, 342, rfl⟩
abbrev main_call7_v12 : Ref sig .tc := ⟨.hbm, 343, rfl⟩
abbrev main_call7_cst_4 : Ref sig .tc := ⟨.hbm, 344, rfl⟩
abbrev main_call7_call0_v0 : Ref sig .tc := ⟨.hbm, 345, rfl⟩
abbrev main_call7_call0_v1 : Ref sig .tc := ⟨.hbm, 346, rfl⟩
abbrev main_v205 : Ref sig .tc := ⟨.hbm, 347, rfl⟩
abbrev main_v206 : Ref sig .tc := ⟨.hbm, 348, rfl⟩
abbrev main_v207 : Ref sig .tc := ⟨.hbm, 349, rfl⟩
abbrev main_v208 : Ref sig .tc := ⟨.hbm, 350, rfl⟩
abbrev main_cst_33 : Ref sig .tc := ⟨.hbm, 351, rfl⟩
abbrev main_v209 : Ref sig .tc := ⟨.hbm, 352, rfl⟩
abbrev main_v210 : Ref sig .tc := ⟨.hbm, 353, rfl⟩
abbrev main_v211 : Ref sig .tc := ⟨.hbm, 354, rfl⟩
abbrev main_v212 : Ref sig .tc := ⟨.hbm, 355, rfl⟩
abbrev main_v213 : Ref sig .tc := ⟨.hbm, 356, rfl⟩
abbrev main_v214 : Ref sig .tc := ⟨.hbm, 357, rfl⟩
abbrev main_v215 : Ref sig .tc := ⟨.hbm, 358, rfl⟩
abbrev main_v216 : Ref sig .tc := ⟨.hbm, 359, rfl⟩
abbrev main_v217 : Ref sig .tc := ⟨.hbm, 360, rfl⟩
abbrev main_v218 : Ref sig .tc := ⟨.hbm, 361, rfl⟩
abbrev main_v219 : Ref sig .tc := ⟨.hbm, 362, rfl⟩
abbrev main_v220 : Ref sig .tc := ⟨.hbm, 363, rfl⟩
abbrev main_call8_cst : Ref sig .tc := ⟨.hbm, 364, rfl⟩
abbrev main_call8_v0 : Ref sig .tc := ⟨.hbm, 365, rfl⟩
abbrev main_v221 : Ref sig .tc := ⟨.hbm, 366, rfl⟩
abbrev main_v222 : Ref sig .tc := ⟨.hbm, 367, rfl⟩
abbrev main_cst_34 : Ref sig .tc := ⟨.hbm, 368, rfl⟩
abbrev main_v223 : Ref sig .tc := ⟨.hbm, 369, rfl⟩
abbrev main_v224 : Ref sig .tc := ⟨.hbm, 370, rfl⟩
abbrev main_v225 : Ref sig .tc := ⟨.hbm, 371, rfl⟩
abbrev main_cst_35 : Ref sig .tc := ⟨.hbm, 372, rfl⟩
abbrev main_v226 : Ref sig .tc := ⟨.hbm, 373, rfl⟩
abbrev main_cst_36 : Ref sig .tc := ⟨.hbm, 374, rfl⟩
abbrev main_v227 : Ref sig .tc := ⟨.hbm, 375, rfl⟩
abbrev main_v228 : Ref sig .tc := ⟨.hbm, 376, rfl⟩
abbrev main_v229 : Ref sig .tc := ⟨.hbm, 377, rfl⟩
abbrev main_cst_37 : Ref sig .tc := ⟨.hbm, 378, rfl⟩
abbrev main_v230 : Ref sig .tc := ⟨.hbm, 379, rfl⟩
abbrev main_v231 : Ref sig .tc := ⟨.hbm, 380, rfl⟩
abbrev main_v232 : Ref sig .tc := ⟨.hbm, 381, rfl⟩
abbrev main_v233 : Ref sig .tc := ⟨.hbm, 382, rfl⟩
abbrev main_v234 : Ref sig .tc := ⟨.hbm, 383, rfl⟩
abbrev main_v235 : Ref sig .tc := ⟨.hbm, 384, rfl⟩
abbrev main_v236 : Ref sig .tc := ⟨.hbm, 385, rfl⟩
abbrev main_v237 : Ref sig .tc := ⟨.hbm, 386, rfl⟩
abbrev main_v238 : Ref sig .tc := ⟨.hbm, 387, rfl⟩
abbrev main_v239 : Ref sig .tc := ⟨.hbm, 388, rfl⟩
abbrev main_call9_cst : Ref sig .tc := ⟨.hbm, 389, rfl⟩
abbrev main_call9_v0 : Ref sig .tc := ⟨.hbm, 390, rfl⟩
abbrev main_v240 : Ref sig .tc := ⟨.hbm, 391, rfl⟩
abbrev main_v241 : Ref sig .tc := ⟨.hbm, 392, rfl⟩
abbrev main_v242 : Ref sig .tc := ⟨.hbm, 393, rfl⟩
abbrev main_v243 : Ref sig .tc := ⟨.hbm, 394, rfl⟩
abbrev main_v244 : Ref sig .tc := ⟨.hbm, 395, rfl⟩
abbrev main_v245 : Ref sig .tc := ⟨.hbm, 396, rfl⟩
abbrev main_call10_cst : Ref sig .tc := ⟨.hbm, 397, rfl⟩
abbrev main_call10_v0 : Ref sig .tc := ⟨.hbm, 398, rfl⟩
abbrev main_v246 : Ref sig .tc := ⟨.hbm, 399, rfl⟩
abbrev main_v247 : Ref sig .tc := ⟨.hbm, 400, rfl⟩
abbrev main_v248 : Ref sig .tc := ⟨.hbm, 401, rfl⟩
abbrev main_v249 : Ref sig .tc := ⟨.hbm, 402, rfl⟩
abbrev main_v250 : Ref sig .tc := ⟨.hbm, 403, rfl⟩
abbrev main_v251 : Ref sig .tc := ⟨.hbm, 404, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S128x128 : S_.BroadcastsInDim S128x128 (![] : Fin 0 → Fin S128x128.rank)
  bcast_S50000_S50000x1_0 : S50000.BroadcastsInDim S50000x1 (![0] : Fin 1 → Fin S50000x1.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  transposes_S64x128_S128x64_1_0 : S64x128.Transposes [1, 0] S128x64
  bcast_S64_S1x64_1 : S64.BroadcastsInDim S1x64 (![1] : Fin 1 → Fin S1x64.rank)
  bcast_S1x64_S128x64_0_1 : S1x64.BroadcastsInDim S128x64 (![0, 1] : Fin 2 → Fin S128x64.rank)
  bcast_S_S128x64 : S_.BroadcastsInDim S128x64 (![] : Fin 0 → Fin S128x64.rank)
  transposes_S32x64_S64x32_1_0 : S32x64.Transposes [1, 0] S64x32
  bcast_S32_S1x32_1 : S32.BroadcastsInDim S1x32 (![1] : Fin 1 → Fin S1x32.rank)
  bcast_S1x32_S128x32_0_1 : S1x32.BroadcastsInDim S128x32 (![0, 1] : Fin 2 → Fin S128x32.rank)
  bcast_S_S128x32 : S_.BroadcastsInDim S128x32 (![] : Fin 0 → Fin S128x32.rank)
  transposes_S10x32_S32x10_1_0 : S10x32.Transposes [1, 0] S32x10
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x128_S128x128_S50000x128_1_0_0_1_n_n_wf : DotDims.WF S50000x128 S128x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  scatter_S128x128_S50000x1_S50000x128_1_0_0_1_wf : ScatterDims.WF S128x128 S50000x1 S50000x128 [1] [0] [0] 1
  scatter_S128_S50000x1_S50000_n_0_0_1_wf : ScatterDims.WF S128 S50000x1 S50000 [] [0] [0] 1
  dot_S128x128_S128x64_S128x64_1_0_0_1_n_n_wf : DotDims.WF S128x128 S128x64 S128x64 [1] [0] [0] [1] [] []
  dot_S128x64_S64x32_S128x32_1_0_0_1_n_n_wf : DotDims.WF S128x64 S64x32 S128x32 [1] [0] [0] [1] [] []
  dot_S128x32_S32x10_S128x10_1_0_0_1_n_n_wf : DotDims.WF S128x32 S32x10 S128x10 [1] [0] [0] [1] [] []

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S128x128_S128x64_S128x64_1_0_0_1_n_n : DotDims S128x128 S128x64 S128x64 where
  lhsContracting := [1]
  rhsContracting := [0]
  lhsNonContracting := [0]
  rhsNonContracting := [1]
  lhsBatch := []
  rhsBatch := []
  wf := dot_S128x128_S128x64_S128x64_1_0_0_1_n_n_wf
def dot_S128x64_S64x32_S128x32_1_0_0_1_n_n : DotDims S128x64 S64x32 S128x32 where
  lhsContracting := [1]
  rhsContracting := [0]
  lhsNonContracting := [0]
  rhsNonContracting := [1]
  lhsBatch := []
  rhsBatch := []
  wf := dot_S128x64_S64x32_S128x32_1_0_0_1_n_n_wf
def dot_S128x32_S32x10_S128x10_1_0_0_1_n_n : DotDims S128x32 S32x10 S128x10 where
  lhsContracting := [1]
  rhsContracting := [0]
  lhsNonContracting := [0]
  rhsNonContracting := [1]
  lhsBatch := []
  rhsBatch := []
  wf := dot_S128x32_S32x10_S128x10_1_0_0_1_n_n_wf

class Facts : Prop extends Facts₀ where

variable [Facts]
-- ==== Proof.RunValue.lean ====
/-
  The kernel program's run with its result named: every weakly fair execution terminates, nothing faults, the
  arguments end as launched, and the result buffer ends at what the last boundary of the program's segments holds
  there — the value the later modules compute.
-/
import proofs.«115673_j47373489274965_1_alg».proof.Proof.Gen.KernelIdeal.Frame

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option backward.isDefEq.respectTransparency.types false in
/-- The run with the result named: the launch over the segments as the frame makes it, with the result buffer's final
    contents read off the last boundary's contents beside the arguments'. -/
theorem run_value : θ_run defs (onTc (τ := τ) (main (F := F))) ⟨m, fun _ => 0, ρ⟩ (fun r => ∀ c : Dev nD,
      r.2.mem ((c.tc : Thread nD τ).loc main_v188) = W30 m ρ c (Proc.devRef .tc main_v188)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W30 m ρ c b)
    (hfin := fun c s' => by
      iintro ⟨⟨Hh, -⟩, HSI⟩
      unfold StableHlo.held
      imodintro
      iapply (pointsTo_read_all (Pipeline.ucRefs τ sig) (fun b => (((c : Thread nD τ)).1, b)) (W30 m ρ c) s')
      isplitl [Hh] <;> iassumption)
    (hQ := fun s h c =>
      ⟨h c _ (mem_uc main_v188 (by decide)),
       (h c _ (mem_uc main_arg0 (by decide))).trans (W30_main_arg0 m ρ c),
       (h c _ (mem_uc main_arg1 (by decide))).trans (W30_main_arg1 m ρ c),
       (h c _ (mem_uc main_arg2 (by decide))).trans (W30_main_arg2 m ρ c),
       (h c _ (mem_uc main_arg3 (by decide))).trans (W30_main_arg3 m ρ c),
       (h c _ (mem_uc main_arg4 (by decide))).trans (W30_main_arg4 m ρ c),
       (h c _ (mem_uc main_arg5 (by decide))).trans (W30_main_arg5 m ρ c),
       (h c _ (mem_uc main_arg6 (by decide))).trans (W30_main_arg6 m ρ c),
       (h c _ (mem_uc main_arg7 (by decide))).trans (W30_main_arg7 m ρ c),
       (h c _ (mem_uc main_arg8 (by decide))).trans (W30_main_arg8 m ρ c),
       (h c _ (mem_uc main_arg9 (by decide))).trans (W30_main_arg9 m ρ c),
       (h c _ (mem_uc main_arg10 (by decide))).trans (W30_main_arg10 m ρ c),
       (h c _ (mem_uc main_arg11 (by decide))).trans (W30_main_arg11 m ρ c),
       (h c _ (mem_uc main_arg12 (by decide))).trans (W30_main_arg12 m ρ c),
       (h c _ (mem_uc main_arg13 (by decide))).trans (W30_main_arg13 m ρ c),
       (h c _ (mem_uc main_arg14 (by decide))).trans (W30_main_arg14 m ρ c)⟩)

end Cert.KernelIdeal.Gen

end
-- ==== Proof.SpecK.lean ====
/-
  The kernel program's host arithmetic between its regions, named as whole-array functions at the ideal values
  (a float is an extended real). A graph-convolution network: per layer a dense transform, an aggregation over the
  edges (gather the transformed rows at the edge sources, scale by the edge norm, scatter-add at the edge targets),
  column statistics of the aggregate, and a normalisation with rectifier and residual; then a mean pool per graph
  and a three-layer dense head. Each function below is the composition of the host operations as the program spells
  them; the aggregation and the pool are carried as opaque functions, only the statistics and the dense parts are
  ever opened.
-/
import proofs.«115673_j47373489274965_1_alg».proof.KernelIdeal
import Idealize.ShloMosaic.Lib.ValueIdx

noncomputable section

open scoped BigOperators

namespace Cert.KernelIdeal.Spec

open Idealize.ShloMosaic Idealize.ShloMosaic.ValueIdx Cert.KernelIdeal
variable [Facts]
open Facts₀ Facts

abbrev Mat := FVec Ideal S50000x128 .f32
abbrev V128 := FVec Ideal S128 .f32
abbrev R128 := FVec Ideal S1x128 .f32
abbrev M128 := FVec Ideal S128x128 .f32
abbrev IE := IVec S650000 32
abbrev FE := FVec Ideal S650000 .f32
abbrev EI := IVec S2x600000 32
abbrev IN := IVec S50000 32

/-! ## The edge lists and the per-edge norm -/

/-- Row `r` of the edge list followed by the self loops `0, 1, …, n-1`. -/
def edgeRow0 (ei : EI) : IE :=
  concatenate S650000 0 [⟨S600000, shapeCast S600000 (extractStridedSlice S1x600000 ![0, 0] ei slices_S2x600000_S1x600000_0_0) shapeCasts_S1x600000_S600000⟩,
    ⟨S50000, (iotaInDim S50000 32 0 : IVec S50000 32)⟩] concatenates_S600000_S50000_S650000_d0

def edgeRow1 (ei : EI) : IE :=
  concatenate S650000 0 [⟨S600000, shapeCast S600000 (extractStridedSlice S1x600000 ![1, 0] ei slices_S2x600000_S1x600000_1_0) shapeCasts_S1x600000_S600000⟩,
    ⟨S50000, (iotaInDim S50000 32 0 : IVec S50000 32)⟩] concatenates_S600000_S50000_S650000_d0

/-- An index list made a column of gather indices, negative entries wrapped by the extent. -/
def gidx (s : IE) : IVec S650000x1 32 :=
  broadcastInDim S650000x1 ![0] bcast_S650000_S650000x1_0
    (select (cmpi .slt s (broadcastInDim S650000 ![] bcast_S_S650000 (constantI S_ 32 0#32)))
      (addi s (broadcastInDim S650000 ![] bcast_S_S650000 (constantI S_ 32 50000#32))) s)

/-- The inverse square root of the in-degree of every node (zero where the degree is not positive). -/
def degv (dst : IE) : FVec Ideal S50000 .f32 :=
  Host.scatterAdd (F := Ideal) scatter_S50000_S650000x1_S650000_n_0_0_1
    (broadcastInDim S50000 ![] bcast_S_S50000 (constant (F := Ideal) S_ .f32 0x00000000#32))
    (broadcastInDim S650000x1 ![0] bcast_S650000_S650000x1_0 dst)
    (broadcastInDim S650000 ![] bcast_S_S650000 (constant (F := Ideal) S_ .f32 0x3F800000#32))

def dinv (dst : IE) : FVec Ideal S50000 .f32 :=
  select (cmpf .ogt (degv dst) (broadcastInDim S50000 ![] bcast_S_S50000 (constant (F := Ideal) S_ .f32 0x00000000#32)))
    (Host.rsqrt (F := Ideal) (degv dst)) (broadcastInDim S50000 ![] bcast_S_S50000 (id (constant (F := Ideal) S_ .f32 0x00000000#32)))

/-- The symmetric normalisation of every edge. -/
def edgeNorm (src dst : IE) : FE :=
  mulf (Host.gather gather_S50000_S650000x1_S650000_n_0_n_n_0_1_1 (dinv dst) (gidx src))
    (Host.gather gather_S50000_S650000x1_S650000_n_0_n_n_0_1_1 (dinv dst) (gidx dst))

/-! ## One layer's host arithmetic -/

/-- The aggregation over the edges: rows gathered at the sources, scaled by the edge norm, summed at the targets. -/
def aggr (hl : Mat) (src dst : IE) (nrm : FE) : Mat :=
  Host.scatterAdd (F := Ideal) scatter_S50000x128_S650000x1_S650000x128_1_0_0_1
    (broadcastInDim S50000x128 ![] bcast_S_S50000x128 (constant (F := Ideal) S_ .f32 0x00000000#32))
    (broadcastInDim S650000x1 ![0] bcast_S650000_S650000x1_0 dst)
    (mulf (Host.gather gather_S50000x128_S650000x1_S650000x128_1_0_n_n_0_1_1128 hl (gidx src))
      (broadcastInDim S650000x128 ![0, 1] bcast_S650000x1_S650000x128_0_1 (broadcastInDim S650000x1 ![0] bcast_S650000_S650000x1_0 nrm)))

/-- The column sums of a matrix. -/
def colsum (x : Mat) : V128 :=
  Host.reduceAdd (F := Ideal) x (constant (F := Ideal) S_ .f32 0x00000000#32) reducesTo_S50000x128_S128_d0 h_S_

/-- The column means: the sums over the number of rows. -/
def meanv (x : Mat) : V128 :=
  Host.divf (F := Ideal) (colsum x) (broadcastInDim S128 ![] bcast_S_S128 (constant (F := Ideal) S_ .f32 0x47435000#32))

/-- A matrix with its column means taken off (the variance's own spelling of the mean). -/
def centerv (x : Mat) : Mat :=
  subf x (broadcastInDim S50000x128 ![0, 1] bcast_S1x128_S50000x128_0_1
    (Host.divf (F := Ideal) (broadcastInDim S1x128 ![1] bcast_S128_S1x128_1 (colsum x))
      (broadcastInDim S1x128 ![] bcast_S_S1x128 (constant (F := Ideal) S_ .f32 0x47435000#32))))

/-- The column variances from the centred matrix: the column sums of the squares over the row count less the
    degrees of freedom given away (none), guarded by that divisor being positive. -/
def dof : FVec Ideal S_ .f32 :=
  subf (constant (F := Ideal) S_ .f32 0x47435000#32) (sitofp .f32 (constantI S_ 32 0#32 : IVec S_ 32))

def vtail (v5 : Mat) : V128 :=
  select (broadcastInDim S128 ![] bcast_S_S128 (cmpf .ogt dof (constant (F := Ideal) S_ .f32 0x00000000#32)))
    (Host.divf (F := Ideal)
      (Host.reduceAdd (F := Ideal) (mulf v5 v5) (constant (F := Ideal) S_ .f32 0x00000000#32) reducesTo_S50000x128_S128_d0 h_S_)
      (broadcastInDim S128 ![] bcast_S_S128 dof))
    (broadcastInDim S128 ![] bcast_S_S128 (id (constant (F := Ideal) S_ .f32 0x7FC00000#32)))

/-- The column variances. -/
def varv (x : Mat) : V128 := vtail (centerv x)

/-- Slice `l` of a stack of four square matrices, and of a stack of four vectors: stated per layer below. -/
def row128 (v : V128) : R128 := shapeCast S1x128 v shapeCasts_S128_S1x128

/-- The all-zero bias row the layers' transforms take. -/
def zrow : R128 := broadcastInDim S1x128 ![] bcast_S_S1x128 (constant (F := Ideal) S_ .f32 0x00000000#32)

/-- A vector of 128 entries repeated down all rows (first made a one-row matrix). -/
def bb (b : V128) : Mat :=
  broadcastInDim S50000x128 ![0, 1] bcast_S1x128_S50000x128_0_1 (broadcastInDim S1x128 ![1] bcast_S128_S1x128_1 b)

/-- The reference's spelling of the normalisation, rectifier and residual: the statistics are those of the matrix
    `y` it is handed (the aggregate with the bias already added). -/
def refNorm (y : Mat) (g be : V128) (res : Mat) : Mat :=
  addf (maximumf
      (addf (mulf (mulf (subf y (bb (meanv y)))
        (bb (Host.rsqrt (F := Ideal) (addf (varv y) (broadcastInDim S128 ![] bcast_S_S128 (constant (F := Ideal) S_ .f32 0x3727C5AC#32))))))
        (bb g)) (bb be))
      (broadcastInDim S50000x128 ![] bcast_S_S50000x128 (constant (F := Ideal) S_ .f32 0x00000000#32)))
    res

/-! ## The regions' results, entry by entry -/

/-- A dense transform: row `p` of `x` against column `q` of `w`, plus the bias row's entry. -/
def linArr (x : Mat) (w : M128) (b : R128) : Mat :=
  fun i => (∑ k : Fin 128, x (ix2 (i 0) k) * w (ix2 k (i 1))) + b (ix2 (0 : Fin 1) (i 1))

/-- One entry of the normalisation with rectifier and residual. -/
def bnEntry (a r b g be mu va : EReal) : EReal :=
  max ((((a + b) - mu) * FloatOps.rsqrt (F := Ideal) (φ := .f32) (va + FloatOps.ofBits (F := Ideal) .f32 0x3727C5AC#32)) * g + be)
    (FloatOps.ofBits (F := Ideal) .f32 0x00000000#32) + r

/-- The normalisation region: aggregate, residual, bias row, scale row, shift row, mean row, variance row. -/
def bnArr (a r : Mat) (b g be mu va : R128) : Mat :=
  fun i => bnEntry (a (ix2 (i 0) (i 1))) (r (ix2 (i 0) (i 1))) (b (ix2 (0 : Fin 1) (i 1))) (g (ix2 (0 : Fin 1) (i 1)))
    (be (ix2 (0 : Fin 1) (i 1))) (mu (ix2 (0 : Fin 1) (i 1))) (va (ix2 (0 : Fin 1) (i 1)))

/-! ## The layers' parameters, the layer as a whole, the pool and the head -/

/-- Layer `l`'s square weight matrix, transposed: slice `l` of the stack. -/
def wT (l : ℕ) (h : S4x128x128.Slices ![l, 0, 0] S1x128x128) (a5 : FVec Ideal S4x128x128 .f32) : M128 :=
  transpose S128x128 [1, 0] (shapeCast S128x128 (extractStridedSlice S1x128x128 ![l, 0, 0] a5 h) shapeCasts_S1x128x128_S128x128)
    transposes_S128x128_S128x128_1_0

/-- Layer `l`'s vector of a stack of four vectors. -/
def vsl (l : ℕ) (h : S4x128.Slices ![l, 0] S1x128) (a : FVec Ideal S4x128 .f32) : V128 :=
  shapeCast S128 (extractStridedSlice S1x128 ![l, 0] a h) shapeCasts_S1x128_S128

/-- One layer as the kernel program computes it: transform with a zero bias row, aggregate, take the column
    statistics of the raw aggregate, and normalise the aggregate plus bias with the mean shifted by the bias. -/
def layerK (h : Mat) (w : M128) (b g be : V128) (src dst : IE) (nrm : FE) : Mat :=
  bnArr (aggr (linArr h w zrow) src dst nrm) h (row128 b) (row128 g) (row128 be)
    (row128 (addf (meanv (aggr (linArr h w zrow) src dst nrm)) b)) (row128 (varv (aggr (linArr h w zrow) src dst nrm)))

/-- One layer as the reference computes it, over its own product `dotf`: product, aggregate, add the bias, normalise
    with the statistics of that sum. -/
def layerR (dotf : Mat → M128 → Mat) (h : Mat) (w : M128) (b g be : V128) (src dst : IE) (nrm : FE) : Mat :=
  refNorm (addf (aggr (dotf h w) src dst nrm) (bb b)) g be h

/-- The mean of the node rows of every graph: row sums per graph over the node counts (at least one). -/
def pool (h : Mat) (batch : IN) : FVec Ideal S128x128 .f32 :=
  Host.divf (F := Ideal)
    (Host.scatterAdd (F := Ideal) scatter_S128x128_S50000x1_S50000x128_1_0_0_1
      (broadcastInDim S128x128 ![] bcast_S_S128x128 (constant (F := Ideal) S_ .f32 0x00000000#32))
      (broadcastInDim S50000x1 ![0] bcast_S50000_S50000x1_0 batch) h)
    (broadcastInDim S128x128 ![0, 1] bcast_S128x1_S128x128_0_1 (broadcastInDim S128x1 ![0] bcast_S128_S128x1_0
      (maximumf
        (Host.scatterAdd (F := Ideal) scatter_S128_S50000x1_S50000_n_0_0_1
          (broadcastInDim S128 ![] bcast_S_S128 (constant (F := Ideal) S_ .f32 0x00000000#32))
          (broadcastInDim S50000x1 ![0] bcast_S50000_S50000x1_0 batch)
          (broadcastInDim S50000 ![] bcast_S_S50000 (constant (F := Ideal) S_ .f32 0x3F800000#32)))
        (broadcastInDim S128 ![] bcast_S_S128 (constant (F := Ideal) S_ .f32 0x3F800000#32)))))

/-- A rectified dense layer at an entry, and the three-layer head. -/
def reluE (x : EReal) : EReal := max x (FloatOps.ofBits (F := Ideal) .f32 0x00000000#32)

def mlpArr (g : FVec Ideal S128x128 .f32) (w1 : FVec Ideal S128x64 .f32) (b1 : FVec Ideal S1x64 .f32)
    (w2 : FVec Ideal S64x32 .f32) (b2 : FVec Ideal S1x32 .f32) (w3 : FVec Ideal S32x10 .f32) (b3 : FVec Ideal S1x10 .f32) :
    FVec Ideal S128x10 .f32 :=
  fun i => (∑ c : Fin 32,
      reluE ((∑ b : Fin 64, reluE ((∑ a : Fin 128, g (ix2 (i 0) a) * w1 (ix2 a b)) + b1 (ix2 (0 : Fin 1) b)) * w2 (ix2 b c))
        + b2 (ix2 (0 : Fin 1) c)) * w3 (ix2 c (i 1))) + b3 (ix2 (0 : Fin 1) (i 1))

end Cert.KernelIdeal.Spec

end
-- ==== Proof.ChainTools.lean ====
/-
  Small tools for reading a fold of host operations: the fold over an appended list is the fold over the second
  list of the fold over the first, and a buffer that a list of operations does not write keeps its contents.
-/
import Idealize.ShloMosaic.Lib.StableHlo.Run

namespace Cert.ChainTools

open Idealize.ShloMosaic

theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, StableHlo.after_cons, ih]

/-- When every operation of the list writes exactly one buffer, and `W` lists those buffers in order, a buffer
    outside `W` holds after the list what it held before. -/
theorem after_of_not_written {τ : Topo} {sig : RefSig} {Val : EltTy → Type} {l : List (HloOp τ sig Val)} {W : List (Ref sig .tc)}
    (h : l.map HloOp.writes = W.map fun y => ({Proc.devRef .tc y} : Finset (DevRef τ sig))) {r : Ref sig .tc} (hr : r ∉ W)
    (V : Valuation τ sig Val) : StableHlo.after l V (Proc.devRef .tc r) = V (Proc.devRef .tc r) := by
  refine StableHlo.after_of_forall_not_mem l V fun op hop hb => ?_
  have hw : op.writes ∈ l.map HloOp.writes := List.mem_map.mpr ⟨op, hop, rfl⟩
  rw [h] at hw
  obtain ⟨y, hy, he⟩ := List.mem_map.mp hw
  rw [← he, Finset.mem_singleton] at hb
  exact hr (Proc.devRef_injective _ hb ▸ hy)

end Cert.ChainTools
-- ==== Proof.HostKW.lean ====
/-
  Which buffers each stretch of the kernel program's host operations writes, in order: every operation writes one buffer.
-/
import proofs.«115673_j47373489274965_1_alg».proof.Proof.Gen.KernelIdeal.Launch
import proofs.«115673_j47373489274965_1_alg».proof.Proof.ChainTools

noncomputable section

namespace Cert.KernelIdeal.ChainK

open Idealize.ShloMosaic Idealize.ShloMosaic.TcCoe Cert.KernelIdeal Cert.KernelIdeal.Gen

variable {F : FTy → Type} [FloatOps F]

abbrev hostOps0_W : List (Ref sig .tc) := [main_v0, main_v1, main_v2, main_v3, main_v4, main_v5, main_v6, main_cst, main_v7, main_cst_0, main_v8, main_v9, main_v10, main_cst_1, main_v11, main_v12, main_v13, main_cst_2]
theorem hostOps0_writes : (hostOps0 (F := F)).map HloOp.writes = hostOps0_W.map fun y => ({Proc.devRef .tc y} : Finset (DevRef τ sig)) := rfl

abbrev hostOps0_1_W : List (Ref sig .tc) := [main_call0_v0, main_call0_v1, main_v14]
theorem hostOps0_1_writes : (hostOps0_1 (F := F)).map HloOp.writes = hostOps0_1_W.map fun y => ({Proc.devRef .tc y} : Finset (DevRef τ sig)) := rfl

abbrev hostOps0_2_W : List (Ref sig .tc) := [main_c, main_v15, main_v16, main_c_3, main_v17, main_v18, main_v19, main_v20, main_v21, main_c_4, main_v22, main_v23, main_c_5, main_v24, main_v25, main_v26, main_v27, main_v28, main_v29, main_cst_6, main_v30, main_v31, main_v32]
theorem hostOps0_2_writes : (hostOps0_2 (F := F)).map HloOp.writes = hostOps0_2_W.map fun y => ({Proc.devRef .tc y} : Finset (DevRef τ sig)) := rfl

abbrev hostOps1_W : List (Ref sig .tc) := [main_v34, main_v35, main_v36]
theorem hostOps1_writes : (hostOps1 (F := F)).map HloOp.writes = hostOps1_W.map fun y => ({Proc.devRef .tc y} : Finset (DevRef τ sig)) := rfl

abbrev hostOps2_W : List (Ref sig .tc) := [main_c_7, main_v38, main_v39, main_c_8, main_v40, main_v41, main_v42, main_v43, main_v44, main_v45, main_v46, main_v47, main_cst_9, main_v48, main_v49, main_v50, main_cst_10, main_v51, main_cst_11, main_v52, main_v53, main_c_12]
theorem hostOps2_writes : (hostOps2 (F := F)).map HloOp.writes = hostOps2_W.map fun y => ({Proc.devRef .tc y} : Finset (DevRef τ sig)) := rfl

abbrev hostOps2_1_W : List (Ref sig .tc) := [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v54]
theorem hostOps2_1_writes : (hostOps2_1 (F := F)).map HloOp.writes = hostOps2_1_W.map fun y => ({Proc.devRef .tc y} : Finset (DevRef τ sig)) := rfl

abbrev hostOps2_2_W : List (Ref sig .tc) := [main_v55, main_v56, main_v57, main_v58, main_v59, main_v60, main_v61, main_v62, main_v63, main_v64, main_v65, main_v66]
theorem hostOps2_2_writes : (hostOps2_2 (F := F)).map HloOp.writes = hostOps2_2_W.map fun y => ({Proc.devRef .tc y} : Finset (DevRef τ sig)) := rfl

abbrev hostOps3_W : List (Ref sig .tc) := [main_v68, main_v69, main_v70]
theorem hostOps3_writes : (hostOps3 (F := F)).map HloOp.writes = hostOps3_W.map fun y => ({Proc.devRef .tc y} : Finset (DevRef τ sig)) := rfl

abbrev hostOps4_W : List (Ref sig .tc) := [main_c_13, main_v72, main_v73, main_c_14, main_v74, main_v75, main_v76, main_v77, main_v78, main_v79, main_v80, main_v81, main_cst_15, main_v82, main_v83, main_v84, main_cst_16, main_v85, main_cst_17, main_v86, main_v87, main_c_18]
theorem hostOps4_writes : (hostOps4 (F := F)).map HloOp.writes = hostOps4_W.map fun y => ({Proc.devRef .tc y} : Finset (DevRef τ sig)) := rfl

abbrev hostOps4_1_W : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v88]
theorem hostOps4_1_writes : (hostOps4_1 (F := F)).map HloOp.writes = hostOps4_1_W.map fun y => ({Proc.devRef .tc y} : Finset (DevRef τ sig)) := rfl

abbrev hostOps4_2_W : List (Ref sig .tc) := [main_v89, main_v90, main_v91, main_v92, main_v93, main_v94, main_v95, main_v96, main_v97, main_v98, main_v99, main_v100]
theorem hostOps4_2_writes : (hostOps4_2 (F := F)).map HloOp.writes = hostOps4_2_W.map fun y => ({Proc.devRef .tc y} : Finset (DevRef τ sig)) := rfl

abbrev hostOps5_W : List (Ref sig .tc) := [main_v102, main_v103, main_v104]
theorem hostOps5_writes : (hostOps5 (F := F)).map HloOp.writes = hostOps5_W.map fun y => ({Proc.devRef .tc y} : Finset (DevRef τ sig)) := rfl

abbrev hostOps6_W : List (Ref sig .tc) := [main_c_19, main_v106, main_v107, main_c_20, main_v108, main_v109, main_v110, main_v111, main_v112, main_v113, main_v114, main_v115, main_cst_21, main_v116, main_v117, main_v118, main_cst_22, main_v119, main_cst_23, main_v120, main_v121, main_c_24]
theorem hostOps6_writes : (hostOps6 (F := F)).map HloOp.writes = hostOps6_W.map fun y => ({Proc.devRef .tc y} : Finset (DevRef τ sig)) := rfl

abbrev hostOps6_1_W : List (Ref sig .tc) := [main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v122]
theorem hostOps6_1_writes : (hostOps6_1 (F := F)).map HloOp.writes = hostOps6_1_W.map fun y => ({Proc.devRef .tc y} : Finset (DevRef τ sig)) := rfl

abbrev hostOps6_2_W : List (Ref sig .tc) := [main_v123, main_v124, main_v125, main_v126, main_v127, main_v128, main_v129, main_v130, main_v131, main_v132, main_v133, main_v134]
theorem hostOps6_2_writes : (hostOps6_2 (F := F)).map HloOp.writes = hostOps6_2_W.map fun y => ({Proc.devRef .tc y} : Finset (DevRef τ sig)) := rfl

abbrev hostOps7_W : List (Ref sig .tc) := [main_v136, main_v137, main_v138]
theorem hostOps7_writes : (hostOps7 (F := F)).map HloOp.writes = hostOps7_W.map fun y => ({Proc.devRef .tc y} : Finset (DevRef τ sig)) := rfl

abbrev hostOps8_W : List (Ref sig .tc) := [main_c_25, main_v140, main_v141, main_c_26, main_v142, main_v143, main_v144, main_v145, main_v146, main_v147, main_v148, main_v149, main_cst_27, main_v150, main_v151, main_v152, main_cst_28, main_v153, main_cst_29, main_v154, main_v155, main_c_30]
theorem hostOps8_writes : (hostOps8 (F := F)).map HloOp.writes = hostOps8_W.map fun y => ({Proc.devRef .tc y} : Finset (DevRef τ sig)) := rfl

abbrev hostOps8_1_W : List (Ref sig .tc) := [main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v156]
theorem hostOps8_1_writes : (hostOps8_1 (F := F)).map HloOp.writes = hostOps8_1_W.map fun y => ({Proc.devRef .tc y} : Finset (DevRef τ sig)) := rfl

abbrev hostOps8_2_W : List (Ref sig .tc) := [main_v157, main_v158, main_v159, main_v160, main_v161, main_v162, main_v163, main_v164, main_v165, main_v166, main_v167, main_v168]
theorem hostOps8_2_writes : (hostOps8_2 (F := F)).map HloOp.writes = hostOps8_2_W.map fun y => ({Proc.devRef .tc y} : Finset (DevRef τ sig)) := rfl

abbrev hostOps9_W : List (Ref sig .tc) := [main_cst_31, main_v170, main_v171, main_v172, main_cst_32, main_v173, main_cst_33, main_v174, main_v175, main_v176, main_cst_34, main_v177, main_v178, main_v179, main_v180, main_v181, main_v182, main_v183, main_v184, main_v185, main_v186, main_v187]
theorem hostOps9_writes : (hostOps9 (F := F)).map HloOp.writes = hostOps9_W.map fun y => ({Proc.devRef .tc y} : Finset (DevRef τ sig)) := rfl

end Cert.KernelIdeal.ChainK

end
-- ==== Proof.HostKPre.lean ====
/-
  The host operations before the first region of the kernel program, read as whole-array functions of the
  arguments: the two edge lists with the self loops appended, the per-edge norm, the zero bias row, and the
  embedding's weight transposed and bias laid out as a row. The stretch is read in two parts, cut after the edge
  lists: the norm is a function of the two lists as they stand.
-/
import proofs.«115673_j47373489274965_1_alg».proof.Proof.Gen.KernelIdeal.Launch
import proofs.«115673_j47373489274965_1_alg».proof.Proof.SpecK
import proofs.«115673_j47373489274965_1_alg».proof.Proof.ChainTools
import proofs.«115673_j47373489274965_1_alg».proof.Proof.HostKW

noncomputable section

namespace Cert.KernelIdeal.ChainK

open Idealize.ShloMosaic Idealize.ShloMosaic.TcCoe Cert.KernelIdeal Cert.KernelIdeal.Gen Cert.KernelIdeal.Spec Cert.ChainTools
open Facts₀ Facts

section Lists
variable {F : FTy → Type} [FloatOps F]

/-- The operations that build the two edge lists. -/
abbrev hostPreA : List (HloOp τ sig (Elt F)) :=
  [ StableHlo.nullary main_v0 (iotaInDim S50000 32 0),
    StableHlo.unary main_arg1 main_v1 ((extractStridedSlice S1x600000 ![0, 0] · Facts₀.slices_S2x600000_S1x600000_0_0) : (⟨S2x600000, .i32⟩ : BufTy).Contents (Elt F) → (⟨S1x600000, .i32⟩ : BufTy).Contents (Elt F)),
    StableHlo.reshape main_v1 main_v2 rfl Facts₀.shapeCasts_S1x600000_S600000,
    StableHlo.binary main_v2 main_v0 main_v3 ((fun a b => concatenate S650000 0 [⟨S600000, a⟩, ⟨S50000, b⟩] Facts₀.concatenates_S600000_S50000_S650000_d0) : (⟨S600000, .i32⟩ : BufTy).Contents (Elt F) → (⟨S50000, .i32⟩ : BufTy).Contents (Elt F) → (⟨S650000, .i32⟩ : BufTy).Contents (Elt F)),
    StableHlo.unary main_arg1 main_v4 ((extractStridedSlice S1x600000 ![1, 0] · Facts₀.slices_S2x600000_S1x600000_1_0) : (⟨S2x600000, .i32⟩ : BufTy).Contents (Elt F) → (⟨S1x600000, .i32⟩ : BufTy).Contents (Elt F)),
    StableHlo.reshape main_v4 main_v5 rfl Facts₀.shapeCasts_S1x600000_S600000,
    StableHlo.binary main_v5 main_v0 main_v6 ((fun a b => concatenate S650000 0 [⟨S600000, a⟩, ⟨S50000, b⟩] Facts₀.concatenates_S600000_S50000_S650000_d0) : (⟨S600000, .i32⟩ : BufTy).Contents (Elt F) → (⟨S50000, .i32⟩ : BufTy).Contents (Elt F) → (⟨S650000, .i32⟩ : BufTy).Contents (Elt F)) ]

/-- The rest of the first stretch, then the two stretches after it. -/
abbrev hostPreB0 : List (HloOp τ sig (Elt F)) :=
  [ StableHlo.nullary main_cst (constant S_ .f32 0x3F800000#32),
    StableHlo.unary main_cst main_v7 (broadcastInDim S650000 ![] Facts₀.bcast_S_S650000 : (⟨S_, .f32⟩ : BufTy).Contents (Elt F) → (⟨S650000, .f32⟩ : BufTy).Contents (Elt F)),
    StableHlo.nullary main_cst_0 (constant S_ .f32 0x00000000#32),
    StableHlo.unary main_cst_0 main_v8 (broadcastInDim S50000 ![] Facts₀.bcast_S_S50000 : (⟨S_, .f32⟩ : BufTy).Contents (Elt F) → (⟨S50000, .f32⟩ : BufTy).Contents (Elt F)),
    StableHlo.unary main_v6 main_v9 (broadcastInDim S650000x1 ![0] Facts₀.bcast_S650000_S650000x1_0 : (⟨S650000, .i32⟩ : BufTy).Contents (Elt F) → (⟨S650000x1, .i32⟩ : BufTy).Contents (Elt F)),
    StableHlo.ternary main_v8 main_v9 main_v7 main_v10 ((fun x i u => Host.scatterAdd scatter_S50000_S650000x1_S650000_n_0_0_1 x i u) : (⟨S50000, .f32⟩ : BufTy).Contents (Elt F) → (⟨S650000x1, .i32⟩ : BufTy).Contents (Elt F) → (⟨S650000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] Facts₀.bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.unary main_v10 main_v13 (Host.rsqrt : (⟨S50000, .f32⟩ : BufTy).Contents (Elt F) → (⟨S50000, .f32⟩ : BufTy).Contents (Elt F)),
    StableHlo.nullary main_cst_2 (constant S_ .f32 0x00000000#32) ]

abbrev hostPreB : List (HloOp τ sig (Elt F)) := hostPreB0 ++ hostOps0_1 ++ hostOps0_2

abbrev hostPreA_W : List (Ref sig .tc) := [main_v0, main_v1, main_v2, main_v3, main_v4, main_v5, main_v6]
abbrev hostPreB0_W : List (Ref sig .tc) := [main_cst, main_v7, main_cst_0, main_v8, main_v9, main_v10, main_cst_1, main_v11, main_v12, main_v13, main_cst_2]
theorem hostPreA_writes : (hostPreA (F := F)).map HloOp.writes = hostPreA_W.map fun y => ({Proc.devRef .tc y} : Finset (DevRef τ sig)) := rfl
theorem hostPreB0_writes : (hostPreB0 (F := F)).map HloOp.writes = hostPreB0_W.map fun y => ({Proc.devRef .tc y} : Finset (DevRef τ sig)) := rfl

theorem hostOps0_split : (hostOps0 : List (HloOp τ sig (Elt F))) = hostPreA ++ hostPreB0 := rfl

end Lists

theorem after_hostPre (V : Valuation τ sig (Elt Ideal)) :
    StableHlo.after (hostOps0_2 (F := Ideal)) (StableHlo.after (hostOps0_1 (F := Ideal)) (StableHlo.after (hostOps0 (F := Ideal)) V))
      = StableHlo.after (hostPreB (F := Ideal)) (StableHlo.after (hostPreA (F := Ideal)) V) := by
  rw [hostOps0_split]
  simp only [hostPreB, after_append]

section
variable (V : Valuation τ sig (Elt Ideal))

theorem hostPreA_src : StableHlo.after (hostPreA (F := Ideal)) V (Proc.devRef .tc main_v3) = edgeRow0 (V (Proc.devRef .tc main_arg1)) := by
  after_results
  all_goals rfl

theorem hostPreA_dst : StableHlo.after (hostPreA (F := Ideal)) V (Proc.devRef .tc main_v6) = edgeRow1 (V (Proc.devRef .tc main_arg1)) := by
  after_results
  all_goals rfl

/-- The inverse square roots of the degrees, after the first two parts of the stretch. -/
theorem hostPreB1_dinv : StableHlo.after (hostOps0_1 (F := Ideal)) (StableHlo.after (hostPreB0 (F := Ideal)) V) (Proc.devRef .tc main_v14)
    = dinv (V (Proc.devRef .tc main_v6)) := by
  rw [← after_append]
  simp only [hostPreB0, hostOps0_1, List.cons_append, List.nil_append]
  after_results_simp
  all_goals (try simp only [cast_eq])
  all_goals rfl

/-- The edge norm from given inverse square roots of the degrees. -/
def normOf (d : FVec Ideal S50000 .f32) (src dst : IE) : FE :=
  mulf (Host.gather gather_S50000_S650000x1_S650000_n_0_n_n_0_1_1 d (gidx src))
    (Host.gather gather_S50000_S650000x1_S650000_n_0_n_n_0_1_1 d (gidx dst))

/-- The edge norm from the inverse square roots and the two edge lists as the last part finds them. -/
theorem hostOps0_2_norm : StableHlo.after (hostOps0_2 (F := Ideal)) V (Proc.devRef .tc main_v29)
    = normOf (V (Proc.devRef .tc main_v14)) (V (Proc.devRef .tc main_v3)) (V (Proc.devRef .tc main_v6)) := by
  after_results_simp
  all_goals (try simp only [cast_eq])
  all_goals rfl

theorem hostPreB_norm : StableHlo.after (hostPreB (F := Ideal)) V (Proc.devRef .tc main_v29)
    = edgeNorm (V (Proc.devRef .tc main_v3)) (V (Proc.devRef .tc main_v6)) := by
  simp only [hostPreB, after_append]
  rw [hostOps0_2_norm, hostPreB1_dinv,
    after_of_not_written hostOps0_1_writes (r := main_v3) (by decide), after_of_not_written hostPreB0_writes (r := main_v3) (by decide),
    after_of_not_written hostOps0_1_writes (r := main_v6) (by decide), after_of_not_written hostPreB0_writes (r := main_v6) (by decide)]
  rfl

theorem hostPreB_zrow : StableHlo.after (hostPreB (F := Ideal)) V (Proc.devRef .tc main_v30) = zrow := by
  simp only [hostPreB, hostPreB0, hostOps0_1, hostOps0_2, List.cons_append, List.nil_append]
  after_results_simp
  all_goals (try simp only [cast_eq])
  all_goals rfl

theorem hostPreB_wemb : StableHlo.after (hostPreB (F := Ideal)) V (Proc.devRef .tc main_v31)
    = transpose S128x128 [1, 0] (V (Proc.devRef .tc main_arg3)) Facts₀.transposes_S128x128_S128x128_1_0 := by
  simp only [hostPreB, hostPreB0, hostOps0_1, hostOps0_2, List.cons_append, List.nil_append]
  after_results_simp
  all_goals (try simp only [cast_eq])
  all_goals rfl

theorem hostPreB_bemb : StableHlo.after (hostPreB (F := Ideal)) V (Proc.devRef .tc main_v32) = row128 (V (Proc.devRef .tc main_arg4)) := by
  simp only [hostPreB, hostPreB0, hostOps0_1, hostOps0_2, List.cons_append, List.nil_append]
  after_results_simp
  all_goals (try simp only [cast_eq])
  all_goals rfl

/-- The second part writes neither edge list nor an argument. -/
theorem hostPreB_keep {b : Ref sig .tc} (hb : b ∉ hostPreB0_W) (h1 : b ∉ (hostOps0_1_W : List (Ref sig .tc)))
    (h2 : b ∉ (hostOps0_2_W : List (Ref sig .tc))) :
    StableHlo.after (hostPreB (F := Ideal)) V (Proc.devRef .tc b) = V (Proc.devRef .tc b) := by
  simp only [hostPreB, after_append]
  exact ((after_of_not_written hostOps0_2_writes h2 _).trans (after_of_not_written hostOps0_1_writes h1 _)).trans
    (after_of_not_written hostPreB0_writes hb _)

/-- The first part writes no argument. -/
theorem hostPreA_keep {b : Ref sig .tc} (hb : b ∉ hostPreA_W) :
    StableHlo.after (hostPreA (F := Ideal)) V (Proc.devRef .tc b) = V (Proc.devRef .tc b) :=
  after_of_not_written hostPreA_writes hb _

end

end Cert.KernelIdeal.ChainK

end
-- ==== Proof.LibKernelIdx.lean ====
/-
  Operations of a kernel body read at an index given by coordinates: the two keepdims column layout forms
  (a vector made a column, [a] → [a, 1], and a column repeated along the lanes, [a, 1] → [a, b]), a lane sum of a
  matrix read at a row, and a matrix product accumulated into the zero splat read at an entry. General in the
  extents; the arithmetic ones at the ideal values, where a float is an extended real.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKernelIdx

open Idealize.ShloMosaic Idealize.ShloMosaic.ValueIdx

variable {α : Type}

/-! ## The keepdims column forms -/

/-- An `[a]` array cast to the column `[a, 1]` reads, at `(i, u)`, the operand at `i`, whatever the unit
    coordinate `u`: both row-major positions are `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p` (its unit coordinate
    written `u`, whatever it is). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-! ## A lane sum at a row -/

/-- The sum of an `[a, b]` matrix along its second axis, read at row `p`, is the sum of that row's entries. The
    accumulator's side condition is typed as a program spells it, an equation between two zero words. -/
theorem laneSum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction (F := Ideal) .add [1] ⟨1, ![a]⟩ v 0x00000000#32 h hφ hacc (ix1 p) = ∑ k : Fin b, v (ix2 p k) := by
  refine (Ideal.multiReduction_add_single v 0x00000000#32 h hφ hacc (ix1 p)).trans ?_
  refine Finset.sum_congr rfl fun k _ => congrArg v (funext fun ax => Fin.ext ?_)
  match ax with
  | ⟨0, _⟩ => rfl
  | ⟨1, _⟩ => rfl

/-! ## A matrix product at an entry -/

/-- The product of an `[m, k]` by a `[k, n]` matrix (the left operand's second axis contracted with the right
    operand's first, no batch axes) accumulated into the zero splat, read at `(p, j)`: the sum over the contracted
    coordinate of the products of the entries. -/
theorem matmul_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (p : Fin m) (j : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 p j)
      = ∑ c : Fin k, A (ix2 p c) * B (ix2 c j) := by
  show FloatOps.matmul _ prec A B _ (ix2 p j) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 p j)
      ((contrEquiv1 _ k rfl rfl).symm c) = ix2 p c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 p j)
      ((contrEquiv1 _ k rfl rfl).symm c) = ix2 c j := by
    funext ax; apply Fin.ext
    match ax with
    | ⟨0, _⟩ => simp [DotDims.rhsIdx]; exact c2
    | ⟨1, _⟩ => simp [DotDims.rhsIdx]; rfl
  rw [l2, r2]

end Cert.LibKernelIdx

end
-- ==== Proof.LibHostDot.lean ====
/-
  The host's `dot_general` of an `[m, k]` by a `[k, n]` matrix (the left operand's second axis contracted with the
  right operand's first, no batch axes), at the ideal values, read at an entry: the sum over the contracted
  coordinate of the products of the entries. General in the extents.
-/
import Idealize.ShloMosaic.Lib.Pipeline.Value
import Idealize.ShloMosaic.Lib.ValueIdx
import Idealize.ShloMosaic.PureOps.Ideal.Laws

noncomputable section

open scoped BigOperators

namespace Cert.LibHostDot

open Idealize.ShloMosaic Idealize.ShloMosaic.ValueIdx

theorem dotGeneral_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (p : Fin m) (j : Fin n) :
    Host.dotGeneral (⟨[1], [0], [0], [1], [], [], w⟩ : DotDims ⟨2, ![m, k]⟩ ⟨2, ![k, n]⟩ ⟨2, ![m, n]⟩) prec A B (ix2 p j)
      = ∑ c : Fin k, A (ix2 p c) * B (ix2 c j) := by
  simp only [Host.dotGeneral]
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 p j)
      ((contrEquiv1 _ k rfl rfl).symm c) = ix2 p c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 p j)
      ((contrEquiv1 _ k rfl rfl).symm c) = ix2 c j := by
    funext ax; apply Fin.ext
    match ax with
    | ⟨0, _⟩ => simp [DotDims.rhsIdx]; exact c2
    | ⟨1, _⟩ => simp [DotDims.rhsIdx]; rfl
  rw [l2, r2]

end Cert.LibHostDot

end
-- ==== Proof.LibAffineIdx.lean ====
/-
  An affine layer read at an entry, on both sides, at the ideal values (a float is an extended real). The host form:
  a `dot_general` of an `[M, k]` by a `[k, n]` matrix plus a bias vector `[n]` broadcast first to a row `[1, n]` and
  then down the rows. The kernel form: the product of a block `[m, k]` by the same `[k, n]` matrix accumulated into the
  zero splat, the operands passed through a change of float format (the identity on extended reals), plus a bias row
  `[1, n]` broadcast down the rows. Both read, at `(p, q)`, `(∑ c, A (p, c) * B (c, q)) + bias q`. General in the extents.
-/
import Idealize.ShloMosaic.Lib.Pipeline.Value
import Idealize.ShloMosaic.Lib.ValueIdx
import Idealize.ShloMosaic.Lib.ValueLayout
import Idealize.ShloMosaic.PureOps.Ideal.Laws
import proofs.«115673_j47373489274965_1_alg».proof.Proof.LibKernelIdx
import proofs.«115673_j47373489274965_1_alg».proof.Proof.LibHostDot

noncomputable section

open scoped BigOperators

namespace Cert.LibAffineIdx

open Idealize.ShloMosaic Idealize.ShloMosaic.ValueIdx

/-! ## The bias, broadcast, read at an entry -/

/-- A vector `[n]` broadcast to the row `[1, n]` (its axis sent to the second one) reads, at `(u, q)`, the vector at
    `q`, whatever the unit coordinate `u`. -/
theorem rowOfVec_apply {α : Type} {n : ℕ} (h : (⟨1, ![n]⟩ : Shape).BroadcastsInDim ⟨2, ![1, n]⟩ (![1] : Fin 1 → Fin 2))
    (b : (⟨1, ![n]⟩ : Shape).Idx → α) (u : Fin 1) (q : Fin n) :
    broadcastInDim ⟨2, ![1, n]⟩ ![1] h b (ix2 u q) = b (ix1 q) := by
  refine broadcastInDim_apply ![1] h b (ix2 u q) (ix1 q) fun a => ?_
  match a with
  | ⟨0, _⟩ =>
    show q.val = if n = 1 then 0 else q.val
    split
    · have := q.isLt; omega
    · rfl

/-- A row `[1, n]` broadcast down `M` rows by `broadcast_in_dim` (axes kept in place) reads, at `(p, q)`, the row at
    `(u, q)`, whatever the unit coordinate `u`. -/
theorem rowsOfRow_apply {α : Type} {M n : ℕ}
    (h : (⟨2, ![1, n]⟩ : Shape).BroadcastsInDim ⟨2, ![M, n]⟩ (![0, 1] : Fin 2 → Fin 2))
    (r : (⟨2, ![1, n]⟩ : Shape).Idx → α) (p : Fin M) (q : Fin n) (u : Fin 1) :
    broadcastInDim ⟨2, ![M, n]⟩ ![0, 1] h r (ix2 p q) = r (ix2 u q) := by
  refine broadcastInDim_apply ![0, 1] h r (ix2 p q) (ix2 u q) fun a => ?_
  match a with
  | ⟨0, _⟩ =>
    show u.val = if (1 : ℕ) = 1 then 0 else p.val
    rw [if_pos rfl]; omega
  | ⟨1, _⟩ =>
    show q.val = if n = 1 then 0 else q.val
    split
    · have := q.isLt; omega
    · rfl

/-- A row `[1, n]` broadcast down `m` rows by a vector broadcast reads, at `(p, q)`, the row at `(u, q)`, whatever the
    unit coordinate `u`. -/
theorem broadcastTo_1n_mn_apply {α : Type} {m n : ℕ} (r : (⟨2, ![1, n]⟩ : Shape).Idx → α)
    (h : (⟨2, ![1, n]⟩ : Shape).Broadcasts ⟨2, ![m, n]⟩) (p : Fin m) (q : Fin n) (u : Fin 1) :
    broadcastTo ⟨2, ![m, n]⟩ r h (ix2 p q) = r (ix2 u q) := by
  refine broadcastTo_apply r h (ix2 p q) (ix2 u q) fun a => ?_
  match a with
  | ⟨0, _⟩ =>
    show u.val = if (1 : ℕ) = 1 then 0 else p.val
    rw [if_pos rfl]; omega
  | ⟨1, _⟩ =>
    show q.val = if n = 1 then 0 else q.val
    split
    · have := q.isLt; omega
    · rfl

/-- A vector `[n]` cast to the row `[1, n]` reads, at `(u, q)`, the vector at `q`: both row-major positions are `q`. -/
theorem shapeCast_n_1n_apply {α : Type} {n : ℕ} (b : (⟨1, ![n]⟩ : Shape).Idx → α)
    (h : (⟨1, ![n]⟩ : Shape).ShapeCasts ⟨2, ![1, n]⟩) (u : Fin 1) (q : Fin n) :
    shapeCast ⟨2, ![1, n]⟩ b h (ix2 u q) = b (ix1 q) :=
  shapeCast_apply b h _ _ (by
    have hu : u.val = 0 := by omega
    rw [Shape.rowMajor_val_two, Shape.rowMajor_val_one]
    show q.val = u.val * n + q.val
    rw [hu, Nat.zero_mul, Nat.zero_add])

/-! ## The two forms of the layer at an entry -/

/-- The host form at `(p, q)`: the row of `A` against the column of `B`, plus the bias at `q`. -/
theorem hostAffine_apply {M k n : ℕ}
    (w : DotDims.WF ⟨2, ![M, k]⟩ ⟨2, ![k, n]⟩ ⟨2, ![M, n]⟩ [1] [0] [0] [1] [] [])
    (h1 : (⟨1, ![n]⟩ : Shape).BroadcastsInDim ⟨2, ![1, n]⟩ (![1] : Fin 1 → Fin 2))
    (h2 : (⟨2, ![1, n]⟩ : Shape).BroadcastsInDim ⟨2, ![M, n]⟩ (![0, 1] : Fin 2 → Fin 2))
    (A : FVec Ideal ⟨2, ![M, k]⟩ .f32) (B : FVec Ideal ⟨2, ![k, n]⟩ .f32) (b : FVec Ideal ⟨1, ![n]⟩ .f32)
    (p : Fin M) (q : Fin n) :
    addf (Host.dotGeneral (F := Ideal) (⟨[1], [0], [0], [1], [], [], w⟩ : DotDims ⟨2, ![M, k]⟩ ⟨2, ![k, n]⟩ ⟨2, ![M, n]⟩) none A B)
        (broadcastInDim ⟨2, ![M, n]⟩ ![0, 1] h2 (broadcastInDim ⟨2, ![1, n]⟩ ![1] h1 b)) (ix2 p q)
      = (∑ c : Fin k, A (ix2 p c) * B (ix2 c q)) + b (ix1 q) := by
  refine (addf_apply _ _ _).trans ?_
  rw [Cert.LibHostDot.dotGeneral_apply w none A B p q, rowsOfRow_apply h2 _ p q 0, rowOfVec_apply h1 b 0 q]

/-- The kernel form at `(p, q)` of a block: the row of the block against the column of `W`, plus the bias row at `q`. -/
theorem kernelAffine_apply {m k n : ℕ}
    (w : DotDims.WF ⟨2, ![m, k]⟩ ⟨2, ![k, n]⟩ ⟨2, ![m, n]⟩ [1] [0] [0] [1] [] [])
    (hx : (⟨2, ![m, k]⟩ : Shape).ShapeCasts ⟨2, ![m, k]⟩) (hr : (⟨2, ![1, n]⟩ : Shape).ShapeCasts ⟨2, ![1, n]⟩)
    (hb : (⟨2, ![1, n]⟩ : Shape).Broadcasts ⟨2, ![m, n]⟩) (hlt : FTy.bits .bf16 < FTy.bits .f32)
    (x : FVec Ideal ⟨2, ![m, k]⟩ .f32) (W : FVec Ideal ⟨2, ![k, n]⟩ .f32) (r : FVec Ideal ⟨2, ![1, n]⟩ .f32)
    (p : Fin m) (q : Fin n) :
    addf (matmul (⟨[1], [0], [0], [1], [], [], w⟩ : DotDims ⟨2, ![m, k]⟩ ⟨2, ![k, n]⟩ ⟨2, ![m, n]⟩) none
          (truncf .bf16 (shapeCast ⟨2, ![m, k]⟩ x hx) hlt) (truncf .bf16 W hlt)
          (constant (F := Ideal) ⟨2, ![m, n]⟩ .f32 0x00000000#32))
        (broadcastTo ⟨2, ![m, n]⟩ (shapeCast ⟨2, ![1, n]⟩ r hr) hb) (ix2 p q)
      = (∑ c : Fin k, x (ix2 p c) * W (ix2 c q)) + r (ix2 0 q) := by
  rw [shapeCast_self x hx, shapeCast_self r hr]
  refine (addf_apply _ _ _).trans ?_
  rw [Cert.LibKernelIdx.matmul_zero_apply w none (truncf .bf16 x hlt) (truncf .bf16 W hlt) p q,
    broadcastTo_1n_mn_apply r hb p q 0]
  rfl

/-! ## Rows in blocks -/

/-- The offsets `(0, 0)` of a rectangle of a rank-2 array, spelt as the constant zero function. -/
theorem zero_offsets2 : (![0, 0] : Fin 2 → Nat) = fun _ => 0 := funext fun a => by fin_cases a <;> rfl

/-- Row `r` of an array of `N * B` rows lies in the block of `B` rows numbered `r / B`. -/
theorem row_in_block {B r : ℕ} (hB : 0 < B) : r / B * B ≤ r ∧ r < r / B * B + B := by
  have h1 := Nat.div_add_mod r B
  have h2 := Nat.mod_lt r hB
  rw [Nat.mul_comm] at h1
  omega

end Cert.LibAffineIdx

end
-- ==== Proof.RegCommon.lean ====
/-
  Entry-by-entry readings shared by the regions of the program, at the ideal values (a float is an extended real, a
  change of float format the identity).

  A dense layer on a block of rows: the block times a weight matrix, accumulated into the zero splat, plus a one-row
  matrix repeated down the rows. At row `p`, column `q` it is the row of the block against the column of the weights
  plus the row's entry `q`.

  Batch normalisation with a rectifier and a residual: per entry, the aggregate plus a per-column bias, centred by the
  column's mean, scaled by the reciprocal square root of the column's variance plus a small constant and by the
  column's scale, shifted by the column's shift, cut below at zero, plus the residual entry.

  A head of three dense layers, the first two followed by a cut below at zero.
-/
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws
import proofs.«115673_j47373489274965_1_alg».proof.Proof.LibKernelIdx
import proofs.«115673_j47373489274965_1_alg».proof.Proof.LibAffineIdx

noncomputable section

open scoped BigOperators

namespace Cert.KernelIdeal.Regions

open Idealize.ShloMosaic Idealize.ShloMosaic.ValueIdx

/-- The offsets `(0, 0)` of a rectangle of a rank-2 array are the constant zero function. -/
theorem hz2 : (![0, 0] : Fin 2 → Nat) = fun _ => 0 := funext fun a => by fin_cases a <;> rfl

/-- A reciprocal square root of a vector, read at an index, is the reciprocal square root of the entry there. -/
theorem rsqrt_apply {s : Shape} {φ : FTy} (x : FVec Ideal s φ) (i : s.Idx) : rsqrt x i = Ideal.rsqrt (x i) := rfl

/-! ## A dense layer -/

/-- A dense layer on a block, read at `(p, q)`: `(∑ c, x (p, c) * W (c, q)) + r (0, q)`. -/
theorem dense_apply {m k n : ℕ}
    (w : DotDims.WF ⟨2, ![m, k]⟩ ⟨2, ![k, n]⟩ ⟨2, ![m, n]⟩ [1] [0] [0] [1] [] [])
    (hb : (⟨2, ![1, n]⟩ : Shape).Broadcasts ⟨2, ![m, n]⟩) (hlt : FTy.bits .bf16 < FTy.bits .f32)
    (x : FVec Ideal ⟨2, ![m, k]⟩ .f32) (W : FVec Ideal ⟨2, ![k, n]⟩ .f32) (r : FVec Ideal ⟨2, ![1, n]⟩ .f32)
    (p : Fin m) (q : Fin n) :
    addf (matmul (⟨[1], [0], [0], [1], [], [], w⟩ : DotDims ⟨2, ![m, k]⟩ ⟨2, ![k, n]⟩ ⟨2, ![m, n]⟩) none
          (truncf .bf16 x hlt) (truncf .bf16 W hlt)
          (constant (F := Ideal) ⟨2, ![m, n]⟩ .f32 0x00000000#32))
        (broadcastTo ⟨2, ![m, n]⟩ r hb) (ix2 p q)
      = (∑ c : Fin k, x (ix2 p c) * W (ix2 c q)) + r (ix2 0 q) := by
  refine (addf_apply _ _ _).trans ?_
  rw [Cert.LibKernelIdx.matmul_zero_apply w none (truncf .bf16 x hlt) (truncf .bf16 W hlt) p q,
    Cert.LibAffineIdx.broadcastTo_1n_mn_apply r hb p q 0]
  rfl

/-- A dense layer followed by a cut below at the value of the zero word, read at `(p, q)`. -/
theorem denseRelu_apply {m k n : ℕ}
    (w : DotDims.WF ⟨2, ![m, k]⟩ ⟨2, ![k, n]⟩ ⟨2, ![m, n]⟩ [1] [0] [0] [1] [] [])
    (hb : (⟨2, ![1, n]⟩ : Shape).Broadcasts ⟨2, ![m, n]⟩) (hlt : FTy.bits .bf16 < FTy.bits .f32)
    (x : FVec Ideal ⟨2, ![m, k]⟩ .f32) (W : FVec Ideal ⟨2, ![k, n]⟩ .f32) (r : FVec Ideal ⟨2, ![1, n]⟩ .f32)
    (p : Fin m) (q : Fin n) :
    maximumf (addf (matmul (⟨[1], [0], [0], [1], [], [], w⟩ : DotDims ⟨2, ![m, k]⟩ ⟨2, ![k, n]⟩ ⟨2, ![m, n]⟩) none
          (truncf .bf16 x hlt) (truncf .bf16 W hlt)
          (constant (F := Ideal) ⟨2, ![m, n]⟩ .f32 0x00000000#32))
        (broadcastTo ⟨2, ![m, n]⟩ r hb))
        (broadcast ⟨2, ![m, n]⟩ (Scalar.ofBits (F := Ideal) .f32 0x00000000#32)) (ix2 p q)
      = max ((∑ c : Fin k, x (ix2 p c) * W (ix2 c q)) + r (ix2 0 q)) (Ideal.ofBits .f32 0x00000000#32) := by
  refine (maximumf_apply _ _ _).trans ?_
  rw [dense_apply w hb hlt x W r p q]
  rfl

/-- One entry of a dense layer of three arrays: row `p` of `X` against column `q` of `W`, plus entry `q` of the row `B`. -/
def denseEntry {n k m : ℕ} (X : (⟨2, ![n, k]⟩ : Shape).Idx → EReal) (W : (⟨2, ![k, m]⟩ : Shape).Idx → EReal)
    (B : (⟨2, ![1, m]⟩ : Shape).Idx → EReal) (p : Fin n) (q : Fin m) : EReal :=
  (∑ c : Fin k, X (ix2 p c) * W (ix2 c q)) + B (ix2 0 q)

theorem denseEntry_def {n k m : ℕ} (X : (⟨2, ![n, k]⟩ : Shape).Idx → EReal) (W : (⟨2, ![k, m]⟩ : Shape).Idx → EReal)
    (B : (⟨2, ![1, m]⟩ : Shape).Idx → EReal) (p : Fin n) (q : Fin m) :
    denseEntry X W B p q = (∑ c : Fin k, X (ix2 p c) * W (ix2 c q)) + B (ix2 0 q) := rfl

/-! ## Batch normalisation, rectifier, residual: one entry -/

/-- One entry of the normalised, rectified layer plus its residual, from the aggregate `agg`, the residual `res` and the
    column's bias, scale `gamma`, shift `beta`, mean and variance. -/
def bnEntry (agg res bias gamma beta mean var : EReal) : EReal :=
  max ((agg + bias - mean) * Ideal.rsqrt (var + Ideal.ofBits .f32 0x3727C5AC#32) * gamma + beta)
    (Ideal.ofBits .f32 0x00000000#32) + res

/-! ## The head: three dense layers -/

/-- The first hidden layer at row `p`, unit `b`. -/
def mlpH1 (g : (⟨2, ![128, 128]⟩ : Shape).Idx → EReal) (w1 : (⟨2, ![128, 64]⟩ : Shape).Idx → EReal)
    (b1 : (⟨2, ![1, 64]⟩ : Shape).Idx → EReal) (p : Fin 128) (b : Fin 64) : EReal :=
  max ((∑ a : Fin 128, g (ix2 p a) * w1 (ix2 a b)) + b1 (ix2 0 b)) (Ideal.ofBits .f32 0x00000000#32)

/-- The second hidden layer at row `p`, unit `c`. -/
def mlpH2 (g : (⟨2, ![128, 128]⟩ : Shape).Idx → EReal) (w1 : (⟨2, ![128, 64]⟩ : Shape).Idx → EReal)
    (b1 : (⟨2, ![1, 64]⟩ : Shape).Idx → EReal) (w2 : (⟨2, ![64, 32]⟩ : Shape).Idx → EReal)
    (b2 : (⟨2, ![1, 32]⟩ : Shape).Idx → EReal) (p : Fin 128) (c : Fin 32) : EReal :=
  max ((∑ b : Fin 64, mlpH1 g w1 b1 p b * w2 (ix2 b c)) + b2 (ix2 0 c)) (Ideal.ofBits .f32 0x00000000#32)

/-- The output layer at row `p`, class `q`. -/
def mlpOut (g : (⟨2, ![128, 128]⟩ : Shape).Idx → EReal) (w1 : (⟨2, ![128, 64]⟩ : Shape).Idx → EReal)
    (b1 : (⟨2, ![1, 64]⟩ : Shape).Idx → EReal) (w2 : (⟨2, ![64, 32]⟩ : Shape).Idx → EReal)
    (b2 : (⟨2, ![1, 32]⟩ : Shape).Idx → EReal) (w3 : (⟨2, ![32, 10]⟩ : Shape).Idx → EReal)
    (b3 : (⟨2, ![1, 10]⟩ : Shape).Idx → EReal) (p : Fin 128) (q : Fin 10) : EReal :=
  (∑ c : Fin 32, mlpH2 g w1 b1 w2 b2 p c * w3 (ix2 c q)) + b3 (ix2 0 q)

end Cert.KernelIdeal.Regions

end
-- ==== Proof.SpecBridge.lean ====
/-
  The regions' results as whole arrays, read at an entry: the dense transform, the normalisation and the head are,
  at row p and column q, the scalar formulas the regions' payloads compute there. The two spellings of each formula
  differ only in how the reciprocal square root and the float constants are named at the ideal values.
-/
import proofs.«115673_j47373489274965_1_alg».proof.Proof.SpecK
import proofs.«115673_j47373489274965_1_alg».proof.Proof.RegCommon

noncomputable section

open scoped BigOperators

namespace Cert.KernelIdeal.Spec

open Idealize.ShloMosaic Idealize.ShloMosaic.ValueIdx Cert.KernelIdeal
variable [Facts]
open Facts₀ Facts

theorem linArr_apply (x : Mat) (w : M128) (b : R128) (p : Fin 50000) (q : Fin 128) :
    linArr x w b (ix2 p q) = Cert.KernelIdeal.Regions.denseEntry x w b p q := rfl

theorem bnEntry_eq (a r b g be mu va : EReal) :
    bnEntry a r b g be mu va = Cert.KernelIdeal.Regions.bnEntry a r b g be mu va := rfl

theorem bnArr_apply (a r : Mat) (b g be mu va : R128) (p : Fin 50000) (q : Fin 128) :
    bnArr a r b g be mu va (ix2 p q)
      = Cert.KernelIdeal.Regions.bnEntry (a (ix2 p q)) (r (ix2 p q)) (b (ix2 (0 : Fin 1) q)) (g (ix2 (0 : Fin 1) q))
          (be (ix2 (0 : Fin 1) q)) (mu (ix2 (0 : Fin 1) q)) (va (ix2 (0 : Fin 1) q)) := rfl

theorem mlpArr_apply (g : FVec Ideal S128x128 .f32) (w1 : FVec Ideal S128x64 .f32) (b1 : FVec Ideal S1x64 .f32)
    (w2 : FVec Ideal S64x32 .f32) (b2 : FVec Ideal S1x32 .f32) (w3 : FVec Ideal S32x10 .f32) (b3 : FVec Ideal S1x10 .f32)
    (p : Fin 128) (q : Fin 10) :
    mlpArr g w1 b1 w2 b2 w3 b3 (ix2 p q) = Cert.KernelIdeal.Regions.mlpOut g w1 b1 w2 b2 w3 b3 p q := rfl

end Cert.KernelIdeal.Spec

end
-- ==== Proof.RegLin0.lean ====
/-
  Region 0 of the program is a dense layer over the rows of a matrix. Its output array has 50000 rows of 128
  entries, written ten blocks of 5000 rows at a time; the block written at grid point `t` is computed from rows
  `5000 t … 5000 t + 4999` of the first input array, the whole 128 × 128 weight array and the whole bias row. Entry
  `(p, q)` of the output is therefore row `p` of the first array against column `q` of the weights, plus entry `q`
  of the bias row, whatever block row `p` falls in: the point that covers row `p` is `p / 5000`, and the ten blocks
  tile the array. All at the ideal values, where a float is an extended real and a change of float format is the
  identity. Everything is stated at an arbitrary content `V` of the buffers when the region is entered.
-/
import proofs.«115673_j47373489274965_1_alg».proof.Proof.Gen.KernelIdeal.Frame
import proofs.«115673_j47373489274965_1_alg».proof.Proof.RegCommon
import Idealize.ShloMosaic.Lib.Pipeline.Value
import Idealize.ShloMosaic.Lib.ValueIdx
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Regions

open Cert.KernelIdeal Cert.KernelIdeal.Gen

variable (V : (c : Dev nD) → (b : Ref sig .tc) → Buf (Elt Ideal) ((c : Thread nD τ).loc b))

/-- The dense layer as one function of the three arrays, entry by entry. -/
def lin0G (X : S50000x128.Idx → EReal) (W : S128x128.Idx → EReal) (B : S1x128.Idx → EReal) : S50000x128.Idx → EReal :=
  fun i => (∑ k : Fin 128, X (ix2 (i 0) k) * W (ix2 k (i 1))) + B (ix2 0 (i 1))

/-- The body's result on a block of 5000 rows, read at `(p, q)`. -/
theorem pay0_apply (x0 : Vec Ideal S5000x128 .f32) (x1 : Vec Ideal S128x128 .f32) (x2 : Vec Ideal S1x128 .f32)
    (p : Fin 5000) (q : Fin 128) :
    k0_pay1 (F := Ideal) x0 x1 x2 (ix2 p q) = (∑ k : Fin 128, x0 (ix2 p k) * x1 (ix2 k q)) + x2 (ix2 0 q) := by
  unfold k0_pay1
  simp only [shapeCast_self]
  exact dense_apply dot_S5000x128_S128x128_S5000x128_1_0_0_1_n_n_wf broadcasts_S1x128_S5000x128 bitsLt_bf16_f32 x0 x1 x2 p q

/-- The body's result on blocks that are restrictions of three arrays `X`, `W`, `B`: when the first input's block
    holds the rows of `X` that the output's block covers (`h0`) and the other two blocks are the whole of `W` and
    of `B` (`h1`, `h2`), the result is the dense layer of `X`, `W`, `B` restricted to the output's block. The blocks'
    index embeddings `e0 … e3` are arbitrary functions here. -/
theorem lin0_block (X : S50000x128.Idx → EReal) (W : S128x128.Idx → EReal) (B : S1x128.Idx → EReal)
    (x0 : Vec Ideal S5000x128 .f32) (x1 : Vec Ideal S128x128 .f32) (x2 : Vec Ideal S1x128 .f32)
    (e0 e3 : S5000x128.Idx → S50000x128.Idx) (e1 : S128x128.Idx → S128x128.Idx) (e2 : S1x128.Idx → S1x128.Idx)
    (hx0 : x0 = fun y => X (e0 y)) (hx1 : x1 = fun y => W (e1 y)) (hx2 : x2 = fun y => B (e2 y))
    (h0 : ∀ (p : Fin 5000) (q k : Fin 128), e0 (ix2 p k) = ix2 ((e3 (ix2 p q)) 0) k)
    (h1 : ∀ (p : Fin 5000) (q k : Fin 128), e1 (ix2 k q) = ix2 k ((e3 (ix2 p q)) 1))
    (h2 : ∀ (p : Fin 5000) (q : Fin 128), e2 (ix2 0 q) = ix2 0 ((e3 (ix2 p q)) 1)) :
    k0_pay1 (F := Ideal) x0 x1 x2 = fun j => lin0G X W B (e3 j) := by
  subst hx0 hx1 hx2
  funext j
  obtain ⟨p, q, rfl⟩ : ∃ (p : Fin 5000) (q : Fin 128), j = ix2 p q := ⟨j 0, j 1, eq_ix2 j⟩
  rw [pay0_apply]
  unfold lin0G
  simp only [h0 p q, h1 p q, h2 p q] <;> rfl

/-- Where each window's block sits at grid point `t`: the row blocks of the first input and of the output are block
    `t`, the weights and the bias row are whole. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

set_option maxHeartbeats 1000000 in
/-- What point `t` writes back is block `t` of the dense layer of the arrays as the region finds them. -/
theorem flushed0_eq (c : Dev nD) (t : Fin cfg0.N) :
    (dat0 V c).flushed 3 t = ((cfg0.win 3).blk t).view.read (Elt Ideal)
      (lin0G (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz2]
  simp only [View.ld_unit_zero (S := S5000x128) hz2, View.ld_unit_zero (S := S128x128) hz2, View.ld_unit_zero (S := S1x128) hz2]
  obtain ⟨a0, a1, b0, b1, c0, c1, o0, o1⟩ := idx0 t
  have h0 : ∀ (p : Fin 5000) (q k : Fin 128), ((cfg0.win 0).blk t).view.emb (ix2 p k)
      = (ix2 ((((cfg0.win 3).blk t).view.emb (ix2 p q)) 0) k : S50000x128.Idx) := fun p q k => by
    funext a; apply Fin.ext
    match a with
    | ⟨0, _⟩ => show win0_0.index t (0 : Fin 2) * 5000 + 1 * p.val = win0_3.index t (0 : Fin 2) * 5000 + 1 * p.val; omega
    | ⟨1, _⟩ => show win0_0.index t (1 : Fin 2) * 128 + 1 * k.val = k.val; omega
  have h1 : ∀ (p : Fin 5000) (q k : Fin 128), ((cfg0.win 1).blk t).view.emb (ix2 k q)
      = (ix2 k ((((cfg0.win 3).blk t).view.emb (ix2 p q)) 1) : S128x128.Idx) := fun p q k => by
    funext a; apply Fin.ext
    match a with
    | ⟨0, _⟩ => show win0_1.index t (0 : Fin 2) * 128 + 1 * k.val = k.val; omega
    | ⟨1, _⟩ => show win0_1.index t (1 : Fin 2) * 128 + 1 * q.val = win0_3.index t (1 : Fin 2) * 128 + 1 * q.val; omega
  have h2 : ∀ (p : Fin 5000) (q : Fin 128), ((cfg0.win 2).blk t).view.emb (ix2 0 q)
      = (ix2 0 ((((cfg0.win 3).blk t).view.emb (ix2 p q)) 1) : S1x128.Idx) := fun p q => by
    funext a; apply Fin.ext
    match a with
    | ⟨0, _⟩ => show win0_2.index t (0 : Fin 2) * 1 + 1 * 0 = 0; omega
    | ⟨1, _⟩ => show win0_2.index t (1 : Fin 2) * 128 + 1 * q.val = win0_3.index t (1 : Fin 2) * 128 + 1 * q.val; omega
  exact lin0_block (V c (Pipeline.arrRef spec0 0)) (V c (Pipeline.arrRef spec0 1)) (V c (Pipeline.arrRef spec0 2))
    (iblk0 V c 0 t) (iblk0 V c 1 t) (iblk0 V c 2 t)
    (((cfg0.win 0).blk t).view.emb) (((cfg0.win 3).blk t).view.emb) (((cfg0.win 1).blk t).view.emb)
    (((cfg0.win 2).blk t).view.emb) rfl rfl rfl h0 h1 h2

/-- An index of the output array is in point `t`'s block iff each coordinate is in the block's range on its axis. -/
theorem mem_blk0 (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v33).slice (win0_3.rect t)).set ↔ _
  rw [View.set_slice_whole, Rect.mem_set_unit]
  exact Iff.rfl

/-- Every index of the output array lies in the block of the point numbered by its row divided by 5000. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, -, -, e6, e7⟩ := idx0 t
  refine ⟨t, flush0_3 t, ?_⟩
  rw [mem_blk0]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- The output array after the region is the dense layer of the arrays as the region finds them. -/
theorem lin0_final (c : Dev nD) :
    (dat0 V c).arrAt 3 cfg0.N
      = lin0G (V c (Pipeline.arrRef spec0 0)) (V c (Pipeline.arrRef spec0 1)) (V c (Pipeline.arrRef spec0 2)) :=
  (dat0 V c).arrAt_eq_of_cover 3 _ (fun t _ => flushed0_eq V c t) cover0

/-- Entry `(p, q)` of the output array after the region. -/
theorem lin0_apply (c : Dev nD) (p : Fin 50000) (q : Fin 128) :
    (dat0 V c).arrAt 3 cfg0.N (ix2 p q)
      = denseEntry (V c (Pipeline.arrRef spec0 0)) (V c (Pipeline.arrRef spec0 1)) (V c (Pipeline.arrRef spec0 2)) p q :=
  (congrFun (lin0_final V c) (ix2 p q)).trans rfl

end Cert.KernelIdeal.Regions

end
-- ==== Proof.ChainKPre.lean ====
/-
  The kernel program up to the boundary after its first region: the embedding's output array is the dense transform
  of the node features by the transposed embedding weight plus the embedding bias; the edge lists, the edge norm and
  the zero bias row are the whole-array functions of the edge-index argument that the host operations spell; the
  arguments are as launched.
-/
import proofs.«115673_j47373489274965_1_alg».proof.Proof.Gen.KernelIdeal.Frame
import proofs.«115673_j47373489274965_1_alg».proof.Proof.HostKPre
import proofs.«115673_j47373489274965_1_alg».proof.Proof.HostKW
import proofs.«115673_j47373489274965_1_alg».proof.Proof.SpecBridge
import proofs.«115673_j47373489274965_1_alg».proof.Proof.RegLin0

set_option maxRecDepth 16384

noncomputable section

namespace Cert.KernelIdeal.ChainK

open Idealize.ShloMosaic Idealize.ShloMosaic.TcCoe Idealize.ShloMosaic.ValueIdx
open Cert.KernelIdeal Cert.KernelIdeal.Gen Cert.KernelIdeal.Spec Cert.ChainTools Cert.KernelIdeal.Regions

variable (m : (ℓ : Loc nD τ sig) → Buf (Elt Ideal) ℓ) (ρ : Dev nD → PrngReg) (c : Dev nD)

theorem pre_host (b : DevRef τ sig) : W3 m ρ c b = StableHlo.after hostPreB (StableHlo.after hostPreA (W0 m ρ c)) b :=
  congrFun (after_hostPre (W0 m ρ c)) b

/-- A buffer the first three stretches do not write. -/
theorem pre_keepH {b : Ref sig .tc} (ha : b ∉ hostPreA_W) (hb : b ∉ hostPreB0_W) (h1 : b ∉ (hostOps0_1_W : List (Ref sig .tc)))
    (h2 : b ∉ (hostOps0_2_W : List (Ref sig .tc))) : W3 m ρ c (Proc.devRef .tc b) = W0 m ρ c (Proc.devRef .tc b) :=
  (pre_host m ρ c _).trans ((hostPreB_keep _ hb h1 h2).trans (hostPreA_keep _ ha))

theorem pre_keepR {b : Ref sig .tc} (hb : ∀ w, Pipeline.arrRef spec0 w ≠ b) :
    W4 m ρ c (Proc.devRef .tc b) = W3 m ρ c (Proc.devRef .tc b) := W4_of_ne m ρ c b hb

theorem pre_lin : W4 m ρ c (Proc.devRef .tc main_v33)
    = linArr (W3 m ρ c (Proc.devRef .tc main_arg0)) (W3 m ρ c (Proc.devRef .tc main_v31)) (W3 m ρ c (Proc.devRef .tc main_v32)) := by
  refine (W4_arr m ρ c 3).trans ?_
  funext i
  obtain ⟨p, q, rfl⟩ : ∃ (p : Fin 50000) (q : Fin 128), i = ix2 p q := ⟨i 0, i 1, eq_ix2 i⟩
  exact (lin0_apply (V3 m ρ) c p q).trans (linArr_apply (W3 m ρ c (Proc.devRef .tc main_arg0)) (W3 m ρ c (Proc.devRef .tc main_v31)) (W3 m ρ c (Proc.devRef .tc main_v32)) p q).symm

/-- The embedding. -/
theorem pre_val : W4 m ρ c (Proc.devRef .tc main_v33)
    = linArr (m ((c : Thread nD τ).loc main_arg0))
        (transpose S128x128 [1, 0] (m ((c : Thread nD τ).loc main_arg3)) Facts₀.transposes_S128x128_S128x128_1_0)
        (row128 (m ((c : Thread nD τ).loc main_arg4))) := by
  rw [pre_lin, pre_host m ρ c (Proc.devRef .tc main_v31), pre_host m ρ c (Proc.devRef .tc main_v32), hostPreB_wemb, hostPreB_bemb,
    hostPreA_keep _ (b := main_arg3) (by decide), hostPreA_keep _ (b := main_arg4) (by decide),
    pre_keepH m ρ c (b := main_arg0) (by decide) (by decide) (by decide) (by decide)]

theorem pre_src : W4 m ρ c (Proc.devRef .tc main_v3) = edgeRow0 (m ((c : Thread nD τ).loc main_arg1)) := by
  rw [pre_keepR m ρ c (by decide), pre_host, hostPreB_keep _ (by decide) (by decide) (by decide), hostPreA_src]

theorem pre_dst : W4 m ρ c (Proc.devRef .tc main_v6) = edgeRow1 (m ((c : Thread nD τ).loc main_arg1)) := by
  rw [pre_keepR m ρ c (by decide), pre_host, hostPreB_keep _ (by decide) (by decide) (by decide), hostPreA_dst]

theorem pre_norm : W4 m ρ c (Proc.devRef .tc main_v29)
    = edgeNorm (edgeRow0 (m ((c : Thread nD τ).loc main_arg1))) (edgeRow1 (m ((c : Thread nD τ).loc main_arg1))) := by
  rw [pre_keepR m ρ c (by decide), pre_host, hostPreB_norm, hostPreA_src, hostPreA_dst]

theorem pre_zrow : W4 m ρ c (Proc.devRef .tc main_v30) = zrow := by
  rw [pre_keepR m ρ c (by decide), pre_host, hostPreB_zrow]

theorem pre_arg2 : W4 m ρ c (Proc.devRef .tc main_arg2) = m ((c : Thread nD τ).loc main_arg2) :=
  (pre_keepR m ρ c (by decide)).trans (pre_keepH m ρ c (by decide) (by decide) (by decide) (by decide))

theorem pre_arg5 : W4 m ρ c (Proc.devRef .tc main_arg5) = m ((c : Thread nD τ).loc main_arg5) :=
  (pre_keepR m ρ c (by decide)).trans (pre_keepH m ρ c (by decide) (by decide) (by decide) (by decide))

theorem pre_arg6 : W4 m ρ c (Proc.devRef .tc main_arg6) = m ((c : Thread nD τ).loc main_arg6) :=
  (pre_keepR m ρ c (by decide)).trans (pre_keepH m ρ c (by decide) (by decide) (by decide) (by decide))

theorem pre_arg7 : W4 m ρ c (Proc.devRef .tc main_arg7) = m ((c : Thread nD τ).loc main_arg7) :=
  (pre_keepR m ρ c (by decide)).trans (pre_keepH m ρ c (by decide) (by decide) (by decide) (by decide))

theorem pre_arg8 : W4 m ρ c (Proc.devRef .tc main_arg8) = m ((c : Thread nD τ).loc main_arg8) :=
  (pre_keepR m ρ c (by decide)).trans (pre_keepH m ρ c (by decide) (by decide) (by decide) (by decide))

theorem pre_arg9 : W4 m ρ c (Proc.devRef .tc main_arg9) = m ((c : Thread nD τ).loc main_arg9) :=
  (pre_keepR m ρ c (by decide)).trans (pre_keepH m ρ c (by decide) (by decide) (by decide) (by decide))

theorem pre_arg10 : W4 m ρ c (Proc.devRef .tc main_arg10) = m ((c : Thread nD τ).loc main_arg10) :=
  (pre_keepR m ρ c (by decide)).trans (pre_keepH m ρ c (by decide) (by decide) (by decide) (by decide))

theorem pre_arg11 : W4 m ρ c (Proc.devRef .tc main_arg11) = m ((c : Thread nD τ).loc main_arg11) :=
  (pre_keepR m ρ c (by decide)).trans (pre_keepH m ρ c (by decide) (by decide) (by decide) (by decide))

theorem pre_arg12 : W4 m ρ c (Proc.devRef .tc main_arg12) = m ((c : Thread nD τ).loc main_arg12) :=
  (pre_keepR m ρ c (by decide)).trans (pre_keepH m ρ c (by decide) (by decide) (by decide) (by decide))

theorem pre_arg13 : W4 m ρ c (Proc.devRef .tc main_arg13) = m ((c : Thread nD τ).loc main_arg13) :=
  (pre_keepR m ρ c (by decide)).trans (pre_keepH m ρ c (by decide) (by decide) (by decide) (by decide))

theorem pre_arg14 : W4 m ρ c (Proc.devRef .tc main_arg14) = m ((c : Thread nD τ).loc main_arg14) :=
  (pre_keepR m ρ c (by decide)).trans (pre_keepH m ρ c (by decide) (by decide) (by decide) (by decide))

end Cert.KernelIdeal.ChainK

end
-- ==== Proof.HostK0.lean ====
/-
  The host operations of layer 0 of the kernel program, read as whole-array functions of what they find: the layer's
  weight sliced off the stack and transposed; then the aggregation of the transformed rows over the edges, the column
  mean of the aggregate plus the layer's bias, the column variance of the aggregate, and the bias, scale and shift
  vectors, each laid out as a one-row matrix.
-/
import proofs.«115673_j47373489274965_1_alg».proof.Proof.Gen.KernelIdeal.Launch
import proofs.«115673_j47373489274965_1_alg».proof.Proof.SpecK
import proofs.«115673_j47373489274965_1_alg».proof.Proof.ChainTools

-- one declaration at a time: each reading of the list of operations is large, and run side by side they hold too much at once
set_option Elab.async false

noncomputable section

namespace Cert.KernelIdeal.ChainK

open Idealize.ShloMosaic Idealize.ShloMosaic.TcCoe Cert.KernelIdeal Cert.KernelIdeal.Gen Cert.KernelIdeal.Spec Cert.ChainTools
open Facts₀ Facts

/-- The three stretches between the layer's transform and its normalisation, as one list. -/
abbrev hostL0 : List (HloOp τ sig (Elt Ideal)) := hostOps2 ++ hostOps2_1 ++ hostOps2_2

theorem after_hostL0 (V : Valuation τ sig (Elt Ideal)) :
    StableHlo.after (hostOps2_2 (F := Ideal)) (StableHlo.after (hostOps2_1 (F := Ideal)) (StableHlo.after (hostOps2 (F := Ideal)) V))
      = StableHlo.after hostL0 V := by
  simp only [hostL0, after_append]

theorem hostOps1_w (V : Valuation τ sig (Elt Ideal)) :
    StableHlo.after (hostOps1 (F := Ideal)) V (Proc.devRef .tc main_v36)
      = wT 0 Facts₀.slices_S4x128x128_S1x128x128_0_0_0 (V (Proc.devRef .tc main_arg5)) := by
  after_results
  all_goals rfl

section
variable (V : Valuation τ sig (Elt Ideal))

theorem hostL0_agg :
    StableHlo.after hostL0 V (Proc.devRef .tc main_v50)
      = aggr (V (Proc.devRef .tc main_v37)) (V (Proc.devRef .tc main_v3)) (V (Proc.devRef .tc main_v6)) (V (Proc.devRef .tc main_v29)) := by
  simp only [hostL0, hostOps2, hostOps2_1, hostOps2_2, List.cons_append, List.nil_append]
  after_results_simp
  all_goals (try simp only [cast_eq])
  all_goals rfl

theorem hostL0_bias :
    StableHlo.after hostL0 V (Proc.devRef .tc main_v60) = row128 (vsl 0 Facts₀.slices_S4x128_S1x128_0_0 (V (Proc.devRef .tc main_arg6))) := by
  simp only [hostL0, hostOps2, hostOps2_1, hostOps2_2, List.cons_append, List.nil_append]
  after_results_simp
  all_goals (try simp only [cast_eq])
  all_goals rfl

theorem hostL0_scale :
    StableHlo.after hostL0 V (Proc.devRef .tc main_v63) = row128 (vsl 0 Facts₀.slices_S4x128_S1x128_0_0 (V (Proc.devRef .tc main_arg7))) := by
  simp only [hostL0, hostOps2, hostOps2_1, hostOps2_2, List.cons_append, List.nil_append]
  after_results_simp
  all_goals (try simp only [cast_eq])
  all_goals rfl

theorem hostL0_shift :
    StableHlo.after hostL0 V (Proc.devRef .tc main_v66) = row128 (vsl 0 Facts₀.slices_S4x128_S1x128_0_0 (V (Proc.devRef .tc main_arg8))) := by
  simp only [hostL0, hostOps2, hostOps2_1, hostOps2_2, List.cons_append, List.nil_append]
  after_results_simp
  all_goals (try simp only [cast_eq])
  all_goals rfl

theorem hostL0_mean :
    StableHlo.after hostL0 V (Proc.devRef .tc main_v58)
      = row128 (addf (meanv (aggr (V (Proc.devRef .tc main_v37)) (V (Proc.devRef .tc main_v3)) (V (Proc.devRef .tc main_v6)) (V (Proc.devRef .tc main_v29))))
          (vsl 0 Facts₀.slices_S4x128_S1x128_0_0 (V (Proc.devRef .tc main_arg6)))) := by
  simp only [hostL0, hostOps2, hostOps2_1, hostOps2_2, List.cons_append, List.nil_append]
  after_results_simp
  all_goals (try simp only [cast_eq])
  all_goals rfl

theorem hostL0_var :
    StableHlo.after hostL0 V (Proc.devRef .tc main_v59)
      = row128 (varv (aggr (V (Proc.devRef .tc main_v37)) (V (Proc.devRef .tc main_v3)) (V (Proc.devRef .tc main_v6)) (V (Proc.devRef .tc main_v29)))) := by
  simp only [hostL0, hostOps2, hostOps2_1, hostOps2_2, List.cons_append, List.nil_append]
  after_results_simp
  all_goals (try simp only [cast_eq])
  all_goals rfl

end

end Cert.KernelIdeal.ChainK

end
-- ==== Proof.RegLin1.lean ====
/-
  Region 1 of the program is a dense layer over the rows of a matrix. Its output array has 50000 rows of 128
  entries, written ten blocks of 5000 rows at a time; the block written at grid point `t` is computed from rows
  `5000 t … 5000 t + 4999` of the first input array, the whole 128 × 128 weight array and the whole bias row. Entry
  `(p, q)` of the output is therefore row `p` of the first array against column `q` of the weights, plus entry `q`
  of the bias row, whatever block row `p` falls in: the point that covers row `p` is `p / 5000`, and the ten blocks
  tile the array. All at the ideal values, where a float is an extended real and a change of float format is the
  identity. Everything is stated at an arbitrary content `V` of the buffers when the region is entered.
-/
import proofs.«115673_j47373489274965_1_alg».proof.Proof.Gen.KernelIdeal.Frame
import proofs.«115673_j47373489274965_1_alg».proof.Proof.RegCommon
import Idealize.ShloMosaic.Lib.Pipeline.Value
import Idealize.ShloMosaic.Lib.ValueIdx
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Regions

open Cert.KernelIdeal Cert.KernelIdeal.Gen

variable (V : (c : Dev nD) → (b : Ref sig .tc) → Buf (Elt Ideal) ((c : Thread nD τ).loc b))

/-- The dense layer as one function of the three arrays, entry by entry. -/
def lin1G (X : S50000x128.Idx → EReal) (W : S128x128.Idx → EReal) (B : S1x128.Idx → EReal) : S50000x128.Idx → EReal :=
  fun i => (∑ k : Fin 128, X (ix2 (i 0) k) * W (ix2 k (i 1))) + B (ix2 0 (i 1))

/-- The body's result on a block of 5000 rows, read at `(p, q)`. -/
theorem pay1_apply (x0 : Vec Ideal S5000x128 .f32) (x1 : Vec Ideal S128x128 .f32) (x2 : Vec Ideal S1x128 .f32)
    (p : Fin 5000) (q : Fin 128) :
    k1_pay1 (F := Ideal) x0 x1 x2 (ix2 p q) = (∑ k : Fin 128, x0 (ix2 p k) * x1 (ix2 k q)) + x2 (ix2 0 q) := by
  unfold k1_pay1
  simp only [shapeCast_self]
  exact dense_apply dot_S5000x128_S128x128_S5000x128_1_0_0_1_n_n_wf broadcasts_S1x128_S5000x128 bitsLt_bf16_f32 x0 x1 x2 p q

/-- The body's result on blocks that are restrictions of three arrays `X`, `W`, `B`: when the first input's block
    holds the rows of `X` that the output's block covers (`h0`) and the other two blocks are the whole of `W` and
    of `B` (`h1`, `h2`), the result is the dense layer of `X`, `W`, `B` restricted to the output's block. The blocks'
    index embeddings `e0 … e3` are arbitrary functions here. -/
theorem lin1_block (X : S50000x128.Idx → EReal) (W : S128x128.Idx → EReal) (B : S1x128.Idx → EReal)
    (x0 : Vec Ideal S5000x128 .f32) (x1 : Vec Ideal S128x128 .f32) (x2 : Vec Ideal S1x128 .f32)
    (e0 e3 : S5000x128.Idx → S50000x128.Idx) (e1 : S128x128.Idx → S128x128.Idx) (e2 : S1x128.Idx → S1x128.Idx)
    (hx0 : x0 = fun y => X (e0 y)) (hx1 : x1 = fun y => W (e1 y)) (hx2 : x2 = fun y => B (e2 y))
    (h0 : ∀ (p : Fin 5000) (q k : Fin 128), e0 (ix2 p k) = ix2 ((e3 (ix2 p q)) 0) k)
    (h1 : ∀ (p : Fin 5000) (q k : Fin 128), e1 (ix2 k q) = ix2 k ((e3 (ix2 p q)) 1))
    (h2 : ∀ (p : Fin 5000) (q : Fin 128), e2 (ix2 0 q) = ix2 0 ((e3 (ix2 p q)) 1)) :
    k1_pay1 (F := Ideal) x0 x1 x2 = fun j => lin1G X W B (e3 j) := by
  subst hx0 hx1 hx2
  funext j
  obtain ⟨p, q, rfl⟩ : ∃ (p : Fin 5000) (q : Fin 128), j = ix2 p q := ⟨j 0, j 1, eq_ix2 j⟩
  rw [pay1_apply]
  unfold lin1G
  simp only [h0 p q, h1 p q, h2 p q] <;> rfl

/-- Where each window's block sits at grid point `t`: the row blocks of the first input and of the output are block
    `t`, the weights and the bias row are whole. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

set_option maxHeartbeats 1000000 in
/-- What point `t` writes back is block `t` of the dense layer of the arrays as the region finds them. -/
theorem flushed1_eq (c : Dev nD) (t : Fin cfg1.N) :
    (dat1 V c).flushed 3 t = ((cfg1.win 3).blk t).view.read (Elt Ideal)
      (lin1G (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero hz2]
  simp only [View.ld_unit_zero (S := S5000x128) hz2, View.ld_unit_zero (S := S128x128) hz2, View.ld_unit_zero (S := S1x128) hz2]
  obtain ⟨a0, a1, b0, b1, c0, c1, o0, o1⟩ := idx1 t
  have h0 : ∀ (p : Fin 5000) (q k : Fin 128), ((cfg1.win 0).blk t).view.emb (ix2 p k)
      = (ix2 ((((cfg1.win 3).blk t).view.emb (ix2 p q)) 0) k : S50000x128.Idx) := fun p q k => by
    funext a; apply Fin.ext
    match a with
    | ⟨0, _⟩ => show win1_0.index t (0 : Fin 2) * 5000 + 1 * p.val = win1_3.index t (0 : Fin 2) * 5000 + 1 * p.val; omega
    | ⟨1, _⟩ => show win1_0.index t (1 : Fin 2) * 128 + 1 * k.val = k.val; omega
  have h1 : ∀ (p : Fin 5000) (q k : Fin 128), ((cfg1.win 1).blk t).view.emb (ix2 k q)
      = (ix2 k ((((cfg1.win 3).blk t).view.emb (ix2 p q)) 1) : S128x128.Idx) := fun p q k => by
    funext a; apply Fin.ext
    match a with
    | ⟨0, _⟩ => show win1_1.index t (0 : Fin 2) * 128 + 1 * k.val = k.val; omega
    | ⟨1, _⟩ => show win1_1.index t (1 : Fin 2) * 128 + 1 * q.val = win1_3.index t (1 : Fin 2) * 128 + 1 * q.val; omega
  have h2 : ∀ (p : Fin 5000) (q : Fin 128), ((cfg1.win 2).blk t).view.emb (ix2 0 q)
      = (ix2 0 ((((cfg1.win 3).blk t).view.emb (ix2 p q)) 1) : S1x128.Idx) := fun p q => by
    funext a; apply Fin.ext
    match a with
    | ⟨0, _⟩ => show win1_2.index t (0 : Fin 2) * 1 + 1 * 0 = 0; omega
    | ⟨1, _⟩ => show win1_2.index t (1 : Fin 2) * 128 + 1 * q.val = win1_3.index t (1 : Fin 2) * 128 + 1 * q.val; omega
  exact lin1_block (V c (Pipeline.arrRef spec1 0)) (V c (Pipeline.arrRef spec1 1)) (V c (Pipeline.arrRef spec1 2))
    (iblk1 V c 0 t) (iblk1 V c 1 t) (iblk1 V c 2 t)
    (((cfg1.win 0).blk t).view.emb) (((cfg1.win 3).blk t).view.emb) (((cfg1.win 1).blk t).view.emb)
    (((cfg1.win 2).blk t).view.emb) rfl rfl rfl h0 h1 h2

/-- An index of the output array is in point `t`'s block iff each coordinate is in the block's range on its axis. -/
theorem mem_blk1 (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v37).slice (win1_3.rect t)).set ↔ _
  rw [View.set_slice_whole, Rect.mem_set_unit]
  exact Iff.rfl

/-- Every index of the output array lies in the block of the point numbered by its row divided by 5000. -/
theorem cover1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, -, -, e6, e7⟩ := idx1 t
  refine ⟨t, flush1_3 t, ?_⟩
  rw [mem_blk1]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 128 ≤ (i 1).val ∧ (i 1).val < win1_3.index t (1 : Fin 2) * 128 + 128
    omega

/-- The output array after the region is the dense layer of the arrays as the region finds them. -/
theorem lin1_final (c : Dev nD) :
    (dat1 V c).arrAt 3 cfg1.N
      = lin1G (V c (Pipeline.arrRef spec1 0)) (V c (Pipeline.arrRef spec1 1)) (V c (Pipeline.arrRef spec1 2)) :=
  (dat1 V c).arrAt_eq_of_cover 3 _ (fun t _ => flushed1_eq V c t) cover1

/-- Entry `(p, q)` of the output array after the region. -/
theorem lin1_apply (c : Dev nD) (p : Fin 50000) (q : Fin 128) :
    (dat1 V c).arrAt 3 cfg1.N (ix2 p q)
      = denseEntry (V c (Pipeline.arrRef spec1 0)) (V c (Pipeline.arrRef spec1 1)) (V c (Pipeline.arrRef spec1 2)) p q :=
  (congrFun (lin1_final V c) (ix2 p q)).trans rfl

end Cert.KernelIdeal.Regions

end
-- ==== Proof.RegBn2.lean ====
/-
  Region 2 of the program is a batch normalisation with a rectifier and a residual, entry by entry over a matrix of
  50000 rows of 128 entries, written ten blocks of 5000 rows at a time. The block written at grid point `t` is
  computed from rows `5000 t … 5000 t + 4999` of the aggregate and of the residual and from five whole rows: the bias,
  the scale, the shift, the mean and the variance. Entry `(p, q)` of the output is therefore the entry formula of the
  aggregate's and the residual's `(p, q)` and of entry `q` of each row, whatever block row `p` falls in: the point that
  covers row `p` is `p / 5000`, and the ten blocks tile the array. All at the ideal values, where a float is an
  extended real. Everything is stated at an arbitrary content `V` of the buffers when the region is entered.
-/
import proofs.«115673_j47373489274965_1_alg».proof.Proof.Gen.KernelIdeal.Frame
import proofs.«115673_j47373489274965_1_alg».proof.Proof.RegCommon
import Idealize.ShloMosaic.Lib.Pipeline.Value
import Idealize.ShloMosaic.Lib.ValueIdx
import Idealize.ShloMosaic.Lib.ValueLayout
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Regions

open Cert.KernelIdeal Cert.KernelIdeal.Gen

variable (V : (c : Dev nD) → (b : Ref sig .tc) → Buf (Elt Ideal) ((c : Thread nD τ).loc b))

/-- The layer as one function of the seven arrays, entry by entry: the aggregate `A`, the residual `R`, and the rows of
    bias, scale, shift, mean and variance. -/
def bn2G (A R : S50000x128.Idx → EReal) (b g be mu va : S1x128.Idx → EReal) : S50000x128.Idx → EReal :=
  fun i => bnEntry (A i) (R i) (b (ix2 0 (i 1))) (g (ix2 0 (i 1))) (be (ix2 0 (i 1))) (mu (ix2 0 (i 1))) (va (ix2 0 (i 1)))

/-- The body's result on a block of 5000 rows, read at `(p, q)`: the entry formula of the aggregate's and the
    residual's `(p, q)` and of entry `q` of each of the five rows. -/
theorem pay2_apply (x0 x1 : Vec Ideal S5000x128 .f32) (x2 x3 x4 x5 x6 : Vec Ideal S1x128 .f32)
    (p : Fin 5000) (q : Fin 128) :
    k2_pay1 (F := Ideal) x0 x2 x6 x5 x3 x4 x1 (ix2 p q)
      = bnEntry (x0 (ix2 p q)) (x1 (ix2 p q)) (x2 (ix2 0 q)) (x3 (ix2 0 q)) (x4 (ix2 0 q)) (x5 (ix2 0 q)) (x6 (ix2 0 q)) := by
  have hrow : ∀ v : FVec Ideal S1x128 .f32,
      broadcastTo S5000x128 v broadcasts_S1x128_S5000x128 (ix2 p q) = v (ix2 (0 : Fin 1) q) :=
    fun v => broadcastTo_1b_ab_apply v _ p q
  unfold k2_pay1 bnEntry
  simp only [shapeCast_self, maximumf_apply, mulf_apply, addf_apply, subf_apply, broadcast_apply, hrow, rsqrt_apply]
  rfl

/-- The body's result on blocks that are restrictions of seven arrays: when the aggregate's and the residual's blocks
    hold the entries the output's block covers (`h0`, `h1`) and the five row blocks are the whole rows (`h2 … h6`), the
    result is the layer of the seven arrays restricted to the output's block. The blocks' index embeddings
    `e0 … e7` are arbitrary functions here. -/
theorem bn2_block (A R : S50000x128.Idx → EReal) (b g be mu va : S1x128.Idx → EReal)
    (x0 x1 : Vec Ideal S5000x128 .f32) (x2 x3 x4 x5 x6 : Vec Ideal S1x128 .f32)
    (e0 e1 e7 : S5000x128.Idx → S50000x128.Idx) (e2 e3 e4 e5 e6 : S1x128.Idx → S1x128.Idx)
    (hx0 : x0 = fun y => A (e0 y)) (hx1 : x1 = fun y => R (e1 y)) (hx2 : x2 = fun y => b (e2 y))
    (hx3 : x3 = fun y => g (e3 y)) (hx4 : x4 = fun y => be (e4 y)) (hx5 : x5 = fun y => mu (e5 y))
    (hx6 : x6 = fun y => va (e6 y))
    (h0 : ∀ (p : Fin 5000) (q : Fin 128), e0 (ix2 p q) = e7 (ix2 p q))
    (h1 : ∀ (p : Fin 5000) (q : Fin 128), e1 (ix2 p q) = e7 (ix2 p q))
    (h2 : ∀ (p : Fin 5000) (q : Fin 128), e2 (ix2 0 q) = ix2 0 ((e7 (ix2 p q)) 1))
    (h3 : ∀ (p : Fin 5000) (q : Fin 128), e3 (ix2 0 q) = ix2 0 ((e7 (ix2 p q)) 1))
    (h4 : ∀ (p : Fin 5000) (q : Fin 128), e4 (ix2 0 q) = ix2 0 ((e7 (ix2 p q)) 1))
    (h5 : ∀ (p : Fin 5000) (q : Fin 128), e5 (ix2 0 q) = ix2 0 ((e7 (ix2 p q)) 1))
    (h6 : ∀ (p : Fin 5000) (q : Fin 128), e6 (ix2 0 q) = ix2 0 ((e7 (ix2 p q)) 1)) :
    k2_pay1 (F := Ideal) x0 x2 x6 x5 x3 x4 x1 = fun j => bn2G A R b g be mu va (e7 j) := by
  subst hx0 hx1 hx2 hx3 hx4 hx5 hx6
  funext j
  obtain ⟨p, q, rfl⟩ : ∃ (p : Fin 5000) (q : Fin 128), j = ix2 p q := ⟨j 0, j 1, eq_ix2 j⟩
  rw [pay2_apply]
  unfold bn2G
  simp only [h0 p q, h1 p q, h2 p q, h3 p q, h4 p q, h5 p q, h6 p q] <;> rfl

/-- Where each window's block sits at grid point `t`: the row blocks of the aggregate, of the residual and of the
    output are block `t`, the five rows are whole. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

set_option maxHeartbeats 1000000 in
/-- What point `t` writes back is block `t` of the layer of the arrays as the region finds them. -/
theorem flushed2_eq (c : Dev nD) (t : Fin cfg2.N) :
    (dat2 V c).flushed 7 t = ((cfg2.win 7).blk t).view.read (Elt Ideal)
      (bn2G (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))
        (V c (Pipeline.arrRef spec2 6))) := by
  show (cfg2.win 7).cut (grid2.coords t) ((dat2 V c).after 7 t) = _
  rw [after2_7]
  unfold out2_7
  rw [View.canon_unit_zero hz2]
  simp only [View.ld_unit_zero (S := S5000x128) hz2, View.ld_unit_zero (S := S1x128) hz2]
  obtain ⟨a0, a1, b0, b1, c0, c1, d0, d1, f0, f1, g0, g1, k0, k1, o0, o1⟩ := idx2 t
  have h0 : ∀ (p : Fin 5000) (q : Fin 128), ((cfg2.win 0).blk t).view.emb (ix2 p q)
      = ((cfg2.win 7).blk t).view.emb (ix2 p q) := fun p q => by
    funext a; apply Fin.ext
    match a with
    | ⟨0, _⟩ => show win2_0.index t (0 : Fin 2) * 5000 + 1 * p.val = win2_7.index t (0 : Fin 2) * 5000 + 1 * p.val; omega
    | ⟨1, _⟩ => show win2_0.index t (1 : Fin 2) * 128 + 1 * q.val = win2_7.index t (1 : Fin 2) * 128 + 1 * q.val; omega
  have h1 : ∀ (p : Fin 5000) (q : Fin 128), ((cfg2.win 1).blk t).view.emb (ix2 p q)
      = ((cfg2.win 7).blk t).view.emb (ix2 p q) := fun p q => by
    funext a; apply Fin.ext
    match a with
    | ⟨0, _⟩ => show win2_1.index t (0 : Fin 2) * 5000 + 1 * p.val = win2_7.index t (0 : Fin 2) * 5000 + 1 * p.val; omega
    | ⟨1, _⟩ => show win2_1.index t (1 : Fin 2) * 128 + 1 * q.val = win2_7.index t (1 : Fin 2) * 128 + 1 * q.val; omega
  have h2 : ∀ (p : Fin 5000) (q : Fin 128), ((cfg2.win 2).blk t).view.emb (ix2 0 q)
      = (ix2 0 ((((cfg2.win 7).blk t).view.emb (ix2 p q)) 1) : S1x128.Idx) := fun p q => by
    funext a; apply Fin.ext
    match a with
    | ⟨0, _⟩ => show win2_2.index t (0 : Fin 2) * 1 + 1 * 0 = 0; omega
    | ⟨1, _⟩ => show win2_2.index t (1 : Fin 2) * 128 + 1 * q.val = win2_7.index t (1 : Fin 2) * 128 + 1 * q.val; omega
  have h3 : ∀ (p : Fin 5000) (q : Fin 128), ((cfg2.win 3).blk t).view.emb (ix2 0 q)
      = (ix2 0 ((((cfg2.win 7).blk t).view.emb (ix2 p q)) 1) : S1x128.Idx) := fun p q => by
    funext a; apply Fin.ext
    match a with
    | ⟨0, _⟩ => show win2_3.index t (0 : Fin 2) * 1 + 1 * 0 = 0; omega
    | ⟨1, _⟩ => show win2_3.index t (1 : Fin 2) * 128 + 1 * q.val = win2_7.index t (1 : Fin 2) * 128 + 1 * q.val; omega
  have h4 : ∀ (p : Fin 5000) (q : Fin 128), ((cfg2.win 4).blk t).view.emb (ix2 0 q)
      = (ix2 0 ((((cfg2.win 7).blk t).view.emb (ix2 p q)) 1) : S1x128.Idx) := fun p q => by
    funext a; apply Fin.ext
    match a with
    | ⟨0, _⟩ => show win2_4.index t (0 : Fin 2) * 1 + 1 * 0 = 0; omega
    | ⟨1, _⟩ => show win2_4.index t (1 : Fin 2) * 128 + 1 * q.val = win2_7.index t (1 : Fin 2) * 128 + 1 * q.val; omega
  have h5 : ∀ (p : Fin 5000) (q : Fin 128), ((cfg2.win 5).blk t).view.emb (ix2 0 q)
      = (ix2 0 ((((cfg2.win 7).blk t).view.emb (ix2 p q)) 1) : S1x128.Idx) := fun p q => by
    funext a; apply Fin.ext
    match a with
    | ⟨0, _⟩ => show win2_5.index t (0 : Fin 2) * 1 + 1 * 0 = 0; omega
    | ⟨1, _⟩ => show win2_5.index t (1 : Fin 2) * 128 + 1 * q.val = win2_7.index t (1 : Fin 2) * 128 + 1 * q.val; omega
  have h6 : ∀ (p : Fin 5000) (q : Fin 128), ((cfg2.win 6).blk t).view.emb (ix2 0 q)
      = (ix2 0 ((((cfg2.win 7).blk t).view.emb (ix2 p q)) 1) : S1x128.Idx) := fun p q => by
    funext a; apply Fin.ext
    match a with
    | ⟨0, _⟩ => show win2_6.index t (0 : Fin 2) * 1 + 1 * 0 = 0; omega
    | ⟨1, _⟩ => show win2_6.index t (1 : Fin 2) * 128 + 1 * q.val = win2_7.index t (1 : Fin 2) * 128 + 1 * q.val; omega
  exact bn2_block (V c (Pipeline.arrRef spec2 0)) (V c (Pipeline.arrRef spec2 1)) (V c (Pipeline.arrRef spec2 2))
    (V c (Pipeline.arrRef spec2 3)) (V c (Pipeline.arrRef spec2 4)) (V c (Pipeline.arrRef spec2 5))
    (V c (Pipeline.arrRef spec2 6))
    (iblk2 V c 0 t) (iblk2 V c 1 t) (iblk2 V c 2 t) (iblk2 V c 3 t) (iblk2 V c 4 t) (iblk2 V c 5 t) (iblk2 V c 6 t)
    (((cfg2.win 0).blk t).view.emb) (((cfg2.win 1).blk t).view.emb) (((cfg2.win 7).blk t).view.emb)
    (((cfg2.win 2).blk t).view.emb) (((cfg2.win 3).blk t).view.emb) (((cfg2.win 4).blk t).view.emb)
    (((cfg2.win 5).blk t).view.emb) (((cfg2.win 6).blk t).view.emb)
    rfl rfl rfl rfl rfl rfl rfl h0 h1 h2 h3 h4 h5 h6

/-- An index of the output array is in point `t`'s block iff each coordinate is in the block's range on its axis. -/
theorem mem_blk2 (t : Fin cfg2.N) (i : S50000x128.Idx) :
    i ∈ ((cfg2.win 7).blk t).view.set ↔ ∀ a : Fin 2, win2_7.index t a * S5000x128.size a ≤ (i a).val
      ∧ (i a).val < win2_7.index t a * S5000x128.size a + S5000x128.size a := by
  show i ∈ ((View.whole main_v67).slice (win2_7.rect t)).set ↔ _
  rw [View.set_slice_whole, Rect.mem_set_unit]
  exact Iff.rfl

/-- Every index of the output array lies in the block of the point numbered by its row divided by 5000. -/
theorem cover2 (i : S50000x128.Idx) :
    ∃ t : Fin cfg2.N, (cfg2.win 7).flush t = true ∧ i ∈ ((cfg2.win 7).blk t).view.set := by
  have hi0 : (i 0).val < 50000 := (i 0).isLt
  have hi1 : (i 1).val < 128 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨-, -, -, -, -, -, -, -, -, -, -, -, -, -, o0, o1⟩ := idx2 t
  refine ⟨t, flush2_7 t, ?_⟩
  rw [mem_blk2]
  intro a
  match a with
  | ⟨0, _⟩ =>
    show win2_7.index t (0 : Fin 2) * 5000 ≤ (i 0).val ∧ (i 0).val < win2_7.index t (0 : Fin 2) * 5000 + 5000
    omega
  | ⟨1, _⟩ =>
    show win2_7.index t (1 : Fin 2) * 128 ≤ (i 1).val ∧ (i 1).val < win2_7.index t (1 : Fin 2) * 128 + 128
    omega

/-- The output array after the region is the layer of the arrays as the region finds them. -/
theorem bn2_final (c : Dev nD) :
    (dat2 V c).arrAt 7 cfg2.N
      = bn2G (V c (Pipeline.arrRef spec2 0)) (V c (Pipeline.arrRef spec2 1)) (V c (Pipeline.arrRef spec2 2))
          (V c (Pipeline.arrRef spec2 3)) (V c (Pipeline.arrRef spec2 4)) (V c (Pipeline.arrRef spec2 5))
          (V c (Pipeline.arrRef spec2 6)) :=
  (dat2 V c).arrAt_eq_of_cover 7 _ (fun t _ => flushed2_eq V c t) cover2

/-- Entry `(p, q)` of the output array after the region. -/
theorem bn2_apply (c : Dev nD) (p : Fin 50000) (q : Fin 128) :
    (dat2 V c).arrAt 7 cfg2.N (ix2 p q)
      = bnEntry ((V c (Pipeline.arrRef spec2 0) : S50000x128.Idx → EReal) (ix2 p q))
          ((V c (Pipeline.arrRef spec2 1) : S50000x128.Idx → EReal) (ix2 p q))
          ((V c (Pipeline.arrRef spec2 2) : S1x128.Idx → EReal) (ix2 0 q))
          ((V c (Pipeline.arrRef spec2 3) : S1x128.Idx → EReal) (ix2 0 q))
          ((V c (Pipeline.arrRef spec2 4) : S1x128.Idx → EReal) (ix2 0 q))
          ((V c (Pipeline.arrRef spec2 5) : S1x128.Idx → EReal) (ix2 0 q))
          ((V c (Pipeline.arrRef spec2 6) : S1x128.Idx → EReal) (ix2 0 q)) :=
  (congrFun (bn2_final V c) (ix2 p q)).trans rfl

end Cert.KernelIdeal.Regions

end
-- ==== Proof.ChainKL0.lean ====
/-
  Layer 0 of the kernel program, from the boundary before its transform to the boundary after its normalisation:
  the layer's output array is the layer function of the layer's input array, of the layer's slices of the weight,
  bias, scale and shift stacks, and of the edge lists and the edge norm; and the buffers the later layers read —
  the edge lists, the norm, the zero bias row and the arguments — come through unchanged. The two regions' results
  are the dense transform and the normalisation entry by entry; the host operations between them are the
  aggregation, the column statistics and the re-laid vectors.
-/
import proofs.«115673_j47373489274965_1_alg».proof.Proof.Gen.KernelIdeal.Frame
import proofs.«115673_j47373489274965_1_alg».proof.Proof.HostK0
import proofs.«115673_j47373489274965_1_alg».proof.Proof.HostKW
import proofs.«115673_j47373489274965_1_alg».proof.Proof.SpecBridge
import proofs.«115673_j47373489274965_1_alg».proof.Proof.RegLin1
import proofs.«115673_j47373489274965_1_alg».proof.Proof.RegBn2

set_option maxRecDepth 16384

noncomputable section

namespace Cert.KernelIdeal.ChainK

open Idealize.ShloMosaic Idealize.ShloMosaic.TcCoe Idealize.ShloMosaic.ValueIdx
open Cert.KernelIdeal Cert.KernelIdeal.Gen Cert.KernelIdeal.Spec Cert.ChainTools Cert.KernelIdeal.Regions

variable (m : (ℓ : Loc nD τ sig) → Buf (Elt Ideal) ℓ) (ρ : Dev nD → PrngReg) (c : Dev nD)

/-- The buffers every later segment reads and no segment of a layer writes (the zero bias row is carried apart:
    it is an input array of the transform regions). -/
abbrev keptL0 : List (Ref sig .tc) := [main_v3, main_v6, main_v29, main_arg2, main_arg5, main_arg6, main_arg7, main_arg8, main_arg9, main_arg10, main_arg11, main_arg12, main_arg13, main_arg14]

/-! ## The transform's stretch and region -/

theorem L0_w : W5 m ρ c (Proc.devRef .tc main_v36) = wT 0 Facts₀.slices_S4x128x128_S1x128x128_0_0_0 (W4 m ρ c (Proc.devRef .tc main_arg5)) :=
  hostOps1_w (W4 m ρ c)

theorem L0_keepA {b : Ref sig .tc} (hb : b ∉ (hostOps1_W : List (Ref sig .tc))) :
    W5 m ρ c (Proc.devRef .tc b) = W4 m ρ c (Proc.devRef .tc b) :=
  after_of_not_written hostOps1_writes hb _

theorem L0_lin : W6 m ρ c (Proc.devRef .tc main_v37)
    = linArr (W5 m ρ c (Proc.devRef .tc main_v33)) (W5 m ρ c (Proc.devRef .tc main_v36)) (W5 m ρ c (Proc.devRef .tc main_v30)) := by
  refine (W6_arr m ρ c 3).trans ?_
  funext i
  obtain ⟨p, q, rfl⟩ : ∃ (p : Fin 50000) (q : Fin 128), i = ix2 p q := ⟨i 0, i 1, eq_ix2 i⟩
  exact (lin1_apply (V5 m ρ) c p q).trans (linArr_apply (W5 m ρ c (Proc.devRef .tc main_v33)) (W5 m ρ c (Proc.devRef .tc main_v36)) (W5 m ρ c (Proc.devRef .tc main_v30)) p q).symm

theorem L0_keepRA_ne {b : Ref sig .tc} (hb : ∀ w, Pipeline.arrRef spec1 w ≠ b) :
    W6 m ρ c (Proc.devRef .tc b) = W5 m ρ c (Proc.devRef .tc b) := W6_of_ne m ρ c b hb

theorem L0_keepRA_res : W6 m ρ c (Proc.devRef .tc main_v33) = W5 m ρ c (Proc.devRef .tc main_v33) :=
  (W6_arr m ρ c 0).trans (((dat1 (V5 m ρ) c).arrAt_in 0 rfl _).trans (A_eq1 (V5 m ρ) c 0))

theorem L0_keepRA_zrow : W6 m ρ c (Proc.devRef .tc main_v30) = W5 m ρ c (Proc.devRef .tc main_v30) :=
  (W6_arr m ρ c 2).trans (((dat1 (V5 m ρ) c).arrAt_in 2 rfl _).trans (A_eq1 (V5 m ρ) c 2))

/-! ## The statistics' stretches and the normalisation region -/

theorem L0_host (b : DevRef τ sig) : W9 m ρ c b = StableHlo.after hostL0 (W6 m ρ c) b :=
  congrFun (after_hostL0 (W6 m ρ c)) b

theorem L0_keepB {b : Ref sig .tc} (h0 : b ∉ (hostOps2_W : List (Ref sig .tc))) (h1 : b ∉ (hostOps2_1_W : List (Ref sig .tc)))
    (h2 : b ∉ (hostOps2_2_W : List (Ref sig .tc))) : W9 m ρ c (Proc.devRef .tc b) = W6 m ρ c (Proc.devRef .tc b) :=
  ((after_of_not_written hostOps2_2_writes h2 _).trans (after_of_not_written hostOps2_1_writes h1 _)).trans
    (after_of_not_written hostOps2_writes h0 _)

theorem L0_bn : W10 m ρ c (Proc.devRef .tc main_v67)
    = bnArr (W9 m ρ c (Proc.devRef .tc main_v50)) (W9 m ρ c (Proc.devRef .tc main_v33)) (W9 m ρ c (Proc.devRef .tc main_v60))
        (W9 m ρ c (Proc.devRef .tc main_v63)) (W9 m ρ c (Proc.devRef .tc main_v66)) (W9 m ρ c (Proc.devRef .tc main_v58))
        (W9 m ρ c (Proc.devRef .tc main_v59)) := by
  refine (W10_arr m ρ c 7).trans ?_
  funext i
  obtain ⟨p, q, rfl⟩ : ∃ (p : Fin 50000) (q : Fin 128), i = ix2 p q := ⟨i 0, i 1, eq_ix2 i⟩
  exact (bn2_apply (V9 m ρ) c p q).trans (bnArr_apply (W9 m ρ c (Proc.devRef .tc main_v50)) (W9 m ρ c (Proc.devRef .tc main_v33)) (W9 m ρ c (Proc.devRef .tc main_v60)) (W9 m ρ c (Proc.devRef .tc main_v63)) (W9 m ρ c (Proc.devRef .tc main_v66)) (W9 m ρ c (Proc.devRef .tc main_v58)) (W9 m ρ c (Proc.devRef .tc main_v59)) p q).symm

theorem L0_keepRB_ne {b : Ref sig .tc} (hb : ∀ w, Pipeline.arrRef spec2 w ≠ b) :
    W10 m ρ c (Proc.devRef .tc b) = W9 m ρ c (Proc.devRef .tc b) := W10_of_ne m ρ c b hb

/-! ## The layer -/

/-- The kept buffers come through the layer. -/
theorem L0_keep : ∀ b ∈ keptL0, W10 m ρ c (Proc.devRef .tc b) = W4 m ρ c (Proc.devRef .tc b) := by
  have hA : ∀ b ∈ keptL0, b ∉ (hostOps1_W : List (Ref sig .tc)) := by decide
  have h0 : ∀ b ∈ keptL0, b ∉ (hostOps2_W : List (Ref sig .tc)) := by decide
  have h1 : ∀ b ∈ keptL0, b ∉ (hostOps2_1_W : List (Ref sig .tc)) := by decide
  have h2 : ∀ b ∈ keptL0, b ∉ (hostOps2_2_W : List (Ref sig .tc)) := by decide
  have rA : ∀ b ∈ keptL0, ∀ w, Pipeline.arrRef spec1 w ≠ b := by decide
  have rB : ∀ b ∈ keptL0, ∀ w, Pipeline.arrRef spec2 w ≠ b := by decide
  intro b hb
  exact (L0_keepRB_ne m ρ c (rB b hb)).trans ((L0_keepB m ρ c (h0 b hb) (h1 b hb) (h2 b hb)).trans
    ((L0_keepRA_ne m ρ c (rA b hb)).trans (L0_keepA m ρ c (hA b hb))))

/-- The zero bias row comes through the layer. -/
theorem L0_keep_zrow : W10 m ρ c (Proc.devRef .tc main_v30) = W4 m ρ c (Proc.devRef .tc main_v30) :=
  (L0_keepRB_ne m ρ c (by decide)).trans ((L0_keepB m ρ c (by decide) (by decide) (by decide)).trans
    ((L0_keepRA_zrow m ρ c).trans (L0_keepA m ρ c (by decide))))

/-- The layer's output array is the layer function of its input array and parameters. -/
theorem L0_val (hz : W4 m ρ c (Proc.devRef .tc main_v30) = zrow) :
    W10 m ρ c (Proc.devRef .tc main_v67)
      = layerK (W4 m ρ c (Proc.devRef .tc main_v33))
          (wT 0 Facts₀.slices_S4x128x128_S1x128x128_0_0_0 (W4 m ρ c (Proc.devRef .tc main_arg5)))
          (vsl 0 Facts₀.slices_S4x128_S1x128_0_0 (W4 m ρ c (Proc.devRef .tc main_arg6)))
          (vsl 0 Facts₀.slices_S4x128_S1x128_0_0 (W4 m ρ c (Proc.devRef .tc main_arg7)))
          (vsl 0 Facts₀.slices_S4x128_S1x128_0_0 (W4 m ρ c (Proc.devRef .tc main_arg8)))
          (W4 m ρ c (Proc.devRef .tc main_v3)) (W4 m ρ c (Proc.devRef .tc main_v6)) (W4 m ρ c (Proc.devRef .tc main_v29)) := by
  -- the transformed rows
  have hlin : W6 m ρ c (Proc.devRef .tc main_v37)
      = linArr (W4 m ρ c (Proc.devRef .tc main_v33))
          (wT 0 Facts₀.slices_S4x128x128_S1x128x128_0_0_0 (W4 m ρ c (Proc.devRef .tc main_arg5))) zrow := by
    rw [L0_lin, L0_w, L0_keepA m ρ c (b := main_v33) (by decide), L0_keepA m ρ c (b := main_v30) (by decide), hz]
  -- what the statistics' stretches find at the boundary after the transform
  have k3 : W6 m ρ c (Proc.devRef .tc main_v3) = W4 m ρ c (Proc.devRef .tc main_v3) :=
    (L0_keepRA_ne m ρ c (by decide)).trans (L0_keepA m ρ c (by decide))
  have k6 : W6 m ρ c (Proc.devRef .tc main_v6) = W4 m ρ c (Proc.devRef .tc main_v6) :=
    (L0_keepRA_ne m ρ c (by decide)).trans (L0_keepA m ρ c (by decide))
  have k29 : W6 m ρ c (Proc.devRef .tc main_v29) = W4 m ρ c (Proc.devRef .tc main_v29) :=
    (L0_keepRA_ne m ρ c (by decide)).trans (L0_keepA m ρ c (by decide))
  have ka6 : W6 m ρ c (Proc.devRef .tc main_arg6) = W4 m ρ c (Proc.devRef .tc main_arg6) :=
    (L0_keepRA_ne m ρ c (by decide)).trans (L0_keepA m ρ c (by decide))
  have ka7 : W6 m ρ c (Proc.devRef .tc main_arg7) = W4 m ρ c (Proc.devRef .tc main_arg7) :=
    (L0_keepRA_ne m ρ c (by decide)).trans (L0_keepA m ρ c (by decide))
  have ka8 : W6 m ρ c (Proc.devRef .tc main_arg8) = W4 m ρ c (Proc.devRef .tc main_arg8) :=
    (L0_keepRA_ne m ρ c (by decide)).trans (L0_keepA m ρ c (by decide))
  have kres : W9 m ρ c (Proc.devRef .tc main_v33) = W4 m ρ c (Proc.devRef .tc main_v33) :=
    (L0_keepB m ρ c (by decide) (by decide) (by decide)).trans ((L0_keepRA_res m ρ c).trans (L0_keepA m ρ c (by decide)))
  rw [L0_bn, kres, L0_host m ρ c (Proc.devRef .tc main_v50), L0_host m ρ c (Proc.devRef .tc main_v60),
    L0_host m ρ c (Proc.devRef .tc main_v63), L0_host m ρ c (Proc.devRef .tc main_v66), L0_host m ρ c (Proc.devRef .tc main_v58),
    L0_host m ρ c (Proc.devRef .tc main_v59), hostL0_agg, hostL0_bias, hostL0_scale, hostL0_shift, hostL0_mean, hostL0_var,
    hlin, k3, k6, k29, ka6, ka7, ka8]
  rfl

end Cert.KernelIdeal.ChainK

end
-- ==== Proof.HostK1.lean ====
/-
  The host operations of layer 1 of the kernel program, read as whole-array functions of what they find: the layer's
  weight sliced off the stack and transposed; then the aggregation of the transformed rows over the edges, the column
  mean of the aggregate plus the layer's bias, the column variance of the aggregate, and the bias, scale and shift
  vectors, each laid out as a one-row matrix.
-/
import proofs.«115673_j47373489274965_1_alg».proof.Proof.Gen.KernelIdeal.Launch
import proofs.«115673_j47373489274965_1_alg».proof.Proof.SpecK
import proofs.«115673_j47373489274965_1_alg».proof.Proof.ChainTools

-- one declaration at a time: each reading of the list of operations is large, and run side by side they hold too much at once
set_option Elab.async false

noncomputable section

namespace Cert.KernelIdeal.ChainK

open Idealize.ShloMosaic Idealize.ShloMosaic.TcCoe Cert.KernelIdeal Cert.KernelIdeal.Gen Cert.KernelIdeal.Spec Cert.ChainTools
open Facts₀ Facts

/-- The three stretches between the layer's transform and its normalisation, as one list. -/
abbrev hostL1 : List (HloOp τ sig (Elt Ideal)) := hostOps4 ++ hostOps4_1 ++ hostOps4_2

theorem after_hostL1 (V : Valuation τ sig (Elt Ideal)) :
    StableHlo.after (hostOps4_2 (F := Ideal)) (StableHlo.after (hostOps4_1 (F := Ideal)) (StableHlo.after (hostOps4 (F := Ideal)) V))
      = StableHlo.after hostL1 V := by
  simp only [hostL1, after_append]

theorem hostOps3_w (V : Valuation τ sig (Elt Ideal)) :
    StableHlo.after (hostOps3 (F := Ideal)) V (Proc.devRef .tc main_v70)
      = wT 1 Facts₀.slices_S4x128x128_S1x128x128_1_0_0 (V (Proc.devRef .tc main_arg5)) := by
  after_results
  all_goals rfl

section
variable (V : Valuation τ sig (Elt Ideal))

theorem hostL1_agg :
    StableHlo.after hostL1 V (Proc.devRef .tc main_v84)
      = aggr (V (Proc.devRef .tc main_v71)) (V (Proc.devRef .tc main_v3)) (V (Proc.devRef .tc main_v6)) (V (Proc.devRef .tc main_v29)) := by
  simp only [hostL1, hostOps4, hostOps4_1, hostOps4_2, List.cons_append, List.nil_append]
  after_results_simp
  all_goals (try simp only [cast_eq])
  all_goals rfl

theorem hostL1_bias :
    StableHlo.after hostL1 V (Proc.devRef .tc main_v94) = row128 (vsl 1 Facts₀.slices_S4x128_S1x128_1_0 (V (Proc.devRef .tc main_arg6))) := by
  simp only [hostL1, hostOps4, hostOps4_1, hostOps4_2, List.cons_append, List.nil_append]
  after_results_simp
  all_goals (try simp only [cast_eq])
  all_goals rfl

theorem hostL1_scale :
    StableHlo.after hostL1 V (Proc.devRef .tc main_v97) = row128 (vsl 1 Facts₀.slices_S4x128_S1x128_1_0 (V (Proc.devRef .tc main_arg7))) := by
  simp only [hostL1, hostOps4, hostOps4_1, hostOps4_2, List.cons_append, List.nil_append]
  after_results_simp
  all_goals (try simp only [cast_eq])
  all_goals rfl

theorem hostL1_shift :
    StableHlo.after hostL1 V (Proc.devRef .tc main_v100) = row128 (vsl 1 Facts₀.slices_S4x128_S1x128_1_0 (V (Proc.devRef .tc main_arg8))) := by
  simp only [hostL1, hostOps4, hostOps4_1, hostOps4_2, List.cons_append, List.nil_append]
  after_results_simp
  all_goals (try simp only [cast_eq])
  all_goals rfl

theorem hostL1_mean :
    StableHlo.after hostL1 V (Proc.devRef .tc main_v92)
      = row128 (addf (meanv (aggr (V (Proc.devRef .tc main_v71)) (V (Proc.devRef .tc main_v3)) (V (Proc.devRef .tc main_v6)) (V (Proc.devRef .tc main_v29))))
          (vsl 1 Facts₀.slices_S4x128_S1x128_1_0 (V (Proc.devRef .tc main_arg6)))) := by
  simp only [hostL1, hostOps4, hostOps4_1, hostOps4_2, List.cons_append, List.nil_append]
  after_results_simp
  all_goals (try simp only [cast_eq])
  all_goals rfl

theorem hostL1_var :
    StableHlo.after hostL1 V (Proc.devRef .tc main_v93)
      = row128 (varv (aggr (V (Proc.devRef .tc main_v71)) (V (Proc.devRef .tc main_v3)) (V (Proc.devRef .tc main_v6)) (V (Proc.devRef .tc main_v29)))) := by
  simp only [hostL1, hostOps4, hostOps4_1, hostOps4_2, List.cons_append, List.nil_append]
  after_results_simp
  all_goals (try simp only [cast_eq])
  all_goals rfl

end

end Cert.KernelIdeal.ChainK

end
-- ==== Proof.RegLin3.lean ====
/-
  Region 3 of the program is a dense layer over the rows of a matrix. Its output array has 50000 rows of 128
  entries, written ten blocks of 5000 rows at a time; the block written at grid point `t` is computed from rows
  `5000 t … 5000 t + 4999` of the first input array, the whole 128 × 128 weight array and the whole bias row. Entry
  `(p, q)` of the output is therefore row `p` of the first array against column `q` of the weights, plus entry `q`
  of the bias row, whatever block row `p` falls in: the point that covers row `p` is `p / 5000`, and the ten blocks
  tile the array. All at the ideal values, where a float is an extended real and a change of float format is the
  identity. Everything is stated at an arbitrary content `V` of the buffers when the region is entered.
-/
import proofs.«115673_j47373489274965_1_alg».proof.Proof.Gen.KernelIdeal.Frame
import proofs.«115673_j47373489274965_1_alg».proof.Proof.RegCommon
import Idealize.ShloMosaic.Lib.Pipeline.Value
import Idealize.ShloMosaic.Lib.ValueIdx
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Regions

open Cert.KernelIdeal Cert.KernelIdeal.Gen

variable (V : (c : Dev nD) → (b : Ref sig .tc) → Buf (Elt Ideal) ((c : Thread nD τ).loc b))

/-- The dense layer as one function of the three arrays, entry by entry. -/
def lin3G (X : S50000x128.Idx → EReal) (W : S128x128.Idx → EReal) (B : S1x128.Idx → EReal) : S50000x128.Idx → EReal :=
  fun i => (∑ k : Fin 128, X (ix2 (i 0) k) * W (ix2 k (i 1))) + B (ix2 0 (i 1))

/-- The body's result on a block of 5000 rows, read at `(p, q)`. -/
theorem pay3_apply (x0 : Vec Ideal S5000x128 .f32) (x1 : Vec Ideal S128x128 .f32) (x2 : Vec Ideal S1x128 .f32)
    (p : Fin 5000) (q : Fin 128) :
    k3_pay1 (F := Ideal) x0 x1 x2 (ix2 p q) = (∑ k : Fin 128, x0 (ix2 p k) * x1 (ix2 k q)) + x2 (ix2 0 q) := by
  unfold k3_pay1
  simp only [shapeCast_self]
  exact dense_apply dot_S5000x128_S128x128_S5000x128_1_0_0_1_n_n_wf broadcasts_S1x128_S5000x128 bitsLt_bf16_f32 x0 x1 x2 p q

/-- The body's result on blocks that are restrictions of three arrays `X`, `W`, `B`: when the first input's block
    holds the rows of `X` that the output's block covers (`h0`) and the other two blocks are the whole of `W` and
    of `B` (`h1`, `h2`), the result is the dense layer of `X`, `W`, `B` restricted to the output's block. The blocks'
    index embeddings `e0 … e3` are arbitrary functions here. -/
theorem lin3_block (X : S50000x128.Idx → EReal) (W : S128x128.Idx → EReal) (B : S1x128.Idx → EReal)
    (x0 : Vec Ideal S5000x128 .f32) (x1 : Vec Ideal S128x128 .f32) (x2 : Vec Ideal S1x128 .f32)
    (e0 e3 : S5000x128.Idx → S50000x128.Idx) (e1 : S128x128.Idx → S128x128.Idx) (e2 : S1x128.Idx → S1x128.Idx)
    (hx0 : x0 = fun y => X (e0 y)) (hx1 : x1 = fun y => W (e1 y)) (hx2 : x2 = fun y => B (e2 y))
    (h0 : ∀ (p : Fin 5000) (q k : Fin 128), e0 (ix2 p k) = ix2 ((e3 (ix2 p q)) 0) k)
    (h1 : ∀ (p : Fin 5000) (q k : Fin 128), e1 (ix2 k q) = ix2 k ((e3 (ix2 p q)) 1))
    (h2 : ∀ (p : Fin 5000) (q : Fin 128), e2 (ix2 0 q) = ix2 0 ((e3 (ix2 p q)) 1)) :
    k3_pay1 (F := Ideal) x0 x1 x2 = fun j => lin3G X W B (e3 j) := by
  subst hx0 hx1 hx2
  funext j
  obtain ⟨p, q, rfl⟩ : ∃ (p : Fin 5000) (q : Fin 128), j = ix2 p q := ⟨j 0, j 1, eq_ix2 j⟩
  rw [pay3_apply]
  unfold lin3G
  simp only [h0 p q, h1 p q, h2 p q] <;> rfl

/-- Where each window's block sits at grid point `t`: the row blocks of the first input and of the output are block
    `t`, the weights and the bias row are whole. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

set_option maxHeartbeats 1000000 in
/-- What point `t` writes back is block `t` of the dense layer of the arrays as the region finds them. -/
theorem flushed3_eq (c : Dev nD) (t : Fin cfg3.N) :
    (dat3 V c).flushed 3 t = ((cfg3.win 3).blk t).view.read (Elt Ideal)
      (lin3G (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero hz2]
  simp only [View.ld_unit_zero (S := S5000x128) hz2, View.ld_unit_zero (S := S128x128) hz2, View.ld_unit_zero (S := S1x128) hz2]
  obtain ⟨a0, a1, b0, b1, c0, c1, o0, o1⟩ := idx3 t
  have h0 : ∀ (p : Fin 5000) (q k : Fin 128), ((cfg3.win 0).blk t).view.emb (ix2 p k)
      = (ix2 ((((cfg3.win 3).blk t).view.emb (ix2 p q)) 0) k : S50000x128.Idx) := fun p q k => by
    funext a; apply Fin.ext
    match a with
    | ⟨0, _⟩ => show win3_0.index t (0 : Fin 2) * 5000 + 1 * p.val = win3_3.index t (0 : Fin 2) * 5000 + 1 * p.val; omega
    | ⟨1, _⟩ => show win3_0.index t (1 : Fin 2) * 128 + 1 * k.val = k.val; omega
  have h1 : ∀ (p : Fin 5000) (q k : Fin 128), ((cfg3.win 1).blk t).view.emb (ix2 k q)
      = (ix2 k ((((cfg3.win 3).blk t).view.emb (ix2 p q)) 1) : S128x128.Idx) := fun p q k => by
    funext a; apply Fin.ext
    match a with
    | ⟨0, _⟩ => show win3_1.index t (0 : Fin 2) * 128 + 1 * k.val = k.val; omega
    | ⟨1, _⟩ => show win3_1.index t (1 : Fin 2) * 128 + 1 * q.val = win3_3.index t (1 : Fin 2) * 128 + 1 * q.val; omega
  have h2 : ∀ (p : Fin 5000) (q : Fin 128), ((cfg3.win 2).blk t).view.emb (ix2 0 q)
      = (ix2 0 ((((cfg3.win 3).blk t).view.emb (ix2 p q)) 1) : S1x128.Idx) := fun p q => by
    funext a; apply Fin.ext
    match a with
    | ⟨0, _⟩ => show win3_2.index t (0 : Fin 2) * 1 + 1 * 0 = 0; omega
    | ⟨1, _⟩ => show win3_2.index t (1 : Fin 2) * 128 + 1 * q.val = win3_3.index t (1 : Fin 2) * 128 + 1 * q.val; omega
  exact lin3_block (V c (Pipeline.arrRef spec3 0)) (V c (Pipeline.arrRef spec3 1)) (V c (Pipeline.arrRef spec3 2))
    (iblk3 V c 0 t) (iblk3 V c 1 t) (iblk3 V c 2 t)
    (((cfg3.win 0).blk t).view.emb) (((cfg3.win 3).blk t).view.emb) (((cfg3.win 1).blk t).view.emb)
    (((cfg3.win 2).blk t).view.emb) rfl rfl rfl h0 h1 h2

/-- An index of the output array is in point `t`'s block iff each coordinate is in the block's range on its axis. -/
theorem mem_blk3 (t : Fin cfg3.N) (i : S50000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v71).slice (win3_3.rect t)).set ↔ _
  rw [View.set_slice_whole, Rect.mem_set_unit]
  exact Iff.rfl

/-- Every index of the output array lies in the block of the point numbered by its row divided by 5000. -/
theorem cover3 (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  have hN : cfg3.N = 10 := N_3
  obtain ⟨t, ht⟩ : ∃ t : Fin cfg3.N, t.val = (i 0).val / 5000 := ⟨⟨(i 0).val / 5000, by rw [hN]; omega⟩, rfl⟩
  obtain ⟨-, -, -, -, -, -, e6, e7⟩ := idx3 t
  refine ⟨t, flush3_3 t, ?_⟩
  rw [mem_blk3]
  intro a
  match a with
  | ⟨0, _⟩ =>
    show win3_3.index t (0 : Fin 2) * 5000 ≤ (i 0).val ∧ (i 0).val < win3_3.index t (0 : Fin 2) * 5000 + 5000
    omega
  | ⟨1, _⟩ =>
    show win3_3.index t (1 : Fin 2) * 128 ≤ (i 1).val ∧ (i 1).val < win3_3.index t (1 : Fin 2) * 128 + 128
    omega

/-- The output array after the region is the dense layer of the arrays as the region finds them. -/
theorem lin3_final (c : Dev nD) :
    (dat3 V c).arrAt 3 cfg3.N
      = lin3G (V c (Pipeline.arrRef spec3 0)) (V c (Pipeline.arrRef spec3 1)) (V c (Pipeline.arrRef spec3 2)) :=
  (dat3 V c).arrAt_eq_of_cover 3 _ (fun t _ => flushed3_eq V c t) cover3

/-- Entry `(p, q)` of the output array after the region. -/
theorem lin3_apply (c : Dev nD) (p : Fin 50000) (q : Fin 128) :
    (dat3 V c).arrAt 3 cfg3.N (ix2 p q)
      = denseEntry (V c (Pipeline.arrRef spec3 0)) (V c (Pipeline.arrRef spec3 1)) (V c (Pipeline.arrRef spec3 2)) p q :=
  (congrFun (lin3_final V c) (ix2 p q)).trans rfl

end Cert.KernelIdeal.Regions

end
-- ==== Proof.RegBn4.lean ====
/-
  Region 4 of the program is a batch normalisation with a rectifier and a residual, entry by entry over a matrix of
  50000 rows of 128 entries, written ten blocks of 5000 rows at a time. The block written at grid point `t` is
  computed from rows `5000 t … 5000 t + 4999` of the aggregate and of the residual and from five whole rows: the bias,
  the scale, the shift, the mean and the variance. Entry `(p, q)` of the output is therefore the entry formula of the
  aggregate's and the residual's `(p, q)` and of entry `q` of each row, whatever block row `p` falls in: the point that
  covers row `p` is `p / 5000`, and the ten blocks tile the array. All at the ideal values, where a float is an
  extended real. Everything is stated at an arbitrary content `V` of the buffers when the region is entered.
-/
import proofs.«115673_j47373489274965_1_alg».proof.Proof.Gen.KernelIdeal.Frame
import proofs.«115673_j47373489274965_1_alg».proof.Proof.RegCommon
import Idealize.ShloMosaic.Lib.Pipeline.Value
import Idealize.ShloMosaic.Lib.ValueIdx
import Idealize.ShloMosaic.Lib.ValueLayout
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Regions

open Cert.KernelIdeal Cert.KernelIdeal.Gen

variable (V : (c : Dev nD) → (b : Ref sig .tc) → Buf (Elt Ideal) ((c : Thread nD τ).loc b))

/-- The layer as one function of the seven arrays, entry by entry: the aggregate `A`, the residual `R`, and the rows of
    bias, scale, shift, mean and variance. -/
def bn4G (A R : S50000x128.Idx → EReal) (b g be mu va : S1x128.Idx → EReal) : S50000x128.Idx → EReal :=
  fun i => bnEntry (A i) (R i) (b (ix2 0 (i 1))) (g (ix2 0 (i 1))) (be (ix2 0 (i 1))) (mu (ix2 0 (i 1))) (va (ix2 0 (i 1)))

/-- The body's result on a block of 5000 rows, read at `(p, q)`: the entry formula of the aggregate's and the
    residual's `(p, q)` and of entry `q` of each of the five rows. -/
theorem pay4_apply (x0 x1 : Vec Ideal S5000x128 .f32) (x2 x3 x4 x5 x6 : Vec Ideal S1x128 .f32)
    (p : Fin 5000) (q : Fin 128) :
    k4_pay1 (F := Ideal) x0 x2 x6 x5 x3 x4 x1 (ix2 p q)
      = bnEntry (x0 (ix2 p q)) (x1 (ix2 p q)) (x2 (ix2 0 q)) (x3 (ix2 0 q)) (x4 (ix2 0 q)) (x5 (ix2 0 q)) (x6 (ix2 0 q)) := by
  have hrow : ∀ v : FVec Ideal S1x128 .f32,
      broadcastTo S5000x128 v broadcasts_S1x128_S5000x128 (ix2 p q) = v (ix2 (0 : Fin 1) q) :=
    fun v => broadcastTo_1b_ab_apply v _ p q
  unfold k4_pay1 bnEntry
  simp only [shapeCast_self, maximumf_apply, mulf_apply, addf_apply, subf_apply, broadcast_apply, hrow, rsqrt_apply]
  rfl

/-- The body's result on blocks that are restrictions of seven arrays: when the aggregate's and the residual's blocks
    hold the entries the output's block covers (`h0`, `h1`) and the five row blocks are the whole rows (`h2 … h6`), the
    result is the layer of the seven arrays restricted to the output's block. The blocks' index embeddings
    `e0 … e7` are arbitrary functions here. -/
theorem bn4_block (A R : S50000x128.Idx → EReal) (b g be mu va : S1x128.Idx → EReal)
    (x0 x1 : Vec Ideal S5000x128 .f32) (x2 x3 x4 x5 x6 : Vec Ideal S1x128 .f32)
    (e0 e1 e7 : S5000x128.Idx → S50000x128.Idx) (e2 e3 e4 e5 e6 : S1x128.Idx → S1x128.Idx)
    (hx0 : x0 = fun y => A (e0 y)) (hx1 : x1 = fun y => R (e1 y)) (hx2 : x2 = fun y => b (e2 y))
    (hx3 : x3 = fun y => g (e3 y)) (hx4 : x4 = fun y => be (e4 y)) (hx5 : x5 = fun y => mu (e5 y))
    (hx6 : x6 = fun y => va (e6 y))
    (h0 : ∀ (p : Fin 5000) (q : Fin 128), e0 (ix2 p q) = e7 (ix2 p q))
    (h1 : ∀ (p : Fin 5000) (q : Fin 128), e1 (ix2 p q) = e7 (ix2 p q))
    (h2 : ∀ (p : Fin 5000) (q : Fin 128), e2 (ix2 0 q) = ix2 0 ((e7 (ix2 p q)) 1))
    (h3 : ∀ (p : Fin 5000) (q : Fin 128), e3 (ix2 0 q) = ix2 0 ((e7 (ix2 p q)) 1))
    (h4 : ∀ (p : Fin 5000) (q : Fin 128), e4 (ix2 0 q) = ix2 0 ((e7 (ix2 p q)) 1))
    (h5 : ∀ (p : Fin 5000) (q : Fin 128), e5 (ix2 0 q) = ix2 0 ((e7 (ix2 p q)) 1))
    (h6 : ∀ (p : Fin 5000) (q : Fin 128), e6 (ix2 0 q) = ix2 0 ((e7 (ix2 p q)) 1)) :
    k4_pay1 (F := Ideal) x0 x2 x6 x5 x3 x4 x1 = fun j => bn4G A R b g be mu va (e7 j) := by
  subst hx0 hx1 hx2 hx3 hx4 hx5 hx6
  funext j
  obtain ⟨p, q, rfl⟩ : ∃ (p : Fin 5000) (q : Fin 128), j = ix2 p q := ⟨j 0, j 1, eq_ix2 j⟩
  rw [pay4_apply]
  unfold bn4G
  simp only [h0 p q, h1 p q, h2 p q, h3 p q, h4 p q, h5 p q, h6 p q] <;> rfl

/-- Where each window's block sits at grid point `t`: the row blocks of the aggregate, of the residual and of the
    output are block `t`, the five rows are whole. -/
theorem idx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0 :=
  (by decide +kernel : ∀ t : Fin grid4.N, _)

set_option maxHeartbeats 1000000 in
/-- What point `t` writes back is block `t` of the layer of the arrays as the region finds them. -/
theorem flushed4_eq (c : Dev nD) (t : Fin cfg4.N) :
    (dat4 V c).flushed 7 t = ((cfg4.win 7).blk t).view.read (Elt Ideal)
      (bn4G (V c (Pipeline.arrRef spec4 0)) (V c (Pipeline.arrRef spec4 1)) (V c (Pipeline.arrRef spec4 2))
        (V c (Pipeline.arrRef spec4 3)) (V c (Pipeline.arrRef spec4 4)) (V c (Pipeline.arrRef spec4 5))
        (V c (Pipeline.arrRef spec4 6))) := by
  show (cfg4.win 7).cut (grid4.coords t) ((dat4 V c).after 7 t) = _
  rw [after4_7]
  unfold out4_7
  rw [View.canon_unit_zero hz2]
  simp only [View.ld_unit_zero (S := S5000x128) hz2, View.ld_unit_zero (S := S1x128) hz2]
  obtain ⟨a0, a1, b0, b1, c0, c1, d0, d1, f0, f1, g0, g1, k0, k1, o0, o1⟩ := idx4 t
  have h0 : ∀ (p : Fin 5000) (q : Fin 128), ((cfg4.win 0).blk t).view.emb (ix2 p q)
      = ((cfg4.win 7).blk t).view.emb (ix2 p q) := fun p q => by
    funext a; apply Fin.ext
    match a with
    | ⟨0, _⟩ => show win4_0.index t (0 : Fin 2) * 5000 + 1 * p.val = win4_7.index t (0 : Fin 2) * 5000 + 1 * p.val; omega
    | ⟨1, _⟩ => show win4_0.index t (1 : Fin 2) * 128 + 1 * q.val = win4_7.index t (1 : Fin 2) * 128 + 1 * q.val; omega
  have h1 : ∀ (p : Fin 5000) (q : Fin 128), ((cfg4.win 1).blk t).view.emb (ix2 p q)
      = ((cfg4.win 7).blk t).view.emb (ix2 p q) := fun p q => by
    funext a; apply Fin.ext
    match a with
    | ⟨0, _⟩ => show win4_1.index t (0 : Fin 2) * 5000 + 1 * p.val = win4_7.index t (0 : Fin 2) * 5000 + 1 * p.val; omega
    | ⟨1, _⟩ => show win4_1.index t (1 : Fin 2) * 128 + 1 * q.val = win4_7.index t (1 : Fin 2) * 128 + 1 * q.val; omega
  have h2 : ∀ (p : Fin 5000) (q : Fin 128), ((cfg4.win 2).blk t).view.emb (ix2 0 q)
      = (ix2 0 ((((cfg4.win 7).blk t).view.emb (ix2 p q)) 1) : S1x128.Idx) := fun p q => by
    funext a; apply Fin.ext
    match a with
    | ⟨0, _⟩ => show win4_2.index t (0 : Fin 2) * 1 + 1 * 0 = 0; omega
    | ⟨1, _⟩ => show win4_2.index t (1 : Fin 2) * 128 + 1 * q.val = win4_7.index t (1 : Fin 2) * 128 + 1 * q.val; omega
  have h3 : ∀ (p : Fin 5000) (q : Fin 128), ((cfg4.win 3).blk t).view.emb (ix2 0 q)
      = (ix2 0 ((((cfg4.win 7).blk t).view.emb (ix2 p q)) 1) : S1x128.Idx) := fun p q => by
    funext a; apply Fin.ext
    match a with
    | ⟨0, _⟩ => show win4_3.index t (0 : Fin 2) * 1 + 1 * 0 = 0; omega
    | ⟨1, _⟩ => show win4_3.index t (1 : Fin 2) * 128 + 1 * q.val = win4_7.index t (1 : Fin 2) * 128 + 1 * q.val; omega
  have h4 : ∀ (p : Fin 5000) (q : Fin 128), ((cfg4.win 4).blk t).view.emb (ix2 0 q)
      = (ix2 0 ((((cfg4.win 7).blk t).view.emb (ix2 p q)) 1) : S1x128.Idx) := fun p q => by
    funext a; apply Fin.ext
    match a with
    | ⟨0, _⟩ => show win4_4.index t (0 : Fin 2) * 1 + 1 * 0 = 0; omega
    | ⟨1, _⟩ => show win4_4.index t (1 : Fin 2) * 128 + 1 * q.val = win4_7.index t (1 : Fin 2) * 128 + 1 * q.val; omega
  have h5 : ∀ (p : Fin 5000) (q : Fin 128), ((cfg4.win 5).blk t).view.emb (ix2 0 q)
      = (ix2 0 ((((cfg4.win 7).blk t).view.emb (ix2 p q)) 1) : S1x128.Idx) := fun p q => by
    funext a; apply Fin.ext
    match a with
    | ⟨0, _⟩ => show win4_5.index t (0 : Fin 2) * 1 + 1 * 0 = 0; omega
    | ⟨1, _⟩ => show win4_5.index t (1 : Fin 2) * 128 + 1 * q.val = win4_7.index t (1 : Fin 2) * 128 + 1 * q.val; omega
  have h6 : ∀ (p : Fin 5000) (q : Fin 128), ((cfg4.win 6).blk t).view.emb (ix2 0 q)
      = (ix2 0 ((((cfg4.win 7).blk t).view.emb (ix2 p q)) 1) : S1x128.Idx) := fun p q => by
    funext a; apply Fin.ext
    match a with
    | ⟨0, _⟩ => show win4_6.index t (0 : Fin 2) * 1 + 1 * 0 = 0; omega
    | ⟨1, _⟩ => show win4_6.index t (1 : Fin 2) * 128 + 1 * q.val = win4_7.index t (1 : Fin 2) * 128 + 1 * q.val; omega
  exact bn4_block (V c (Pipeline.arrRef spec4 0)) (V c (Pipeline.arrRef spec4 1)) (V c (Pipeline.arrRef spec4 2))
    (V c (Pipeline.arrRef spec4 3)) (V c (Pipeline.arrRef spec4 4)) (V c (Pipeline.arrRef spec4 5))
    (V c (Pipeline.arrRef spec4 6))
    (iblk4 V c 0 t) (iblk4 V c 1 t) (iblk4 V c 2 t) (iblk4 V c 3 t) (iblk4 V c 4 t) (iblk4 V c 5 t) (iblk4 V c 6 t)
    (((cfg4.win 0).blk t).view.emb) (((cfg4.win 1).blk t).view.emb) (((cfg4.win 7).blk t).view.emb)
    (((cfg4.win 2).blk t).view.emb) (((cfg4.win 3).blk t).view.emb) (((cfg4.win 4).blk t).view.emb)
    (((cfg4.win 5).blk t).view.emb) (((cfg4.win 6).blk t).view.emb)
    rfl rfl rfl rfl rfl rfl rfl h0 h1 h2 h3 h4 h5 h6

/-- An index of the output array is in point `t`'s block iff each coordinate is in the block's range on its axis. -/
theorem mem_blk4 (t : Fin cfg4.N) (i : S50000x128.Idx) :
    i ∈ ((cfg4.win 7).blk t).view.set ↔ ∀ a : Fin 2, win4_7.index t a * S5000x128.size a ≤ (i a).val
      ∧ (i a).val < win4_7.index t a * S5000x128.size a + S5000x128.size a := by
  show i ∈ ((View.whole main_v101).slice (win4_7.rect t)).set ↔ _
  rw [View.set_slice_whole, Rect.mem_set_unit]
  exact Iff.rfl

/-- Every index of the output array lies in the block of the point numbered by its row divided by 5000. -/
theorem cover4 (i : S50000x128.Idx) :
    ∃ t : Fin cfg4.N, (cfg4.win 7).flush t = true ∧ i ∈ ((cfg4.win 7).blk t).view.set := by
  have hi0 : (i 0).val < 50000 := (i 0).isLt
  have hi1 : (i 1).val < 128 := (i 1).isLt
  have hN : cfg4.N = 10 := N_4
  obtain ⟨t, ht⟩ : ∃ t : Fin cfg4.N, t.val = (i 0).val / 5000 := ⟨⟨(i 0).val / 5000, by rw [hN]; omega⟩, rfl⟩
  obtain ⟨-, -, -, -, -, -, -, -, -, -, -, -, -, -, o0, o1⟩ := idx4 t
  refine ⟨t, flush4_7 t, ?_⟩
  rw [mem_blk4]
  intro a
  match a with
  | ⟨0, _⟩ =>
    show win4_7.index t (0 : Fin 2) * 5000 ≤ (i 0).val ∧ (i 0).val < win4_7.index t (0 : Fin 2) * 5000 + 5000
    omega
  | ⟨1, _⟩ =>
    show win4_7.index t (1 : Fin 2) * 128 ≤ (i 1).val ∧ (i 1).val < win4_7.index t (1 : Fin 2) * 128 + 128
    omega

/-- The output array after the region is the layer of the arrays as the region finds them. -/
theorem bn4_final (c : Dev nD) :
    (dat4 V c).arrAt 7 cfg4.N
      = bn4G (V c (Pipeline.arrRef spec4 0)) (V c (Pipeline.arrRef spec4 1)) (V c (Pipeline.arrRef spec4 2))
          (V c (Pipeline.arrRef spec4 3)) (V c (Pipeline.arrRef spec4 4)) (V c (Pipeline.arrRef spec4 5))
          (V c (Pipeline.arrRef spec4 6)) :=
  (dat4 V c).arrAt_eq_of_cover 7 _ (fun t _ => flushed4_eq V c t) cover4

/-- Entry `(p, q)` of the output array after the region. -/
theorem bn4_apply (c : Dev nD) (p : Fin 50000) (q : Fin 128) :
    (dat4 V c).arrAt 7 cfg4.N (ix2 p q)
      = bnEntry ((V c (Pipeline.arrRef spec4 0) : S50000x128.Idx → EReal) (ix2 p q))
          ((V c (Pipeline.arrRef spec4 1) : S50000x128.Idx → EReal) (ix2 p q))
          ((V c (Pipeline.arrRef spec4 2) : S1x128.Idx → EReal) (ix2 0 q))
          ((V c (Pipeline.arrRef spec4 3) : S1x128.Idx → EReal) (ix2 0 q))
          ((V c (Pipeline.arrRef spec4 4) : S1x128.Idx → EReal) (ix2 0 q))
          ((V c (Pipeline.arrRef spec4 5) : S1x128.Idx → EReal) (ix2 0 q))
          ((V c (Pipeline.arrRef spec4 6) : S1x128.Idx → EReal) (ix2 0 q)) :=
  (congrFun (bn4_final V c) (ix2 p q)).trans rfl

end Cert.KernelIdeal.Regions

end
-- ==== Proof.ChainKL1.lean ====
/-
  Layer 1 of the kernel program, from the boundary before its transform to the boundary after its normalisation:
  the layer's output array is the layer function of the layer's input array, of the layer's slices of the weight,
  bias, scale and shift stacks, and of the edge lists and the edge norm; and the buffers the later layers read —
  the edge lists, the norm, the zero bias row and the arguments — come through unchanged. The two regions' results
  are the dense transform and the normalisation entry by entry; the host operations between them are the
  aggregation, the column statistics and the re-laid vectors.
-/
import proofs.«115673_j47373489274965_1_alg».proof.Proof.Gen.KernelIdeal.Frame
import proofs.«115673_j47373489274965_1_alg».proof.Proof.HostK1
import proofs.«115673_j47373489274965_1_alg».proof.Proof.HostKW
import proofs.«115673_j47373489274965_1_alg».proof.Proof.SpecBridge
import proofs.«115673_j47373489274965_1_alg».proof.Proof.RegLin3
import proofs.«115673_j47373489274965_1_alg».proof.Proof.RegBn4

set_option maxRecDepth 16384

noncomputable section

namespace Cert.KernelIdeal.ChainK

open Idealize.ShloMosaic Idealize.ShloMosaic.TcCoe Idealize.ShloMosaic.ValueIdx
open Cert.KernelIdeal Cert.KernelIdeal.Gen Cert.KernelIdeal.Spec Cert.ChainTools Cert.KernelIdeal.Regions

variable (m : (ℓ : Loc nD τ sig) → Buf (Elt Ideal) ℓ) (ρ : Dev nD → PrngReg) (c : Dev nD)

/-- The buffers every later segment reads and no segment of a layer writes (the zero bias row is carried apart:
    it is an input array of the transform regions). -/
abbrev keptL1 : List (Ref sig .tc) := [main_v3, main_v6, main_v29, main_arg2, main_arg5, main_arg6, main_arg7, main_arg8, main_arg9, main_arg10, main_arg11, main_arg12, main_arg13, main_arg14]

/-! ## The transform's stretch and region -/

theorem L1_w : W11 m ρ c (Proc.devRef .tc main_v70) = wT 1 Facts₀.slices_S4x128x128_S1x128x128_1_0_0 (W10 m ρ c (Proc.devRef .tc main_arg5)) :=
  hostOps3_w (W10 m ρ c)

theorem L1_keepA {b : Ref sig .tc} (hb : b ∉ (hostOps3_W : List (Ref sig .tc))) :
    W11 m ρ c (Proc.devRef .tc b) = W10 m ρ c (Proc.devRef .tc b) :=
  after_of_not_written hostOps3_writes hb _

theorem L1_lin : W12 m ρ c (Proc.devRef .tc main_v71)
    = linArr (W11 m ρ c (Proc.devRef .tc main_v67)) (W11 m ρ c (Proc.devRef .tc main_v70)) (W11 m ρ c (Proc.devRef .tc main_v30)) := by
  refine (W12_arr m ρ c 3).trans ?_
  funext i
  obtain ⟨p, q, rfl⟩ : ∃ (p : Fin 50000) (q : Fin 128), i = ix2 p q := ⟨i 0, i 1, eq_ix2 i⟩
  exact (lin3_apply (V11 m ρ) c p q).trans (linArr_apply (W11 m ρ c (Proc.devRef .tc main_v67)) (W11 m ρ c (Proc.devRef .tc main_v70)) (W11 m ρ c (Proc.devRef .tc main_v30)) p q).symm

theorem L1_keepRA_ne {b : Ref sig .tc} (hb : ∀ w, Pipeline.arrRef spec3 w ≠ b) :
    W12 m ρ c (Proc.devRef .tc b) = W11 m ρ c (Proc.devRef .tc b) := W12_of_ne m ρ c b hb

theorem L1_keepRA_res : W12 m ρ c (Proc.devRef .tc main_v67) = W11 m ρ c (Proc.devRef .tc main_v67) :=
  (W12_arr m ρ c 0).trans (((dat3 (V11 m ρ) c).arrAt_in 0 rfl _).trans (A_eq3 (V11 m ρ) c 0))

theorem L1_keepRA_zrow : W12 m ρ c (Proc.devRef .tc main_v30) = W11 m ρ c (Proc.devRef .tc main_v30) :=
  (W12_arr m ρ c 2).trans (((dat3 (V11 m ρ) c).arrAt_in 2 rfl _).trans (A_eq3 (V11 m ρ) c 2))

/-! ## The statistics' stretches and the normalisation region -/

theorem L1_host (b : DevRef τ sig) : W15 m ρ c b = StableHlo.after hostL1 (W12 m ρ c) b :=
  congrFun (after_hostL1 (W12 m ρ c)) b

theorem L1_keepB {b : Ref sig .tc} (h0 : b ∉ (hostOps4_W : List (Ref sig .tc))) (h1 : b ∉ (hostOps4_1_W : List (Ref sig .tc)))
    (h2 : b ∉ (hostOps4_2_W : List (Ref sig .tc))) : W15 m ρ c (Proc.devRef .tc b) = W12 m ρ c (Proc.devRef .tc b) :=
  ((after_of_not_written hostOps4_2_writes h2 _).trans (after_of_not_written hostOps4_1_writes h1 _)).trans
    (after_of_not_written hostOps4_writes h0 _)

theorem L1_bn : W16 m ρ c (Proc.devRef .tc main_v101)
    = bnArr (W15 m ρ c (Proc.devRef .tc main_v84)) (W15 m ρ c (Proc.devRef .tc main_v67)) (W15 m ρ c (Proc.devRef .tc main_v94))
        (W15 m ρ c (Proc.devRef .tc main_v97)) (W15 m ρ c (Proc.devRef .tc main_v100)) (W15 m ρ c (Proc.devRef .tc main_v92))
        (W15 m ρ c (Proc.devRef .tc main_v93)) := by
  refine (W16_arr m ρ c 7).trans ?_
  funext i
  obtain ⟨p, q, rfl⟩ : ∃ (p : Fin 50000) (q : Fin 128), i = ix2 p q := ⟨i 0, i 1, eq_ix2 i⟩
  exact (bn4_apply (V15 m ρ) c p q).trans (bnArr_apply (W15 m ρ c (Proc.devRef .tc main_v84)) (W15 m ρ c (Proc.devRef .tc main_v67)) (W15 m ρ c (Proc.devRef .tc main_v94)) (W15 m ρ c (Proc.devRef .tc main_v97)) (W15 m ρ c (Proc.devRef .tc main_v100)) (W15 m ρ c (Proc.devRef .tc main_v92)) (W15 m ρ c (Proc.devRef .tc main_v93)) p q).symm

theorem L1_keepRB_ne {b : Ref sig .tc} (hb : ∀ w, Pipeline.arrRef spec4 w ≠ b) :
    W16 m ρ c (Proc.devRef .tc b) = W15 m ρ c (Proc.devRef .tc b) := W16_of_ne m ρ c b hb

/-! ## The layer -/

/-- The kept buffers come through the layer. -/
theorem L1_keep : ∀ b ∈ keptL1, W16 m ρ c (Proc.devRef .tc b) = W10 m ρ c (Proc.devRef .tc b) := by
  have hA : ∀ b ∈ keptL1, b ∉ (hostOps3_W : List (Ref sig .tc)) := by decide
  have h0 : ∀ b ∈ keptL1, b ∉ (hostOps4_W : List (Ref sig .tc)) := by decide
  have h1 : ∀ b ∈ keptL1, b ∉ (hostOps4_1_W : List (Ref sig .tc)) := by decide
  have h2 : ∀ b ∈ keptL1, b ∉ (hostOps4_2_W : List (Ref sig .tc)) := by decide
  have rA : ∀ b ∈ keptL1, ∀ w, Pipeline.arrRef spec3 w ≠ b := by decide
  have rB : ∀ b ∈ keptL1, ∀ w, Pipeline.arrRef spec4 w ≠ b := by decide
  intro b hb
  exact (L1_keepRB_ne m ρ c (rB b hb)).trans ((L1_keepB m ρ c (h0 b hb) (h1 b hb) (h2 b hb)).trans
    ((L1_keepRA_ne m ρ c (rA b hb)).trans (L1_keepA m ρ c (hA b hb))))

/-- The zero bias row comes through the layer. -/
theorem L1_keep_zrow : W16 m ρ c (Proc.devRef .tc main_v30) = W10 m ρ c (Proc.devRef .tc main_v30) :=
  (L1_keepRB_ne m ρ c (by decide)).trans ((L1_keepB m ρ c (by decide) (by decide) (by decide)).trans
    ((L1_keepRA_zrow m ρ c).trans (L1_keepA m ρ c (by decide))))

/-- The layer's output array is the layer function of its input array and parameters. -/
theorem L1_val (hz : W10 m ρ c (Proc.devRef .tc main_v30) = zrow) :
    W16 m ρ c (Proc.devRef .tc main_v101)
      = layerK (W10 m ρ c (Proc.devRef .tc main_v67))
          (wT 1 Facts₀.slices_S4x128x128_S1x128x128_1_0_0 (W10 m ρ c (Proc.devRef .tc main_arg5)))
          (vsl 1 Facts₀.slices_S4x128_S1x128_1_0 (W10 m ρ c (Proc.devRef .tc main_arg6)))
          (vsl 1 Facts₀.slices_S4x128_S1x128_1_0 (W10 m ρ c (Proc.devRef .tc main_arg7)))
          (vsl 1 Facts₀.slices_S4x128_S1x128_1_0 (W10 m ρ c (Proc.devRef .tc main_arg8)))
          (W10 m ρ c (Proc.devRef .tc main_v3)) (W10 m ρ c (Proc.devRef .tc main_v6)) (W10 m ρ c (Proc.devRef .tc main_v29)) := by
  -- the transformed rows
  have hlin : W12 m ρ c (Proc.devRef .tc main_v71)
      = linArr (W10 m ρ c (Proc.devRef .tc main_v67))
          (wT 1 Facts₀.slices_S4x128x128_S1x128x128_1_0_0 (W10 m ρ c (Proc.devRef .tc main_arg5))) zrow := by
    rw [L1_lin, L1_w, L1_keepA m ρ c (b := main_v67) (by decide), L1_keepA m ρ c (b := main_v30) (by decide), hz]
  -- what the statistics' stretches find at the boundary after the transform
  have k3 : W12 m ρ c (Proc.devRef .tc main_v3) = W10 m ρ c (Proc.devRef .tc main_v3) :=
    (L1_keepRA_ne m ρ c (by decide)).trans (L1_keepA m ρ c (by decide))
  have k6 : W12 m ρ c (Proc.devRef .tc main_v6) = W10 m ρ c (Proc.devRef .tc main_v6) :=
    (L1_keepRA_ne m ρ c (by decide)).trans (L1_keepA m ρ c (by decide))
  have k29 : W12 m ρ c (Proc.devRef .tc main_v29) = W10 m ρ c (Proc.devRef .tc main_v29) :=
    (L1_keepRA_ne m ρ c (by decide)).trans (L1_keepA m ρ c (by decide))
  have ka6 : W12 m ρ c (Proc.devRef .tc main_arg6) = W10 m ρ c (Proc.devRef .tc main_arg6) :=
    (L1_keepRA_ne m ρ c (by decide)).trans (L1_keepA m ρ c (by decide))
  have ka7 : W12 m ρ c (Proc.devRef .tc main_arg7) = W10 m ρ c (Proc.devRef .tc main_arg7) :=
    (L1_keepRA_ne m ρ c (by decide)).trans (L1_keepA m ρ c (by decide))
  have ka8 : W12 m ρ c (Proc.devRef .tc main_arg8) = W10 m ρ c (Proc.devRef .tc main_arg8) :=
    (L1_keepRA_ne m ρ c (by decide)).trans (L1_keepA m ρ c (by decide))
  have kres : W15 m ρ c (Proc.devRef .tc main_v67) = W10 m ρ c (Proc.devRef .tc main_v67) :=
    (L1_keepB m ρ c (by decide) (by decide) (by decide)).trans ((L1_keepRA_res m ρ c).trans (L1_keepA m ρ c (by decide)))
  rw [L1_bn, kres, L1_host m ρ c (Proc.devRef .tc main_v84), L1_host m ρ c (Proc.devRef .tc main_v94),
    L1_host m ρ c (Proc.devRef .tc main_v97), L1_host m ρ c (Proc.devRef .tc main_v100), L1_host m ρ c (Proc.devRef .tc main_v92),
    L1_host m ρ c (Proc.devRef .tc main_v93), hostL1_agg, hostL1_bias, hostL1_scale, hostL1_shift, hostL1_mean, hostL1_var,
    hlin, k3, k6, k29, ka6, ka7, ka8]
  rfl

end Cert.KernelIdeal.ChainK

end
-- ==== Proof.HostK2.lean ====
/-
  The host operations of layer 2 of the kernel program, read as whole-array functions of what they find: the layer's
  weight sliced off the stack and transposed; then the aggregation of the transformed rows over the edges, the column
  mean of the aggregate plus the layer's bias, the column variance of the aggregate, and the bias, scale and shift
  vectors, each laid out as a one-row matrix.
-/
import proofs.«115673_j47373489274965_1_alg».proof.Proof.Gen.KernelIdeal.Launch
import proofs.«115673_j47373489274965_1_alg».proof.Proof.SpecK
import proofs.«115673_j47373489274965_1_alg».proof.Proof.ChainTools

-- one declaration at a time: each reading of the list of operations is large, and run side by side they hold too much at once
set_option Elab.async false

noncomputable section

namespace Cert.KernelIdeal.ChainK

open Idealize.ShloMosaic Idealize.ShloMosaic.TcCoe Cert.KernelIdeal Cert.KernelIdeal.Gen Cert.KernelIdeal.Spec Cert.ChainTools
open Facts₀ Facts

/-- The three stretches between the layer's transform and its normalisation, as one list. -/
abbrev hostL2 : List (HloOp τ sig (Elt Ideal)) := hostOps6 ++ hostOps6_1 ++ hostOps6_2

theorem after_hostL2 (V : Valuation τ sig (Elt Ideal)) :
    StableHlo.after (hostOps6_2 (F := Ideal)) (StableHlo.after (hostOps6_1 (F := Ideal)) (StableHlo.after (hostOps6 (F := Ideal)) V))
      = StableHlo.after hostL2 V := by
  simp only [hostL2, after_append]

theorem hostOps5_w (V : Valuation τ sig (Elt Ideal)) :
    StableHlo.after (hostOps5 (F := Ideal)) V (Proc.devRef .tc main_v104)
      = wT 2 Facts₀.slices_S4x128x128_S1x128x128_2_0_0 (V (Proc.devRef .tc main_arg5)) := by
  after_results
  all_goals rfl

section
variable (V : Valuation τ sig (Elt Ideal))

theorem hostL2_agg :
    StableHlo.after hostL2 V (Proc.devRef .tc main_v118)
      = aggr (V (Proc.devRef .tc main_v105)) (V (Proc.devRef .tc main_v3)) (V (Proc.devRef .tc main_v6)) (V (Proc.devRef .tc main_v29)) := by
  simp only [hostL2, hostOps6, hostOps6_1, hostOps6_2, List.cons_append, List.nil_append]
  after_results_simp
  all_goals (try simp only [cast_eq])
  all_goals rfl

theorem hostL2_bias :
    StableHlo.after hostL2 V (Proc.devRef .tc main_v128) = row128 (vsl 2 Facts₀.slices_S4x128_S1x128_2_0 (V (Proc.devRef .tc main_arg6))) := by
  simp only [hostL2, hostOps6, hostOps6_1, hostOps6_2, List.cons_append, List.nil_append]
  after_results_simp
  all_goals (try simp only [cast_eq])
  all_goals rfl

theorem hostL2_scale :
    StableHlo.after hostL2 V (Proc.devRef .tc main_v131) = row128 (vsl 2 Facts₀.slices_S4x128_S1x128_2_0 (V (Proc.devRef .tc main_arg7))) := by
  simp only [hostL2, hostOps6, hostOps6_1, hostOps6_2, List.cons_append, List.nil_append]
  after_results_simp
  all_goals (try simp only [cast_eq])
  all_goals rfl

theorem hostL2_shift :
    StableHlo.after hostL2 V (Proc.devRef .tc main_v134) = row128 (vsl 2 Facts₀.slices_S4x128_S1x128_2_0 (V (Proc.devRef .tc main_arg8))) := by
  simp only [hostL2, hostOps6, hostOps6_1, hostOps6_2, List.cons_append, List.nil_append]
  after_results_simp
  all_goals (try simp only [cast_eq])
  all_goals rfl

theorem hostL2_mean :
    StableHlo.after hostL2 V (Proc.devRef .tc main_v126)
      = row128 (addf (meanv (aggr (V (Proc.devRef .tc main_v105)) (V (Proc.devRef .tc main_v3)) (V (Proc.devRef .tc main_v6)) (V (Proc.devRef .tc main_v29))))
          (vsl 2 Facts₀.slices_S4x128_S1x128_2_0 (V (Proc.devRef .tc main_arg6)))) := by
  simp only [hostL2, hostOps6, hostOps6_1, hostOps6_2, List.cons_append, List.nil_append]
  after_results_simp
  all_goals (try simp only [cast_eq])
  all_goals rfl

theorem hostL2_var :
    StableHlo.after hostL2 V (Proc.devRef .tc main_v127)
      = row128 (varv (aggr (V (Proc.devRef .tc main_v105)) (V (Proc.devRef .tc main_v3)) (V (Proc.devRef .tc main_v6)) (V (Proc.devRef .tc main_v29)))) := by
  simp only [hostL2, hostOps6, hostOps6_1, hostOps6_2, List.cons_append, List.nil_append]
  after_results_simp
  all_goals (try simp only [cast_eq])
  all_goals rfl

end

end Cert.KernelIdeal.ChainK

end
-- ==== Proof.RegLin5.lean ====
/-
  Region 5 of the program is a dense layer over the rows of a matrix. Its output array has 50000 rows of 128
  entries, written ten blocks of 5000 rows at a time; the block written at grid point `t` is computed from rows
  `5000 t … 5000 t + 4999` of the first input array, the whole 128 × 128 weight array and the whole bias row. Entry
  `(p, q)` of the output is therefore row `p` of the first array against column `q` of the weights, plus entry `q`
  of the bias row, whatever block row `p` falls in: the point that covers row `p` is `p / 5000`, and the ten blocks
  tile the array. All at the ideal values, where a float is an extended real and a change of float format is the
  identity. Everything is stated at an arbitrary content `V` of the buffers when the region is entered.
-/
import proofs.«115673_j47373489274965_1_alg».proof.Proof.Gen.KernelIdeal.Frame
import proofs.«115673_j47373489274965_1_alg».proof.Proof.RegCommon
import Idealize.ShloMosaic.Lib.Pipeline.Value
import Idealize.ShloMosaic.Lib.ValueIdx
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Regions

open Cert.KernelIdeal Cert.KernelIdeal.Gen

variable (V : (c : Dev nD) → (b : Ref sig .tc) → Buf (Elt Ideal) ((c : Thread nD τ).loc b))

/-- The dense layer as one function of the three arrays, entry by entry. -/
def lin5G (X : S50000x128.Idx → EReal) (W : S128x128.Idx → EReal) (B : S1x128.Idx → EReal) : S50000x128.Idx → EReal :=
  fun i => (∑ k : Fin 128, X (ix2 (i 0) k) * W (ix2 k (i 1))) + B (ix2 0 (i 1))

/-- The body's result on a block of 5000 rows, read at `(p, q)`. -/
theorem pay5_apply (x0 : Vec Ideal S5000x128 .f32) (x1 : Vec Ideal S128x128 .f32) (x2 : Vec Ideal S1x128 .f32)
    (p : Fin 5000) (q : Fin 128) :
    k5_pay1 (F := Ideal) x0 x1 x2 (ix2 p q) = (∑ k : Fin 128, x0 (ix2 p k) * x1 (ix2 k q)) + x2 (ix2 0 q) := by
  unfold k5_pay1
  simp only [shapeCast_self]
  exact dense_apply dot_S5000x128_S128x128_S5000x128_1_0_0_1_n_n_wf broadcasts_S1x128_S5000x128 bitsLt_bf16_f32 x0 x1 x2 p q

/-- The body's result on blocks that are restrictions of three arrays `X`, `W`, `B`: when the first input's block
    holds the rows of `X` that the output's block covers (`h0`) and the other two blocks are the whole of `W` and
    of `B` (`h1`, `h2`), the result is the dense layer of `X`, `W`, `B` restricted to the output's block. The blocks'
    index embeddings `e0 … e3` are arbitrary functions here. -/
theorem lin5_block (X : S50000x128.Idx → EReal) (W : S128x128.Idx → EReal) (B : S1x128.Idx → EReal)
    (x0 : Vec Ideal S5000x128 .f32) (x1 : Vec Ideal S128x128 .f32) (x2 : Vec Ideal S1x128 .f32)
    (e0 e3 : S5000x128.Idx → S50000x128.Idx) (e1 : S128x128.Idx → S128x128.Idx) (e2 : S1x128.Idx → S1x128.Idx)
    (hx0 : x0 = fun y => X (e0 y)) (hx1 : x1 = fun y => W (e1 y)) (hx2 : x2 = fun y => B (e2 y))
    (h0 : ∀ (p : Fin 5000) (q k : Fin 128), e0 (ix2 p k) = ix2 ((e3 (ix2 p q)) 0) k)
    (h1 : ∀ (p : Fin 5000) (q k : Fin 128), e1 (ix2 k q) = ix2 k ((e3 (ix2 p q)) 1))
    (h2 : ∀ (p : Fin 5000) (q : Fin 128), e2 (ix2 0 q) = ix2 0 ((e3 (ix2 p q)) 1)) :
    k5_pay1 (F := Ideal) x0 x1 x2 = fun j => lin5G X W B (e3 j) := by
  subst hx0 hx1 hx2
  funext j
  obtain ⟨p, q, rfl⟩ : ∃ (p : Fin 5000) (q : Fin 128), j = ix2 p q := ⟨j 0, j 1, eq_ix2 j⟩
  rw [pay5_apply]
  unfold lin5G
  simp only [h0 p q, h1 p q, h2 p q] <;> rfl

/-- Where each window's block sits at grid point `t`: the row blocks of the first input and of the output are block
    `t`, the weights and the bias row are whole. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

set_option maxHeartbeats 1000000 in
/-- What point `t` writes back is block `t` of the dense layer of the arrays as the region finds them. -/
theorem flushed5_eq (c : Dev nD) (t : Fin cfg5.N) :
    (dat5 V c).flushed 3 t = ((cfg5.win 3).blk t).view.read (Elt Ideal)
      (lin5G (V c (Pipeline.arrRef spec5 0)) (V c (Pipeline.arrRef spec5 1)) (V c (Pipeline.arrRef spec5 2))) := by
  show (cfg5.win 3).cut (grid5.coords t) ((dat5 V c).after 3 t) = _
  rw [after5_3]
  unfold out5_3
  rw [View.canon_unit_zero hz2]
  simp only [View.ld_unit_zero (S := S5000x128) hz2, View.ld_unit_zero (S := S128x128) hz2, View.ld_unit_zero (S := S1x128) hz2]
  obtain ⟨a0, a1, b0, b1, c0, c1, o0, o1⟩ := idx5 t
  have h0 : ∀ (p : Fin 5000) (q k : Fin 128), ((cfg5.win 0).blk t).view.emb (ix2 p k)
      = (ix2 ((((cfg5.win 3).blk t).view.emb (ix2 p q)) 0) k : S50000x128.Idx) := fun p q k => by
    funext a; apply Fin.ext
    match a with
    | ⟨0, _⟩ => show win5_0.index t (0 : Fin 2) * 5000 + 1 * p.val = win5_3.index t (0 : Fin 2) * 5000 + 1 * p.val; omega
    | ⟨1, _⟩ => show win5_0.index t (1 : Fin 2) * 128 + 1 * k.val = k.val; omega
  have h1 : ∀ (p : Fin 5000) (q k : Fin 128), ((cfg5.win 1).blk t).view.emb (ix2 k q)
      = (ix2 k ((((cfg5.win 3).blk t).view.emb (ix2 p q)) 1) : S128x128.Idx) := fun p q k => by
    funext a; apply Fin.ext
    match a with
    | ⟨0, _⟩ => show win5_1.index t (0 : Fin 2) * 128 + 1 * k.val = k.val; omega
    | ⟨1, _⟩ => show win5_1.index t (1 : Fin 2) * 128 + 1 * q.val = win5_3.index t (1 : Fin 2) * 128 + 1 * q.val; omega
  have h2 : ∀ (p : Fin 5000) (q : Fin 128), ((cfg5.win 2).blk t).view.emb (ix2 0 q)
      = (ix2 0 ((((cfg5.win 3).blk t).view.emb (ix2 p q)) 1) : S1x128.Idx) := fun p q => by
    funext a; apply Fin.ext
    match a with
    | ⟨0, _⟩ => show win5_2.index t (0 : Fin 2) * 1 + 1 * 0 = 0; omega
    | ⟨1, _⟩ => show win5_2.index t (1 : Fin 2) * 128 + 1 * q.val = win5_3.index t (1 : Fin 2) * 128 + 1 * q.val; omega
  exact lin5_block (V c (Pipeline.arrRef spec5 0)) (V c (Pipeline.arrRef spec5 1)) (V c (Pipeline.arrRef spec5 2))
    (iblk5 V c 0 t) (iblk5 V c 1 t) (iblk5 V c 2 t)
    (((cfg5.win 0).blk t).view.emb) (((cfg5.win 3).blk t).view.emb) (((cfg5.win 1).blk t).view.emb)
    (((cfg5.win 2).blk t).view.emb) rfl rfl rfl h0 h1 h2

/-- An index of the output array is in point `t`'s block iff each coordinate is in the block's range on its axis. -/
theorem mem_blk5 (t : Fin cfg5.N) (i : S50000x128.Idx) :
    i ∈ ((cfg5.win 3).blk t).view.set ↔ ∀ a : Fin 2, win5_3.index t a * S5000x128.size a ≤ (i a).val
      ∧ (i a).val < win5_3.index t a * S5000x128.size a + S5000x128.size a := by
  show i ∈ ((View.whole main_v105).slice (win5_3.rect t)).set ↔ _
  rw [View.set_slice_whole, Rect.mem_set_unit]
  exact Iff.rfl

/-- Every index of the output array lies in the block of the point numbered by its row divided by 5000. -/
theorem cover5 (i : S50000x128.Idx) :
    ∃ t : Fin cfg5.N, (cfg5.win 3).flush t = true ∧ i ∈ ((cfg5.win 3).blk t).view.set := by
  have hi0 : (i 0).val < 50000 := (i 0).isLt
  have hi1 : (i 1).val < 128 := (i 1).isLt
  have hN : cfg5.N = 10 := N_5
  obtain ⟨t, ht⟩ : ∃ t : Fin cfg5.N, t.val = (i 0).val / 5000 := ⟨⟨(i 0).val / 5000, by rw [hN]; omega⟩, rfl⟩
  obtain ⟨-, -, -, -, -, -, e6, e7⟩ := idx5 t
  refine ⟨t, flush5_3 t, ?_⟩
  rw [mem_blk5]
  intro a
  match a with
  | ⟨0, _⟩ =>
    show win5_3.index t (0 : Fin 2) * 5000 ≤ (i 0).val ∧ (i 0).val < win5_3.index t (0 : Fin 2) * 5000 + 5000
    omega
  | ⟨1, _⟩ =>
    show win5_3.index t (1 : Fin 2) * 128 ≤ (i 1).val ∧ (i 1).val < win5_3.index t (1 : Fin 2) * 128 + 128
    omega

/-- The output array after the region is the dense layer of the arrays as the region finds them. -/
theorem lin5_final (c : Dev nD) :
    (dat5 V c).arrAt 3 cfg5.N
      = lin5G (V c (Pipeline.arrRef spec5 0)) (V c (Pipeline.arrRef spec5 1)) (V c (Pipeline.arrRef spec5 2)) :=
  (dat5 V c).arrAt_eq_of_cover 3 _ (fun t _ => flushed5_eq V c t) cover5

/-- Entry `(p, q)` of the output array after the region. -/
theorem lin5_apply (c : Dev nD) (p : Fin 50000) (q : Fin 128) :
    (dat5 V c).arrAt 3 cfg5.N (ix2 p q)
      = denseEntry (V c (Pipeline.arrRef spec5 0)) (V c (Pipeline.arrRef spec5 1)) (V c (Pipeline.arrRef spec5 2)) p q :=
  (congrFun (lin5_final V c) (ix2 p q)).trans rfl

end Cert.KernelIdeal.Regions

end
-- ==== Proof.RegBn6.lean ====
/-
  Region 6 of the program is a batch normalisation with a rectifier and a residual, entry by entry over a matrix of
  50000 rows of 128 entries, written ten blocks of 5000 rows at a time. The block written at grid point `t` is
  computed from rows `5000 t … 5000 t + 4999` of the aggregate and of the residual and from five whole rows: the bias,
  the scale, the shift, the mean and the variance. Entry `(p, q)` of the output is therefore the entry formula of the
  aggregate's and the residual's `(p, q)` and of entry `q` of each row, whatever block row `p` falls in: the point that
  covers row `p` is `p / 5000`, and the ten blocks tile the array. All at the ideal values, where a float is an
  extended real. Everything is stated at an arbitrary content `V` of the buffers when the region is entered.
-/
import proofs.«115673_j47373489274965_1_alg».proof.Proof.Gen.KernelIdeal.Frame
import proofs.«115673_j47373489274965_1_alg».proof.Proof.RegCommon
import Idealize.ShloMosaic.Lib.Pipeline.Value
import Idealize.ShloMosaic.Lib.ValueIdx
import Idealize.ShloMosaic.Lib.ValueLayout
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Regions

open Cert.KernelIdeal Cert.KernelIdeal.Gen

variable (V : (c : Dev nD) → (b : Ref sig .tc) → Buf (Elt Ideal) ((c : Thread nD τ).loc b))

/-- The layer as one function of the seven arrays, entry by entry: the aggregate `A`, the residual `R`, and the rows of
    bias, scale, shift, mean and variance. -/
def bn6G (A R : S50000x128.Idx → EReal) (b g be mu va : S1x128.Idx → EReal) : S50000x128.Idx → EReal :=
  fun i => bnEntry (A i) (R i) (b (ix2 0 (i 1))) (g (ix2 0 (i 1))) (be (ix2 0 (i 1))) (mu (ix2 0 (i 1))) (va (ix2 0 (i 1)))

/-- The body's result on a block of 5000 rows, read at `(p, q)`: the entry formula of the aggregate's and the
    residual's `(p, q)` and of entry `q` of each of the five rows. -/
theorem pay6_apply (x0 x1 : Vec Ideal S5000x128 .f32) (x2 x3 x4 x5 x6 : Vec Ideal S1x128 .f32)
    (p : Fin 5000) (q : Fin 128) :
    k6_pay1 (F := Ideal) x0 x2 x6 x5 x3 x4 x1 (ix2 p q)
      = bnEntry (x0 (ix2 p q)) (x1 (ix2 p q)) (x2 (ix2 0 q)) (x3 (ix2 0 q)) (x4 (ix2 0 q)) (x5 (ix2 0 q)) (x6 (ix2 0 q)) := by
  have hrow : ∀ v : FVec Ideal S1x128 .f32,
      broadcastTo S5000x128 v broadcasts_S1x128_S5000x128 (ix2 p q) = v (ix2 (0 : Fin 1) q) :=
    fun v => broadcastTo_1b_ab_apply v _ p q
  unfold k6_pay1 bnEntry
  simp only [shapeCast_self, maximumf_apply, mulf_apply, addf_apply, subf_apply, broadcast_apply, hrow, rsqrt_apply]
  rfl

/-- The body's result on blocks that are restrictions of seven arrays: when the aggregate's and the residual's blocks
    hold the entries the output's block covers (`h0`, `h1`) and the five row blocks are the whole rows (`h2 … h6`), the
    result is the layer of the seven arrays restricted to the output's block. The blocks' index embeddings
    `e0 … e7` are arbitrary functions here. -/
theorem bn6_block (A R : S50000x128.Idx → EReal) (b g be mu va : S1x128.Idx → EReal)
    (x0 x1 : Vec Ideal S5000x128 .f32) (x2 x3 x4 x5 x6 : Vec Ideal S1x128 .f32)
    (e0 e1 e7 : S5000x128.Idx → S50000x128.Idx) (e2 e3 e4 e5 e6 : S1x128.Idx → S1x128.Idx)
    (hx0 : x0 = fun y => A (e0 y)) (hx1 : x1 = fun y => R (e1 y)) (hx2 : x2 = fun y => b (e2 y))
    (hx3 : x3 = fun y => g (e3 y)) (hx4 : x4 = fun y => be (e4 y)) (hx5 : x5 = fun y => mu (e5 y))
    (hx6 : x6 = fun y => va (e6 y))
    (h0 : ∀ (p : Fin 5000) (q : Fin 128), e0 (ix2 p q) = e7 (ix2 p q))
    (h1 : ∀ (p : Fin 5000) (q : Fin 128), e1 (ix2 p q) = e7 (ix2 p q))
    (h2 : ∀ (p : Fin 5000) (q : Fin 128), e2 (ix2 0 q) = ix2 0 ((e7 (ix2 p q)) 1))
    (h3 : ∀ (p : Fin 5000) (q : Fin 128), e3 (ix2 0 q) = ix2 0 ((e7 (ix2 p q)) 1))
    (h4 : ∀ (p : Fin 5000) (q : Fin 128), e4 (ix2 0 q) = ix2 0 ((e7 (ix2 p q)) 1))
    (h5 : ∀ (p : Fin 5000) (q : Fin 128), e5 (ix2 0 q) = ix2 0 ((e7 (ix2 p q)) 1))
    (h6 : ∀ (p : Fin 5000) (q : Fin 128), e6 (ix2 0 q) = ix2 0 ((e7 (ix2 p q)) 1)) :
    k6_pay1 (F := Ideal) x0 x2 x6 x5 x3 x4 x1 = fun j => bn6G A R b g be mu va (e7 j) := by
  subst hx0 hx1 hx2 hx3 hx4 hx5 hx6
  funext j
  obtain ⟨p, q, rfl⟩ : ∃ (p : Fin 5000) (q : Fin 128), j = ix2 p q := ⟨j 0, j 1, eq_ix2 j⟩
  rw [pay6_apply]
  unfold bn6G
  simp only [h0 p q, h1 p q, h2 p q, h3 p q, h4 p q, h5 p q, h6 p q] <;> rfl

/-- Where each window's block sits at grid point `t`: the row blocks of the aggregate, of the residual and of the
    output are block `t`, the five rows are whole. -/
theorem idx6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = t.val ∧ win6_7.index t (1 : Fin 2) = 0 :=
  (by decide +kernel : ∀ t : Fin grid6.N, _)

set_option maxHeartbeats 1000000 in
/-- What point `t` writes back is block `t` of the layer of the arrays as the region finds them. -/
theorem flushed6_eq (c : Dev nD) (t : Fin cfg6.N) :
    (dat6 V c).flushed 7 t = ((cfg6.win 7).blk t).view.read (Elt Ideal)
      (bn6G (V c (Pipeline.arrRef spec6 0)) (V c (Pipeline.arrRef spec6 1)) (V c (Pipeline.arrRef spec6 2))
        (V c (Pipeline.arrRef spec6 3)) (V c (Pipeline.arrRef spec6 4)) (V c (Pipeline.arrRef spec6 5))
        (V c (Pipeline.arrRef spec6 6))) := by
  show (cfg6.win 7).cut (grid6.coords t) ((dat6 V c).after 7 t) = _
  rw [after6_7]
  unfold out6_7
  rw [View.canon_unit_zero hz2]
  simp only [View.ld_unit_zero (S := S5000x128) hz2, View.ld_unit_zero (S := S1x128) hz2]
  obtain ⟨a0, a1, b0, b1, c0, c1, d0, d1, f0, f1, g0, g1, k0, k1, o0, o1⟩ := idx6 t
  have h0 : ∀ (p : Fin 5000) (q : Fin 128), ((cfg6.win 0).blk t).view.emb (ix2 p q)
      = ((cfg6.win 7).blk t).view.emb (ix2 p q) := fun p q => by
    funext a; apply Fin.ext
    match a with
    | ⟨0, _⟩ => show win6_0.index t (0 : Fin 2) * 5000 + 1 * p.val = win6_7.index t (0 : Fin 2) * 5000 + 1 * p.val; omega
    | ⟨1, _⟩ => show win6_0.index t (1 : Fin 2) * 128 + 1 * q.val = win6_7.index t (1 : Fin 2) * 128 + 1 * q.val; omega
  have h1 : ∀ (p : Fin 5000) (q : Fin 128), ((cfg6.win 1).blk t).view.emb (ix2 p q)
      = ((cfg6.win 7).blk t).view.emb (ix2 p q) := fun p q => by
    funext a; apply Fin.ext
    match a with
    | ⟨0, _⟩ => show win6_1.index t (0 : Fin 2) * 5000 + 1 * p.val = win6_7.index t (0 : Fin 2) * 5000 + 1 * p.val; omega
    | ⟨1, _⟩ => show win6_1.index t (1 : Fin 2) * 128 + 1 * q.val = win6_7.index t (1 : Fin 2) * 128 + 1 * q.val; omega
  have h2 : ∀ (p : Fin 5000) (q : Fin 128), ((cfg6.win 2).blk t).view.emb (ix2 0 q)
      = (ix2 0 ((((cfg6.win 7).blk t).view.emb (ix2 p q)) 1) : S1x128.Idx) := fun p q => by
    funext a; apply Fin.ext
    match a with
    | ⟨0, _⟩ => show win6_2.index t (0 : Fin 2) * 1 + 1 * 0 = 0; omega
    | ⟨1, _⟩ => show win6_2.index t (1 : Fin 2) * 128 + 1 * q.val = win6_7.index t (1 : Fin 2) * 128 + 1 * q.val; omega
  have h3 : ∀ (p : Fin 5000) (q : Fin 128), ((cfg6.win 3).blk t).view.emb (ix2 0 q)
      = (ix2 0 ((((cfg6.win 7).blk t).view.emb (ix2 p q)) 1) : S1x128.Idx) := fun p q => by
    funext a; apply Fin.ext
    match a with
    | ⟨0, _⟩ => show win6_3.index t (0 : Fin 2) * 1 + 1 * 0 = 0; omega
    | ⟨1, _⟩ => show win6_3.index t (1 : Fin 2) * 128 + 1 * q.val = win6_7.index t (1 : Fin 2) * 128 + 1 * q.val; omega
  have h4 : ∀ (p : Fin 5000) (q : Fin 128), ((cfg6.win 4).blk t).view.emb (ix2 0 q)
      = (ix2 0 ((((cfg6.win 7).blk t).view.emb (ix2 p q)) 1) : S1x128.Idx) := fun p q => by
    funext a; apply Fin.ext
    match a with
    | ⟨0, _⟩ => show win6_4.index t (0 : Fin 2) * 1 + 1 * 0 = 0; omega
    | ⟨1, _⟩ => show win6_4.index t (1 : Fin 2) * 128 + 1 * q.val = win6_7.index t (1 : Fin 2) * 128 + 1 * q.val; omega
  have h5 : ∀ (p : Fin 5000) (q : Fin 128), ((cfg6.win 5).blk t).view.emb (ix2 0 q)
      = (ix2 0 ((((cfg6.win 7).blk t).view.emb (ix2 p q)) 1) : S1x128.Idx) := fun p q => by
    funext a; apply Fin.ext
    match a with
    | ⟨0, _⟩ => show win6_5.index t (0 : Fin 2) * 1 + 1 * 0 = 0; omega
    | ⟨1, _⟩ => show win6_5.index t (1 : Fin 2) * 128 + 1 * q.val = win6_7.index t (1 : Fin 2) * 128 + 1 * q.val; omega
  have h6 : ∀ (p : Fin 5000) (q : Fin 128), ((cfg6.win 6).blk t).view.emb (ix2 0 q)
      = (ix2 0 ((((cfg6.win 7).blk t).view.emb (ix2 p q)) 1) : S1x128.Idx) := fun p q => by
    funext a; apply Fin.ext
    match a with
    | ⟨0, _⟩ => show win6_6.index t (0 : Fin 2) * 1 + 1 * 0 = 0; omega
    | ⟨1, _⟩ => show win6_6.index t (1 : Fin 2) * 128 + 1 * q.val = win6_7.index t (1 : Fin 2) * 128 + 1 * q.val; omega
  exact bn6_block (V c (Pipeline.arrRef spec6 0)) (V c (Pipeline.arrRef spec6 1)) (V c (Pipeline.arrRef spec6 2))
    (V c (Pipeline.arrRef spec6 3)) (V c (Pipeline.arrRef spec6 4)) (V c (Pipeline.arrRef spec6 5))
    (V c (Pipeline.arrRef spec6 6))
    (iblk6 V c 0 t) (iblk6 V c 1 t) (iblk6 V c 2 t) (iblk6 V c 3 t) (iblk6 V c 4 t) (iblk6 V c 5 t) (iblk6 V c 6 t)
    (((cfg6.win 0).blk t).view.emb) (((cfg6.win 1).blk t).view.emb) (((cfg6.win 7).blk t).view.emb)
    (((cfg6.win 2).blk t).view.emb) (((cfg6.win 3).blk t).view.emb) (((cfg6.win 4).blk t).view.emb)
    (((cfg6.win 5).blk t).view.emb) (((cfg6.win 6).blk t).view.emb)
    rfl rfl rfl rfl rfl rfl rfl h0 h1 h2 h3 h4 h5 h6

/-- An index of the output array is in point `t`'s block iff each coordinate is in the block's range on its axis. -/
theorem mem_blk6 (t : Fin cfg6.N) (i : S50000x128.Idx) :
    i ∈ ((cfg6.win 7).blk t).view.set ↔ ∀ a : Fin 2, win6_7.index t a * S5000x128.size a ≤ (i a).val
      ∧ (i a).val < win6_7.index t a * S5000x128.size a + S5000x128.size a := by
  show i ∈ ((View.whole main_v135).slice (win6_7.rect t)).set ↔ _
  rw [View.set_slice_whole, Rect.mem_set_unit]
  exact Iff.rfl

/-- Every index of the output array lies in the block of the point numbered by its row divided by 5000. -/
theorem cover6 (i : S50000x128.Idx) :
    ∃ t : Fin cfg6.N, (cfg6.win 7).flush t = true ∧ i ∈ ((cfg6.win 7).blk t).view.set := by
  have hi0 : (i 0).val < 50000 := (i 0).isLt
  have hi1 : (i 1).val < 128 := (i 1).isLt
  have hN : cfg6.N = 10 := N_6
  obtain ⟨t, ht⟩ : ∃ t : Fin cfg6.N, t.val = (i 0).val / 5000 := ⟨⟨(i 0).val / 5000, by rw [hN]; omega⟩, rfl⟩
  obtain ⟨-, -, -, -, -, -, -, -, -, -, -, -, -, -, o0, o1⟩ := idx6 t
  refine ⟨t, flush6_7 t, ?_⟩
  rw [mem_blk6]
  intro a
  match a with
  | ⟨0, _⟩ =>
    show win6_7.index t (0 : Fin 2) * 5000 ≤ (i 0).val ∧ (i 0).val < win6_7.index t (0 : Fin 2) * 5000 + 5000
    omega
  | ⟨1, _⟩ =>
    show win6_7.index t (1 : Fin 2) * 128 ≤ (i 1).val ∧ (i 1).val < win6_7.index t (1 : Fin 2) * 128 + 128
    omega

/-- The output array after the region is the layer of the arrays as the region finds them. -/
theorem bn6_final (c : Dev nD) :
    (dat6 V c).arrAt 7 cfg6.N
      = bn6G (V c (Pipeline.arrRef spec6 0)) (V c (Pipeline.arrRef spec6 1)) (V c (Pipeline.arrRef spec6 2))
          (V c (Pipeline.arrRef spec6 3)) (V c (Pipeline.arrRef spec6 4)) (V c (Pipeline.arrRef spec6 5))
          (V c (Pipeline.arrRef spec6 6)) :=
  (dat6 V c).arrAt_eq_of_cover 7 _ (fun t _ => flushed6_eq V c t) cover6

/-- Entry `(p, q)` of the output array after the region. -/
theorem bn6_apply (c : Dev nD) (p : Fin 50000) (q : Fin 128) :
    (dat6 V c).arrAt 7 cfg6.N (ix2 p q)
      = bnEntry ((V c (Pipeline.arrRef spec6 0) : S50000x128.Idx → EReal) (ix2 p q))
          ((V c (Pipeline.arrRef spec6 1) : S50000x128.Idx → EReal) (ix2 p q))
          ((V c (Pipeline.arrRef spec6 2) : S1x128.Idx → EReal) (ix2 0 q))
          ((V c (Pipeline.arrRef spec6 3) : S1x128.Idx → EReal) (ix2 0 q))
          ((V c (Pipeline.arrRef spec6 4) : S1x128.Idx → EReal) (ix2 0 q))
          ((V c (Pipeline.arrRef spec6 5) : S1x128.Idx → EReal) (ix2 0 q))
          ((V c (Pipeline.arrRef spec6 6) : S1x128.Idx → EReal) (ix2 0 q)) :=
  (congrFun (bn6_final V c) (ix2 p q)).trans rfl

end Cert.KernelIdeal.Regions

end
-- ==== Proof.ChainKL2.lean ====
/-
  Layer 2 of the kernel program, from the boundary before its transform to the boundary after its normalisation:
  the layer's output array is the layer function of the layer's input array, of the layer's slices of the weight,
  bias, scale and shift stacks, and of the edge lists and the edge norm; and the buffers the later layers read —
  the edge lists, the norm, the zero bias row and the arguments — come through unchanged. The two regions' results
  are the dense transform and the normalisation entry by entry; the host operations between them are the
  aggregation, the column statistics and the re-laid vectors.
-/
import proofs.«115673_j47373489274965_1_alg».proof.Proof.Gen.KernelIdeal.Frame
import proofs.«115673_j47373489274965_1_alg».proof.Proof.HostK2
import proofs.«115673_j47373489274965_1_alg».proof.Proof.HostKW
import proofs.«115673_j47373489274965_1_alg».proof.Proof.SpecBridge
import proofs.«115673_j47373489274965_1_alg».proof.Proof.RegLin5
import proofs.«115673_j47373489274965_1_alg».proof.Proof.RegBn6

set_option maxRecDepth 16384

noncomputable section

namespace Cert.KernelIdeal.ChainK

open Idealize.ShloMosaic Idealize.ShloMosaic.TcCoe Idealize.ShloMosaic.ValueIdx
open Cert.KernelIdeal Cert.KernelIdeal.Gen Cert.KernelIdeal.Spec Cert.ChainTools Cert.KernelIdeal.Regions

variable (m : (ℓ : Loc nD τ sig) → Buf (Elt Ideal) ℓ) (ρ : Dev nD → PrngReg) (c : Dev nD)

/-- The buffers every later segment reads and no segment of a layer writes (the zero bias row is carried apart:
    it is an input array of the transform regions). -/
abbrev keptL2 : List (Ref sig .tc) := [main_v3, main_v6, main_v29, main_arg2, main_arg5, main_arg6, main_arg7, main_arg8, main_arg9, main_arg10, main_arg11, main_arg12, main_arg13, main_arg14]

/-! ## The transform's stretch and region -/

theorem L2_w : W17 m ρ c (Proc.devRef .tc main_v104) = wT 2 Facts₀.slices_S4x128x128_S1x128x128_2_0_0 (W16 m ρ c (Proc.devRef .tc main_arg5)) :=
  hostOps5_w (W16 m ρ c)

theorem L2_keepA {b : Ref sig .tc} (hb : b ∉ (hostOps5_W : List (Ref sig .tc))) :
    W17 m ρ c (Proc.devRef .tc b) = W16 m ρ c (Proc.devRef .tc b) :=
  after_of_not_written hostOps5_writes hb _

theorem L2_lin : W18 m ρ c (Proc.devRef .tc main_v105)
    = linArr (W17 m ρ c (Proc.devRef .tc main_v101)) (W17 m ρ c (Proc.devRef .tc main_v104)) (W17 m ρ c (Proc.devRef .tc main_v30)) := by
  refine (W18_arr m ρ c 3).trans ?_
  funext i
  obtain ⟨p, q, rfl⟩ : ∃ (p : Fin 50000) (q : Fin 128), i = ix2 p q := ⟨i 0, i 1, eq_ix2 i⟩
  exact (lin5_apply (V17 m ρ) c p q).trans (linArr_apply (W17 m ρ c (Proc.devRef .tc main_v101)) (W17 m ρ c (Proc.devRef .tc main_v104)) (W17 m ρ c (Proc.devRef .tc main_v30)) p q).symm

theorem L2_keepRA_ne {b : Ref sig .tc} (hb : ∀ w, Pipeline.arrRef spec5 w ≠ b) :
    W18 m ρ c (Proc.devRef .tc b) = W17 m ρ c (Proc.devRef .tc b) := W18_of_ne m ρ c b hb

theorem L2_keepRA_res : W18 m ρ c (Proc.devRef .tc main_v101) = W17 m ρ c (Proc.devRef .tc main_v101) :=
  (W18_arr m ρ c 0).trans (((dat5 (V17 m ρ) c).arrAt_in 0 rfl _).trans (A_eq5 (V17 m ρ) c 0))

theorem L2_keepRA_zrow : W18 m ρ c (Proc.devRef .tc main_v30) = W17 m ρ c (Proc.devRef .tc main_v30) :=
  (W18_arr m ρ c 2).trans (((dat5 (V17 m ρ) c).arrAt_in 2 rfl _).trans (A_eq5 (V17 m ρ) c 2))

/-! ## The statistics' stretches and the normalisation region -/

theorem L2_host (b : DevRef τ sig) : W21 m ρ c b = StableHlo.after hostL2 (W18 m ρ c) b :=
  congrFun (after_hostL2 (W18 m ρ c)) b

theorem L2_keepB {b : Ref sig .tc} (h0 : b ∉ (hostOps6_W : List (Ref sig .tc))) (h1 : b ∉ (hostOps6_1_W : List (Ref sig .tc)))
    (h2 : b ∉ (hostOps6_2_W : List (Ref sig .tc))) : W21 m ρ c (Proc.devRef .tc b) = W18 m ρ c (Proc.devRef .tc b) :=
  ((after_of_not_written hostOps6_2_writes h2 _).trans (after_of_not_written hostOps6_1_writes h1 _)).trans
    (after_of_not_written hostOps6_writes h0 _)

theorem L2_bn : W22 m ρ c (Proc.devRef .tc main_v135)
    = bnArr (W21 m ρ c (Proc.devRef .tc main_v118)) (W21 m ρ c (Proc.devRef .tc main_v101)) (W21 m ρ c (Proc.devRef .tc main_v128))
        (W21 m ρ c (Proc.devRef .tc main_v131)) (W21 m ρ c (Proc.devRef .tc main_v134)) (W21 m ρ c (Proc.devRef .tc main_v126))
        (W21 m ρ c (Proc.devRef .tc main_v127)) := by
  refine (W22_arr m ρ c 7).trans ?_
  funext i
  obtain ⟨p, q, rfl⟩ : ∃ (p : Fin 50000) (q : Fin 128), i = ix2 p q := ⟨i 0, i 1, eq_ix2 i⟩
  exact (bn6_apply (V21 m ρ) c p q).trans (bnArr_apply (W21 m ρ c (Proc.devRef .tc main_v118)) (W21 m ρ c (Proc.devRef .tc main_v101)) (W21 m ρ c (Proc.devRef .tc main_v128)) (W21 m ρ c (Proc.devRef .tc main_v131)) (W21 m ρ c (Proc.devRef .tc main_v134)) (W21 m ρ c (Proc.devRef .tc main_v126)) (W21 m ρ c (Proc.devRef .tc main_v127)) p q).symm

theorem L2_keepRB_ne {b : Ref sig .tc} (hb : ∀ w, Pipeline.arrRef spec6 w ≠ b) :
    W22 m ρ c (Proc.devRef .tc b) = W21 m ρ c (Proc.devRef .tc b) := W22_of_ne m ρ c b hb

/-! ## The layer -/

/-- The kept buffers come through the layer. -/
theorem L2_keep : ∀ b ∈ keptL2, W22 m ρ c (Proc.devRef .tc b) = W16 m ρ c (Proc.devRef .tc b) := by
  have hA : ∀ b ∈ keptL2, b ∉ (hostOps5_W : List (Ref sig .tc)) := by decide
  have h0 : ∀ b ∈ keptL2, b ∉ (hostOps6_W : List (Ref sig .tc)) := by decide
  have h1 : ∀ b ∈ keptL2, b ∉ (hostOps6_1_W : List (Ref sig .tc)) := by decide
  have h2 : ∀ b ∈ keptL2, b ∉ (hostOps6_2_W : List (Ref sig .tc)) := by decide
  have rA : ∀ b ∈ keptL2, ∀ w, Pipeline.arrRef spec5 w ≠ b := by decide
  have rB : ∀ b ∈ keptL2, ∀ w, Pipeline.arrRef spec6 w ≠ b := by decide
  intro b hb
  exact (L2_keepRB_ne m ρ c (rB b hb)).trans ((L2_keepB m ρ c (h0 b hb) (h1 b hb) (h2 b hb)).trans
    ((L2_keepRA_ne m ρ c (rA b hb)).trans (L2_keepA m ρ c (hA b hb))))

/-- The zero bias row comes through the layer. -/
theorem L2_keep_zrow : W22 m ρ c (Proc.devRef .tc main_v30) = W16 m ρ c (Proc.devRef .tc main_v30) :=
  (L2_keepRB_ne m ρ c (by decide)).trans ((L2_keepB m ρ c (by decide) (by decide) (by decide)).trans
    ((L2_keepRA_zrow m ρ c).trans (L2_keepA m ρ c (by decide))))

/-- The layer's output array is the layer function of its input array and parameters. -/
theorem L2_val (hz : W16 m ρ c (Proc.devRef .tc main_v30) = zrow) :
    W22 m ρ c (Proc.devRef .tc main_v135)
      = layerK (W16 m ρ c (Proc.devRef .tc main_v101))
          (wT 2 Facts₀.slices_S4x128x128_S1x128x128_2_0_0 (W16 m ρ c (Proc.devRef .tc main_arg5)))
          (vsl 2 Facts₀.slices_S4x128_S1x128_2_0 (W16 m ρ c (Proc.devRef .tc main_arg6)))
          (vsl 2 Facts₀.slices_S4x128_S1x128_2_0 (W16 m ρ c (Proc.devRef .tc main_arg7)))
          (vsl 2 Facts₀.slices_S4x128_S1x128_2_0 (W16 m ρ c (Proc.devRef .tc main_arg8)))
          (W16 m ρ c (Proc.devRef .tc main_v3)) (W16 m ρ c (Proc.devRef .tc main_v6)) (W16 m ρ c (Proc.devRef .tc main_v29)) := by
  -- the transformed rows
  have hlin : W18 m ρ c (Proc.devRef .tc main_v105)
      = linArr (W16 m ρ c (Proc.devRef .tc main_v101))
          (wT 2 Facts₀.slices_S4x128x128_S1x128x128_2_0_0 (W16 m ρ c (Proc.devRef .tc main_arg5))) zrow := by
    rw [L2_lin, L2_w, L2_keepA m ρ c (b := main_v101) (by decide), L2_keepA m ρ c (b := main_v30) (by decide), hz]
  -- what the statistics' stretches find at the boundary after the transform
  have k3 : W18 m ρ c (Proc.devRef .tc main_v3) = W16 m ρ c (Proc.devRef .tc main_v3) :=
    (L2_keepRA_ne m ρ c (by decide)).trans (L2_keepA m ρ c (by decide))
  have k6 : W18 m ρ c (Proc.devRef .tc main_v6) = W16 m ρ c (Proc.devRef .tc main_v6) :=
    (L2_keepRA_ne m ρ c (by decide)).trans (L2_keepA m ρ c (by decide))
  have k29 : W18 m ρ c (Proc.devRef .tc main_v29) = W16 m ρ c (Proc.devRef .tc main_v29) :=
    (L2_keepRA_ne m ρ c (by decide)).trans (L2_keepA m ρ c (by decide))
  have ka6 : W18 m ρ c (Proc.devRef .tc main_arg6) = W16 m ρ c (Proc.devRef .tc main_arg6) :=
    (L2_keepRA_ne m ρ c (by decide)).trans (L2_keepA m ρ c (by decide))
  have ka7 : W18 m ρ c (Proc.devRef .tc main_arg7) = W16 m ρ c (Proc.devRef .tc main_arg7) :=
    (L2_keepRA_ne m ρ c (by decide)).trans (L2_keepA m ρ c (by decide))
  have ka8 : W18 m ρ c (Proc.devRef .tc main_arg8) = W16 m ρ c (Proc.devRef .tc main_arg8) :=
    (L2_keepRA_ne m ρ c (by decide)).trans (L2_keepA m ρ c (by decide))
  have kres : W21 m ρ c (Proc.devRef .tc main_v101) = W16 m ρ c (Proc.devRef .tc main_v101) :=
    (L2_keepB m ρ c (by decide) (by decide) (by decide)).trans ((L2_keepRA_res m ρ c).trans (L2_keepA m ρ c (by decide)))
  rw [L2_bn, kres, L2_host m ρ c (Proc.devRef .tc main_v118), L2_host m ρ c (Proc.devRef .tc main_v128),
    L2_host m ρ c (Proc.devRef .tc main_v131), L2_host m ρ c (Proc.devRef .tc main_v134), L2_host m ρ c (Proc.devRef .tc main_v126),
    L2_host m ρ c (Proc.devRef .tc main_v127), hostL2_agg, hostL2_bias, hostL2_scale, hostL2_shift, hostL2_mean, hostL2_var,
    hlin, k3, k6, k29, ka6, ka7, ka8]
  rfl

end Cert.KernelIdeal.ChainK

end
-- ==== Proof.HostK3.lean ====
/-
  The host operations of layer 3 of the kernel program, read as whole-array functions of what they find: the layer's
  weight sliced off the stack and transposed; then the aggregation of the transformed rows over the edges, the column
  mean of the aggregate plus the layer's bias, the column variance of the aggregate, and the bias, scale and shift
  vectors, each laid out as a one-row matrix.
-/
import proofs.«115673_j47373489274965_1_alg».proof.Proof.Gen.KernelIdeal.Launch
import proofs.«115673_j47373489274965_1_alg».proof.Proof.SpecK
import proofs.«115673_j47373489274965_1_alg».proof.Proof.ChainTools

-- one declaration at a time: each reading of the list of operations is large, and run side by side they hold too much at once
set_option Elab.async false

noncomputable section

namespace Cert.KernelIdeal.ChainK

open Idealize.ShloMosaic Idealize.ShloMosaic.TcCoe Cert.KernelIdeal Cert.KernelIdeal.Gen Cert.KernelIdeal.Spec Cert.ChainTools
open Facts₀ Facts

/-- The three stretches between the layer's transform and its normalisation, as one list. -/
abbrev hostL3 : List (HloOp τ sig (Elt Ideal)) := hostOps8 ++ hostOps8_1 ++ hostOps8_2

theorem after_hostL3 (V : Valuation τ sig (Elt Ideal)) :
    StableHlo.after (hostOps8_2 (F := Ideal)) (StableHlo.after (hostOps8_1 (F := Ideal)) (StableHlo.after (hostOps8 (F := Ideal)) V))
      = StableHlo.after hostL3 V := by
  simp only [hostL3, after_append]

theorem hostOps7_w (V : Valuation τ sig (Elt Ideal)) :
    StableHlo.after (hostOps7 (F := Ideal)) V (Proc.devRef .tc main_v138)
      = wT 3 Facts₀.slices_S4x128x128_S1x128x128_3_0_0 (V (Proc.devRef .tc main_arg5)) := by
  after_results
  all_goals rfl

section
variable (V : Valuation τ sig (Elt Ideal))

theorem hostL3_agg :
    StableHlo.after hostL3 V (Proc.devRef .tc main_v152)
      = aggr (V (Proc.devRef .tc main_v139)) (V (Proc.devRef .tc main_v3)) (V (Proc.devRef .tc main_v6)) (V (Proc.devRef .tc main_v29)) := by
  simp only [hostL3, hostOps8, hostOps8_1, hostOps8_2, List.cons_append, List.nil_append]
  after_results_simp
  all_goals (try simp only [cast_eq])
  all_goals rfl

theorem hostL3_bias :
    StableHlo.after hostL3 V (Proc.devRef .tc main_v162) = row128 (vsl 3 Facts₀.slices_S4x128_S1x128_3_0 (V (Proc.devRef .tc main_arg6))) := by
  simp only [hostL3, hostOps8, hostOps8_1, hostOps8_2, List.cons_append, List.nil_append]
  after_results_simp
  all_goals (try simp only [cast_eq])
  all_goals rfl

theorem hostL3_scale :
    StableHlo.after hostL3 V (Proc.devRef .tc main_v165) = row128 (vsl 3 Facts₀.slices_S4x128_S1x128_3_0 (V (Proc.devRef .tc main_arg7))) := by
  simp only [hostL3, hostOps8, hostOps8_1, hostOps8_2, List.cons_append, List.nil_append]
  after_results_simp
  all_goals (try simp only [cast_eq])
  all_goals rfl

theorem hostL3_shift :
    StableHlo.after hostL3 V (Proc.devRef .tc main_v168) = row128 (vsl 3 Facts₀.slices_S4x128_S1x128_3_0 (V (Proc.devRef .tc main_arg8))) := by
  simp only [hostL3, hostOps8, hostOps8_1, hostOps8_2, List.cons_append, List.nil_append]
  after_results_simp
  all_goals (try simp only [cast_eq])
  all_goals rfl

theorem hostL3_mean :
    StableHlo.after hostL3 V (Proc.devRef .tc main_v160)
      = row128 (addf (meanv (aggr (V (Proc.devRef .tc main_v139)) (V (Proc.devRef .tc main_v3)) (V (Proc.devRef .tc main_v6)) (V (Proc.devRef .tc main_v29))))
          (vsl 3 Facts₀.slices_S4x128_S1x128_3_0 (V (Proc.devRef .tc main_arg6)))) := by
  simp only [hostL3, hostOps8, hostOps8_1, hostOps8_2, List.cons_append, List.nil_append]
  after_results_simp
  all_goals (try simp only [cast_eq])
  all_goals rfl

theorem hostL3_var :
    StableHlo.after hostL3 V (Proc.devRef .tc main_v161)
      = row128 (varv (aggr (V (Proc.devRef .tc main_v139)) (V (Proc.devRef .tc main_v3)) (V (Proc.devRef .tc main_v6)) (V (Proc.devRef .tc main_v29)))) := by
  simp only [hostL3, hostOps8, hostOps8_1, hostOps8_2, List.cons_append, List.nil_append]
  after_results_simp
  all_goals (try simp only [cast_eq])
  all_goals rfl

end

end Cert.KernelIdeal.ChainK

end
-- ==== Proof.RegLin7.lean ====
/-
  Region 7 of the program is a dense layer over the rows of a matrix. Its output array has 50000 rows of 128
  entries, written ten blocks of 5000 rows at a time; the block written at grid point `t` is computed from rows
  `5000 t … 5000 t + 4999` of the first input array, the whole 128 × 128 weight array and the whole bias row. Entry
  `(p, q)` of the output is therefore row `p` of the first array against column `q` of the weights, plus entry `q`
  of the bias row, whatever block row `p` falls in: the point that covers row `p` is `p / 5000`, and the ten blocks
  tile the array. All at the ideal values, where a float is an extended real and a change of float format is the
  identity. Everything is stated at an arbitrary content `V` of the buffers when the region is entered.
-/
import proofs.«115673_j47373489274965_1_alg».proof.Proof.Gen.KernelIdeal.Frame
import proofs.«115673_j47373489274965_1_alg».proof.Proof.RegCommon
import Idealize.ShloMosaic.Lib.Pipeline.Value
import Idealize.ShloMosaic.Lib.ValueIdx
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Regions

open Cert.KernelIdeal Cert.KernelIdeal.Gen

variable (V : (c : Dev nD) → (b : Ref sig .tc) → Buf (Elt Ideal) ((c : Thread nD τ).loc b))

/-- The dense layer as one function of the three arrays, entry by entry. -/
def lin7G (X : S50000x128.Idx → EReal) (W : S128x128.Idx → EReal) (B : S1x128.Idx → EReal) : S50000x128.Idx → EReal :=
  fun i => (∑ k : Fin 128, X (ix2 (i 0) k) * W (ix2 k (i 1))) + B (ix2 0 (i 1))

/-- The body's result on a block of 5000 rows, read at `(p, q)`. -/
theorem pay7_apply (x0 : Vec Ideal S5000x128 .f32) (x1 : Vec Ideal S128x128 .f32) (x2 : Vec Ideal S1x128 .f32)
    (p : Fin 5000) (q : Fin 128) :
    k7_pay1 (F := Ideal) x0 x1 x2 (ix2 p q) = (∑ k : Fin 128, x0 (ix2 p k) * x1 (ix2 k q)) + x2 (ix2 0 q) := by
  unfold k7_pay1
  simp only [shapeCast_self]
  exact dense_apply dot_S5000x128_S128x128_S5000x128_1_0_0_1_n_n_wf broadcasts_S1x128_S5000x128 bitsLt_bf16_f32 x0 x1 x2 p q

/-- The body's result on blocks that are restrictions of three arrays `X`, `W`, `B`: when the first input's block
    holds the rows of `X` that the output's block covers (`h0`) and the other two blocks are the whole of `W` and
    of `B` (`h1`, `h2`), the result is the dense layer of `X`, `W`, `B` restricted to the output's block. The blocks'
    index embeddings `e0 … e3` are arbitrary functions here. -/
theorem lin7_block (X : S50000x128.Idx → EReal) (W : S128x128.Idx → EReal) (B : S1x128.Idx → EReal)
    (x0 : Vec Ideal S5000x128 .f32) (x1 : Vec Ideal S128x128 .f32) (x2 : Vec Ideal S1x128 .f32)
    (e0 e3 : S5000x128.Idx → S50000x128.Idx) (e1 : S128x128.Idx → S128x128.Idx) (e2 : S1x128.Idx → S1x128.Idx)
    (hx0 : x0 = fun y => X (e0 y)) (hx1 : x1 = fun y => W (e1 y)) (hx2 : x2 = fun y => B (e2 y))
    (h0 : ∀ (p : Fin 5000) (q k : Fin 128), e0 (ix2 p k) = ix2 ((e3 (ix2 p q)) 0) k)
    (h1 : ∀ (p : Fin 5000) (q k : Fin 128), e1 (ix2 k q) = ix2 k ((e3 (ix2 p q)) 1))
    (h2 : ∀ (p : Fin 5000) (q : Fin 128), e2 (ix2 0 q) = ix2 0 ((e3 (ix2 p q)) 1)) :
    k7_pay1 (F := Ideal) x0 x1 x2 = fun j => lin7G X W B (e3 j) := by
  subst hx0 hx1 hx2
  funext j
  obtain ⟨p, q, rfl⟩ : ∃ (p : Fin 5000) (q : Fin 128), j = ix2 p q := ⟨j 0, j 1, eq_ix2 j⟩
  rw [pay7_apply]
  unfold lin7G
  simp only [h0 p q, h1 p q, h2 p q] <;> rfl

/-- Where each window's block sits at grid point `t`: the row blocks of the first input and of the output are block
    `t`, the weights and the bias row are whole. -/
theorem idx7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

set_option maxHeartbeats 1000000 in
/-- What point `t` writes back is block `t` of the dense layer of the arrays as the region finds them. -/
theorem flushed7_eq (c : Dev nD) (t : Fin cfg7.N) :
    (dat7 V c).flushed 3 t = ((cfg7.win 3).blk t).view.read (Elt Ideal)
      (lin7G (V c (Pipeline.arrRef spec7 0)) (V c (Pipeline.arrRef spec7 1)) (V c (Pipeline.arrRef spec7 2))) := by
  show (cfg7.win 3).cut (grid7.coords t) ((dat7 V c).after 3 t) = _
  rw [after7_3]
  unfold out7_3
  rw [View.canon_unit_zero hz2]
  simp only [View.ld_unit_zero (S := S5000x128) hz2, View.ld_unit_zero (S := S128x128) hz2, View.ld_unit_zero (S := S1x128) hz2]
  obtain ⟨a0, a1, b0, b1, c0, c1, o0, o1⟩ := idx7 t
  have h0 : ∀ (p : Fin 5000) (q k : Fin 128), ((cfg7.win 0).blk t).view.emb (ix2 p k)
      = (ix2 ((((cfg7.win 3).blk t).view.emb (ix2 p q)) 0) k : S50000x128.Idx) := fun p q k => by
    funext a; apply Fin.ext
    match a with
    | ⟨0, _⟩ => show win7_0.index t (0 : Fin 2) * 5000 + 1 * p.val = win7_3.index t (0 : Fin 2) * 5000 + 1 * p.val; omega
    | ⟨1, _⟩ => show win7_0.index t (1 : Fin 2) * 128 + 1 * k.val = k.val; omega
  have h1 : ∀ (p : Fin 5000) (q k : Fin 128), ((cfg7.win 1).blk t).view.emb (ix2 k q)
      = (ix2 k ((((cfg7.win 3).blk t).view.emb (ix2 p q)) 1) : S128x128.Idx) := fun p q k => by
    funext a; apply Fin.ext
    match a with
    | ⟨0, _⟩ => show win7_1.index t (0 : Fin 2) * 128 + 1 * k.val = k.val; omega
    | ⟨1, _⟩ => show win7_1.index t (1 : Fin 2) * 128 + 1 * q.val = win7_3.index t (1 : Fin 2) * 128 + 1 * q.val; omega
  have h2 : ∀ (p : Fin 5000) (q : Fin 128), ((cfg7.win 2).blk t).view.emb (ix2 0 q)
      = (ix2 0 ((((cfg7.win 3).blk t).view.emb (ix2 p q)) 1) : S1x128.Idx) := fun p q => by
    funext a; apply Fin.ext
    match a with
    | ⟨0, _⟩ => show win7_2.index t (0 : Fin 2) * 1 + 1 * 0 = 0; omega
    | ⟨1, _⟩ => show win7_2.index t (1 : Fin 2) * 128 + 1 * q.val = win7_3.index t (1 : Fin 2) * 128 + 1 * q.val; omega
  exact lin7_block (V c (Pipeline.arrRef spec7 0)) (V c (Pipeline.arrRef spec7 1)) (V c (Pipeline.arrRef spec7 2))
    (iblk7 V c 0 t) (iblk7 V c 1 t) (iblk7 V c 2 t)
    (((cfg7.win 0).blk t).view.emb) (((cfg7.win 3).blk t).view.emb) (((cfg7.win 1).blk t).view.emb)
    (((cfg7.win 2).blk t).view.emb) rfl rfl rfl h0 h1 h2

/-- An index of the output array is in point `t`'s block iff each coordinate is in the block's range on its axis. -/
theorem mem_blk7 (t : Fin cfg7.N) (i : S50000x128.Idx) :
    i ∈ ((cfg7.win 3).blk t).view.set ↔ ∀ a : Fin 2, win7_3.index t a * S5000x128.size a ≤ (i a).val
      ∧ (i a).val < win7_3.index t a * S5000x128.size a + S5000x128.size a := by
  show i ∈ ((View.whole main_v139).slice (win7_3.rect t)).set ↔ _
  rw [View.set_slice_whole, Rect.mem_set_unit]
  exact Iff.rfl

/-- Every index of the output array lies in the block of the point numbered by its row divided by 5000. -/
theorem cover7 (i : S50000x128.Idx) :
    ∃ t : Fin cfg7.N, (cfg7.win 3).flush t = true ∧ i ∈ ((cfg7.win 3).blk t).view.set := by
  have hi0 : (i 0).val < 50000 := (i 0).isLt
  have hi1 : (i 1).val < 128 := (i 1).isLt
  have hN : cfg7.N = 10 := N_7
  obtain ⟨t, ht⟩ : ∃ t : Fin cfg7.N, t.val = (i 0).val / 5000 := ⟨⟨(i 0).val / 5000, by rw [hN]; omega⟩, rfl⟩
  obtain ⟨-, -, -, -, -, -, e6, e7⟩ := idx7 t
  refine ⟨t, flush7_3 t, ?_⟩
  rw [mem_blk7]
  intro a
  match a with
  | ⟨0, _⟩ =>
    show win7_3.index t (0 : Fin 2) * 5000 ≤ (i 0).val ∧ (i 0).val < win7_3.index t (0 : Fin 2) * 5000 + 5000
    omega
  | ⟨1, _⟩ =>
    show win7_3.index t (1 : Fin 2) * 128 ≤ (i 1).val ∧ (i 1).val < win7_3.index t (1 : Fin 2) * 128 + 128
    omega

/-- The output array after the region is the dense layer of the arrays as the region finds them. -/
theorem lin7_final (c : Dev nD) :
    (dat7 V c).arrAt 3 cfg7.N
      = lin7G (V c (Pipeline.arrRef spec7 0)) (V c (Pipeline.arrRef spec7 1)) (V c (Pipeline.arrRef spec7 2)) :=
  (dat7 V c).arrAt_eq_of_cover 3 _ (fun t _ => flushed7_eq V c t) cover7

/-- Entry `(p, q)` of the output array after the region. -/
theorem lin7_apply (c : Dev nD) (p : Fin 50000) (q : Fin 128) :
    (dat7 V c).arrAt 3 cfg7.N (ix2 p q)
      = denseEntry (V c (Pipeline.arrRef spec7 0)) (V c (Pipeline.arrRef spec7 1)) (V c (Pipeline.arrRef spec7 2)) p q :=
  (congrFun (lin7_final V c) (ix2 p q)).trans rfl

end Cert.KernelIdeal.Regions

end
-- ==== Proof.RegBn8.lean ====
/-
  Region 8 of the program is a batch normalisation with a rectifier and a residual, entry by entry over a matrix of
  50000 rows of 128 entries, written ten blocks of 5000 rows at a time. The block written at grid point `t` is
  computed from rows `5000 t … 5000 t + 4999` of the aggregate and of the residual and from five whole rows: the bias,
  the scale, the shift, the mean and the variance. Entry `(p, q)` of the output is therefore the entry formula of the
  aggregate's and the residual's `(p, q)` and of entry `q` of each row, whatever block row `p` falls in: the point that
  covers row `p` is `p / 5000`, and the ten blocks tile the array. All at the ideal values, where a float is an
  extended real. Everything is stated at an arbitrary content `V` of the buffers when the region is entered.
-/
import proofs.«115673_j47373489274965_1_alg».proof.Proof.Gen.KernelIdeal.Frame
import proofs.«115673_j47373489274965_1_alg».proof.Proof.RegCommon
import Idealize.ShloMosaic.Lib.Pipeline.Value
import Idealize.ShloMosaic.Lib.ValueIdx
import Idealize.ShloMosaic.Lib.ValueLayout
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Regions

open Cert.KernelIdeal Cert.KernelIdeal.Gen

variable (V : (c : Dev nD) → (b : Ref sig .tc) → Buf (Elt Ideal) ((c : Thread nD τ).loc b))

/-- The layer as one function of the seven arrays, entry by entry: the aggregate `A`, the residual `R`, and the rows of
    bias, scale, shift, mean and variance. -/
def bn8G (A R : S50000x128.Idx → EReal) (b g be mu va : S1x128.Idx → EReal) : S50000x128.Idx → EReal :=
  fun i => bnEntry (A i) (R i) (b (ix2 0 (i 1))) (g (ix2 0 (i 1))) (be (ix2 0 (i 1))) (mu (ix2 0 (i 1))) (va (ix2 0 (i 1)))

/-- The body's result on a block of 5000 rows, read at `(p, q)`: the entry formula of the aggregate's and the
    residual's `(p, q)` and of entry `q` of each of the five rows. -/
theorem pay8_apply (x0 x1 : Vec Ideal S5000x128 .f32) (x2 x3 x4 x5 x6 : Vec Ideal S1x128 .f32)
    (p : Fin 5000) (q : Fin 128) :
    k8_pay1 (F := Ideal) x0 x2 x6 x5 x3 x4 x1 (ix2 p q)
      = bnEntry (x0 (ix2 p q)) (x1 (ix2 p q)) (x2 (ix2 0 q)) (x3 (ix2 0 q)) (x4 (ix2 0 q)) (x5 (ix2 0 q)) (x6 (ix2 0 q)) := by
  have hrow : ∀ v : FVec Ideal S1x128 .f32,
      broadcastTo S5000x128 v broadcasts_S1x128_S5000x128 (ix2 p q) = v (ix2 (0 : Fin 1) q) :=
    fun v => broadcastTo_1b_ab_apply v _ p q
  unfold k8_pay1 bnEntry
  simp only [shapeCast_self, maximumf_apply, mulf_apply, addf_apply, subf_apply, broadcast_apply, hrow, rsqrt_apply]
  rfl

/-- The body's result on blocks that are restrictions of seven arrays: when the aggregate's and the residual's blocks
    hold the entries the output's block covers (`h0`, `h1`) and the five row blocks are the whole rows (`h2 … h6`), the
    result is the layer of the seven arrays restricted to the output's block. The blocks' index embeddings
    `e0 … e7` are arbitrary functions here. -/
theorem bn8_block (A R : S50000x128.Idx → EReal) (b g be mu va : S1x128.Idx → EReal)
    (x0 x1 : Vec Ideal S5000x128 .f32) (x2 x3 x4 x5 x6 : Vec Ideal S1x128 .f32)
    (e0 e1 e7 : S5000x128.Idx → S50000x128.Idx) (e2 e3 e4 e5 e6 : S1x128.Idx → S1x128.Idx)
    (hx0 : x0 = fun y => A (e0 y)) (hx1 : x1 = fun y => R (e1 y)) (hx2 : x2 = fun y => b (e2 y))
    (hx3 : x3 = fun y => g (e3 y)) (hx4 : x4 = fun y => be (e4 y)) (hx5 : x5 = fun y => mu (e5 y))
    (hx6 : x6 = fun y => va (e6 y))
    (h0 : ∀ (p : Fin 5000) (q : Fin 128), e0 (ix2 p q) = e7 (ix2 p q))
    (h1 : ∀ (p : Fin 5000) (q : Fin 128), e1 (ix2 p q) = e7 (ix2 p q))
    (h2 : ∀ (p : Fin 5000) (q : Fin 128), e2 (ix2 0 q) = ix2 0 ((e7 (ix2 p q)) 1))
    (h3 : ∀ (p : Fin 5000) (q : Fin 128), e3 (ix2 0 q) = ix2 0 ((e7 (ix2 p q)) 1))
    (h4 : ∀ (p : Fin 5000) (q : Fin 128), e4 (ix2 0 q) = ix2 0 ((e7 (ix2 p q)) 1))
    (h5 : ∀ (p : Fin 5000) (q : Fin 128), e5 (ix2 0 q) = ix2 0 ((e7 (ix2 p q)) 1))
    (h6 : ∀ (p : Fin 5000) (q : Fin 128), e6 (ix2 0 q) = ix2 0 ((e7 (ix2 p q)) 1)) :
    k8_pay1 (F := Ideal) x0 x2 x6 x5 x3 x4 x1 = fun j => bn8G A R b g be mu va (e7 j) := by
  subst hx0 hx1 hx2 hx3 hx4 hx5 hx6
  funext j
  obtain ⟨p, q, rfl⟩ : ∃ (p : Fin 5000) (q : Fin 128), j = ix2 p q := ⟨j 0, j 1, eq_ix2 j⟩
  rw [pay8_apply]
  unfold bn8G
  simp only [h0 p q, h1 p q, h2 p q, h3 p q, h4 p q, h5 p q, h6 p q] <;> rfl

/-- Where each window's block sits at grid point `t`: the row blocks of the aggregate, of the residual and of the
    output are block `t`, the five rows are whole. -/
theorem idx8 : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0
    ∧ win8_6.index t (0 : Fin 2) = 0 ∧ win8_6.index t (1 : Fin 2) = 0
    ∧ win8_7.index t (0 : Fin 2) = t.val ∧ win8_7.index t (1 : Fin 2) = 0 :=
  (by decide +kernel : ∀ t : Fin grid8.N, _)

set_option maxHeartbeats 1000000 in
/-- What point `t` writes back is block `t` of the layer of the arrays as the region finds them. -/
theorem flushed8_eq (c : Dev nD) (t : Fin cfg8.N) :
    (dat8 V c).flushed 7 t = ((cfg8.win 7).blk t).view.read (Elt Ideal)
      (bn8G (V c (Pipeline.arrRef spec8 0)) (V c (Pipeline.arrRef spec8 1)) (V c (Pipeline.arrRef spec8 2))
        (V c (Pipeline.arrRef spec8 3)) (V c (Pipeline.arrRef spec8 4)) (V c (Pipeline.arrRef spec8 5))
        (V c (Pipeline.arrRef spec8 6))) := by
  show (cfg8.win 7).cut (grid8.coords t) ((dat8 V c).after 7 t) = _
  rw [after8_7]
  unfold out8_7
  rw [View.canon_unit_zero hz2]
  simp only [View.ld_unit_zero (S := S5000x128) hz2, View.ld_unit_zero (S := S1x128) hz2]
  obtain ⟨a0, a1, b0, b1, c0, c1, d0, d1, f0, f1, g0, g1, k0, k1, o0, o1⟩ := idx8 t
  have h0 : ∀ (p : Fin 5000) (q : Fin 128), ((cfg8.win 0).blk t).view.emb (ix2 p q)
      = ((cfg8.win 7).blk t).view.emb (ix2 p q) := fun p q => by
    funext a; apply Fin.ext
    match a with
    | ⟨0, _⟩ => show win8_0.index t (0 : Fin 2) * 5000 + 1 * p.val = win8_7.index t (0 : Fin 2) * 5000 + 1 * p.val; omega
    | ⟨1, _⟩ => show win8_0.index t (1 : Fin 2) * 128 + 1 * q.val = win8_7.index t (1 : Fin 2) * 128 + 1 * q.val; omega
  have h1 : ∀ (p : Fin 5000) (q : Fin 128), ((cfg8.win 1).blk t).view.emb (ix2 p q)
      = ((cfg8.win 7).blk t).view.emb (ix2 p q) := fun p q => by
    funext a; apply Fin.ext
    match a with
    | ⟨0, _⟩ => show win8_1.index t (0 : Fin 2) * 5000 + 1 * p.val = win8_7.index t (0 : Fin 2) * 5000 + 1 * p.val; omega
    | ⟨1, _⟩ => show win8_1.index t (1 : Fin 2) * 128 + 1 * q.val = win8_7.index t (1 : Fin 2) * 128 + 1 * q.val; omega
  have h2 : ∀ (p : Fin 5000) (q : Fin 128), ((cfg8.win 2).blk t).view.emb (ix2 0 q)
      = (ix2 0 ((((cfg8.win 7).blk t).view.emb (ix2 p q)) 1) : S1x128.Idx) := fun p q => by
    funext a; apply Fin.ext
    match a with
    | ⟨0, _⟩ => show win8_2.index t (0 : Fin 2) * 1 + 1 * 0 = 0; omega
    | ⟨1, _⟩ => show win8_2.index t (1 : Fin 2) * 128 + 1 * q.val = win8_7.index t (1 : Fin 2) * 128 + 1 * q.val; omega
  have h3 : ∀ (p : Fin 5000) (q : Fin 128), ((cfg8.win 3).blk t).view.emb (ix2 0 q)
      = (ix2 0 ((((cfg8.win 7).blk t).view.emb (ix2 p q)) 1) : S1x128.Idx) := fun p q => by
    funext a; apply Fin.ext
    match a with
    | ⟨0, _⟩ => show win8_3.index t (0 : Fin 2) * 1 + 1 * 0 = 0; omega
    | ⟨1, _⟩ => show win8_3.index t (1 : Fin 2) * 128 + 1 * q.val = win8_7.index t (1 : Fin 2) * 128 + 1 * q.val; omega
  have h4 : ∀ (p : Fin 5000) (q : Fin 128), ((cfg8.win 4).blk t).view.emb (ix2 0 q)
      = (ix2 0 ((((cfg8.win 7).blk t).view.emb (ix2 p q)) 1) : S1x128.Idx) := fun p q => by
    funext a; apply Fin.ext
    match a with
    | ⟨0, _⟩ => show win8_4.index t (0 : Fin 2) * 1 + 1 * 0 = 0; omega
    | ⟨1, _⟩ => show win8_4.index t (1 : Fin 2) * 128 + 1 * q.val = win8_7.index t (1 : Fin 2) * 128 + 1 * q.val; omega
  have h5 : ∀ (p : Fin 5000) (q : Fin 128), ((cfg8.win 5).blk t).view.emb (ix2 0 q)
      = (ix2 0 ((((cfg8.win 7).blk t).view.emb (ix2 p q)) 1) : S1x128.Idx) := fun p q => by
    funext a; apply Fin.ext
    match a with
    | ⟨0, _⟩ => show win8_5.index t (0 : Fin 2) * 1 + 1 * 0 = 0; omega
    | ⟨1, _⟩ => show win8_5.index t (1 : Fin 2) * 128 + 1 * q.val = win8_7.index t (1 : Fin 2) * 128 + 1 * q.val; omega
  have h6 : ∀ (p : Fin 5000) (q : Fin 128), ((cfg8.win 6).blk t).view.emb (ix2 0 q)
      = (ix2 0 ((((cfg8.win 7).blk t).view.emb (ix2 p q)) 1) : S1x128.Idx) := fun p q => by
    funext a; apply Fin.ext
    match a with
    | ⟨0, _⟩ => show win8_6.index t (0 : Fin 2) * 1 + 1 * 0 = 0; omega
    | ⟨1, _⟩ => show win8_6.index t (1 : Fin 2) * 128 + 1 * q.val = win8_7.index t (1 : Fin 2) * 128 + 1 * q.val; omega
  exact bn8_block (V c (Pipeline.arrRef spec8 0)) (V c (Pipeline.arrRef spec8 1)) (V c (Pipeline.arrRef spec8 2))
    (V c (Pipeline.arrRef spec8 3)) (V c (Pipeline.arrRef spec8 4)) (V c (Pipeline.arrRef spec8 5))
    (V c (Pipeline.arrRef spec8 6))
    (iblk8 V c 0 t) (iblk8 V c 1 t) (iblk8 V c 2 t) (iblk8 V c 3 t) (iblk8 V c 4 t) (iblk8 V c 5 t) (iblk8 V c 6 t)
    (((cfg8.win 0).blk t).view.emb) (((cfg8.win 1).blk t).view.emb) (((cfg8.win 7).blk t).view.emb)
    (((cfg8.win 2).blk t).view.emb) (((cfg8.win 3).blk t).view.emb) (((cfg8.win 4).blk t).view.emb)
    (((cfg8.win 5).blk t).view.emb) (((cfg8.win 6).blk t).view.emb)
    rfl rfl rfl rfl rfl rfl rfl h0 h1 h2 h3 h4 h5 h6

/-- An index of the output array is in point `t`'s block iff each coordinate is in the block's range on its axis. -/
theorem mem_blk8 (t : Fin cfg8.N) (i : S50000x128.Idx) :
    i ∈ ((cfg8.win 7).blk t).view.set ↔ ∀ a : Fin 2, win8_7.index t a * S5000x128.size a ≤ (i a).val
      ∧ (i a).val < win8_7.index t a * S5000x128.size a + S5000x128.size a := by
  show i ∈ ((View.whole main_v169).slice (win8_7.rect t)).set ↔ _
  rw [View.set_slice_whole, Rect.mem_set_unit]
  exact Iff.rfl

/-- Every index of the output array lies in the block of the point numbered by its row divided by 5000. -/
theorem cover8 (i : S50000x128.Idx) :
    ∃ t : Fin cfg8.N, (cfg8.win 7).flush t = true ∧ i ∈ ((cfg8.win 7).blk t).view.set := by
  have hi0 : (i 0).val < 50000 := (i 0).isLt
  have hi1 : (i 1).val < 128 := (i 1).isLt
  have hN : cfg8.N = 10 := N_8
  obtain ⟨t, ht⟩ : ∃ t : Fin cfg8.N, t.val = (i 0).val / 5000 := ⟨⟨(i 0).val / 5000, by rw [hN]; omega⟩, rfl⟩
  obtain ⟨-, -, -, -, -, -, -, -, -, -, -, -, -, -, o0, o1⟩ := idx8 t
  refine ⟨t, flush8_7 t, ?_⟩
  rw [mem_blk8]
  intro a
  match a with
  | ⟨0, _⟩ =>
    show win8_7.index t (0 : Fin 2) * 5000 ≤ (i 0).val ∧ (i 0).val < win8_7.index t (0 : Fin 2) * 5000 + 5000
    omega
  | ⟨1, _⟩ =>
    show win8_7.index t (1 : Fin 2) * 128 ≤ (i 1).val ∧ (i 1).val < win8_7.index t (1 : Fin 2) * 128 + 128
    omega

/-- The output array after the region is the layer of the arrays as the region finds them. -/
theorem bn8_final (c : Dev nD) :
    (dat8 V c).arrAt 7 cfg8.N
      = bn8G (V c (Pipeline.arrRef spec8 0)) (V c (Pipeline.arrRef spec8 1)) (V c (Pipeline.arrRef spec8 2))
          (V c (Pipeline.arrRef spec8 3)) (V c (Pipeline.arrRef spec8 4)) (V c (Pipeline.arrRef spec8 5))
          (V c (Pipeline.arrRef spec8 6)) :=
  (dat8 V c).arrAt_eq_of_cover 7 _ (fun t _ => flushed8_eq V c t) cover8

/-- Entry `(p, q)` of the output array after the region. -/
theorem bn8_apply (c : Dev nD) (p : Fin 50000) (q : Fin 128) :
    (dat8 V c).arrAt 7 cfg8.N (ix2 p q)
      = bnEntry ((V c (Pipeline.arrRef spec8 0) : S50000x128.Idx → EReal) (ix2 p q))
          ((V c (Pipeline.arrRef spec8 1) : S50000x128.Idx → EReal) (ix2 p q))
          ((V c (Pipeline.arrRef spec8 2) : S1x128.Idx → EReal) (ix2 0 q))
          ((V c (Pipeline.arrRef spec8 3) : S1x128.Idx → EReal) (ix2 0 q))
          ((V c (Pipeline.arrRef spec8 4) : S1x128.Idx → EReal) (ix2 0 q))
          ((V c (Pipeline.arrRef spec8 5) : S1x128.Idx → EReal) (ix2 0 q))
          ((V c (Pipeline.arrRef spec8 6) : S1x128.Idx → EReal) (ix2 0 q)) :=
  (congrFun (bn8_final V c) (ix2 p q)).trans rfl

end Cert.KernelIdeal.Regions

end
-- ==== Proof.ChainKL3.lean ====
/-
  Layer 3 of the kernel program, from the boundary before its transform to the boundary after its normalisation:
  the layer's output array is the layer function of the layer's input array, of the layer's slices of the weight,
  bias, scale and shift stacks, and of the edge lists and the edge norm; and the buffers the later layers read —
  the edge lists, the norm, the zero bias row and the arguments — come through unchanged. The two regions' results
  are the dense transform and the normalisation entry by entry; the host operations between them are the
  aggregation, the column statistics and the re-laid vectors.
-/
import proofs.«115673_j47373489274965_1_alg».proof.Proof.Gen.KernelIdeal.Frame
import proofs.«115673_j47373489274965_1_alg».proof.Proof.HostK3
import proofs.«115673_j47373489274965_1_alg».proof.Proof.HostKW
import proofs.«115673_j47373489274965_1_alg».proof.Proof.SpecBridge
import proofs.«115673_j47373489274965_1_alg».proof.Proof.RegLin7
import proofs.«115673_j47373489274965_1_alg».proof.Proof.RegBn8

set_option maxRecDepth 16384

noncomputable section

namespace Cert.KernelIdeal.ChainK

open Idealize.ShloMosaic Idealize.ShloMosaic.TcCoe Idealize.ShloMosaic.ValueIdx
open Cert.KernelIdeal Cert.KernelIdeal.Gen Cert.KernelIdeal.Spec Cert.ChainTools Cert.KernelIdeal.Regions

variable (m : (ℓ : Loc nD τ sig) → Buf (Elt Ideal) ℓ) (ρ : Dev nD → PrngReg) (c : Dev nD)

/-- The buffers every later segment reads and no segment of a layer writes (the zero bias row is carried apart:
    it is an input array of the transform regions). -/
abbrev keptL3 : List (Ref sig .tc) := [main_v3, main_v6, main_v29, main_arg2, main_arg5, main_arg6, main_arg7, main_arg8, main_arg9, main_arg10, main_arg11, main_arg12, main_arg13, main_arg14]

/-! ## The transform's stretch and region -/

theorem L3_w : W23 m ρ c (Proc.devRef .tc main_v138) = wT 3 Facts₀.slices_S4x128x128_S1x128x128_3_0_0 (W22 m ρ c (Proc.devRef .tc main_arg5)) :=
  hostOps7_w (W22 m ρ c)

theorem L3_keepA {b : Ref sig .tc} (hb : b ∉ (hostOps7_W : List (Ref sig .tc))) :
    W23 m ρ c (Proc.devRef .tc b) = W22 m ρ c (Proc.devRef .tc b) :=
  after_of_not_written hostOps7_writes hb _

theorem L3_lin : W24 m ρ c (Proc.devRef .tc main_v139)
    = linArr (W23 m ρ c (Proc.devRef .tc main_v135)) (W23 m ρ c (Proc.devRef .tc main_v138)) (W23 m ρ c (Proc.devRef .tc main_v30)) := by
  refine (W24_arr m ρ c 3).trans ?_
  funext i
  obtain ⟨p, q, rfl⟩ : ∃ (p : Fin 50000) (q : Fin 128), i = ix2 p q := ⟨i 0, i 1, eq_ix2 i⟩
  exact (lin7_apply (V23 m ρ) c p q).trans (linArr_apply (W23 m ρ c (Proc.devRef .tc main_v135)) (W23 m ρ c (Proc.devRef .tc main_v138)) (W23 m ρ c (Proc.devRef .tc main_v30)) p q).symm

theorem L3_keepRA_ne {b : Ref sig .tc} (hb : ∀ w, Pipeline.arrRef spec7 w ≠ b) :
    W24 m ρ c (Proc.devRef .tc b) = W23 m ρ c (Proc.devRef .tc b) := W24_of_ne m ρ c b hb

theorem L3_keepRA_res : W24 m ρ c (Proc.devRef .tc main_v135) = W23 m ρ c (Proc.devRef .tc main_v135) :=
  (W24_arr m ρ c 0).trans (((dat7 (V23 m ρ) c).arrAt_in 0 rfl _).trans (A_eq7 (V23 m ρ) c 0))

theorem L3_keepRA_zrow : W24 m ρ c (Proc.devRef .tc main_v30) = W23 m ρ c (Proc.devRef .tc main_v30) :=
  (W24_arr m ρ c 2).trans (((dat7 (V23 m ρ) c).arrAt_in 2 rfl _).trans (A_eq7 (V23 m ρ) c 2))

/-! ## The statistics' stretches and the normalisation region -/

theorem L3_host (b : DevRef τ sig) : W27 m ρ c b = StableHlo.after hostL3 (W24 m ρ c) b :=
  congrFun (after_hostL3 (W24 m ρ c)) b

theorem L3_keepB {b : Ref sig .tc} (h0 : b ∉ (hostOps8_W : List (Ref sig .tc))) (h1 : b ∉ (hostOps8_1_W : List (Ref sig .tc)))
    (h2 : b ∉ (hostOps8_2_W : List (Ref sig .tc))) : W27 m ρ c (Proc.devRef .tc b) = W24 m ρ c (Proc.devRef .tc b) :=
  ((after_of_not_written hostOps8_2_writes h2 _).trans (after_of_not_written hostOps8_1_writes h1 _)).trans
    (after_of_not_written hostOps8_writes h0 _)

theorem L3_bn : W28 m ρ c (Proc.devRef .tc main_v169)
    = bnArr (W27 m ρ c (Proc.devRef .tc main_v152)) (W27 m ρ c (Proc.devRef .tc main_v135)) (W27 m ρ c (Proc.devRef .tc main_v162))
        (W27 m ρ c (Proc.devRef .tc main_v165)) (W27 m ρ c (Proc.devRef .tc main_v168)) (W27 m ρ c (Proc.devRef .tc main_v160))
        (W27 m ρ c (Proc.devRef .tc main_v161)) := by
  refine (W28_arr m ρ c 7).trans ?_
  funext i
  obtain ⟨p, q, rfl⟩ : ∃ (p : Fin 50000) (q : Fin 128), i = ix2 p q := ⟨i 0, i 1, eq_ix2 i⟩
  exact (bn8_apply (V27 m ρ) c p q).trans (bnArr_apply (W27 m ρ c (Proc.devRef .tc main_v152)) (W27 m ρ c (Proc.devRef .tc main_v135)) (W27 m ρ c (Proc.devRef .tc main_v162)) (W27 m ρ c (Proc.devRef .tc main_v165)) (W27 m ρ c (Proc.devRef .tc main_v168)) (W27 m ρ c (Proc.devRef .tc main_v160)) (W27 m ρ c (Proc.devRef .tc main_v161)) p q).symm

theorem L3_keepRB_ne {b : Ref sig .tc} (hb : ∀ w, Pipeline.arrRef spec8 w ≠ b) :
    W28 m ρ c (Proc.devRef .tc b) = W27 m ρ c (Proc.devRef .tc b) := W28_of_ne m ρ c b hb

/-! ## The layer -/

/-- The kept buffers come through the layer. -/
theorem L3_keep : ∀ b ∈ keptL3, W28 m ρ c (Proc.devRef .tc b) = W22 m ρ c (Proc.devRef .tc b) := by
  have hA : ∀ b ∈ keptL3, b ∉ (hostOps7_W : List (Ref sig .tc)) := by decide
  have h0 : ∀ b ∈ keptL3, b ∉ (hostOps8_W : List (Ref sig .tc)) := by decide
  have h1 : ∀ b ∈ keptL3, b ∉ (hostOps8_1_W : List (Ref sig .tc)) := by decide
  have h2 : ∀ b ∈ keptL3, b ∉ (hostOps8_2_W : List (Ref sig .tc)) := by decide
  have rA : ∀ b ∈ keptL3, ∀ w, Pipeline.arrRef spec7 w ≠ b := by decide
  have rB : ∀ b ∈ keptL3, ∀ w, Pipeline.arrRef spec8 w ≠ b := by decide
  intro b hb
  exact (L3_keepRB_ne m ρ c (rB b hb)).trans ((L3_keepB m ρ c (h0 b hb) (h1 b hb) (h2 b hb)).trans
    ((L3_keepRA_ne m ρ c (rA b hb)).trans (L3_keepA m ρ c (hA b hb))))

/-- The zero bias row comes through the layer. -/
theorem L3_keep_zrow : W28 m ρ c (Proc.devRef .tc main_v30) = W22 m ρ c (Proc.devRef .tc main_v30) :=
  (L3_keepRB_ne m ρ c (by decide)).trans ((L3_keepB m ρ c (by decide) (by decide) (by decide)).trans
    ((L3_keepRA_zrow m ρ c).trans (L3_keepA m ρ c (by decide))))

/-- The layer's output array is the layer function of its input array and parameters. -/
theorem L3_val (hz : W22 m ρ c (Proc.devRef .tc main_v30) = zrow) :
    W28 m ρ c (Proc.devRef .tc main_v169)
      = layerK (W22 m ρ c (Proc.devRef .tc main_v135))
          (wT 3 Facts₀.slices_S4x128x128_S1x128x128_3_0_0 (W22 m ρ c (Proc.devRef .tc main_arg5)))
          (vsl 3 Facts₀.slices_S4x128_S1x128_3_0 (W22 m ρ c (Proc.devRef .tc main_arg6)))
          (vsl 3 Facts₀.slices_S4x128_S1x128_3_0 (W22 m ρ c (Proc.devRef .tc main_arg7)))
          (vsl 3 Facts₀.slices_S4x128_S1x128_3_0 (W22 m ρ c (Proc.devRef .tc main_arg8)))
          (W22 m ρ c (Proc.devRef .tc main_v3)) (W22 m ρ c (Proc.devRef .tc main_v6)) (W22 m ρ c (Proc.devRef .tc main_v29)) := by
  -- the transformed rows
  have hlin : W24 m ρ c (Proc.devRef .tc main_v139)
      = linArr (W22 m ρ c (Proc.devRef .tc main_v135))
          (wT 3 Facts₀.slices_S4x128x128_S1x128x128_3_0_0 (W22 m ρ c (Proc.devRef .tc main_arg5))) zrow := by
    rw [L3_lin, L3_w, L3_keepA m ρ c (b := main_v135) (by decide), L3_keepA m ρ c (b := main_v30) (by decide), hz]
  -- what the statistics' stretches find at the boundary after the transform
  have k3 : W24 m ρ c (Proc.devRef .tc main_v3) = W22 m ρ c (Proc.devRef .tc main_v3) :=
    (L3_keepRA_ne m ρ c (by decide)).trans (L3_keepA m ρ c (by decide))
  have k6 : W24 m ρ c (Proc.devRef .tc main_v6) = W22 m ρ c (Proc.devRef .tc main_v6) :=
    (L3_keepRA_ne m ρ c (by decide)).trans (L3_keepA m ρ c (by decide))
  have k29 : W24 m ρ c (Proc.devRef .tc main_v29) = W22 m ρ c (Proc.devRef .tc main_v29) :=
    (L3_keepRA_ne m ρ c (by decide)).trans (L3_keepA m ρ c (by decide))
  have ka6 : W24 m ρ c (Proc.devRef .tc main_arg6) = W22 m ρ c (Proc.devRef .tc main_arg6) :=
    (L3_keepRA_ne m ρ c (by decide)).trans (L3_keepA m ρ c (by decide))
  have ka7 : W24 m ρ c (Proc.devRef .tc main_arg7) = W22 m ρ c (Proc.devRef .tc main_arg7) :=
    (L3_keepRA_ne m ρ c (by decide)).trans (L3_keepA m ρ c (by decide))
  have ka8 : W24 m ρ c (Proc.devRef .tc main_arg8) = W22 m ρ c (Proc.devRef .tc main_arg8) :=
    (L3_keepRA_ne m ρ c (by decide)).trans (L3_keepA m ρ c (by decide))
  have kres : W27 m ρ c (Proc.devRef .tc main_v135) = W22 m ρ c (Proc.devRef .tc main_v135) :=
    (L3_keepB m ρ c (by decide) (by decide) (by decide)).trans ((L3_keepRA_res m ρ c).trans (L3_keepA m ρ c (by decide)))
  rw [L3_bn, kres, L3_host m ρ c (Proc.devRef .tc main_v152), L3_host m ρ c (Proc.devRef .tc main_v162),
    L3_host m ρ c (Proc.devRef .tc main_v165), L3_host m ρ c (Proc.devRef .tc main_v168), L3_host m ρ c (Proc.devRef .tc main_v160),
    L3_host m ρ c (Proc.devRef .tc main_v161), hostL3_agg, hostL3_bias, hostL3_scale, hostL3_shift, hostL3_mean, hostL3_var,
    hlin, k3, k6, k29, ka6, ka7, ka8]
  rfl

end Cert.KernelIdeal.ChainK

end
-- ==== Proof.HostKTail.lean ====
/-
  The host operations before the last region of the kernel program, read as whole-array functions: the mean pool
  of the node rows per graph, and the head's three weights transposed and three biases laid out as rows.
-/
import proofs.«115673_j47373489274965_1_alg».proof.Proof.Gen.KernelIdeal.Launch
import proofs.«115673_j47373489274965_1_alg».proof.Proof.SpecK
import proofs.«115673_j47373489274965_1_alg».proof.Proof.ChainTools

noncomputable section

namespace Cert.KernelIdeal.ChainK

open Idealize.ShloMosaic Idealize.ShloMosaic.TcCoe Cert.KernelIdeal Cert.KernelIdeal.Gen Cert.KernelIdeal.Spec Cert.ChainTools
open Facts₀ Facts

section
variable (V : Valuation τ sig (Elt Ideal))

theorem hostOps9_pool : StableHlo.after (hostOps9 (F := Ideal)) V (Proc.devRef .tc main_v181)
    = pool (V (Proc.devRef .tc main_v169)) (V (Proc.devRef .tc main_arg2)) := by
  after_results_simp
  all_goals (try simp only [cast_eq])
  all_goals rfl

theorem hostOps9_w1 : StableHlo.after (hostOps9 (F := Ideal)) V (Proc.devRef .tc main_v182)
    = transpose S128x64 [1, 0] (V (Proc.devRef .tc main_arg9)) Facts₀.transposes_S64x128_S128x64_1_0 := by
  after_results_simp
  all_goals (try simp only [cast_eq])
  all_goals rfl

theorem hostOps9_b1 : StableHlo.after (hostOps9 (F := Ideal)) V (Proc.devRef .tc main_v183)
    = shapeCast S1x64 (V (Proc.devRef .tc main_arg10)) Facts₀.shapeCasts_S64_S1x64 := by
  after_results_simp
  all_goals (try simp only [cast_eq])
  all_goals rfl

theorem hostOps9_w2 : StableHlo.after (hostOps9 (F := Ideal)) V (Proc.devRef .tc main_v184)
    = transpose S64x32 [1, 0] (V (Proc.devRef .tc main_arg11)) Facts₀.transposes_S32x64_S64x32_1_0 := by
  after_results_simp
  all_goals (try simp only [cast_eq])
  all_goals rfl

theorem hostOps9_b2 : StableHlo.after (hostOps9 (F := Ideal)) V (Proc.devRef .tc main_v185)
    = shapeCast S1x32 (V (Proc.devRef .tc main_arg12)) Facts₀.shapeCasts_S32_S1x32 := by
  after_results_simp
  all_goals (try simp only [cast_eq])
  all_goals rfl

theorem hostOps9_w3 : StableHlo.after (hostOps9 (F := Ideal)) V (Proc.devRef .tc main_v186)
    = transpose S32x10 [1, 0] (V (Proc.devRef .tc main_arg13)) Facts₀.transposes_S10x32_S32x10_1_0 := by
  after_results_simp
  all_goals (try simp only [cast_eq])
  all_goals rfl

theorem hostOps9_b3 : StableHlo.after (hostOps9 (F := Ideal)) V (Proc.devRef .tc main_v187)
    = shapeCast S1x10 (V (Proc.devRef .tc main_arg14)) Facts₀.shapeCasts_S10_S1x10 := by
  after_results_simp
  all_goals (try simp only [cast_eq])
  all_goals rfl

end

end Cert.KernelIdeal.ChainK

end
-- ==== Proof.RegMlp9.lean ====
/-
  Region 9 of the program is a head of three dense layers on a matrix of 128 rows: 128 → 64 → 32 → 10 entries per
  row, the first two layers cut below at zero. It has one grid point, and every window's block is its whole array, so
  the output array after the region is the three layers composed, applied to the arrays as the region finds them. All
  at the ideal values, where a float is an extended real and a change of float format is the identity. Everything is
  stated at an arbitrary content `V` of the buffers when the region is entered.
-/
import proofs.«115673_j47373489274965_1_alg».proof.Proof.Gen.KernelIdeal.Frame
import proofs.«115673_j47373489274965_1_alg».proof.Proof.RegCommon
import Idealize.ShloMosaic.Lib.Pipeline.Value
import Idealize.ShloMosaic.Lib.ValueIdx
import Idealize.ShloMosaic.Lib.ValueLayout
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Regions

open Cert.KernelIdeal Cert.KernelIdeal.Gen

variable (V : (c : Dev nD) → (b : Ref sig .tc) → Buf (Elt Ideal) ((c : Thread nD τ).loc b))

/-- The head as one function of the seven arrays, entry by entry. -/
def mlp9G (g : S128x128.Idx → EReal) (w1 : S128x64.Idx → EReal) (b1 : S1x64.Idx → EReal) (w2 : S64x32.Idx → EReal)
    (b2 : S1x32.Idx → EReal) (w3 : S32x10.Idx → EReal) (b3 : S1x10.Idx → EReal) : S128x10.Idx → EReal :=
  fun i => mlpOut g w1 b1 w2 b2 w3 b3 (i 0) (i 1)

/-- The body's result, read at `(p, q)`: the three layers composed. -/
theorem pay9_apply (x0 : Vec Ideal S128x128 .f32) (x1 : Vec Ideal S128x64 .f32) (x2 : Vec Ideal S1x64 .f32)
    (x3 : Vec Ideal S64x32 .f32) (x4 : Vec Ideal S1x32 .f32) (x5 : Vec Ideal S32x10 .f32) (x6 : Vec Ideal S1x10 .f32)
    (p : Fin 128) (q : Fin 10) :
    k9_pay1 (F := Ideal) x0 x1 x2 x3 x4 x5 x6 (ix2 p q) = mlpOut x0 x1 x2 x3 x4 x5 x6 p q := by
  unfold k9_pay1
  simp only [shapeCast_self]
  refine (dense_apply dot_S128x32_S32x10_S128x10_1_0_0_1_n_n_wf broadcasts_S1x10_S128x10 bitsLt_bf16_f32 _ x5 x6 p q).trans ?_
  unfold mlpOut
  refine congrArg (· + _) (Finset.sum_congr rfl fun c _ => congrArg (· * _) ?_)
  refine (denseRelu_apply dot_S128x64_S64x32_S128x32_1_0_0_1_n_n_wf broadcasts_S1x32_S128x32 bitsLt_bf16_f32 _ x3 x4 p c).trans ?_
  unfold mlpH2
  refine congrArg (max · _) (congrArg (· + _) (Finset.sum_congr rfl fun b _ => congrArg (· * _) ?_))
  exact denseRelu_apply dot_S128x128_S128x64_S128x64_1_0_0_1_n_n_wf broadcasts_S1x64_S128x64 bitsLt_bf16_f32 x0 x1 x2 p b

/-- The body's result on blocks that are the whole of seven arrays (every block's index embedding the identity):
    the head of the seven arrays, restricted through the output block's embedding, itself the identity. -/
theorem mlp9_block (g : S128x128.Idx → EReal) (w1 : S128x64.Idx → EReal) (b1 : S1x64.Idx → EReal)
    (w2 : S64x32.Idx → EReal) (b2 : S1x32.Idx → EReal) (w3 : S32x10.Idx → EReal) (b3 : S1x10.Idx → EReal)
    (x0 : Vec Ideal S128x128 .f32) (x1 : Vec Ideal S128x64 .f32) (x2 : Vec Ideal S1x64 .f32)
    (x3 : Vec Ideal S64x32 .f32) (x4 : Vec Ideal S1x32 .f32) (x5 : Vec Ideal S32x10 .f32) (x6 : Vec Ideal S1x10 .f32)
    (e0 : S128x128.Idx → S128x128.Idx) (e1 : S128x64.Idx → S128x64.Idx) (e2 : S1x64.Idx → S1x64.Idx)
    (e3 : S64x32.Idx → S64x32.Idx) (e4 : S1x32.Idx → S1x32.Idx) (e5 : S32x10.Idx → S32x10.Idx)
    (e6 : S1x10.Idx → S1x10.Idx) (e7 : S128x10.Idx → S128x10.Idx)
    (hx0 : x0 = fun y => g (e0 y)) (hx1 : x1 = fun y => w1 (e1 y)) (hx2 : x2 = fun y => b1 (e2 y))
    (hx3 : x3 = fun y => w2 (e3 y)) (hx4 : x4 = fun y => b2 (e4 y)) (hx5 : x5 = fun y => w3 (e5 y))
    (hx6 : x6 = fun y => b3 (e6 y))
    (h0 : ∀ y, e0 y = y) (h1 : ∀ y, e1 y = y) (h2 : ∀ y, e2 y = y) (h3 : ∀ y, e3 y = y) (h4 : ∀ y, e4 y = y)
    (h5 : ∀ y, e5 y = y) (h6 : ∀ y, e6 y = y) (h7 : ∀ y, e7 y = y) :
    k9_pay1 (F := Ideal) x0 x1 x2 x3 x4 x5 x6 = fun j => mlp9G g w1 b1 w2 b2 w3 b3 (e7 j) := by
  subst hx0 hx1 hx2 hx3 hx4 hx5 hx6
  funext j
  obtain ⟨p, q, rfl⟩ : ∃ (p : Fin 128) (q : Fin 10), j = ix2 p q := ⟨j 0, j 1, eq_ix2 j⟩
  rw [pay9_apply]
  simp only [h0, h1, h2, h3, h4, h5, h6, h7] <;> rfl

/-- Every window's block at the one grid point is block `(0, 0)`. -/
theorem idx9 : ∀ t : Fin cfg9.N, win9_0.index t (0 : Fin 2) = 0 ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = 0 ∧ win9_5.index t (1 : Fin 2) = 0
    ∧ win9_6.index t (0 : Fin 2) = 0 ∧ win9_6.index t (1 : Fin 2) = 0
    ∧ win9_7.index t (0 : Fin 2) = 0 ∧ win9_7.index t (1 : Fin 2) = 0 :=
  (by decide +kernel : ∀ t : Fin grid9.N, _)

set_option maxHeartbeats 1000000 in
/-- What the one point writes back is the head of the arrays as the region finds them. -/
theorem flushed9_eq (c : Dev nD) (t : Fin cfg9.N) :
    (dat9 V c).flushed 7 t = ((cfg9.win 7).blk t).view.read (Elt Ideal)
      (mlp9G (V c (Pipeline.arrRef spec9 0)) (V c (Pipeline.arrRef spec9 1)) (V c (Pipeline.arrRef spec9 2))
        (V c (Pipeline.arrRef spec9 3)) (V c (Pipeline.arrRef spec9 4)) (V c (Pipeline.arrRef spec9 5))
        (V c (Pipeline.arrRef spec9 6))) := by
  show (cfg9.win 7).cut (grid9.coords t) ((dat9 V c).after 7 t) = _
  rw [after9_7]
  unfold out9_7
  rw [View.canon_unit_zero hz2]
  simp only [View.ld_unit_zero (S := S128x128) hz2, View.ld_unit_zero (S := S128x64) hz2,
    View.ld_unit_zero (S := S1x64) hz2, View.ld_unit_zero (S := S64x32) hz2, View.ld_unit_zero (S := S1x32) hz2,
    View.ld_unit_zero (S := S32x10) hz2, View.ld_unit_zero (S := S1x10) hz2]
  obtain ⟨a0, a1, b0, b1, c0, c1, d0, d1, f0, f1, g0, g1, k0, k1, o0, o1⟩ := idx9 t
  have h0 : ∀ y : S128x128.Idx, ((cfg9.win 0).blk t).view.emb y = y := fun y => by
    funext a; apply Fin.ext
    match a with
    | ⟨0, _⟩ => show win9_0.index t (0 : Fin 2) * 128 + 1 * (y 0).val = (y 0).val; omega
    | ⟨1, _⟩ => show win9_0.index t (1 : Fin 2) * 128 + 1 * (y 1).val = (y 1).val; omega
  have h1 : ∀ y : S128x64.Idx, ((cfg9.win 1).blk t).view.emb y = y := fun y => by
    funext a; apply Fin.ext
    match a with
    | ⟨0, _⟩ => show win9_1.index t (0 : Fin 2) * 128 + 1 * (y 0).val = (y 0).val; omega
    | ⟨1, _⟩ => show win9_1.index t (1 : Fin 2) * 64 + 1 * (y 1).val = (y 1).val; omega
  have h2 : ∀ y : S1x64.Idx, ((cfg9.win 2).blk t).view.emb y = y := fun y => by
    funext a; apply Fin.ext
    match a with
    | ⟨0, _⟩ => show win9_2.index t (0 : Fin 2) * 1 + 1 * (y 0).val = (y 0).val; omega
    | ⟨1, _⟩ => show win9_2.index t (1 : Fin 2) * 64 + 1 * (y 1).val = (y 1).val; omega
  have h3 : ∀ y : S64x32.Idx, ((cfg9.win 3).blk t).view.emb y = y := fun y => by
    funext a; apply Fin.ext
    match a with
    | ⟨0, _⟩ => show win9_3.index t (0 : Fin 2) * 64 + 1 * (y 0).val = (y 0).val; omega
    | ⟨1, _⟩ => show win9_3.index t (1 : Fin 2) * 32 + 1 * (y 1).val = (y 1).val; omega
  have h4 : ∀ y : S1x32.Idx, ((cfg9.win 4).blk t).view.emb y = y := fun y => by
    funext a; apply Fin.ext
    match a with
    | ⟨0, _⟩ => show win9_4.index t (0 : Fin 2) * 1 + 1 * (y 0).val = (y 0).val; omega
    | ⟨1, _⟩ => show win9_4.index t (1 : Fin 2) * 32 + 1 * (y 1).val = (y 1).val; omega
  have h5 : ∀ y : S32x10.Idx, ((cfg9.win 5).blk t).view.emb y = y := fun y => by
    funext a; apply Fin.ext
    match a with
    | ⟨0, _⟩ => show win9_5.index t (0 : Fin 2) * 32 + 1 * (y 0).val = (y 0).val; omega
    | ⟨1, _⟩ => show win9_5.index t (1 : Fin 2) * 10 + 1 * (y 1).val = (y 1).val; omega
  have h6 : ∀ y : S1x10.Idx, ((cfg9.win 6).blk t).view.emb y = y := fun y => by
    funext a; apply Fin.ext
    match a with
    | ⟨0, _⟩ => show win9_6.index t (0 : Fin 2) * 1 + 1 * (y 0).val = (y 0).val; omega
    | ⟨1, _⟩ => show win9_6.index t (1 : Fin 2) * 10 + 1 * (y 1).val = (y 1).val; omega
  have h7 : ∀ y : S128x10.Idx, ((cfg9.win 7).blk t).view.emb y = y := fun y => by
    funext a; apply Fin.ext
    match a with
    | ⟨0, _⟩ => show win9_7.index t (0 : Fin 2) * 128 + 1 * (y 0).val = (y 0).val; omega
    | ⟨1, _⟩ => show win9_7.index t (1 : Fin 2) * 10 + 1 * (y 1).val = (y 1).val; omega
  exact mlp9_block (V c (Pipeline.arrRef spec9 0)) (V c (Pipeline.arrRef spec9 1)) (V c (Pipeline.arrRef spec9 2))
    (V c (Pipeline.arrRef spec9 3)) (V c (Pipeline.arrRef spec9 4)) (V c (Pipeline.arrRef spec9 5))
    (V c (Pipeline.arrRef spec9 6))
    (iblk9 V c 0 t) (iblk9 V c 1 t) (iblk9 V c 2 t) (iblk9 V c 3 t) (iblk9 V c 4 t) (iblk9 V c 5 t) (iblk9 V c 6 t)
    (((cfg9.win 0).blk t).view.emb) (((cfg9.win 1).blk t).view.emb) (((cfg9.win 2).blk t).view.emb)
    (((cfg9.win 3).blk t).view.emb) (((cfg9.win 4).blk t).view.emb) (((cfg9.win 5).blk t).view.emb)
    (((cfg9.win 6).blk t).view.emb) (((cfg9.win 7).blk t).view.emb)
    rfl rfl rfl rfl rfl rfl rfl h0 h1 h2 h3 h4 h5 h6 h7

/-- An index of the output array is in the point's block iff each coordinate is in the block's range on its axis. -/
theorem mem_blk9 (t : Fin cfg9.N) (i : S128x10.Idx) :
    i ∈ ((cfg9.win 7).blk t).view.set ↔ ∀ a : Fin 2, win9_7.index t a * S128x10.size a ≤ (i a).val
      ∧ (i a).val < win9_7.index t a * S128x10.size a + S128x10.size a := by
  show i ∈ ((View.whole main_v188).slice (win9_7.rect t)).set ↔ _
  rw [View.set_slice_whole, Rect.mem_set_unit]
  exact Iff.rfl

/-- Every index of the output array lies in the one point's block. -/
theorem cover9 (i : S128x10.Idx) :
    ∃ t : Fin cfg9.N, (cfg9.win 7).flush t = true ∧ i ∈ ((cfg9.win 7).blk t).view.set := by
  have hi0 : (i 0).val < 128 := (i 0).isLt
  have hi1 : (i 1).val < 10 := (i 1).isLt
  obtain ⟨-, -, -, -, -, -, -, -, -, -, -, -, -, -, o0, o1⟩ := idx9 t9_0
  refine ⟨t9_0, flush9_7 t9_0, ?_⟩
  rw [mem_blk9]
  intro a
  match a with
  | ⟨0, _⟩ =>
    show win9_7.index t9_0 (0 : Fin 2) * 128 ≤ (i 0).val ∧ (i 0).val < win9_7.index t9_0 (0 : Fin 2) * 128 + 128
    omega
  | ⟨1, _⟩ =>
    show win9_7.index t9_0 (1 : Fin 2) * 10 ≤ (i 1).val ∧ (i 1).val < win9_7.index t9_0 (1 : Fin 2) * 10 + 10
    omega

/-- The output array after the region is the head of the arrays as the region finds them. -/
theorem mlp9_final (c : Dev nD) :
    (dat9 V c).arrAt 7 cfg9.N
      = mlp9G (V c (Pipeline.arrRef spec9 0)) (V c (Pipeline.arrRef spec9 1)) (V c (Pipeline.arrRef spec9 2))
          (V c (Pipeline.arrRef spec9 3)) (V c (Pipeline.arrRef spec9 4)) (V c (Pipeline.arrRef spec9 5))
          (V c (Pipeline.arrRef spec9 6)) :=
  (dat9 V c).arrAt_eq_of_cover 7 _ (fun t _ => flushed9_eq V c t) cover9

/-- Entry `(p, q)` of the output array after the region. -/
theorem mlp9_apply (c : Dev nD) (p : Fin 128) (q : Fin 10) :
    (dat9 V c).arrAt 7 cfg9.N (ix2 p q)
      = mlpOut (V c (Pipeline.arrRef spec9 0)) (V c (Pipeline.arrRef spec9 1)) (V c (Pipeline.arrRef spec9 2))
          (V c (Pipeline.arrRef spec9 3)) (V c (Pipeline.arrRef spec9 4)) (V c (Pipeline.arrRef spec9 5))
          (V c (Pipeline.arrRef spec9 6)) p q :=
  (congrFun (mlp9_final V c) (ix2 p q)).trans rfl

end Cert.KernelIdeal.Regions

end
-- ==== Proof.ChainKTail.lean ====
/-
  The kernel program from the boundary after its last layer to its result: the result array is the three-layer
  dense head, entry by entry, of the mean pool of the last layer's node rows, with the head's weights transposed
  and its biases laid out as rows.
-/
import proofs.«115673_j47373489274965_1_alg».proof.Proof.Gen.KernelIdeal.Frame
import proofs.«115673_j47373489274965_1_alg».proof.Proof.HostKTail
import proofs.«115673_j47373489274965_1_alg».proof.Proof.HostKW
import proofs.«115673_j47373489274965_1_alg».proof.Proof.SpecBridge
import proofs.«115673_j47373489274965_1_alg».proof.Proof.RegMlp9

set_option maxRecDepth 16384

noncomputable section

namespace Cert.KernelIdeal.ChainK

open Idealize.ShloMosaic Idealize.ShloMosaic.TcCoe Idealize.ShloMosaic.ValueIdx
open Cert.KernelIdeal Cert.KernelIdeal.Gen Cert.KernelIdeal.Spec Cert.ChainTools Cert.KernelIdeal.Regions

variable (m : (ℓ : Loc nD τ sig) → Buf (Elt Ideal) ℓ) (ρ : Dev nD → PrngReg) (c : Dev nD)

theorem tail_mlp : W30 m ρ c (Proc.devRef .tc main_v188)
    = mlpArr (W29 m ρ c (Proc.devRef .tc main_v181)) (W29 m ρ c (Proc.devRef .tc main_v182)) (W29 m ρ c (Proc.devRef .tc main_v183))
        (W29 m ρ c (Proc.devRef .tc main_v184)) (W29 m ρ c (Proc.devRef .tc main_v185)) (W29 m ρ c (Proc.devRef .tc main_v186))
        (W29 m ρ c (Proc.devRef .tc main_v187)) := by
  refine (W30_arr m ρ c 7).trans ?_
  funext i
  obtain ⟨p, q, rfl⟩ : ∃ (p : Fin 128) (q : Fin 10), i = ix2 p q := ⟨i 0, i 1, eq_ix2 i⟩
  exact (mlp9_apply (V29 m ρ) c p q).trans (mlpArr_apply (W29 m ρ c (Proc.devRef .tc main_v181)) (W29 m ρ c (Proc.devRef .tc main_v182)) (W29 m ρ c (Proc.devRef .tc main_v183)) (W29 m ρ c (Proc.devRef .tc main_v184)) (W29 m ρ c (Proc.devRef .tc main_v185)) (W29 m ρ c (Proc.devRef .tc main_v186)) (W29 m ρ c (Proc.devRef .tc main_v187)) p q).symm

/-- The result. -/
theorem tail_val : W30 m ρ c (Proc.devRef .tc main_v188)
    = mlpArr (pool (W28 m ρ c (Proc.devRef .tc main_v169)) (W28 m ρ c (Proc.devRef .tc main_arg2)))
        (transpose S128x64 [1, 0] (W28 m ρ c (Proc.devRef .tc main_arg9)) Facts₀.transposes_S64x128_S128x64_1_0)
        (shapeCast S1x64 (W28 m ρ c (Proc.devRef .tc main_arg10)) Facts₀.shapeCasts_S64_S1x64)
        (transpose S64x32 [1, 0] (W28 m ρ c (Proc.devRef .tc main_arg11)) Facts₀.transposes_S32x64_S64x32_1_0)
        (shapeCast S1x32 (W28 m ρ c (Proc.devRef .tc main_arg12)) Facts₀.shapeCasts_S32_S1x32)
        (transpose S32x10 [1, 0] (W28 m ρ c (Proc.devRef .tc main_arg13)) Facts₀.transposes_S10x32_S32x10_1_0)
        (shapeCast S1x10 (W28 m ρ c (Proc.devRef .tc main_arg14)) Facts₀.shapeCasts_S10_S1x10) := by
  rw [tail_mlp]
  show mlpArr (StableHlo.after hostOps9 (W28 m ρ c) (Proc.devRef .tc main_v181)) (StableHlo.after hostOps9 (W28 m ρ c) (Proc.devRef .tc main_v182))
      (StableHlo.after hostOps9 (W28 m ρ c) (Proc.devRef .tc main_v183)) (StableHlo.after hostOps9 (W28 m ρ c) (Proc.devRef .tc main_v184))
      (StableHlo.after hostOps9 (W28 m ρ c) (Proc.devRef .tc main_v185)) (StableHlo.after hostOps9 (W28 m ρ c) (Proc.devRef .tc main_v186))
      (StableHlo.after hostOps9 (W28 m ρ c) (Proc.devRef .tc main_v187)) = _
  rw [hostOps9_pool, hostOps9_w1, hostOps9_b1, hostOps9_w2, hostOps9_b2, hostOps9_w3, hostOps9_b3]

end Cert.KernelIdeal.ChainK

end
-- ==== Proof.Consts50k.lean ====
/-
  The float constants the statistics use, as the extended reals their patterns denote: the row count 50000
  (the divisor of the column means and of the column variances) and zero (the sums' initial value).
-/
import Idealize.ShloMosaic.PureOps.Ideal
import Idealize.ShloMosaic.PureOps.Ideal.Laws

noncomputable section

namespace Cert.KernelIdeal.Spec

open Idealize.ShloMosaic

/-- The pattern 0x47435000 is the float 50000.0: sign 0, exponent 142, significand 0x435000, that is
    (2^23 + 4411392) · 2^(142 - 127 - 23) = 12800000 / 256 = 50000. -/
theorem ofBits_50000' : Ideal.ofBits .f32 0x47435000#32 = ((50000 : ℝ) : EReal) := by
  simp [Ideal.ofBits, Ideal.ieee, -EReal.coe_mul]; norm_num

theorem ofBits_50000 : FloatOps.ofBits (F := Ideal) .f32 0x47435000#32 = ((50000 : ℝ) : EReal) :=
  ofBits_50000'

/-- The zero pattern denotes 0. -/
theorem ofBits_zero' : Ideal.ofBits .f32 0x00000000#32 = 0 := Ideal.ofBits_zero_f32

theorem ofBits_zero : FloatOps.ofBits (F := Ideal) .f32 0x00000000#32 = (0 : EReal) := Ideal.ofBits_zero_f32

end Cert.KernelIdeal.Spec

end
-- ==== Proof.ShiftLaws.lean ====
/-
  Three laws of the extended reals about adding a REAL number b (a finite value) to extended reals:
  a common real shift cancels in a difference; the sum over n terms of a shifted family is the sum of the
  family plus n · b; and the quotient by a positive real n of S + n · b is the quotient of S plus b,
  whatever extended real S is. Together: the mean of a shifted column is the shifted mean, and centring a
  shifted column gives the centred column.
-/
import Idealize.ShloMosaic.PureOps.Ideal

open scoped BigOperators

namespace Cert.ShiftLaws

open Idealize.ShloMosaic

/-- A common real shift cancels in a difference of extended reals, at the infinities too:
    an infinity plus a real is that infinity. -/
theorem add_sub_add_coe (x y : EReal) (b : ℝ) : (x + (b : EReal)) - (y + (b : EReal)) = x - y := by
  induction x using EReal.rec with
  | bot => simp
  | top =>
    induction y using EReal.rec with
    | bot => simp
    | top => simp
    | coe y => rw [EReal.top_add_coe, ← EReal.coe_add, EReal.top_sub_coe, EReal.top_sub_coe]
  | coe x =>
    induction y using EReal.rec with
    | bot => simp [← EReal.coe_add]
    | top => simp [← EReal.coe_add]
    | coe y => rw [← EReal.coe_add, ← EReal.coe_add, ← EReal.coe_sub, ← EReal.coe_sub]; congr 1; ring

/-- The sum of a family of extended reals each shifted by the real b, over n indices, is the family's sum
    plus the real n · b. -/
theorem sum_add_coe {n : Nat} (f : Fin n → EReal) (b : ℝ) :
    (∑ k : Fin n, (f k + (b : EReal))) = (∑ k : Fin n, f k) + (((n : ℝ) * b : ℝ) : EReal) := by
  rw [Finset.sum_add_distrib, Finset.sum_const, Finset.card_univ, Fintype.card_fin, ← EReal.coe_nsmul, nsmul_eq_mul]

/-- The quotient by a positive real n of S + n · b is the quotient of S, plus b, for every extended real S:
    the quotient is the product with the nonnegative real n⁻¹, which distributes over any sum. -/
theorem div_add_coe (S : EReal) (b n : ℝ) (hn : 0 < n) :
    Ideal.div (S + ((n * b : ℝ) : EReal)) (n : EReal) = Ideal.div S (n : EReal) + (b : EReal) := by
  have hne : (n : EReal) ≠ 0 := by exact_mod_cast hn.ne'
  rw [Ideal.div, if_neg hne, Ideal.div, if_neg hne, ← EReal.coe_inv,
    EReal.right_distrib_of_nonneg_of_ne_top (by exact_mod_cast (inv_pos.mpr hn).le) (EReal.coe_ne_top _),
    ← EReal.coe_mul]
  congr 2
  field_simp

end Cert.ShiftLaws
-- ==== Proof.LibNormIdx.lean ====
/-
  Batch normalisation followed by a leaky rectifier, read one entry at a time. For a matrix `y` with `d` columns and
  per-column vectors `mu`, `var`, `g`, `beta`, the entry at row `r`, column `q` of the result is

      xn = (y r q - mu q) * rsqrt (var q + eps) * g q + beta q,     result = if xn > zero then xn else slope * xn,

  with `eps`, `zero`, `slope` three float words. Two whole-array spellings of it are read at an index here and shown
  to be that entry: the one a kernel body computes on a block of rows, its four vectors being one-row matrices
  repeated down the block's rows, and the one a host program computes on the whole matrix, each vector first made a
  one-row matrix and then repeated down all rows. All at the ideal values, where a float is an extended real; the two
  reciprocal square roots are then one function and a float word is one extended real wherever it is written. General
  in the extents.
-/
import Idealize.ShloMosaic.Lib.Pipeline.Value
import Idealize.ShloMosaic.Lib.ValueIdx
import Idealize.ShloMosaic.Lib.ValueLayout
import Idealize.ShloMosaic.Lib.IdealHost
import Idealize.ShloMosaic.Lib.KernelVsHost
import Idealize.ShloMosaic.PureOps.Ideal
import Idealize.ShloMosaic.PureOps.Ideal.Laws

noncomputable section

namespace Cert.LibNormIdx

open Idealize.ShloMosaic Idealize.ShloMosaic.ValueIdx

/-! ## One entry -/

/-- The normalised, scaled and shifted value of one entry `y` of a column with mean `mu`, variance `var`, scale `g`
    and shift `beta`; `e` is the word of the stabilising constant added to the variance. -/
def normed (e : BitVec 32) (y mu var g beta : Ideal .f32) : Ideal .f32 :=
  (y - mu) * FloatOps.rsqrt (var + FloatOps.ofBits (F := Ideal) .f32 e) * g + beta

/-- The leaky rectifier of a value `x`: `x` itself where it exceeds the value of the word `z`, the value of the word
    `s` times `x` elsewhere. -/
def leaky (z s : BitVec 32) (x : Ideal .f32) : Ideal .f32 :=
  Scalar.select (FloatOps.cmpf .ogt x (FloatOps.ofBits (F := Ideal) .f32 z)) x (FloatOps.ofBits (F := Ideal) .f32 s * x)

/-- One entry of the result: the rectifier of the normalised value. -/
def entry (e z s : BitVec 32) (y mu var g beta : Ideal .f32) : Ideal .f32 :=
  leaky z s (normed e y mu var g beta)

/-! ## Index lemmas -/

/-- A reciprocal square root of a vector, read at an index, is the reciprocal square root of the entry there. -/
theorem rsqrt_apply {s : Shape} {φ : FTy} (x : FVec Ideal s φ) (i : s.Idx) : rsqrt x i = FloatOps.rsqrt (x i) := rfl

/-- The host's reciprocal square root of a vector, read at an index, is the same function of the entry there. -/
theorem hostRsqrt_apply {s : Shape} {φ : FTy} (x : FVec Ideal s φ) (i : s.Idx) :
    Host.rsqrt x i = FloatOps.rsqrt (x i) := rfl

/-- A vector of `d` entries laid out as a one-row matrix (a broadcast along axis 1) reads, at `(u, t)`, the vector
    at `t`, whatever the unit coordinate `u`. -/
theorem broadcastInDim_row_apply {α : Type} {d : ℕ} (h : (⟨1, ![d]⟩ : Shape).BroadcastsInDim ⟨2, ![1, d]⟩ ![1])
    (x : (⟨1, ![d]⟩ : Shape).Idx → α) (u : Fin 1) (t : Fin d) :
    broadcastInDim ⟨2, ![1, d]⟩ ![1] h x (ix2 u t) = x (ix1 t) := by
  refine broadcastInDim_apply ![1] h x (ix2 u t) (ix1 t) fun a => ?_
  match a with
  | ⟨0, _⟩ =>
    show t.val = if d = 1 then 0 else t.val
    split
    · have := t.isLt; omega
    · rfl

/-- A vector of `d` entries made a one-row matrix and then repeated down `n` rows reads, at `(r, t)`, the vector at
    `t`. -/
theorem broadcastInDim_rows_apply {α : Type} {n d : ℕ} (h1 : (⟨1, ![d]⟩ : Shape).BroadcastsInDim ⟨2, ![1, d]⟩ ![1])
    (h2 : (⟨2, ![1, d]⟩ : Shape).BroadcastsInDim ⟨2, ![n, d]⟩ ![0, 1]) (x : (⟨1, ![d]⟩ : Shape).Idx → α)
    (r : Fin n) (t : Fin d) :
    broadcastInDim ⟨2, ![n, d]⟩ ![0, 1] h2 (broadcastInDim ⟨2, ![1, d]⟩ ![1] h1 x) (ix2 r t) = x (ix1 t) :=
  (broadcastInDim_oneRow_apply h2 _ r t).trans (broadcastInDim_row_apply h1 x 0 t)

/-! ## The kernel's spelling, on a block of `a` rows -/

/-- What a kernel body computes from a block `v0` of `a` rows and the four vectors as one-row matrices `v2` (means),
    `v4` (variances), `v6` (scales), `v8` (shifts): each one-row matrix repeated down the block's rows, the
    arithmetic entry by entry. The shape casts are between equal shapes. -/
def kernelSide {a b : ℕ} (h0 : (⟨2, ![a, b]⟩ : Shape).ShapeCasts ⟨2, ![a, b]⟩)
    (h1 : (⟨2, ![1, b]⟩ : Shape).ShapeCasts ⟨2, ![1, b]⟩) (hb : (⟨2, ![1, b]⟩ : Shape).Broadcasts ⟨2, ![a, b]⟩)
    (e z s : BitVec 32) (v0 : FVec Ideal ⟨2, ![a, b]⟩ .f32) (v2 v4 v6 v8 : FVec Ideal ⟨2, ![1, b]⟩ .f32) :
    FVec Ideal ⟨2, ![a, b]⟩ .f32 :=
  have xn : FVec Ideal ⟨2, ![a, b]⟩ .f32 :=
    addf (mulf (mulf (subf (shapeCast ⟨2, ![a, b]⟩ v0 h0) (broadcastTo ⟨2, ![a, b]⟩ (shapeCast ⟨2, ![1, b]⟩ v2 h1) hb))
      (broadcastTo ⟨2, ![a, b]⟩ (rsqrt (addf (shapeCast ⟨2, ![1, b]⟩ v4 h1)
        (broadcast ⟨2, ![1, b]⟩ (Scalar.ofBits (F := Ideal) .f32 e)))) hb))
      (broadcastTo ⟨2, ![a, b]⟩ (shapeCast ⟨2, ![1, b]⟩ v6 h1) hb))
      (broadcastTo ⟨2, ![a, b]⟩ (shapeCast ⟨2, ![1, b]⟩ v8 h1) hb)
  select (cmpf .ogt xn (broadcast ⟨2, ![a, b]⟩ (Scalar.ofBits (F := Ideal) .f32 z))) xn
    (mulf (broadcast ⟨2, ![a, b]⟩ (Scalar.ofBits (F := Ideal) .f32 s)) xn)

/-- The kernel's spelling read at `(p, q)`: the entry of the block's `(p, q)` and of column `q` of each one-row
    matrix. -/
theorem kernelSide_apply {a b : ℕ} (h0 : (⟨2, ![a, b]⟩ : Shape).ShapeCasts ⟨2, ![a, b]⟩)
    (h1 : (⟨2, ![1, b]⟩ : Shape).ShapeCasts ⟨2, ![1, b]⟩) (hb : (⟨2, ![1, b]⟩ : Shape).Broadcasts ⟨2, ![a, b]⟩)
    (e z s : BitVec 32) (v0 : FVec Ideal ⟨2, ![a, b]⟩ .f32) (v2 v4 v6 v8 : FVec Ideal ⟨2, ![1, b]⟩ .f32)
    (p : Fin a) (q : Fin b) :
    kernelSide h0 h1 hb e z s v0 v2 v4 v6 v8 (ix2 p q)
      = entry e z s (v0 (ix2 p q)) (v2 (ix2 (0 : Fin 1) q)) (v4 (ix2 (0 : Fin 1) q)) (v6 (ix2 (0 : Fin 1) q))
          (v8 (ix2 (0 : Fin 1) q)) := by
  have hrow : ∀ v : FVec Ideal ⟨2, ![1, b]⟩ .f32, broadcastTo ⟨2, ![a, b]⟩ v hb (ix2 p q) = v (ix2 (0 : Fin 1) q) :=
    fun v => broadcastTo_1b_ab_apply v hb p q
  unfold kernelSide entry leaky normed
  simp only [shapeCast_self, select_apply, cmpf_apply, mulf_apply, addf_apply, subf_apply, broadcast_apply, hrow,
    rsqrt_apply]

/-! ## The host's spelling, on the whole matrix of `n` rows -/

/-- What a host program computes from the matrix `Y` and the four vectors: each vector made a one-row matrix and
    repeated down all rows, the constants broadcast from scalars, the arithmetic entry by entry. -/
def hostSide {n d : ℕ} (h1 : (⟨1, ![d]⟩ : Shape).BroadcastsInDim ⟨2, ![1, d]⟩ ![1])
    (h2 : (⟨2, ![1, d]⟩ : Shape).BroadcastsInDim ⟨2, ![n, d]⟩ ![0, 1])
    (hs1 : (⟨0, ![]⟩ : Shape).BroadcastsInDim ⟨1, ![d]⟩ ![]) (hs2 : (⟨0, ![]⟩ : Shape).BroadcastsInDim ⟨2, ![n, d]⟩ ![])
    (e z s : BitVec 32) (Y : FVec Ideal ⟨2, ![n, d]⟩ .f32) (mu var g beta : FVec Ideal ⟨1, ![d]⟩ .f32) :
    FVec Ideal ⟨2, ![n, d]⟩ .f32 :=
  have xn : FVec Ideal ⟨2, ![n, d]⟩ .f32 :=
    addf (mulf (mulf (subf Y (broadcastInDim ⟨2, ![n, d]⟩ ![0, 1] h2 (broadcastInDim ⟨2, ![1, d]⟩ ![1] h1 mu)))
      (broadcastInDim ⟨2, ![n, d]⟩ ![0, 1] h2 (broadcastInDim ⟨2, ![1, d]⟩ ![1] h1
        (Host.rsqrt (addf var (broadcastInDim ⟨1, ![d]⟩ ![] hs1 (constant (F := Ideal) ⟨0, ![]⟩ .f32 e)))))))
      (broadcastInDim ⟨2, ![n, d]⟩ ![0, 1] h2 (broadcastInDim ⟨2, ![1, d]⟩ ![1] h1 g)))
      (broadcastInDim ⟨2, ![n, d]⟩ ![0, 1] h2 (broadcastInDim ⟨2, ![1, d]⟩ ![1] h1 beta))
  select (cmpf .ogt xn (broadcastInDim ⟨2, ![n, d]⟩ ![] hs2 (constant (F := Ideal) ⟨0, ![]⟩ .f32 z))) xn
    (mulf (broadcastInDim ⟨2, ![n, d]⟩ ![] hs2 (constant (F := Ideal) ⟨0, ![]⟩ .f32 s)) xn)

/-- The host's spelling read at `(r, q)`: the entry of the matrix's `(r, q)` and of each vector at `q`. -/
theorem hostSide_apply {n d : ℕ} (h1 : (⟨1, ![d]⟩ : Shape).BroadcastsInDim ⟨2, ![1, d]⟩ ![1])
    (h2 : (⟨2, ![1, d]⟩ : Shape).BroadcastsInDim ⟨2, ![n, d]⟩ ![0, 1])
    (hs1 : (⟨0, ![]⟩ : Shape).BroadcastsInDim ⟨1, ![d]⟩ ![]) (hs2 : (⟨0, ![]⟩ : Shape).BroadcastsInDim ⟨2, ![n, d]⟩ ![])
    (e z s : BitVec 32) (Y : FVec Ideal ⟨2, ![n, d]⟩ .f32) (mu var g beta : FVec Ideal ⟨1, ![d]⟩ .f32)
    (r : Fin n) (q : Fin d) :
    hostSide h1 h2 hs1 hs2 e z s Y mu var g beta (ix2 r q)
      = entry e z s (Y (ix2 r q)) (mu (ix1 q)) (var (ix1 q)) (g (ix1 q)) (beta (ix1 q)) := by
  have hrows : ∀ x : FVec Ideal ⟨1, ![d]⟩ .f32,
      broadcastInDim ⟨2, ![n, d]⟩ ![0, 1] h2 (broadcastInDim ⟨2, ![1, d]⟩ ![1] h1 x) (ix2 r q) = x (ix1 q) :=
    fun x => broadcastInDim_rows_apply h1 h2 x r q
  unfold hostSide entry leaky normed
  simp only [select_apply, cmpf_apply, mulf_apply, addf_apply, subf_apply, hrows, hostRsqrt_apply,
    broadcastInDim_scalar_apply, constant_apply]
  rfl

end Cert.LibNormIdx

end
-- ==== Proof.Shift.lean ====
/-
  The statistics of a matrix whose every row has the same vector of REAL numbers added to it. The column means move
  by that vector; the centred matrix and hence the column variances do not move at all. On the extended reals this
  needs the added entries finite and nothing of the matrix: an infinity plus a real is that infinity on both sides.
  Consequently one layer's normalisation spelt with the statistics of the aggregate (mean plus bias, variance) is the
  normalisation of the aggregate-plus-bias by its own statistics.
-/
import proofs.«115673_j47373489274965_1_alg».proof.Proof.SpecK
import proofs.«115673_j47373489274965_1_alg».proof.Proof.Consts50k
import proofs.«115673_j47373489274965_1_alg».proof.Proof.ShiftLaws
import proofs.«115673_j47373489274965_1_alg».proof.Proof.LibNormIdx
import proofs.«115673_j47373489274965_1_alg».proof.Proof.LibAffineIdx
import Idealize.ShloMosaic.PureOps.Ideal.Laws
import Idealize.ShloMosaic.Lib.ValueIdx
import Idealize.ShloMosaic.Lib.ValueLayout
import Idealize.ShloMosaic.Lib.IdealHost

noncomputable section

open scoped BigOperators

namespace Cert.KernelIdeal.Spec

open Idealize.ShloMosaic Idealize.ShloMosaic.ValueIdx Cert.KernelIdeal
variable [Facts]
open Facts₀ Facts

/-! ## The statistics read at an index -/

/-- The rows of the matrix are the reduced axis of the column sums. -/
theorem reduces_rows : S50000x128.Reduces [0] S128 := by decide

/-- Column q with the row coordinate k put back is the entry (k, q). -/
theorem lift_rows (q : Fin 128) (k : Fin 50000) : reduces_rows.lift (ix1 q) k = ix2 k q := by
  funext c
  match c with
  | ⟨0, _⟩ => exact Fin.ext rfl
  | ⟨1, _⟩ => exact Fin.ext rfl

/-- A column sum is the sum of the column's 50000 entries. -/
theorem colsum_apply (x : Mat) (q : Fin 128) : colsum x (ix1 q) = ∑ k : Fin 50000, x (ix2 k q) := by
  unfold colsum
  rw [hostReduceAdd_apply, Ideal.hostReduceAdd_single _ reduces_rows, constant_apply, ofBits_zero', zero_add]
  exact Finset.sum_congr rfl fun k _ => congrArg x (lift_rows q k)

/-- A vector repeated down the rows reads the vector at the column. -/
theorem bb_apply (b : V128) (p : Fin 50000) (q : Fin 128) : bb b (ix2 p q) = b (ix1 q) :=
  Cert.LibNormIdx.broadcastInDim_rows_apply bcast_S128_S1x128_1 bcast_S1x128_S50000x128_0_1 b p q

/-- A column mean is the column's sum over the real 50000. -/
theorem meanv_apply (x : Mat) (q : Fin 128) :
    meanv x (ix1 q) = Ideal.div (∑ k : Fin 50000, x (ix2 k q)) ((50000 : ℝ) : EReal) := by
  unfold meanv
  rw [hostDivf_apply, colsum_apply, broadcastInDim_scalar_apply, constant_apply, ofBits_50000']

/-- An entry of the centred matrix is the entry less its column's mean. -/
theorem centerv_apply (x : Mat) (p : Fin 50000) (q : Fin 128) :
    centerv x (ix2 p q) = x (ix2 p q) - Ideal.div (∑ k : Fin 50000, x (ix2 k q)) ((50000 : ℝ) : EReal) := by
  unfold centerv
  rw [subf_apply, Cert.LibAffineIdx.rowsOfRow_apply bcast_S1x128_S50000x128_0_1 _ p q 0, hostDivf_apply,
    Cert.LibAffineIdx.rowOfVec_apply bcast_S128_S1x128_1 _ 0 q, colsum_apply, broadcastInDim_scalar_apply,
    constant_apply, ofBits_50000']

/-! ## A real vector added to every row -/

/-- The shifted matrix at an entry, with the shift's entry named as the real it is. -/
theorem shifted_apply (x : Mat) (b : V128) (p : Fin 50000) (q : Fin 128) (r : ℝ) (hr : b (ix1 q) = (r : EReal)) :
    addf x (bb b) (ix2 p q) = x (ix2 p q) + (r : EReal) := by
  rw [addf_apply, bb_apply, hr]

/-- The sum of a shifted column over the row count: the column's mean plus the shift. -/
theorem div_sum_shifted (x : Mat) (b : V128) (q : Fin 128) (r : ℝ) (hr : b (ix1 q) = (r : EReal)) :
    Ideal.div (∑ k : Fin 50000, addf x (bb b) (ix2 k q)) ((50000 : ℝ) : EReal)
      = Ideal.div (∑ k : Fin 50000, x (ix2 k q)) ((50000 : ℝ) : EReal) + (r : EReal) := by
  have h5 : ((50000 : ℕ) : ℝ) = 50000 := by norm_num
  rw [Finset.sum_congr rfl fun k _ => shifted_apply x b k q r hr, Cert.ShiftLaws.sum_add_coe, h5,
    Cert.ShiftLaws.div_add_coe _ _ _ (by norm_num)]

/-- The column means of the shifted matrix are the column means plus the shift. -/
theorem meanv_shift (x : Mat) (b : V128) (hb : ∀ q : S128.Idx, ∃ r : ℝ, b q = (r : EReal)) :
    meanv (addf x (bb b)) = addf (meanv x) b := by
  funext j
  obtain ⟨q, rfl⟩ : ∃ q, j = ix1 q := ⟨j 0, eq_ix1 j⟩
  obtain ⟨r, hr⟩ := hb (ix1 q)
  rw [addf_apply, meanv_apply, meanv_apply, div_sum_shifted x b q r hr, hr]

/-- The shifted matrix centred is the matrix centred: the shift cancels against the shift of the mean. -/
theorem centerv_shift (x : Mat) (b : V128) (hb : ∀ q : S128.Idx, ∃ r : ℝ, b q = (r : EReal)) :
    centerv (addf x (bb b)) = centerv x := by
  funext i
  obtain ⟨p, q, rfl⟩ : ∃ p q, i = ix2 p q := ⟨i 0, i 1, eq_ix2 i⟩
  obtain ⟨r, hr⟩ := hb (ix1 q)
  rw [centerv_apply, centerv_apply, div_sum_shifted x b q r hr, shifted_apply x b p q r hr,
    Cert.ShiftLaws.add_sub_add_coe]

/-- So the column variances do not move. -/
theorem varv_shift (x : Mat) (b : V128) (hb : ∀ q : S128.Idx, ∃ r : ℝ, b q = (r : EReal)) :
    varv (addf x (bb b)) = varv x := by
  unfold varv; rw [centerv_shift x b hb]

end Cert.KernelIdeal.Spec

end
-- ==== Proof.NormEq.lean ====
/-
  One layer's normalisation, rectifier and residual, entry by entry, against the reference's whole-array spelling.
  The kernel normalises the aggregate plus the bias with the mean of the aggregate plus the bias and the variance of
  the aggregate; the reference normalises the aggregate-plus-bias by its own mean and variance. For a bias of real
  numbers the two pairs of statistics are the same vectors, so the two results agree at every entry.
-/
import proofs.«115673_j47373489274965_1_alg».proof.Proof.Shift

noncomputable section

open scoped BigOperators

namespace Cert.KernelIdeal.Spec

open Idealize.ShloMosaic Idealize.ShloMosaic.ValueIdx Cert.KernelIdeal
variable [Facts]
open Facts₀ Facts

/-- A vector laid out as a one-row matrix reads the vector at the column. -/
theorem row128_apply (v : V128) (q : Fin 128) : row128 v (ix2 (0 : Fin 1) q) = v (ix1 q) :=
  Cert.LibAffineIdx.shapeCast_n_1n_apply v shapeCasts_S128_S1x128 0 q

/-- The reference's normalisation read at an entry. -/
theorem refNorm_apply (y : Mat) (g be : V128) (res : Mat) (p : Fin 50000) (q : Fin 128) :
    refNorm y g be res (ix2 p q)
      = max ((((y (ix2 p q) - meanv y (ix1 q))
            * FloatOps.rsqrt (F := Ideal) (φ := .f32) (varv y (ix1 q) + FloatOps.ofBits (F := Ideal) .f32 0x3727C5AC#32))
            * g (ix1 q)) + be (ix1 q))
          (FloatOps.ofBits (F := Ideal) .f32 0x00000000#32) + res (ix2 p q) := by
  unfold refNorm
  simp only [addf_apply, maximumf_apply, mulf_apply, subf_apply, bb_apply, Cert.LibNormIdx.hostRsqrt_apply,
    broadcastInDim_scalar_apply, constant_apply]
  rfl

/-- The normalisation region's entries, fed the mean of the aggregate plus the bias and the variance of the
    aggregate, are the reference's normalisation of the aggregate-plus-bias. -/
theorem norm_eq (a res : Mat) (b g be : V128) (hb : ∀ q : S128.Idx, ∃ r : ℝ, b q = (r : EReal)) :
    bnArr a res (row128 b) (row128 g) (row128 be) (row128 (addf (meanv a) b)) (row128 (varv a))
      = refNorm (addf a (bb b)) g be res := by
  funext i
  obtain ⟨p, q, rfl⟩ : ∃ p q, i = ix2 p q := ⟨i 0, i 1, eq_ix2 i⟩
  rw [refNorm_apply, meanv_shift a b hb, varv_shift a b hb]
  show bnEntry (a (ix2 p q)) (res (ix2 p q)) (row128 b (ix2 (0 : Fin 1) q)) (row128 g (ix2 (0 : Fin 1) q))
    (row128 be (ix2 (0 : Fin 1) q)) (row128 (addf (meanv a) b) (ix2 (0 : Fin 1) q)) (row128 (varv a) (ix2 (0 : Fin 1) q)) = _
  rw [row128_apply, row128_apply, row128_apply, row128_apply, row128_apply, addf_apply, addf_apply, bb_apply]
  rfl

end Cert.KernelIdeal.Spec

end
-- ==== Proof.DenseBridge.lean ====
/-
  The dense transforms entry by entry against the host's products. A product of a matrix of 50000 rows by a square
  matrix, read at an entry, is the row against the column; with the all-zero bias row added it is unchanged, and with
  a bias vector repeated down the rows added it gains the bias entry of its column. A rectified dense layer of any
  extents, read at an entry, is the larger of that sum and zero.
-/
import proofs.«115673_j47373489274965_1_alg».proof.Proof.NormEq
import proofs.«115673_j47373489274965_1_alg».proof.Proof.LibHostDot

noncomputable section

open scoped BigOperators

namespace Cert.KernelIdeal.Spec

open Idealize.ShloMosaic Idealize.ShloMosaic.ValueIdx Cert.KernelIdeal
variable [Facts]
open Facts₀ Facts

/-- The all-zero bias row reads zero everywhere. -/
theorem zrow_apply (u : Fin 1) (q : Fin 128) : zrow (ix2 u q) = 0 := by
  unfold zrow
  rw [broadcastInDim_scalar_apply, constant_apply, ofBits_zero']

/-- The transform with the zero bias row is the host's product. -/
theorem lin_eq_dot (wf : DotDims.WF S50000x128 S128x128 S50000x128 [1] [0] [0] [1] [] []) (h : Mat) (w : M128) :
    linArr h w zrow
      = Host.dotGeneral (F := Ideal) (⟨[1], [0], [0], [1], [], [], wf⟩ : DotDims S50000x128 S128x128 S50000x128) none h w := by
  funext i
  obtain ⟨p, q, rfl⟩ : ∃ p q, i = ix2 p q := ⟨i 0, i 1, eq_ix2 i⟩
  rw [Cert.LibHostDot.dotGeneral_apply wf none h w p q]
  show (∑ k : Fin 128, h (ix2 p k) * w (ix2 k q)) + zrow (ix2 (0 : Fin 1) q) = _
  rw [zrow_apply, add_zero]

/-- The transform with a bias row is the host's product plus the bias vector repeated down the rows. -/
theorem emb_eq (wf : DotDims.WF S50000x128 S128x128 S50000x128 [1] [0] [0] [1] [] []) (x : Mat) (w : M128) (b : V128) :
    linArr x w (row128 b)
      = addf (Host.dotGeneral (F := Ideal) (⟨[1], [0], [0], [1], [], [], wf⟩ : DotDims S50000x128 S128x128 S50000x128) none x w)
          (bb b) := by
  funext i
  obtain ⟨p, q, rfl⟩ : ∃ p q, i = ix2 p q := ⟨i 0, i 1, eq_ix2 i⟩
  unfold bb
  rw [Cert.LibAffineIdx.hostAffine_apply wf bcast_S128_S1x128_1 bcast_S1x128_S50000x128_0_1 x w b p q]
  show (∑ k : Fin 128, x (ix2 p k) * w (ix2 k q)) + row128 b (ix2 (0 : Fin 1) q) = _
  rw [row128_apply]

/-- A rectified dense layer on the host, of any extents, read at an entry: the larger of the row against the column
    plus the bias entry, and zero. -/
theorem hostReluAffine_apply {M k n : ℕ}
    (wf : DotDims.WF ⟨2, ![M, k]⟩ ⟨2, ![k, n]⟩ ⟨2, ![M, n]⟩ [1] [0] [0] [1] [] [])
    (h1 : (⟨1, ![n]⟩ : Shape).BroadcastsInDim ⟨2, ![1, n]⟩ (![1] : Fin 1 → Fin 2))
    (h2 : (⟨2, ![1, n]⟩ : Shape).BroadcastsInDim ⟨2, ![M, n]⟩ (![0, 1] : Fin 2 → Fin 2))
    (hs : (⟨0, ![]⟩ : Shape).BroadcastsInDim ⟨2, ![M, n]⟩ ![])
    (A : FVec Ideal ⟨2, ![M, k]⟩ .f32) (B : FVec Ideal ⟨2, ![k, n]⟩ .f32) (b : FVec Ideal ⟨1, ![n]⟩ .f32)
    (p : Fin M) (q : Fin n) :
    maximumf (addf (Host.dotGeneral (F := Ideal) (⟨[1], [0], [0], [1], [], [], wf⟩ : DotDims ⟨2, ![M, k]⟩ ⟨2, ![k, n]⟩ ⟨2, ![M, n]⟩) none A B)
        (broadcastInDim ⟨2, ![M, n]⟩ ![0, 1] h2 (broadcastInDim ⟨2, ![1, n]⟩ ![1] h1 b)))
        (broadcastInDim ⟨2, ![M, n]⟩ ![] hs (constant (F := Ideal) ⟨0, ![]⟩ .f32 0x00000000#32)) (ix2 p q)
      = reluE ((∑ c : Fin k, A (ix2 p c) * B (ix2 c q)) + b (ix1 q)) := by
  rw [maximumf_apply, Cert.LibAffineIdx.hostAffine_apply wf h1 h2 A B b p q, broadcastInDim_scalar_apply, constant_apply]
  rfl

end Cert.KernelIdeal.Spec

end
-- ==== Proof.HeadBridge.lean ====
/-
  The three-layer dense head entry by entry against the host's spelling: two rectified dense layers and a last
  dense layer, each the host's product plus a bias vector repeated down the rows. Read at an entry, every layer is
  the row of its input against the column of its weights plus the bias entry of the column, rectified for the first
  two; the entries of the inner layers are read under the sums of the outer ones.
-/
import proofs.«115673_j47373489274965_1_alg».proof.Proof.DenseBridge

noncomputable section

open scoped BigOperators

namespace Cert.KernelIdeal.Spec

open Idealize.ShloMosaic Idealize.ShloMosaic.ValueIdx Cert.KernelIdeal
variable [Facts]
open Facts₀ Facts

/-- The head as the host spells it: each bias vector made a one-row matrix and repeated down the 128 rows. -/
def mlpHost
    (wf1 : DotDims.WF S128x128 S128x64 S128x64 [1] [0] [0] [1] [] [])
    (wf2 : DotDims.WF S128x64 S64x32 S128x32 [1] [0] [0] [1] [] [])
    (wf3 : DotDims.WF S128x32 S32x10 S128x10 [1] [0] [0] [1] [] [])
    (h1a : S64.BroadcastsInDim S1x64 (![1] : Fin 1 → Fin 2)) (h1b : S1x64.BroadcastsInDim S128x64 (![0, 1] : Fin 2 → Fin 2))
    (hs1 : S_.BroadcastsInDim S128x64 ![])
    (h2a : S32.BroadcastsInDim S1x32 (![1] : Fin 1 → Fin 2)) (h2b : S1x32.BroadcastsInDim S128x32 (![0, 1] : Fin 2 → Fin 2))
    (hs2 : S_.BroadcastsInDim S128x32 ![])
    (h3a : S10.BroadcastsInDim S1x10 (![1] : Fin 1 → Fin 2)) (h3b : S1x10.BroadcastsInDim S128x10 (![0, 1] : Fin 2 → Fin 2))
    (g : FVec Ideal S128x128 .f32) (w1 : FVec Ideal S128x64 .f32) (b1 : FVec Ideal S64 .f32)
    (w2 : FVec Ideal S64x32 .f32) (b2 : FVec Ideal S32 .f32) (w3 : FVec Ideal S32x10 .f32) (b3 : FVec Ideal S10 .f32) :
    FVec Ideal S128x10 .f32 :=
  addf (Host.dotGeneral (F := Ideal) (⟨[1], [0], [0], [1], [], [], wf3⟩ : DotDims S128x32 S32x10 S128x10) none
      (maximumf (addf (Host.dotGeneral (F := Ideal) (⟨[1], [0], [0], [1], [], [], wf2⟩ : DotDims S128x64 S64x32 S128x32) none
          (maximumf (addf (Host.dotGeneral (F := Ideal) (⟨[1], [0], [0], [1], [], [], wf1⟩ : DotDims S128x128 S128x64 S128x64) none g w1)
              (broadcastInDim S128x64 ![0, 1] h1b (broadcastInDim S1x64 ![1] h1a b1)))
            (broadcastInDim S128x64 ![] hs1 (constant (F := Ideal) S_ .f32 0x00000000#32)))
          w2)
          (broadcastInDim S128x32 ![0, 1] h2b (broadcastInDim S1x32 ![1] h2a b2)))
        (broadcastInDim S128x32 ![] hs2 (constant (F := Ideal) S_ .f32 0x00000000#32)))
      w3)
    (broadcastInDim S128x10 ![0, 1] h3b (broadcastInDim S1x10 ![1] h3a b3))

/-- The head's entries are the host's spelling of the head. -/
theorem mlp_eq
    (wf1 : DotDims.WF S128x128 S128x64 S128x64 [1] [0] [0] [1] [] [])
    (wf2 : DotDims.WF S128x64 S64x32 S128x32 [1] [0] [0] [1] [] [])
    (wf3 : DotDims.WF S128x32 S32x10 S128x10 [1] [0] [0] [1] [] [])
    (h1a : S64.BroadcastsInDim S1x64 (![1] : Fin 1 → Fin 2)) (h1b : S1x64.BroadcastsInDim S128x64 (![0, 1] : Fin 2 → Fin 2))
    (hs1 : S_.BroadcastsInDim S128x64 ![])
    (h2a : S32.BroadcastsInDim S1x32 (![1] : Fin 1 → Fin 2)) (h2b : S1x32.BroadcastsInDim S128x32 (![0, 1] : Fin 2 → Fin 2))
    (hs2 : S_.BroadcastsInDim S128x32 ![])
    (h3a : S10.BroadcastsInDim S1x10 (![1] : Fin 1 → Fin 2)) (h3b : S1x10.BroadcastsInDim S128x10 (![0, 1] : Fin 2 → Fin 2))
    (g : FVec Ideal S128x128 .f32) (w1 : FVec Ideal S128x64 .f32) (b1 : FVec Ideal S64 .f32)
    (w2 : FVec Ideal S64x32 .f32) (b2 : FVec Ideal S32 .f32) (w3 : FVec Ideal S32x10 .f32) (b3 : FVec Ideal S10 .f32) :
    mlpArr g w1 (shapeCast S1x64 b1 shapeCasts_S64_S1x64) w2 (shapeCast S1x32 b2 shapeCasts_S32_S1x32) w3
        (shapeCast S1x10 b3 shapeCasts_S10_S1x10)
      = mlpHost wf1 wf2 wf3 h1a h1b hs1 h2a h2b hs2 h3a h3b g w1 b1 w2 b2 w3 b3 := by
  funext i
  obtain ⟨p, q, rfl⟩ : ∃ p q, i = ix2 p q := ⟨i 0, i 1, eq_ix2 i⟩
  unfold mlpHost
  refine Eq.symm ((Cert.LibAffineIdx.hostAffine_apply wf3 h3a h3b _ w3 b3 p q).trans ?_)
  show _ = (∑ c : Fin 32,
      reluE ((∑ b : Fin 64, reluE ((∑ a : Fin 128, g (ix2 p a) * w1 (ix2 a b))
          + shapeCast S1x64 b1 shapeCasts_S64_S1x64 (ix2 (0 : Fin 1) b)) * w2 (ix2 b c))
        + shapeCast S1x32 b2 shapeCasts_S32_S1x32 (ix2 (0 : Fin 1) c)) * w3 (ix2 c q))
      + shapeCast S1x10 b3 shapeCasts_S10_S1x10 (ix2 (0 : Fin 1) q)
  rw [Cert.LibAffineIdx.shapeCast_n_1n_apply b3 shapeCasts_S10_S1x10 0 q]
  refine congrArg (· + b3 (ix1 q)) (Finset.sum_congr rfl fun c _ => congrArg (· * w3 (ix2 c q)) ?_)
  rw [hostReluAffine_apply wf2 h2a h2b hs2 _ w2 b2 p c, Cert.LibAffineIdx.shapeCast_n_1n_apply b2 shapeCasts_S32_S1x32 0 c]
  refine congrArg (fun s => reluE (s + b2 (ix1 c))) (Finset.sum_congr rfl fun b _ => congrArg (· * w2 (ix2 b c)) ?_)
  rw [hostReluAffine_apply wf1 h1a h1b hs1 g w1 b1 p b, Cert.LibAffineIdx.shapeCast_n_1n_apply b1 shapeCasts_S64_S1x64 0 b]

end Cert.KernelIdeal.Spec

end
-- ==== Proof.SpecOut.lean ====
/-
  The two programs' results as whole-array functions of the fifteen arguments. The kernel program's: the embedding
  transform, four layers (each: transform, aggregation, statistics of the raw aggregate, normalisation with the mean
  shifted by the bias), the mean pool, the dense head entry by entry. The reference's, over its own matrix products:
  product plus bias, four layers (each: product, aggregation, bias, normalisation with the statistics of the sum),
  the mean pool, the head in the host's spelling.
-/
import proofs.«115673_j47373489274965_1_alg».proof.Proof.SpecK
import proofs.«115673_j47373489274965_1_alg».proof.Proof.HeadBridge

noncomputable section

namespace Cert.KernelIdeal.Spec

open Idealize.ShloMosaic Idealize.ShloMosaic.ValueIdx Cert.KernelIdeal
variable [Facts]
open Facts₀ Facts

/-- Layer `l` as the kernel program computes it, from the stacks of parameters and the edge-index argument. -/
def kLayer (l : ℕ) (hw : S4x128x128.Slices ![l, 0, 0] S1x128x128) (hv : S4x128.Slices ![l, 0] S1x128) (h : Mat)
    (wc : FVec Ideal S4x128x128 .f32) (bc gam bet : FVec Ideal S4x128 .f32) (ei : EI) : Mat :=
  layerK h (wT l hw wc) (vsl l hv bc) (vsl l hv gam) (vsl l hv bet) (edgeRow0 ei) (edgeRow1 ei)
    (edgeNorm (edgeRow0 ei) (edgeRow1 ei))

/-- Layer `l` as the reference computes it, over its product `dotf`. -/
def rLayer (dotf : Mat → M128 → Mat) (l : ℕ) (hw : S4x128x128.Slices ![l, 0, 0] S1x128x128) (hv : S4x128.Slices ![l, 0] S1x128)
    (h : Mat) (wc : FVec Ideal S4x128x128 .f32) (bc gam bet : FVec Ideal S4x128 .f32) (ei : EI) : Mat :=
  layerR dotf h (wT l hw wc) (vsl l hv bc) (vsl l hv gam) (vsl l hv bet) (edgeRow0 ei) (edgeRow1 ei)
    (edgeNorm (edgeRow0 ei) (edgeRow1 ei))

/-- The kernel program's result. -/
def kerOut (x : Mat) (ei : EI) (batch : IN) (wemb : M128) (bemb : V128) (wc : FVec Ideal S4x128x128 .f32)
    (bc gam bet : FVec Ideal S4x128 .f32) (w1 : FVec Ideal S64x128 .f32) (b1 : FVec Ideal S64 .f32) (w2 : FVec Ideal S32x64 .f32)
    (b2 : FVec Ideal S32 .f32) (w3 : FVec Ideal S10x32 .f32) (b3 : FVec Ideal S10 .f32) : FVec Ideal S128x10 .f32 :=
  mlpArr
    (pool
      (kLayer 3 slices_S4x128x128_S1x128x128_3_0_0 slices_S4x128_S1x128_3_0
        (kLayer 2 slices_S4x128x128_S1x128x128_2_0_0 slices_S4x128_S1x128_2_0
          (kLayer 1 slices_S4x128x128_S1x128x128_1_0_0 slices_S4x128_S1x128_1_0
            (kLayer 0 slices_S4x128x128_S1x128x128_0_0_0 slices_S4x128_S1x128_0_0
              (linArr x (transpose S128x128 [1, 0] wemb transposes_S128x128_S128x128_1_0) (row128 bemb))
              wc bc gam bet ei) wc bc gam bet ei) wc bc gam bet ei) wc bc gam bet ei)
      batch)
    (transpose S128x64 [1, 0] w1 transposes_S64x128_S128x64_1_0) (shapeCast S1x64 b1 shapeCasts_S64_S1x64)
    (transpose S64x32 [1, 0] w2 transposes_S32x64_S64x32_1_0) (shapeCast S1x32 b2 shapeCasts_S32_S1x32)
    (transpose S32x10 [1, 0] w3 transposes_S10x32_S32x10_1_0) (shapeCast S1x10 b3 shapeCasts_S10_S1x10)

/-- The reference's result, over the side conditions its own products and broadcasts carry. -/
def refOut (wf : DotDims.WF S50000x128 S128x128 S50000x128 [1] [0] [0] [1] [] [])
    (wf1 : DotDims.WF S128x128 S128x64 S128x64 [1] [0] [0] [1] [] []) (wf2 : DotDims.WF S128x64 S64x32 S128x32 [1] [0] [0] [1] [] [])
    (wf3 : DotDims.WF S128x32 S32x10 S128x10 [1] [0] [0] [1] [] [])
    (h1a : S64.BroadcastsInDim S1x64 ![1]) (h1b : S1x64.BroadcastsInDim S128x64 ![0, 1]) (hs1 : S_.BroadcastsInDim S128x64 ![])
    (h2a : S32.BroadcastsInDim S1x32 ![1]) (h2b : S1x32.BroadcastsInDim S128x32 ![0, 1]) (hs2 : S_.BroadcastsInDim S128x32 ![])
    (h3a : S10.BroadcastsInDim S1x10 ![1]) (h3b : S1x10.BroadcastsInDim S128x10 ![0, 1])
    (x : Mat) (ei : EI) (batch : IN) (wemb : M128) (bemb : V128) (wc : FVec Ideal S4x128x128 .f32)
    (bc gam bet : FVec Ideal S4x128 .f32) (w1 : FVec Ideal S64x128 .f32) (b1 : FVec Ideal S64 .f32) (w2 : FVec Ideal S32x64 .f32)
    (b2 : FVec Ideal S32 .f32) (w3 : FVec Ideal S10x32 .f32) (b3 : FVec Ideal S10 .f32) : FVec Ideal S128x10 .f32 :=
  mlpHost wf1 wf2 wf3 h1a h1b hs1 h2a h2b hs2 h3a h3b
    (pool
      (rLayer (fun a w => Host.dotGeneral (F := Ideal) (⟨[1], [0], [0], [1], [], [], wf⟩ : DotDims S50000x128 S128x128 S50000x128) none a w)
          3 slices_S4x128x128_S1x128x128_3_0_0 slices_S4x128_S1x128_3_0
        (rLayer (fun a w => Host.dotGeneral (F := Ideal) (⟨[1], [0], [0], [1], [], [], wf⟩ : DotDims S50000x128 S128x128 S50000x128) none a w)
            2 slices_S4x128x128_S1x128x128_2_0_0 slices_S4x128_S1x128_2_0
          (rLayer (fun a w => Host.dotGeneral (F := Ideal) (⟨[1], [0], [0], [1], [], [], wf⟩ : DotDims S50000x128 S128x128 S50000x128) none a w)
              1 slices_S4x128x128_S1x128x128_1_0_0 slices_S4x128_S1x128_1_0
            (rLayer (fun a w => Host.dotGeneral (F := Ideal) (⟨[1], [0], [0], [1], [], [], wf⟩ : DotDims S50000x128 S128x128 S50000x128) none a w)
                0 slices_S4x128x128_S1x128x128_0_0_0 slices_S4x128_S1x128_0_0
              (addf (Host.dotGeneral (F := Ideal) (⟨[1], [0], [0], [1], [], [], wf⟩ : DotDims S50000x128 S128x128 S50000x128) none x
                  (transpose S128x128 [1, 0] wemb transposes_S128x128_S128x128_1_0)) (bb bemb))
              wc bc gam bet ei) wc bc gam bet ei) wc bc gam bet ei) wc bc gam bet ei)
      batch)
    (transpose S128x64 [1, 0] w1 transposes_S64x128_S128x64_1_0) b1
    (transpose S64x32 [1, 0] w2 transposes_S32x64_S64x32_1_0) b2
    (transpose S32x10 [1, 0] w3 transposes_S10x32_S32x10_1_0) b3

end Cert.KernelIdeal.Spec

end
-- ==== Proof.KernelResult.lean ====
/-
  The kernel program's result buffer, at the last boundary of its segments, is the closed whole-array function of
  the fifteen arguments: the boundaries are walked layer by layer, each layer's output array being the layer
  function of the previous one, and the kept buffers (edge lists, edge norm, zero row, arguments) being at every
  layer boundary what they were after the first region.
-/
import proofs.«115673_j47373489274965_1_alg».proof.Proof.ChainKPre
import proofs.«115673_j47373489274965_1_alg».proof.Proof.ChainKL0
import proofs.«115673_j47373489274965_1_alg».proof.Proof.ChainKL1
import proofs.«115673_j47373489274965_1_alg».proof.Proof.ChainKL2
import proofs.«115673_j47373489274965_1_alg».proof.Proof.ChainKL3
import proofs.«115673_j47373489274965_1_alg».proof.Proof.ChainKTail
import proofs.«115673_j47373489274965_1_alg».proof.Proof.SpecOut

set_option maxRecDepth 16384

noncomputable section

namespace Cert.KernelIdeal.ChainK

open Idealize.ShloMosaic Idealize.ShloMosaic.TcCoe Idealize.ShloMosaic.ValueIdx
open Cert.KernelIdeal Cert.KernelIdeal.Gen Cert.KernelIdeal.Spec Cert.ChainTools

variable (m : (ℓ : Loc nD τ sig) → Buf (Elt Ideal) ℓ) (ρ : Dev nD → PrngReg) (c : Dev nD)

theorem at4_v3 : W4 m ρ c (Proc.devRef .tc main_v3) = edgeRow0 (m ((c : Thread nD τ).loc main_arg1)) := pre_src m ρ c
theorem at4_v6 : W4 m ρ c (Proc.devRef .tc main_v6) = edgeRow1 (m ((c : Thread nD τ).loc main_arg1)) := pre_dst m ρ c
theorem at4_v29 : W4 m ρ c (Proc.devRef .tc main_v29) = edgeNorm (edgeRow0 (m ((c : Thread nD τ).loc main_arg1))) (edgeRow1 (m ((c : Thread nD τ).loc main_arg1))) := pre_norm m ρ c
theorem at4_arg2 : W4 m ρ c (Proc.devRef .tc main_arg2) = (m ((c : Thread nD τ).loc main_arg2)) := pre_arg2 m ρ c
theorem at4_arg5 : W4 m ρ c (Proc.devRef .tc main_arg5) = (m ((c : Thread nD τ).loc main_arg5)) := pre_arg5 m ρ c
theorem at4_arg6 : W4 m ρ c (Proc.devRef .tc main_arg6) = (m ((c : Thread nD τ).loc main_arg6)) := pre_arg6 m ρ c
theorem at4_arg7 : W4 m ρ c (Proc.devRef .tc main_arg7) = (m ((c : Thread nD τ).loc main_arg7)) := pre_arg7 m ρ c
theorem at4_arg8 : W4 m ρ c (Proc.devRef .tc main_arg8) = (m ((c : Thread nD τ).loc main_arg8)) := pre_arg8 m ρ c
theorem at4_arg9 : W4 m ρ c (Proc.devRef .tc main_arg9) = (m ((c : Thread nD τ).loc main_arg9)) := pre_arg9 m ρ c
theorem at4_arg10 : W4 m ρ c (Proc.devRef .tc main_arg10) = (m ((c : Thread nD τ).loc main_arg10)) := pre_arg10 m ρ c
theorem at4_arg11 : W4 m ρ c (Proc.devRef .tc main_arg11) = (m ((c : Thread nD τ).loc main_arg11)) := pre_arg11 m ρ c
theorem at4_arg12 : W4 m ρ c (Proc.devRef .tc main_arg12) = (m ((c : Thread nD τ).loc main_arg12)) := pre_arg12 m ρ c
theorem at4_arg13 : W4 m ρ c (Proc.devRef .tc main_arg13) = (m ((c : Thread nD τ).loc main_arg13)) := pre_arg13 m ρ c
theorem at4_arg14 : W4 m ρ c (Proc.devRef .tc main_arg14) = (m ((c : Thread nD τ).loc main_arg14)) := pre_arg14 m ρ c
theorem at4_zrow : W4 m ρ c (Proc.devRef .tc main_v30) = zrow := pre_zrow m ρ c

theorem at10_v3 : W10 m ρ c (Proc.devRef .tc main_v3) = edgeRow0 (m ((c : Thread nD τ).loc main_arg1)) :=
  (L0_keep m ρ c main_v3 (by decide)).trans (at4_v3 m ρ c)
theorem at10_v6 : W10 m ρ c (Proc.devRef .tc main_v6) = edgeRow1 (m ((c : Thread nD τ).loc main_arg1)) :=
  (L0_keep m ρ c main_v6 (by decide)).trans (at4_v6 m ρ c)
theorem at10_v29 : W10 m ρ c (Proc.devRef .tc main_v29) = edgeNorm (edgeRow0 (m ((c : Thread nD τ).loc main_arg1))) (edgeRow1 (m ((c : Thread nD τ).loc main_arg1))) :=
  (L0_keep m ρ c main_v29 (by decide)).trans (at4_v29 m ρ c)
theorem at10_arg2 : W10 m ρ c (Proc.devRef .tc main_arg2) = (m ((c : Thread nD τ).loc main_arg2)) :=
  (L0_keep m ρ c main_arg2 (by decide)).trans (at4_arg2 m ρ c)
theorem at10_arg5 : W10 m ρ c (Proc.devRef .tc main_arg5) = (m ((c : Thread nD τ).loc main_arg5)) :=
  (L0_keep m ρ c main_arg5 (by decide)).trans (at4_arg5 m ρ c)
theorem at10_arg6 : W10 m ρ c (Proc.devRef .tc main_arg6) = (m ((c : Thread nD τ).loc main_arg6)) :=
  (L0_keep m ρ c main_arg6 (by decide)).trans (at4_arg6 m ρ c)
theorem at10_arg7 : W10 m ρ c (Proc.devRef .tc main_arg7) = (m ((c : Thread nD τ).loc main_arg7)) :=
  (L0_keep m ρ c main_arg7 (by decide)).trans (at4_arg7 m ρ c)
theorem at10_arg8 : W10 m ρ c (Proc.devRef .tc main_arg8) = (m ((c : Thread nD τ).loc main_arg8)) :=
  (L0_keep m ρ c main_arg8 (by decide)).trans (at4_arg8 m ρ c)
theorem at10_arg9 : W10 m ρ c (Proc.devRef .tc main_arg9) = (m ((c : Thread nD τ).loc main_arg9)) :=
  (L0_keep m ρ c main_arg9 (by decide)).trans (at4_arg9 m ρ c)
theorem at10_arg10 : W10 m ρ c (Proc.devRef .tc main_arg10) = (m ((c : Thread nD τ).loc main_arg10)) :=
  (L0_keep m ρ c main_arg10 (by decide)).trans (at4_arg10 m ρ c)
theorem at10_arg11 : W10 m ρ c (Proc.devRef .tc main_arg11) = (m ((c : Thread nD τ).loc main_arg11)) :=
  (L0_keep m ρ c main_arg11 (by decide)).trans (at4_arg11 m ρ c)
theorem at10_arg12 : W10 m ρ c (Proc.devRef .tc main_arg12) = (m ((c : Thread nD τ).loc main_arg12)) :=
  (L0_keep m ρ c main_arg12 (by decide)).trans (at4_arg12 m ρ c)
theorem at10_arg13 : W10 m ρ c (Proc.devRef .tc main_arg13) = (m ((c : Thread nD τ).loc main_arg13)) :=
  (L0_keep m ρ c main_arg13 (by decide)).trans (at4_arg13 m ρ c)
theorem at10_arg14 : W10 m ρ c (Proc.devRef .tc main_arg14) = (m ((c : Thread nD τ).loc main_arg14)) :=
  (L0_keep m ρ c main_arg14 (by decide)).trans (at4_arg14 m ρ c)
theorem at10_zrow : W10 m ρ c (Proc.devRef .tc main_v30) = zrow := (L0_keep_zrow m ρ c).trans (at4_zrow m ρ c)

theorem at16_v3 : W16 m ρ c (Proc.devRef .tc main_v3) = edgeRow0 (m ((c : Thread nD τ).loc main_arg1)) :=
  (L1_keep m ρ c main_v3 (by decide)).trans (at10_v3 m ρ c)
theorem at16_v6 : W16 m ρ c (Proc.devRef .tc main_v6) = edgeRow1 (m ((c : Thread nD τ).loc main_arg1)) :=
  (L1_keep m ρ c main_v6 (by decide)).trans (at10_v6 m ρ c)
theorem at16_v29 : W16 m ρ c (Proc.devRef .tc main_v29) = edgeNorm (edgeRow0 (m ((c : Thread nD τ).loc main_arg1))) (edgeRow1 (m ((c : Thread nD τ).loc main_arg1))) :=
  (L1_keep m ρ c main_v29 (by decide)).trans (at10_v29 m ρ c)
theorem at16_arg2 : W16 m ρ c (Proc.devRef .tc main_arg2) = (m ((c : Thread nD τ).loc main_arg2)) :=
  (L1_keep m ρ c main_arg2 (by decide)).trans (at10_arg2 m ρ c)
theorem at16_arg5 : W16 m ρ c (Proc.devRef .tc main_arg5) = (m ((c : Thread nD τ).loc main_arg5)) :=
  (L1_keep m ρ c main_arg5 (by decide)).trans (at10_arg5 m ρ c)
theorem at16_arg6 : W16 m ρ c (Proc.devRef .tc main_arg6) = (m ((c : Thread nD τ).loc main_arg6)) :=
  (L1_keep m ρ c main_arg6 (by decide)).trans (at10_arg6 m ρ c)
theorem at16_arg7 : W16 m ρ c (Proc.devRef .tc main_arg7) = (m ((c : Thread nD τ).loc main_arg7)) :=
  (L1_keep m ρ c main_arg7 (by decide)).trans (at10_arg7 m ρ c)
theorem at16_arg8 : W16 m ρ c (Proc.devRef .tc main_arg8) = (m ((c : Thread nD τ).loc main_arg8)) :=
  (L1_keep m ρ c main_arg8 (by decide)).trans (at10_arg8 m ρ c)
theorem at16_arg9 : W16 m ρ c (Proc.devRef .tc main_arg9) = (m ((c : Thread nD τ).loc main_arg9)) :=
  (L1_keep m ρ c main_arg9 (by decide)).trans (at10_arg9 m ρ c)
theorem at16_arg10 : W16 m ρ c (Proc.devRef .tc main_arg10) = (m ((c : Thread nD τ).loc main_arg10)) :=
  (L1_keep m ρ c main_arg10 (by decide)).trans (at10_arg10 m ρ c)
theorem at16_arg11 : W16 m ρ c (Proc.devRef .tc main_arg11) = (m ((c : Thread nD τ).loc main_arg11)) :=
  (L1_keep m ρ c main_arg11 (by decide)).trans (at10_arg11 m ρ c)
theorem at16_arg12 : W16 m ρ c (Proc.devRef .tc main_arg12) = (m ((c : Thread nD τ).loc main_arg12)) :=
  (L1_keep m ρ c main_arg12 (by decide)).trans (at10_arg12 m ρ c)
theorem at16_arg13 : W16 m ρ c (Proc.devRef .tc main_arg13) = (m ((c : Thread nD τ).loc main_arg13)) :=
  (L1_keep m ρ c main_arg13 (by decide)).trans (at10_arg13 m ρ c)
theorem at16_arg14 : W16 m ρ c (Proc.devRef .tc main_arg14) = (m ((c : Thread nD τ).loc main_arg14)) :=
  (L1_keep m ρ c main_arg14 (by decide)).trans (at10_arg14 m ρ c)
theorem at16_zrow : W16 m ρ c (Proc.devRef .tc main_v30) = zrow := (L1_keep_zrow m ρ c).trans (at10_zrow m ρ c)

theorem at22_v3 : W22 m ρ c (Proc.devRef .tc main_v3) = edgeRow0 (m ((c : Thread nD τ).loc main_arg1)) :=
  (L2_keep m ρ c main_v3 (by decide)).trans (at16_v3 m ρ c)
theorem at22_v6 : W22 m ρ c (Proc.devRef .tc main_v6) = edgeRow1 (m ((c : Thread nD τ).loc main_arg1)) :=
  (L2_keep m ρ c main_v6 (by decide)).trans (at16_v6 m ρ c)
theorem at22_v29 : W22 m ρ c (Proc.devRef .tc main_v29) = edgeNorm (edgeRow0 (m ((c : Thread nD τ).loc main_arg1))) (edgeRow1 (m ((c : Thread nD τ).loc main_arg1))) :=
  (L2_keep m ρ c main_v29 (by decide)).trans (at16_v29 m ρ c)
theorem at22_arg2 : W22 m ρ c (Proc.devRef .tc main_arg2) = (m ((c : Thread nD τ).loc main_arg2)) :=
  (L2_keep m ρ c main_arg2 (by decide)).trans (at16_arg2 m ρ c)
theorem at22_arg5 : W22 m ρ c (Proc.devRef .tc main_arg5) = (m ((c : Thread nD τ).loc main_arg5)) :=
  (L2_keep m ρ c main_arg5 (by decide)).trans (at16_arg5 m ρ c)
theorem at22_arg6 : W22 m ρ c (Proc.devRef .tc main_arg6) = (m ((c : Thread nD τ).loc main_arg6)) :=
  (L2_keep m ρ c main_arg6 (by decide)).trans (at16_arg6 m ρ c)
theorem at22_arg7 : W22 m ρ c (Proc.devRef .tc main_arg7) = (m ((c : Thread nD τ).loc main_arg7)) :=
  (L2_keep m ρ c main_arg7 (by decide)).trans (at16_arg7 m ρ c)
theorem at22_arg8 : W22 m ρ c (Proc.devRef .tc main_arg8) = (m ((c : Thread nD τ).loc main_arg8)) :=
  (L2_keep m ρ c main_arg8 (by decide)).trans (at16_arg8 m ρ c)
theorem at22_arg9 : W22 m ρ c (Proc.devRef .tc main_arg9) = (m ((c : Thread nD τ).loc main_arg9)) :=
  (L2_keep m ρ c main_arg9 (by decide)).trans (at16_arg9 m ρ c)
theorem at22_arg10 : W22 m ρ c (Proc.devRef .tc main_arg10) = (m ((c : Thread nD τ).loc main_arg10)) :=
  (L2_keep m ρ c main_arg10 (by decide)).trans (at16_arg10 m ρ c)
theorem at22_arg11 : W22 m ρ c (Proc.devRef .tc main_arg11) = (m ((c : Thread nD τ).loc main_arg11)) :=
  (L2_keep m ρ c main_arg11 (by decide)).trans (at16_arg11 m ρ c)
theorem at22_arg12 : W22 m ρ c (Proc.devRef .tc main_arg12) = (m ((c : Thread nD τ).loc main_arg12)) :=
  (L2_keep m ρ c main_arg12 (by decide)).trans (at16_arg12 m ρ c)
theorem at22_arg13 : W22 m ρ c (Proc.devRef .tc main_arg13) = (m ((c : Thread nD τ).loc main_arg13)) :=
  (L2_keep m ρ c main_arg13 (by decide)).trans (at16_arg13 m ρ c)
theorem at22_arg14 : W22 m ρ c (Proc.devRef .tc main_arg14) = (m ((c : Thread nD τ).loc main_arg14)) :=
  (L2_keep m ρ c main_arg14 (by decide)).trans (at16_arg14 m ρ c)
theorem at22_zrow : W22 m ρ c (Proc.devRef .tc main_v30) = zrow := (L2_keep_zrow m ρ c).trans (at16_zrow m ρ c)

theorem at28_v3 : W28 m ρ c (Proc.devRef .tc main_v3) = edgeRow0 (m ((c : Thread nD τ).loc main_arg1)) :=
  (L3_keep m ρ c main_v3 (by decide)).trans (at22_v3 m ρ c)
theorem at28_v6 : W28 m ρ c (Proc.devRef .tc main_v6) = edgeRow1 (m ((c : Thread nD τ).loc main_arg1)) :=
  (L3_keep m ρ c main_v6 (by decide)).trans (at22_v6 m ρ c)
theorem at28_v29 : W28 m ρ c (Proc.devRef .tc main_v29) = edgeNorm (edgeRow0 (m ((c : Thread nD τ).loc main_arg1))) (edgeRow1 (m ((c : Thread nD τ).loc main_arg1))) :=
  (L3_keep m ρ c main_v29 (by decide)).trans (at22_v29 m ρ c)
theorem at28_arg2 : W28 m ρ c (Proc.devRef .tc main_arg2) = (m ((c : Thread nD τ).loc main_arg2)) :=
  (L3_keep m ρ c main_arg2 (by decide)).trans (at22_arg2 m ρ c)
theorem at28_arg5 : W28 m ρ c (Proc.devRef .tc main_arg5) = (m ((c : Thread nD τ).loc main_arg5)) :=
  (L3_keep m ρ c main_arg5 (by decide)).trans (at22_arg5 m ρ c)
theorem at28_arg6 : W28 m ρ c (Proc.devRef .tc main_arg6) = (m ((c : Thread nD τ).loc main_arg6)) :=
  (L3_keep m ρ c main_arg6 (by decide)).trans (at22_arg6 m ρ c)
theorem at28_arg7 : W28 m ρ c (Proc.devRef .tc main_arg7) = (m ((c : Thread nD τ).loc main_arg7)) :=
  (L3_keep m ρ c main_arg7 (by decide)).trans (at22_arg7 m ρ c)
theorem at28_arg8 : W28 m ρ c (Proc.devRef .tc main_arg8) = (m ((c : Thread nD τ).loc main_arg8)) :=
  (L3_keep m ρ c main_arg8 (by decide)).trans (at22_arg8 m ρ c)
theorem at28_arg9 : W28 m ρ c (Proc.devRef .tc main_arg9) = (m ((c : Thread nD τ).loc main_arg9)) :=
  (L3_keep m ρ c main_arg9 (by decide)).trans (at22_arg9 m ρ c)
theorem at28_arg10 : W28 m ρ c (Proc.devRef .tc main_arg10) = (m ((c : Thread nD τ).loc main_arg10)) :=
  (L3_keep m ρ c main_arg10 (by decide)).trans (at22_arg10 m ρ c)
theorem at28_arg11 : W28 m ρ c (Proc.devRef .tc main_arg11) = (m ((c : Thread nD τ).loc main_arg11)) :=
  (L3_keep m ρ c main_arg11 (by decide)).trans (at22_arg11 m ρ c)
theorem at28_arg12 : W28 m ρ c (Proc.devRef .tc main_arg12) = (m ((c : Thread nD τ).loc main_arg12)) :=
  (L3_keep m ρ c main_arg12 (by decide)).trans (at22_arg12 m ρ c)
theorem at28_arg13 : W28 m ρ c (Proc.devRef .tc main_arg13) = (m ((c : Thread nD τ).loc main_arg13)) :=
  (L3_keep m ρ c main_arg13 (by decide)).trans (at22_arg13 m ρ c)
theorem at28_arg14 : W28 m ρ c (Proc.devRef .tc main_arg14) = (m ((c : Thread nD τ).loc main_arg14)) :=
  (L3_keep m ρ c main_arg14 (by decide)).trans (at22_arg14 m ρ c)
theorem at28_zrow : W28 m ρ c (Proc.devRef .tc main_v30) = zrow := (L3_keep_zrow m ρ c).trans (at22_zrow m ρ c)

/-- The node features after the embedding. -/
theorem h0_val : W4 m ρ c (Proc.devRef .tc main_v33) = (linArr (m ((c : Thread nD τ).loc main_arg0)) (transpose S128x128 [1, 0] (m ((c : Thread nD τ).loc main_arg3)) Facts₀.transposes_S128x128_S128x128_1_0) (row128 (m ((c : Thread nD τ).loc main_arg4)))) := pre_val m ρ c

/-- The node features after layer 0. -/
theorem h1_val : W10 m ρ c (Proc.devRef .tc main_v67) = (kLayer 0 Facts₀.slices_S4x128x128_S1x128x128_0_0_0 Facts₀.slices_S4x128_S1x128_0_0 (linArr (m ((c : Thread nD τ).loc main_arg0)) (transpose S128x128 [1, 0] (m ((c : Thread nD τ).loc main_arg3)) Facts₀.transposes_S128x128_S128x128_1_0) (row128 (m ((c : Thread nD τ).loc main_arg4)))) (m ((c : Thread nD τ).loc main_arg5)) (m ((c : Thread nD τ).loc main_arg6)) (m ((c : Thread nD τ).loc main_arg7)) (m ((c : Thread nD τ).loc main_arg8)) (m ((c : Thread nD τ).loc main_arg1))) := by
  rw [L0_val m ρ c (at4_zrow m ρ c), h0_val, at4_arg5, at4_arg6, at4_arg7, at4_arg8, at4_v3, at4_v6, at4_v29]
  rfl

/-- The node features after layer 1. -/
theorem h2_val : W16 m ρ c (Proc.devRef .tc main_v101) = (kLayer 1 Facts₀.slices_S4x128x128_S1x128x128_1_0_0 Facts₀.slices_S4x128_S1x128_1_0 (kLayer 0 Facts₀.slices_S4x128x128_S1x128x128_0_0_0 Facts₀.slices_S4x128_S1x128_0_0 (linArr (m ((c : Thread nD τ).loc main_arg0)) (transpose S128x128 [1, 0] (m ((c : Thread nD τ).loc main_arg3)) Facts₀.transposes_S128x128_S128x128_1_0) (row128 (m ((c : Thread nD τ).loc main_arg4)))) (m ((c : Thread nD τ).loc main_arg5)) (m ((c : Thread nD τ).loc main_arg6)) (m ((c : Thread nD τ).loc main_arg7)) (m ((c : Thread nD τ).loc main_arg8)) (m ((c : Thread nD τ).loc main_arg1))) (m ((c : Thread nD τ).loc main_arg5)) (m ((c : Thread nD τ).loc main_arg6)) (m ((c : Thread nD τ).loc main_arg7)) (m ((c : Thread nD τ).loc main_arg8)) (m ((c : Thread nD τ).loc main_arg1))) := by
  rw [L1_val m ρ c (at10_zrow m ρ c), h1_val, at10_arg5, at10_arg6, at10_arg7, at10_arg8, at10_v3, at10_v6, at10_v29]
  rfl

/-- The node features after layer 2. -/
theorem h3_val : W22 m ρ c (Proc.devRef .tc main_v135) = (kLayer 2 Facts₀.slices_S4x128x128_S1x128x128_2_0_0 Facts₀.slices_S4x128_S1x128_2_0 (kLayer 1 Facts₀.slices_S4x128x128_S1x128x128_1_0_0 Facts₀.slices_S4x128_S1x128_1_0 (kLayer 0 Facts₀.slices_S4x128x128_S1x128x128_0_0_0 Facts₀.slices_S4x128_S1x128_0_0 (linArr (m ((c : Thread nD τ).loc main_arg0)) (transpose S128x128 [1, 0] (m ((c : Thread nD τ).loc main_arg3)) Facts₀.transposes_S128x128_S128x128_1_0) (row128 (m ((c : Thread nD τ).loc main_arg4)))) (m ((c : Thread nD τ).loc main_arg5)) (m ((c : Thread nD τ).loc main_arg6)) (m ((c : Thread nD τ).loc main_arg7)) (m ((c : Thread nD τ).loc main_arg8)) (m ((c : Thread nD τ).loc main_arg1))) (m ((c : Thread nD τ).loc main_arg5)) (m ((c : Thread nD τ).loc main_arg6)) (m ((c : Thread nD τ).loc main_arg7)) (m ((c : Thread nD τ).loc main_arg8)) (m ((c : Thread nD τ).loc main_arg1))) (m ((c : Thread nD τ).loc main_arg5)) (m ((c : Thread nD τ).loc main_arg6)) (m ((c : Thread nD τ).loc main_arg7)) (m ((c : Thread nD τ).loc main_arg8)) (m ((c : Thread nD τ).loc main_arg1))) := by
  rw [L2_val m ρ c (at16_zrow m ρ c), h2_val, at16_arg5, at16_arg6, at16_arg7, at16_arg8, at16_v3, at16_v6, at16_v29]
  rfl

/-- The node features after layer 3. -/
theorem h4_val : W28 m ρ c (Proc.devRef .tc main_v169) = (kLayer 3 Facts₀.slices_S4x128x128_S1x128x128_3_0_0 Facts₀.slices_S4x128_S1x128_3_0 (kLayer 2 Facts₀.slices_S4x128x128_S1x128x128_2_0_0 Facts₀.slices_S4x128_S1x128_2_0 (kLayer 1 Facts₀.slices_S4x128x128_S1x128x128_1_0_0 Facts₀.slices_S4x128_S1x128_1_0 (kLayer 0 Facts₀.slices_S4x128x128_S1x128x128_0_0_0 Facts₀.slices_S4x128_S1x128_0_0 (linArr (m ((c : Thread nD τ).loc main_arg0)) (transpose S128x128 [1, 0] (m ((c : Thread nD τ).loc main_arg3)) Facts₀.transposes_S128x128_S128x128_1_0) (row128 (m ((c : Thread nD τ).loc main_arg4)))) (m ((c : Thread nD τ).loc main_arg5)) (m ((c : Thread nD τ).loc main_arg6)) (m ((c : Thread nD τ).loc main_arg7)) (m ((c : Thread nD τ).loc main_arg8)) (m ((c : Thread nD τ).loc main_arg1))) (m ((c : Thread nD τ).loc main_arg5)) (m ((c : Thread nD τ).loc main_arg6)) (m ((c : Thread nD τ).loc main_arg7)) (m ((c : Thread nD τ).loc main_arg8)) (m ((c : Thread nD τ).loc main_arg1))) (m ((c : Thread nD τ).loc main_arg5)) (m ((c : Thread nD τ).loc main_arg6)) (m ((c : Thread nD τ).loc main_arg7)) (m ((c : Thread nD τ).loc main_arg8)) (m ((c : Thread nD τ).loc main_arg1))) (m ((c : Thread nD τ).loc main_arg5)) (m ((c : Thread nD τ).loc main_arg6)) (m ((c : Thread nD τ).loc main_arg7)) (m ((c : Thread nD τ).loc main_arg8)) (m ((c : Thread nD τ).loc main_arg1))) := by
  rw [L3_val m ρ c (at22_zrow m ρ c), h3_val, at22_arg5, at22_arg6, at22_arg7, at22_arg8, at22_v3, at22_v6, at22_v29]
  rfl

/-- The result. -/
theorem kernel_result : W30 m ρ c (Proc.devRef .tc main_v188)
    = kerOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  rw [tail_val, h4_val, at28_arg2, at28_arg9, at28_arg10, at28_arg11, at28_arg12, at28_arg13, at28_arg14]
  rfl

end Cert.KernelIdeal.ChainK

end
-- ==== Proof.RefOps.lean ====
/- The reference program's operations, in program order, as six literal lists cut where the mathematics changes:
   the graph normalization and the embedding, the four message-passing layers, and the pooled dense tail. A call of
   a module-local function contributes the function's operations at the call site, over the call's arguments and
   the call's own buffers. Beside each list: every operation touches TensorCore references only, determines its
   results, and writes exactly one reference — the list of those references, in order. -/
import proofs.«115673_j47373489274965_1_alg».proof.Proof.Gen.ReferenceIdeal
import Idealize.ShloMosaic.Lib.StableHlo.Run
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Statements %0 … %34 of @main: the two edge lists with the self loops appended (%3 the sources, %6 the targets), the degrees as a scatter-add of ones over the targets (%10), their inverse square roots where the degree is positive and zero elsewhere (%14, the call of @_where), the per-edge weight as the product of the two gathered factors (%29), and the embedding %34 = x · W₀ᵀ + b₀. -/
abbrev opsPre : List (HloOp τ sig (Elt F)) :=
  [ StableHlo.nullary main_v0 (iotaInDim S50000 32 0),
    StableHlo.unary main_arg1 main_v1 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v1 main_v2 rfl shapeCasts_S1x600000_S600000,
    StableHlo.binary main_v2 main_v0 main_v3 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    StableHlo.unary main_arg1 main_v4 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v4 main_v5 rfl shapeCasts_S1x600000_S600000,
    StableHlo.binary main_v5 main_v0 main_v6 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    StableHlo.nullary main_cst (constant S_ .f32 0x3F800000#32),
    StableHlo.unary main_cst main_v7 (broadcastInDim S650000 ![] bcast_S_S650000 : (⟨S_, .f32⟩ : BufTy).Contents (Elt F) → (⟨S650000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S650000x1 ![0] bcast_S650000_S650000x1_0 : (⟨S650000, .i32⟩ : BufTy).Contents (Elt F) → (⟨S650000x1, .i32⟩ : BufTy).Contents (Elt F)),
    StableHlo.ternary main_v8 main_v9 main_v7 main_v10 ((fun x i u => Host.scatterAdd scatter_S50000_S650000x1_S650000_n_0_0_1 x i u) : (⟨S50000, .f32⟩ : BufTy).Contents (Elt F) → (⟨S650000x1, .i32⟩ : BufTy).Contents (Elt F) → (⟨S650000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.unary main_v10 main_v13 (Host.rsqrt : (⟨S50000, .f32⟩ : BufTy).Contents (Elt F) → (⟨S50000, .f32⟩ : BufTy).Contents (Elt F)),
    StableHlo.nullary main_cst_2 (constant S_ .f32 0x00000000#32),
    StableHlo.TRef.unary (.of main_cst_2 : StableHlo.TRef sig ⟨S_, .f32⟩) main_call0.v0 id,
    StableHlo.TRef.unary main_call0.v0 main_call0.v1 (broadcastInDim S50000 ![] bcast_S_S50000),
    StableHlo.TRef.ternary (.of main_v12 : StableHlo.TRef sig ⟨S50000, .i1⟩) (.of main_v13 : StableHlo.TRef sig ⟨S50000, .f32⟩) main_call0.v1 main_call0.v2 select,
    StableHlo.nullary main_c (constantI S_ 32 0#32),
    StableHlo.unary main_c main_v15 (broadcastInDim S650000 ![] bcast_S_S650000 : (⟨S_, .i32⟩ : BufTy).Contents (Elt F) → (⟨S650000, .i32⟩ : BufTy).Contents (Elt F)),
    StableHlo.binary main_v3 main_v15 main_v16 (cmpi .slt : (⟨S650000, .i32⟩ : BufTy).Contents (Elt F) → (⟨S650000, .i32⟩ : BufTy).Contents (Elt F) → (⟨S650000, .i1⟩ : BufTy).Contents (Elt F)),
    StableHlo.nullary main_c_3 (constantI S_ 32 50000#32),
    StableHlo.unary main_c_3 main_v17 (broadcastInDim S650000 ![] bcast_S_S650000 : (⟨S_, .i32⟩ : BufTy).Contents (Elt F) → (⟨S650000, .i32⟩ : BufTy).Contents (Elt F)),
    StableHlo.binary main_v3 main_v17 main_v18 (addi : (⟨S650000, .i32⟩ : BufTy).Contents (Elt F) → (⟨S650000, .i32⟩ : BufTy).Contents (Elt F) → (⟨S650000, .i32⟩ : BufTy).Contents (Elt F)),
    StableHlo.ternary main_v16 main_v18 main_v3 main_v19 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    StableHlo.unary main_v19 main_v20 (broadcastInDim S650000x1 ![0] bcast_S650000_S650000x1_0 : (⟨S650000, .i32⟩ : BufTy).Contents (Elt F) → (⟨S650000x1, .i32⟩ : BufTy).Contents (Elt F)),
    StableHlo.binary main_v14 main_v20 main_v21 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
    StableHlo.nullary main_c_4 (constantI S_ 32 0#32),
    StableHlo.unary main_c_4 main_v22 (broadcastInDim S650000 ![] bcast_S_S650000 : (⟨S_, .i32⟩ : BufTy).Contents (Elt F) → (⟨S650000, .i32⟩ : BufTy).Contents (Elt F)),
    StableHlo.binary main_v6 main_v22 main_v23 (cmpi .slt : (⟨S650000, .i32⟩ : BufTy).Contents (Elt F) → (⟨S650000, .i32⟩ : BufTy).Contents (Elt F) → (⟨S650000, .i1⟩ : BufTy).Contents (Elt F)),
    StableHlo.nullary main_c_5 (constantI S_ 32 50000#32),
    StableHlo.unary main_c_5 main_v24 (broadcastInDim S650000 ![] bcast_S_S650000 : (⟨S_, .i32⟩ : BufTy).Contents (Elt F) → (⟨S650000, .i32⟩ : BufTy).Contents (Elt F)),
    StableHlo.binary main_v6 main_v24 main_v25 (addi : (⟨S650000, .i32⟩ : BufTy).Contents (Elt F) → (⟨S650000, .i32⟩ : BufTy).Contents (Elt F) → (⟨S650000, .i32⟩ : BufTy).Contents (Elt F)),
    StableHlo.ternary main_v23 main_v25 main_v6 main_v26 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    StableHlo.unary main_v26 main_v27 (broadcastInDim S650000x1 ![0] bcast_S650000_S650000x1_0 : (⟨S650000, .i32⟩ : BufTy).Contents (Elt F) → (⟨S650000x1, .i32⟩ : BufTy).Contents (Elt F)),
    StableHlo.binary main_v14 main_v27 main_v28 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
    StableHlo.binary main_v21 main_v28 main_v29 (mulf : (⟨S650000, .f32⟩ : BufTy).Contents (Elt F) → (⟨S650000, .f32⟩ : BufTy).Contents (Elt F) → (⟨S650000, .f32⟩ : BufTy).Contents (Elt F)),
    StableHlo.unary main_arg3 main_v30 ((transpose S128x128 [1, 0] · transposes_S128x128_S128x128_1_0) : (⟨S128x128, .f32⟩ : BufTy).Contents (Elt F) → (⟨S128x128, .f32⟩ : BufTy).Contents (Elt F)),
    StableHlo.binary main_arg0 main_v30 main_v31 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v32 (broadcastInDim S1x128 ![1] bcast_S128_S1x128_1 : (⟨S128, .f32⟩ : BufTy).Contents (Elt F) → (⟨S1x128, .f32⟩ : BufTy).Contents (Elt F)),
    StableHlo.unary main_v32 main_v33 (broadcastInDim S50000x128 ![0, 1] bcast_S1x128_S50000x128_0_1 : (⟨S1x128, .f32⟩ : BufTy).Contents (Elt F) → (⟨S50000x128, .f32⟩ : BufTy).Contents (Elt F)),
    StableHlo.binary main_v31 main_v33 main_v34 (addf : (⟨S50000x128, .f32⟩ : BufTy).Contents (Elt F) → (⟨S50000x128, .f32⟩ : BufTy).Contents (Elt F) → (⟨S50000x128, .f32⟩ : BufTy).Contents (Elt F)) ]
/-- Each operation of `opsPre` touches TensorCore references only. -/
theorem opsPre_sub : (opsPre : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub ..,
    unary_bufs_sub .., nullary_bufs_sub .., unary_bufs_sub .., unary_bufs_sub .., ternary_bufs_sub .., nullary_bufs_sub .., unary_bufs_sub .., binary_bufs_sub ..,
    unary_bufs_sub .., nullary_bufs_sub .., unary_bufs_sub .., unary_bufs_sub .., ternary_bufs_sub .., nullary_bufs_sub .., unary_bufs_sub .., binary_bufs_sub ..,
    nullary_bufs_sub .., unary_bufs_sub .., binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub .., binary_bufs_sub .., binary_bufs_sub ..,
    unary_bufs_sub .., binary_bufs_sub .., unary_bufs_sub .., unary_bufs_sub .., binary_bufs_sub ..⟩
/-- Each operation of `opsPre` determines its results. -/
theorem opsPre_fresh : (opsPre : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl⟩
/-- The references the operations of `opsPre` write, in order: each operation writes exactly one. -/
abbrev opsPre_W : List (Ref sig .tc) :=
  [ main_v0, main_v1, main_v2, main_v3, main_v4, main_v5, main_v6, main_cst, main_v7, main_cst_0,
    main_v8, main_v9, main_v10, main_cst_1, main_v11, main_v12, main_v13, main_cst_2, main_call0_v0, main_call0_v1,
    main_v14, main_c, main_v15, main_v16, main_c_3, main_v17, main_v18, main_v19, main_v20, main_v21,
    main_c_4, main_v22, main_v23, main_c_5, main_v24, main_v25, main_v26, main_v27, main_v28, main_v29,
    main_v30, main_v31, main_v32, main_v33, main_v34 ]
theorem opsPre_writes : (opsPre : List (HloOp τ sig (Elt F))).map HloOp.writes
    = opsPre_W.map fun y => ({Proc.devRef .tc y} : Finset (DevRef τ sig)) := by
  chain_rfl

/-- Statements %35 … %81, layer 0: the slice 0 of the layer's weight, bias, scale and shift, the product with the weight's transpose (%40), the rows gathered at the sources, scaled by the edge weight and scatter-added at the targets (%53), the bias (%56), the column mean (%63) and the column variance (the call of @_var, %64), the normalized, scaled and shifted rows (%79), the rectifier (the call of @relu, %80) and the residual sum %81 = %80 + %34. -/
abbrev opsL0 : List (HloOp τ sig (Elt F)) :=
  [ StableHlo.unary main_arg5 main_v35 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v35 main_v36 rfl shapeCasts_S1x128x128_S128x128,
    StableHlo.unary main_arg6 main_v37 ((extractStridedSlice S1x128 ![0, 0] · slices_S4x128_S1x128_0_0) : (⟨S4x128, .f32⟩ : BufTy).Contents (Elt F) → (⟨S1x128, .f32⟩ : BufTy).Contents (Elt F)),
    StableHlo.reshape main_v37 main_v38 rfl shapeCasts_S1x128_S128,
    StableHlo.unary main_v36 main_v39 ((transpose S128x128 [1, 0] · transposes_S128x128_S128x128_1_0) : (⟨S128x128, .f32⟩ : BufTy).Contents (Elt F) → (⟨S128x128, .f32⟩ : BufTy).Contents (Elt F)),
    StableHlo.binary main_v34 main_v39 main_v40 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_6 (constantI S_ 32 0#32),
    StableHlo.unary main_c_6 main_v41 (broadcastInDim S650000 ![] bcast_S_S650000 : (⟨S_, .i32⟩ : BufTy).Contents (Elt F) → (⟨S650000, .i32⟩ : BufTy).Contents (Elt F)),
    StableHlo.binary main_v3 main_v41 main_v42 (cmpi .slt : (⟨S650000, .i32⟩ : BufTy).Contents (Elt F) → (⟨S650000, .i32⟩ : BufTy).Contents (Elt F) → (⟨S650000, .i1⟩ : BufTy).Contents (Elt F)),
    StableHlo.nullary main_c_7 (constantI S_ 32 50000#32),
    StableHlo.unary main_c_7 main_v43 (broadcastInDim S650000 ![] bcast_S_S650000 : (⟨S_, .i32⟩ : BufTy).Contents (Elt F) → (⟨S650000, .i32⟩ : BufTy).Contents (Elt F)),
    StableHlo.binary main_v3 main_v43 main_v44 (addi : (⟨S650000, .i32⟩ : BufTy).Contents (Elt F) → (⟨S650000, .i32⟩ : BufTy).Contents (Elt F) → (⟨S650000, .i32⟩ : BufTy).Contents (Elt F)),
    StableHlo.ternary main_v42 main_v44 main_v3 main_v45 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    StableHlo.unary main_v45 main_v46 (broadcastInDim S650000x1 ![0] bcast_S650000_S650000x1_0 : (⟨S650000, .i32⟩ : BufTy).Contents (Elt F) → (⟨S650000x1, .i32⟩ : BufTy).Contents (Elt F)),
    StableHlo.binary main_v40 main_v46 main_v47 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    StableHlo.unary main_v29 main_v48 (broadcastInDim S650000x1 ![0] bcast_S650000_S650000x1_0 : (⟨S650000, .f32⟩ : BufTy).Contents (Elt F) → (⟨S650000x1, .f32⟩ : BufTy).Contents (Elt F)),
    StableHlo.unary main_v48 main_v49 (broadcastInDim S650000x128 ![0, 1] bcast_S650000x1_S650000x128_0_1 : (⟨S650000x1, .f32⟩ : BufTy).Contents (Elt F) → (⟨S650000x128, .f32⟩ : BufTy).Contents (Elt F)),
    StableHlo.binary main_v47 main_v49 main_v50 (mulf : (⟨S650000x128, .f32⟩ : BufTy).Contents (Elt F) → (⟨S650000x128, .f32⟩ : BufTy).Contents (Elt F) → (⟨S650000x128, .f32⟩ : BufTy).Contents (Elt F)),
    StableHlo.nullary main_cst_8 (constant S_ .f32 0x00000000#32),
    StableHlo.unary main_cst_8 main_v51 (broadcastInDim S50000x128 ![] bcast_S_S50000x128 : (⟨S_, .f32⟩ : BufTy).Contents (Elt F) → (⟨S50000x128, .f32⟩ : BufTy).Contents (Elt F)),
    StableHlo.unary main_v6 main_v52 (broadcastInDim S650000x1 ![0] bcast_S650000_S650000x1_0 : (⟨S650000, .i32⟩ : BufTy).Contents (Elt F) → (⟨S650000x1, .i32⟩ : BufTy).Contents (Elt F)),
    StableHlo.ternary main_v51 main_v52 main_v50 main_v53 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)),
    StableHlo.unary main_v38 main_v54 (broadcastInDim S1x128 ![1] bcast_S128_S1x128_1 : (⟨S128, .f32⟩ : BufTy).Contents (Elt F) → (⟨S1x128, .f32⟩ : BufTy).Contents (Elt F)),
    StableHlo.unary main_v54 main_v55 (broadcastInDim S50000x128 ![0, 1] bcast_S1x128_S50000x128_0_1 : (⟨S1x128, .f32⟩ : BufTy).Contents (Elt F) → (⟨S50000x128, .f32⟩ : BufTy).Contents (Elt F)),
    StableHlo.binary main_v53 main_v55 main_v56 (addf : (⟨S50000x128, .f32⟩ : BufTy).Contents (Elt F) → (⟨S50000x128, .f32⟩ : BufTy).Contents (Elt F) → (⟨S50000x128, .f32⟩ : BufTy).Contents (Elt F)),
    StableHlo.unary main_arg7 main_v57 ((extractStridedSlice S1x128 ![0, 0] · slices_S4x128_S1x128_0_0) : (⟨S4x128, .f32⟩ : BufTy).Contents (Elt F) → (⟨S1x128, .f32⟩ : BufTy).Contents (Elt F)),
    StableHlo.reshape main_v57 main_v58 rfl shapeCasts_S1x128_S128,
    StableHlo.unary main_arg8 main_v59 ((extractStridedSlice S1x128 ![0, 0] · slices_S4x128_S1x128_0_0) : (⟨S4x128, .f32⟩ : BufTy).Contents (Elt F) → (⟨S1x128, .f32⟩ : BufTy).Contents (Elt F)),
    StableHlo.reshape main_v59 main_v60 rfl shapeCasts_S1x128_S128,
    StableHlo.nullary main_cst_9 (constant S_ .f32 0x00000000#32),
    StableHlo.binary main_v56 main_cst_9 main_v61 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_10 (constant S_ .f32 0x47435000#32),
    StableHlo.unary main_cst_10 main_v62 (broadcastInDim S128 ![] bcast_S_S128 : (⟨S_, .f32⟩ : BufTy).Contents (Elt F) → (⟨S128, .f32⟩ : BufTy).Contents (Elt F)),
    StableHlo.binary main_v61 main_v62 main_v63 (Host.divf : (⟨S128, .f32⟩ : BufTy).Contents (Elt F) → (⟨S128, .f32⟩ : BufTy).Contents (Elt F) → (⟨S128, .f32⟩ : BufTy).Contents (Elt F)),
    StableHlo.nullary main_c_11 (constantI S_ 32 0#32),
    StableHlo.TRef.nullary main_call1.cst (constant S_ .f32 0x00000000#32),
    StableHlo.TRef.binary (.of main_v56 : StableHlo.TRef sig ⟨S50000x128, .f32⟩) main_call1.cst main_call1.v0 (fun x v => Host.reduceAdd x v reducesTo_S50000x128_S128_d0 h_S_),
    StableHlo.TRef.unary main_call1.v0 main_call1.v1 (broadcastInDim S1x128 ![1] bcast_S128_S1x128_1),
    StableHlo.TRef.nullary main_call1.cst_0 (constant S_ .f32 0x47435000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S50000x128 ![0, 1] bcast_S1x128_S50000x128_0_1),
    StableHlo.TRef.binary (.of main_v56 : StableHlo.TRef sig ⟨S50000x128, .f32⟩) main_call1.v4 main_call1.v5 subf,
    StableHlo.TRef.binary main_call1.v5 main_call1.v5 main_call1.v6 mulf,
    StableHlo.TRef.unary (.of main_c_11 : StableHlo.TRef sig ⟨S_, .i32⟩) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b),
    StableHlo.unary main_v63 main_v65 (broadcastInDim S1x128 ![1] bcast_S128_S1x128_1 : (⟨S128, .f32⟩ : BufTy).Contents (Elt F) → (⟨S1x128, .f32⟩ : BufTy).Contents (Elt F)),
    StableHlo.unary main_v65 main_v66 (broadcastInDim S50000x128 ![0, 1] bcast_S1x128_S50000x128_0_1 : (⟨S1x128, .f32⟩ : BufTy).Contents (Elt F) → (⟨S50000x128, .f32⟩ : BufTy).Contents (Elt F)),
    StableHlo.binary main_v56 main_v66 main_v67 (subf : (⟨S50000x128, .f32⟩ : BufTy).Contents (Elt F) → (⟨S50000x128, .f32⟩ : BufTy).Contents (Elt F) → (⟨S50000x128, .f32⟩ : BufTy).Contents (Elt F)),
    StableHlo.nullary main_cst_12 (constant S_ .f32 0x3727C5AC#32),
    StableHlo.unary main_cst_12 main_v68 (broadcastInDim S128 ![] bcast_S_S128 : (⟨S_, .f32⟩ : BufTy).Contents (Elt F) → (⟨S128, .f32⟩ : BufTy).Contents (Elt F)),
    StableHlo.binary main_v64 main_v68 main_v69 (addf : (⟨S128, .f32⟩ : BufTy).Contents (Elt F) → (⟨S128, .f32⟩ : BufTy).Contents (Elt F) → (⟨S128, .f32⟩ : BufTy).Contents (Elt F)),
    StableHlo.unary main_v69 main_v70 (Host.rsqrt : (⟨S128, .f32⟩ : BufTy).Contents (Elt F) → (⟨S128, .f32⟩ : BufTy).Contents (Elt F)),
    StableHlo.unary main_v70 main_v71 (broadcastInDim S1x128 ![1] bcast_S128_S1x128_1 : (⟨S128, .f32⟩ : BufTy).Contents (Elt F) → (⟨S1x128, .f32⟩ : BufTy).Contents (Elt F)),
    StableHlo.unary main_v71 main_v72 (broadcastInDim S50000x128 ![0, 1] bcast_S1x128_S50000x128_0_1 : (⟨S1x128, .f32⟩ : BufTy).Contents (Elt F) → (⟨S50000x128, .f32⟩ : BufTy).Contents (Elt F)),
    StableHlo.binary main_v67 main_v72 main_v73 (mulf : (⟨S50000x128, .f32⟩ : BufTy).Contents (Elt F) → (⟨S50000x128, .f32⟩ : BufTy).Contents (Elt F) → (⟨S50000x128, .f32⟩ : BufTy).Contents (Elt F)),
    StableHlo.unary main_v58 main_v74 (broadcastInDim S1x128 ![1] bcast_S128_S1x128_1 : (⟨S128, .f32⟩ : BufTy).Contents (Elt F) → (⟨S1x128, .f32⟩ : BufTy).Contents (Elt F)),
    StableHlo.unary main_v74 main_v75 (broadcastInDim S50000x128 ![0, 1] bcast_S1x128_S50000x128_0_1 : (⟨S1x128, .f32⟩ : BufTy).Contents (Elt F) → (⟨S50000x128, .f32⟩ : BufTy).Contents (Elt F)),
    StableHlo.binary main_v73 main_v75 main_v76 (mulf : (⟨S50000x128, .f32⟩ : BufTy).Contents (Elt F) → (⟨S50000x128, .f32⟩ : BufTy).Contents (Elt F) → (⟨S50000x128, .f32⟩ : BufTy).Contents (Elt F)),
    StableHlo.unary main_v60 main_v77 (broadcastInDim S1x128 ![1] bcast_S128_S1x128_1 : (⟨S128, .f32⟩ : BufTy).Contents (Elt F) → (⟨S1x128, .f32⟩ : BufTy).Contents (Elt F)),
    StableHlo.unary main_v77 main_v78 (broadcastInDim S50000x128 ![0, 1] bcast_S1x128_S50000x128_0_1 : (⟨S1x128, .f32⟩ : BufTy).Contents (Elt F) → (⟨S50000x128, .f32⟩ : BufTy).Contents (Elt F)),
    StableHlo.binary main_v76 main_v78 main_v79 (addf : (⟨S50000x128, .f32⟩ : BufTy).Contents (Elt F) → (⟨S50000x128, .f32⟩ : BufTy).Contents (Elt F) → (⟨S50000x128, .f32⟩ : BufTy).Contents (Elt F)),
    StableHlo.TRef.nullary main_call2.cst (constant S_ .f32 0x00000000#32),
    StableHlo.TRef.unary main_call2.cst main_call2.v0 (broadcastInDim S50000x128 ![] bcast_S_S50000x128),
    StableHlo.TRef.binary (.of main_v79 : StableHlo.TRef sig ⟨S50000x128, .f32⟩) main_call2.v0 main_call2.v1 maximumf,
    StableHlo.binary main_v80 main_v34 main_v81 (addf : (⟨S50000x128, .f32⟩ : BufTy).Contents (Elt F) → (⟨S50000x128, .f32⟩ : BufTy).Contents (Elt F) → (⟨S50000x128, .f32⟩ : BufTy).Contents (Elt F)) ]
/-- Each operation of `opsL0` touches TensorCore references only. -/
theorem opsL0_sub : (opsL0 : List (HloOp τ sig (Elt F))).Forall fun op => op.bufs ⊆ tcRefs τ sig :=
  ⟨unary_bufs_sub .., reshape_bufs_sub .., unary_bufs_sub .., reshape_bufs_sub .., unary_bufs_sub .., binary_bufs_sub .., nullary_bufs_sub .., unary_bufs_sub ..,
    binary_bufs_sub .., nullary_bufs_sub .., unary_bufs_sub .., binary_bufs_sub .., ternary_bufs_sub .., unary_bufs_sub .., binary_bufs_sub .., unary_bufs_sub ..,
    unary_bufs_sub .., binary_bufs_sub .., nullary_bufs_sub .., unary_bufs_sub .., unary_bufs_sub .., ternary_bufs_sub .., unary_bufs_sub .., unary_bufs_sub ..,
    binary_bufs_sub .., unary_bufs_sub .., reshape_bufs_sub .., unary_bufs_sub .., reshape_bufs_sub .., nullary_bufs_sub .., binary_bufs_sub .., nullary_bufs_sub ..,
    unary_bufs_sub .., binary_bufs_sub .., nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub .., unary_bufs_sub .., unary_bufs_sub ..,
    ternary_bufs_sub .., unary_bufs_sub .., unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub .., unary_bufs_sub .., unary_bufs_sub ..,
    binary_bufs_sub .., nullary_bufs_sub .., unary_bufs_sub .., binary_bufs_sub .., binary_bufs_sub ..⟩
/-- Each operation of `opsL0` determines its results. -/
theorem opsL0_fresh : (opsL0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl⟩
/-- The references the operations of `opsL0` write, in order: each operation writes exactly one. -/
abbrev opsL0_W : List (Ref sig .tc) :=
  [ main_v35, main_v36, main_v37, main_v38, main_v39, main_v40, main_c_6, main_v41, main_v42, main_c_7,
    main_v43, main_v44, main_v45, main_v46, main_v47, main_v48, main_v49, main_v50, main_cst_8, main_v51,
    main_v52, main_v53, main_v54, main_v55, main_v56, main_v57, main_v58, main_v59, main_v60, main_cst_9,
    main_v61, main_cst_10, main_v62, main_v63, main_c_11, main_call1_cst, main_call1_v0, main_call1_v1, main_call1_cst_0, main_call1_v2,
    main_call1_v3, main_call1_v4, main_call1_v5, main_call1_v6, main_call1_v7, main_call1_cst_1, main_call1_v8, main_call1_cst_2, main_call1_v9, main_call1_v10,
    main_call1_v11, main_call1_cst_3, main_call1_v12, main_call1_cst_4, main_call1_call0_v0, main_call1_call0_v1, main_v64, main_v65, main_v66, main_v67,
    main_cst_12, main_v68, main_v69, main_v70, main_v71, main_v72, main_v73, main_v74, main_v75, main_v76,
    main_v77, main_v78, main_v79, main_call2_cst, main_call2_v0, main_v80, main_v81 ]
theorem opsL0_writes : (opsL0 : List (HloOp τ sig (Elt F))).map HloOp.writes
    = opsL0_W.map fun y => ({Proc.devRef .tc y} : Finset (DevRef τ sig)) := by
  chain_rfl

/-- Statements %82 … %128, layer 1: as layer 0 at slice 1, from %81, ending with the residual sum %128 = %127 + %81. -/
abbrev opsL1 : List (HloOp τ sig (Elt F)) :=
  [ StableHlo.unary main_arg5 main_v82 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v82 main_v83 rfl shapeCasts_S1x128x128_S128x128,
    StableHlo.unary main_arg6 main_v84 ((extractStridedSlice S1x128 ![1, 0] · slices_S4x128_S1x128_1_0) : (⟨S4x128, .f32⟩ : BufTy).Contents (Elt F) → (⟨S1x128, .f32⟩ : BufTy).Contents (Elt F)),
    StableHlo.reshape main_v84 main_v85 rfl shapeCasts_S1x128_S128,
    StableHlo.unary main_v83 main_v86 ((transpose S128x128 [1, 0] · transposes_S128x128_S128x128_1_0) : (⟨S128x128, .f32⟩ : BufTy).Contents (Elt F) → (⟨S128x128, .f32⟩ : BufTy).Contents (Elt F)),
    StableHlo.binary main_v81 main_v86 main_v87 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_13 (constantI S_ 32 0#32),
    StableHlo.unary main_c_13 main_v88 (broadcastInDim S650000 ![] bcast_S_S650000 : (⟨S_, .i32⟩ : BufTy).Contents (Elt F) → (⟨S650000, .i32⟩ : BufTy).Contents (Elt F)),
    StableHlo.binary main_v3 main_v88 main_v89 (cmpi .slt : (⟨S650000, .i32⟩ : BufTy).Contents (Elt F) → (⟨S650000, .i32⟩ : BufTy).Contents (Elt F) → (⟨S650000, .i1⟩ : BufTy).Contents (Elt F)),
    StableHlo.nullary main_c_14 (constantI S_ 32 50000#32),
    StableHlo.unary main_c_14 main_v90 (broadcastInDim S650000 ![] bcast_S_S650000 : (⟨S_, .i32⟩ : BufTy).Contents (Elt F) → (⟨S650000, .i32⟩ : BufTy).Contents (Elt F)),
    StableHlo.binary main_v3 main_v90 main_v91 (addi : (⟨S650000, .i32⟩ : BufTy).Contents (Elt F) → (⟨S650000, .i32⟩ : BufTy).Contents (Elt F) → (⟨S650000, .i32⟩ : BufTy).Contents (Elt F)),
    StableHlo.ternary main_v89 main_v91 main_v3 main_v92 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    StableHlo.unary main_v92 main_v93 (broadcastInDim S650000x1 ![0] bcast_S650000_S650000x1_0 : (⟨S650000, .i32⟩ : BufTy).Contents (Elt F) → (⟨S650000x1, .i32⟩ : BufTy).Contents (Elt F)),
    StableHlo.binary main_v87 main_v93 main_v94 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    StableHlo.unary main_v29 main_v95 (broadcastInDim S650000x1 ![0] bcast_S650000_S650000x1_0 : (⟨S650000, .f32⟩ : BufTy).Contents (Elt F) → (⟨S650000x1, .f32⟩ : BufTy).Contents (Elt F)),
    StableHlo.unary main_v95 main_v96 (broadcastInDim S650000x128 ![0, 1] bcast_S650000x1_S650000x128_0_1 : (⟨S650000x1, .f32⟩ : BufTy).Contents (Elt F) → (⟨S650000x128, .f32⟩ : BufTy).Contents (Elt F)),
    StableHlo.binary main_v94 main_v96 main_v97 (mulf : (⟨S650000x128, .f32⟩ : BufTy).Contents (Elt F) → (⟨S650000x128, .f32⟩ : BufTy).Contents (Elt F) → (⟨S650000x128, .f32⟩ : BufTy).Contents (Elt F)),
    StableHlo.nullary main_cst_15 (constant S_ .f32 0x00000000#32),
    StableHlo.unary main_cst_15 main_v98 (broadcastInDim S50000x128 ![] bcast_S_S50000x128 : (⟨S_, .f32⟩ : BufTy).Contents (Elt F) → (⟨S50000x128, .f32⟩ : BufTy).Contents (Elt F)),
    StableHlo.unary main_v6 main_v99 (broadcastInDim S650000x1 ![0] bcast_S650000_S650000x1_0 : (⟨S650000, .i32⟩ : BufTy).Contents (Elt F) → (⟨S650000x1, .i32⟩ : BufTy).Contents (Elt F)),
    StableHlo.ternary main_v98 main_v99 main_v97 main_v100 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)),
    StableHlo.unary main_v85 main_v101 (broadcastInDim S1x128 ![1] bcast_S128_S1x128_1 : (⟨S128, .f32⟩ : BufTy).Contents (Elt F) → (⟨S1x128, .f32⟩ : BufTy).Contents (Elt F)),
    StableHlo.unary main_v101 main_v102 (broadcastInDim S50000x128 ![0, 1] bcast_S1x128_S50000x128_0_1 : (⟨S1x128, .f32⟩ : BufTy).Contents (Elt F) → (⟨S50000x128, .f32⟩ : BufTy).Contents (Elt F)),
    StableHlo.binary main_v100 main_v102 main_v103 (addf : (⟨S50000x128, .f32⟩ : BufTy).Contents (Elt F) → (⟨S50000x128, .f32⟩ : BufTy).Contents (Elt F) → (⟨S50000x128, .f32⟩ : BufTy).Contents (Elt F)),
    StableHlo.unary main_arg7 main_v104 ((extractStridedSlice S1x128 ![1, 0] · slices_S4x128_S1x128_1_0) : (⟨S4x128, .f32⟩ : BufTy).Contents (Elt F) → (⟨S1x128, .f32⟩ : BufTy).Contents (Elt F)),
    StableHlo.reshape main_v104 main_v105 rfl shapeCasts_S1x128_S128,
    StableHlo.unary main_arg8 main_v106 ((extractStridedSlice S1x128 ![1, 0] · slices_S4x128_S1x128_1_0) : (⟨S4x128, .f32⟩ : BufTy).Contents (Elt F) → (⟨S1x128, .f32⟩ : BufTy).Contents (Elt F)),
    StableHlo.reshape main_v106 main_v107 rfl shapeCasts_S1x128_S128,
    StableHlo.nullary main_cst_16 (constant S_ .f32 0x00000000#32),
    StableHlo.binary main_v103 main_cst_16 main_v108 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_17 (constant S_ .f32 0x47435000#32),
    StableHlo.unary main_cst_17 main_v109 (broadcastInDim S128 ![] bcast_S_S128 : (⟨S_, .f32⟩ : BufTy).Contents (Elt F) → (⟨S128, .f32⟩ : BufTy).Contents (Elt F)),
    StableHlo.binary main_v108 main_v109 main_v110 (Host.divf : (⟨S128, .f32⟩ : BufTy).Contents (Elt F) → (⟨S128, .f32⟩ : BufTy).Contents (Elt F) → (⟨S128, .f32⟩ : BufTy).Contents (Elt F)),
    StableHlo.nullary main_c_18 (constantI S_ 32 0#32),
    StableHlo.TRef.nullary main_call3.cst (constant S_ .f32 0x00000000#32),
    StableHlo.TRef.binary (.of main_v103 : StableHlo.TRef sig ⟨S50000x128, .f32⟩) main_call3.cst main_call3.v0 (fun x v => Host.reduceAdd x v reducesTo_S50000x128_S128_d0 h_S_),
    StableHlo.TRef.unary main_call3.v0 main_call3.v1 (broadcastInDim S1x128 ![1] bcast_S128_S1x128_1),
    StableHlo.TRef.nullary main_call3.cst_0 (constant S_ .f32 0x47435000#32),
    StableHlo.TRef.unary main_call3.cst_0 main_call3.v2 (broadcastInDim S1x128 ![] bcast_S_S1x128),
    StableHlo.TRef.binary main_call3.v1 main_call3.v2 main_call3.v3 Host.divf,
    StableHlo.TRef.unary main_call3.v3 main_call3.v4 (broadcastInDim S50000x128 ![0, 1] bcast_S1x128_S50000x128_0_1),
    StableHlo.TRef.binary (.of main_v103 : StableHlo.TRef sig ⟨S50000x128, .f32⟩) main_call3.v4 main_call3.v5 subf,
    StableHlo.TRef.binary main_call3.v5 main_call3.v5 main_call3.v6 mulf,
    StableHlo.TRef.unary (.of main_c_18 : StableHlo.TRef sig ⟨S_, .i32⟩) main_call3.v7 (sitofp .f32),
    StableHlo.TRef.nullary main_call3.cst_1 (constant S_ .f32 0x47435000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S50000x128_S128_d0 h_S_),
    StableHlo.TRef.unary main_call3.v8 main_call3.v10 (broadcastInDim S128 ![] bcast_S_S128),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S128 ![] bcast_S_S128),
    StableHlo.TRef.ternary main_call3.v12 main_call3.v11 main_call3.call0.v1 main_call3.call0.v2 (fun p a b => select (broadcastInDim S128 ![] bcast_S_S128 p) a b),
    StableHlo.unary main_v110 main_v112 (broadcastInDim S1x128 ![1] bcast_S128_S1x128_1 : (⟨S128, .f32⟩ : BufTy).Contents (Elt F) → (⟨S1x128, .f32⟩ : BufTy).Contents (Elt F)),
    StableHlo.unary main_v112 main_v113 (broadcastInDim S50000x128 ![0, 1] bcast_S1x128_S50000x128_0_1 : (⟨S1x128, .f32⟩ : BufTy).Contents (Elt F) → (⟨S50000x128, .f32⟩ : BufTy).Contents (Elt F)),
    StableHlo.binary main_v103 main_v113 main_v114 (subf : (⟨S50000x128, .f32⟩ : BufTy).Contents (Elt F) → (⟨S50000x128, .f32⟩ : BufTy).Contents (Elt F) → (⟨S50000x128, .f32⟩ : BufTy).Contents (Elt F)),
    StableHlo.nullary main_cst_19 (constant S_ .f32 0x3727C5AC#32),
    StableHlo.unary main_cst_19 main_v115 (broadcastInDim S128 ![] bcast_S_S128 : (⟨S_, .f32⟩ : BufTy).Contents (Elt F) → (⟨S128, .f32⟩ : BufTy).Contents (Elt F)),
    StableHlo.binary main_v111 main_v115 main_v116 (addf : (⟨S128, .f32⟩ : BufTy).Contents (Elt F) → (⟨S128, .f32⟩ : BufTy).Contents (Elt F) → (⟨S128, .f32⟩ : BufTy).Contents (Elt F)),
    StableHlo.unary main_v116 main_v117 (Host.rsqrt : (⟨S128, .f32⟩ : BufTy).Contents (Elt F) → (⟨S128, .f32⟩ : BufTy).Contents (Elt F)),
    StableHlo.unary main_v117 main_v118 (broadcastInDim S1x128 ![1] bcast_S128_S1x128_1 : (⟨S128, .f32⟩ : BufTy).Contents (Elt F) → (⟨S1x128, .f32⟩ : BufTy).Contents (Elt F)),
    StableHlo.unary main_v118 main_v119 (broadcastInDim S50000x128 ![0, 1] bcast_S1x128_S50000x128_0_1 : (⟨S1x128, .f32⟩ : BufTy).Contents (Elt F) → (⟨S50000x128, .f32⟩ : BufTy).Contents (Elt F)),
    StableHlo.binary main_v114 main_v119 main_v120 (mulf : (⟨S50000x128, .f32⟩ : BufTy).Contents (Elt F) → (⟨S50000x128, .f32⟩ : BufTy).Contents (Elt F) → (⟨S50000x128, .f32⟩ : BufTy).Contents (Elt F)),
    StableHlo.unary main_v105 main_v121 (broadcastInDim S1x128 ![1] bcast_S128_S1x128_1 : (⟨S128, .f32⟩ : BufTy).Contents (Elt F) → (⟨S1x128, .f32⟩ : BufTy).Contents (Elt F)),
    StableHlo.unary main_v121 main_v122 (broadcastInDim S50000x128 ![0, 1] bcast_S1x128_S50000x128_0_1 : (⟨S1x128, .f32⟩ : BufTy).Contents (Elt F) → (⟨S50000x128, .f32⟩ : BufTy).Contents (Elt F)),
    StableHlo.binary main_v120 main_v122 main_v123 (mulf : (⟨S50000x128, .f32⟩ : BufTy).Contents (Elt F) → (⟨S50000x128, .f32⟩ : BufTy).Contents (Elt F) → (⟨S50000x128, .f32⟩ : BufTy).Contents (Elt F)),
    StableHlo.unary main_v107 main_v124 (broadcastInDim S1x128 ![1] bcast_S128_S1x128_1 : (⟨S128, .f32⟩ : BufTy).Contents (Elt F) → (⟨S1x128, .f32⟩ : BufTy).Contents (Elt F)),
    StableHlo.unary main_v124 main_v125 (broadcastInDim S50000x128 ![0, 1] bcast_S1x128_S50000x128_0_1 : (⟨S1x128, .f32⟩ : BufTy).Contents (Elt F) → (⟨S50000x128, .f32⟩ : BufTy).Contents (Elt F)),
    StableHlo.binary main_v123 main_v125 main_v126 (addf : (⟨S50000x128, .f32⟩ : BufTy).Contents (Elt F) → (⟨S50000x128, .f32⟩ : BufTy).Contents (Elt F) → (⟨S50000x128, .f32⟩ : BufTy).Contents (Elt F)),
    StableHlo.TRef.nullary main_call4.cst (constant S_ .f32 0x00000000#32),
    StableHlo.TRef.unary main_call4.cst main_call4.v0 (broadcastInDim S50000x128 ![] bcast_S_S50000x128),
    StableHlo.TRef.binary (.of main_v126 : StableHlo.TRef sig ⟨S50000x128, .f32⟩) main_call4.v0 main_call4.v1 maximumf,
    StableHlo.binary main_v127 main_v81 main_v128 (addf : (⟨S50000x128, .f32⟩ : BufTy).Contents (Elt F) → (⟨S50000x128, .f32⟩ : BufTy).Contents (Elt F) → (⟨S50000x128, .f32⟩ : BufTy).Contents (Elt F)) ]
/-- Each operation of `opsL1` touches TensorCore references only. -/
theorem opsL1_sub : (opsL1 : List (HloOp τ sig (Elt F))).Forall fun op => op.bufs ⊆ tcRefs τ sig :=
  ⟨unary_bufs_sub .., reshape_bufs_sub .., unary_bufs_sub .., reshape_bufs_sub .., unary_bufs_sub .., binary_bufs_sub .., nullary_bufs_sub .., unary_bufs_sub ..,
    binary_bufs_sub .., nullary_bufs_sub .., unary_bufs_sub .., binary_bufs_sub .., ternary_bufs_sub .., unary_bufs_sub .., binary_bufs_sub .., unary_bufs_sub ..,
    unary_bufs_sub .., binary_bufs_sub .., nullary_bufs_sub .., unary_bufs_sub .., unary_bufs_sub .., ternary_bufs_sub .., unary_bufs_sub .., unary_bufs_sub ..,
    binary_bufs_sub .., unary_bufs_sub .., reshape_bufs_sub .., unary_bufs_sub .., reshape_bufs_sub .., nullary_bufs_sub .., binary_bufs_sub .., nullary_bufs_sub ..,
    unary_bufs_sub .., binary_bufs_sub .., nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub .., unary_bufs_sub .., unary_bufs_sub ..,
    ternary_bufs_sub .., unary_bufs_sub .., unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub .., unary_bufs_sub .., unary_bufs_sub ..,
    binary_bufs_sub .., nullary_bufs_sub .., unary_bufs_sub .., binary_bufs_sub .., binary_bufs_sub ..⟩
/-- Each operation of `opsL1` determines its results. -/
theorem opsL1_fresh : (opsL1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl⟩
/-- The references the operations of `opsL1` write, in order: each operation writes exactly one. -/
abbrev opsL1_W : List (Ref sig .tc) :=
  [ main_v82, main_v83, main_v84, main_v85, main_v86, main_v87, main_c_13, main_v88, main_v89, main_c_14,
    main_v90, main_v91, main_v92, main_v93, main_v94, main_v95, main_v96, main_v97, main_cst_15, main_v98,
    main_v99, main_v100, main_v101, main_v102, main_v103, main_v104, main_v105, main_v106, main_v107, main_cst_16,
    main_v108, main_cst_17, main_v109, main_v110, main_c_18, main_call3_cst, main_call3_v0, main_call3_v1, main_call3_cst_0, main_call3_v2,
    main_call3_v3, main_call3_v4, main_call3_v5, main_call3_v6, main_call3_v7, main_call3_cst_1, main_call3_v8, main_call3_cst_2, main_call3_v9, main_call3_v10,
    main_call3_v11, main_call3_cst_3, main_call3_v12, main_call3_cst_4, main_call3_call0_v0, main_call3_call0_v1, main_v111, main_v112, main_v113, main_v114,
    main_cst_19, main_v115, main_v116, main_v117, main_v118, main_v119, main_v120, main_v121, main_v122, main_v123,
    main_v124, main_v125, main_v126, main_call4_cst, main_call4_v0, main_v127, main_v128 ]
theorem opsL1_writes : (opsL1 : List (HloOp τ sig (Elt F))).map HloOp.writes
    = opsL1_W.map fun y => ({Proc.devRef .tc y} : Finset (DevRef τ sig)) := by
  chain_rfl

/-- Statements %129 … %175, layer 2: as layer 0 at slice 2, from %128, ending with the residual sum %175 = %174 + %128. -/
abbrev opsL2 : List (HloOp τ sig (Elt F)) :=
  [ StableHlo.unary main_arg5 main_v129 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v129 main_v130 rfl shapeCasts_S1x128x128_S128x128,
    StableHlo.unary main_arg6 main_v131 ((extractStridedSlice S1x128 ![2, 0] · slices_S4x128_S1x128_2_0) : (⟨S4x128, .f32⟩ : BufTy).Contents (Elt F) → (⟨S1x128, .f32⟩ : BufTy).Contents (Elt F)),
    StableHlo.reshape main_v131 main_v132 rfl shapeCasts_S1x128_S128,
    StableHlo.unary main_v130 main_v133 ((transpose S128x128 [1, 0] · transposes_S128x128_S128x128_1_0) : (⟨S128x128, .f32⟩ : BufTy).Contents (Elt F) → (⟨S128x128, .f32⟩ : BufTy).Contents (Elt F)),
    StableHlo.binary main_v128 main_v133 main_v134 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_20 (constantI S_ 32 0#32),
    StableHlo.unary main_c_20 main_v135 (broadcastInDim S650000 ![] bcast_S_S650000 : (⟨S_, .i32⟩ : BufTy).Contents (Elt F) → (⟨S650000, .i32⟩ : BufTy).Contents (Elt F)),
    StableHlo.binary main_v3 main_v135 main_v136 (cmpi .slt : (⟨S650000, .i32⟩ : BufTy).Contents (Elt F) → (⟨S650000, .i32⟩ : BufTy).Contents (Elt F) → (⟨S650000, .i1⟩ : BufTy).Contents (Elt F)),
    StableHlo.nullary main_c_21 (constantI S_ 32 50000#32),
    StableHlo.unary main_c_21 main_v137 (broadcastInDim S650000 ![] bcast_S_S650000 : (⟨S_, .i32⟩ : BufTy).Contents (Elt F) → (⟨S650000, .i32⟩ : BufTy).Contents (Elt F)),
    StableHlo.binary main_v3 main_v137 main_v138 (addi : (⟨S650000, .i32⟩ : BufTy).Contents (Elt F) → (⟨S650000, .i32⟩ : BufTy).Contents (Elt F) → (⟨S650000, .i32⟩ : BufTy).Contents (Elt F)),
    StableHlo.ternary main_v136 main_v138 main_v3 main_v139 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    StableHlo.unary main_v139 main_v140 (broadcastInDim S650000x1 ![0] bcast_S650000_S650000x1_0 : (⟨S650000, .i32⟩ : BufTy).Contents (Elt F) → (⟨S650000x1, .i32⟩ : BufTy).Contents (Elt F)),
    StableHlo.binary main_v134 main_v140 main_v141 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    StableHlo.unary main_v29 main_v142 (broadcastInDim S650000x1 ![0] bcast_S650000_S650000x1_0 : (⟨S650000, .f32⟩ : BufTy).Contents (Elt F) → (⟨S650000x1, .f32⟩ : BufTy).Contents (Elt F)),
    StableHlo.unary main_v142 main_v143 (broadcastInDim S650000x128 ![0, 1] bcast_S650000x1_S650000x128_0_1 : (⟨S650000x1, .f32⟩ : BufTy).Contents (Elt F) → (⟨S650000x128, .f32⟩ : BufTy).Contents (Elt F)),
    StableHlo.binary main_v141 main_v143 main_v144 (mulf : (⟨S650000x128, .f32⟩ : BufTy).Contents (Elt F) → (⟨S650000x128, .f32⟩ : BufTy).Contents (Elt F) → (⟨S650000x128, .f32⟩ : BufTy).Contents (Elt F)),
    StableHlo.nullary main_cst_22 (constant S_ .f32 0x00000000#32),
    StableHlo.unary main_cst_22 main_v145 (broadcastInDim S50000x128 ![] bcast_S_S50000x128 : (⟨S_, .f32⟩ : BufTy).Contents (Elt F) → (⟨S50000x128, .f32⟩ : BufTy).Contents (Elt F)),
    StableHlo.unary main_v6 main_v146 (broadcastInDim S650000x1 ![0] bcast_S650000_S650000x1_0 : (⟨S650000, .i32⟩ : BufTy).Contents (Elt F) → (⟨S650000x1, .i32⟩ : BufTy).Contents (Elt F)),
    StableHlo.ternary main_v145 main_v146 main_v144 main_v147 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)),
    StableHlo.unary main_v132 main_v148 (broadcastInDim S1x128 ![1] bcast_S128_S1x128_1 : (⟨S128, .f32⟩ : BufTy).Contents (Elt F) → (⟨S1x128, .f32⟩ : BufTy).Contents (Elt F)),
    StableHlo.unary main_v148 main_v149 (broadcastInDim S50000x128 ![0, 1] bcast_S1x128_S50000x128_0_1 : (⟨S1x128, .f32⟩ : BufTy).Contents (Elt F) → (⟨S50000x128, .f32⟩ : BufTy).Contents (Elt F)),
    StableHlo.binary main_v147 main_v149 main_v150 (addf : (⟨S50000x128, .f32⟩ : BufTy).Contents (Elt F) → (⟨S50000x128, .f32⟩ : BufTy).Contents (Elt F) → (⟨S50000x128, .f32⟩ : BufTy).Contents (Elt F)),
    StableHlo.unary main_arg7 main_v151 ((extractStridedSlice S1x128 ![2, 0] · slices_S4x128_S1x128_2_0) : (⟨S4x128, .f32⟩ : BufTy).Contents (Elt F) → (⟨S1x128, .f32⟩ : BufTy).Contents (Elt F)),
    StableHlo.reshape main_v151 main_v152 rfl shapeCasts_S1x128_S128,
    StableHlo.unary main_arg8 main_v153 ((extractStridedSlice S1x128 ![2, 0] · slices_S4x128_S1x128_2_0) : (⟨S4x128, .f32⟩ : BufTy).Contents (Elt F) → (⟨S1x128, .f32⟩ : BufTy).Contents (Elt F)),
    StableHlo.reshape main_v153 main_v154 rfl shapeCasts_S1x128_S128,
    StableHlo.nullary main_cst_23 (constant S_ .f32 0x00000000#32),
    StableHlo.binary main_v150 main_cst_23 main_v155 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_24 (constant S_ .f32 0x47435000#32),
    StableHlo.unary main_cst_24 main_v156 (broadcastInDim S128 ![] bcast_S_S128 : (⟨S_, .f32⟩ : BufTy).Contents (Elt F) → (⟨S128, .f32⟩ : BufTy).Contents (Elt F)),
    StableHlo.binary main_v155 main_v156 main_v157 (Host.divf : (⟨S128, .f32⟩ : BufTy).Contents (Elt F) → (⟨S128, .f32⟩ : BufTy).Contents (Elt F) → (⟨S128, .f32⟩ : BufTy).Contents (Elt F)),
    StableHlo.nullary main_c_25 (constantI S_ 32 0#32),
    StableHlo.TRef.nullary main_call5.cst (constant S_ .f32 0x00000000#32),
    StableHlo.TRef.binary (.of main_v150 : StableHlo.TRef sig ⟨S50000x128, .f32⟩) main_call5.cst main_call5.v0 (fun x v => Host.reduceAdd x v reducesTo_S50000x128_S128_d0 h_S_),
    StableHlo.TRef.unary main_call5.v0 main_call5.v1 (broadcastInDim S1x128 ![1] bcast_S128_S1x128_1),
    StableHlo.TRef.nullary main_call5.cst_0 (constant S_ .f32 0x47435000#32),
    StableHlo.TRef.unary main_call5.cst_0 main_call5.v2 (broadcastInDim S1x128 ![] bcast_S_S1x128),
    StableHlo.TRef.binary main_call5.v1 main_call5.v2 main_call5.v3 Host.divf,
    StableHlo.TRef.unary main_call5.v3 main_call5.v4 (broadcastInDim S50000x128 ![0, 1] bcast_S1x128_S50000x128_0_1),
    StableHlo.TRef.binary (.of main_v150 : StableHlo.TRef sig ⟨S50000x128, .f32⟩) main_call5.v4 main_call5.v5 subf,
    StableHlo.TRef.binary main_call5.v5 main_call5.v5 main_call5.v6 mulf,
    StableHlo.TRef.unary (.of main_c_25 : StableHlo.TRef sig ⟨S_, .i32⟩) main_call5.v7 (sitofp .f32),
    StableHlo.TRef.nullary main_call5.cst_1 (constant S_ .f32 0x47435000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S50000x128_S128_d0 h_S_),
    StableHlo.TRef.unary main_call5.v8 main_call5.v10 (broadcastInDim S128 ![] bcast_S_S128),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S128 ![] bcast_S_S128),
    StableHlo.TRef.ternary main_call5.v12 main_call5.v11 main_call5.call0.v1 main_call5.call0.v2 (fun p a b => select (broadcastInDim S128 ![] bcast_S_S128 p) a b),
    StableHlo.unary main_v157 main_v159 (broadcastInDim S1x128 ![1] bcast_S128_S1x128_1 : (⟨S128, .f32⟩ : BufTy).Contents (Elt F) → (⟨S1x128, .f32⟩ : BufTy).Contents (Elt F)),
    StableHlo.unary main_v159 main_v160 (broadcastInDim S50000x128 ![0, 1] bcast_S1x128_S50000x128_0_1 : (⟨S1x128, .f32⟩ : BufTy).Contents (Elt F) → (⟨S50000x128, .f32⟩ : BufTy).Contents (Elt F)),
    StableHlo.binary main_v150 main_v160 main_v161 (subf : (⟨S50000x128, .f32⟩ : BufTy).Contents (Elt F) → (⟨S50000x128, .f32⟩ : BufTy).Contents (Elt F) → (⟨S50000x128, .f32⟩ : BufTy).Contents (Elt F)),
    StableHlo.nullary main_cst_26 (constant S_ .f32 0x3727C5AC#32),
    StableHlo.unary main_cst_26 main_v162 (broadcastInDim S128 ![] bcast_S_S128 : (⟨S_, .f32⟩ : BufTy).Contents (Elt F) → (⟨S128, .f32⟩ : BufTy).Contents (Elt F)),
    StableHlo.binary main_v158 main_v162 main_v163 (addf : (⟨S128, .f32⟩ : BufTy).Contents (Elt F) → (⟨S128, .f32⟩ : BufTy).Contents (Elt F) → (⟨S128, .f32⟩ : BufTy).Contents (Elt F)),
    StableHlo.unary main_v163 main_v164 (Host.rsqrt : (⟨S128, .f32⟩ : BufTy).Contents (Elt F) → (⟨S128, .f32⟩ : BufTy).Contents (Elt F)),
    StableHlo.unary main_v164 main_v165 (broadcastInDim S1x128 ![1] bcast_S128_S1x128_1 : (⟨S128, .f32⟩ : BufTy).Contents (Elt F) → (⟨S1x128, .f32⟩ : BufTy).Contents (Elt F)),
    StableHlo.unary main_v165 main_v166 (broadcastInDim S50000x128 ![0, 1] bcast_S1x128_S50000x128_0_1 : (⟨S1x128, .f32⟩ : BufTy).Contents (Elt F) → (⟨S50000x128, .f32⟩ : BufTy).Contents (Elt F)),
    StableHlo.binary main_v161 main_v166 main_v167 (mulf : (⟨S50000x128, .f32⟩ : BufTy).Contents (Elt F) → (⟨S50000x128, .f32⟩ : BufTy).Contents (Elt F) → (⟨S50000x128, .f32⟩ : BufTy).Contents (Elt F)),
    StableHlo.unary main_v152 main_v168 (broadcastInDim S1x128 ![1] bcast_S128_S1x128_1 : (⟨S128, .f32⟩ : BufTy).Contents (Elt F) → (⟨S1x128, .f32⟩ : BufTy).Contents (Elt F)),
    StableHlo.unary main_v168 main_v169 (broadcastInDim S50000x128 ![0, 1] bcast_S1x128_S50000x128_0_1 : (⟨S1x128, .f32⟩ : BufTy).Contents (Elt F) → (⟨S50000x128, .f32⟩ : BufTy).Contents (Elt F)),
    StableHlo.binary main_v167 main_v169 main_v170 (mulf : (⟨S50000x128, .f32⟩ : BufTy).Contents (Elt F) → (⟨S50000x128, .f32⟩ : BufTy).Contents (Elt F) → (⟨S50000x128, .f32⟩ : BufTy).Contents (Elt F)),
    StableHlo.unary main_v154 main_v171 (broadcastInDim S1x128 ![1] bcast_S128_S1x128_1 : (⟨S128, .f32⟩ : BufTy).Contents (Elt F) → (⟨S1x128, .f32⟩ : BufTy).Contents (Elt F)),
    StableHlo.unary main_v171 main_v172 (broadcastInDim S50000x128 ![0, 1] bcast_S1x128_S50000x128_0_1 : (⟨S1x128, .f32⟩ : BufTy).Contents (Elt F) → (⟨S50000x128, .f32⟩ : BufTy).Contents (Elt F)),
    StableHlo.binary main_v170 main_v172 main_v173 (addf : (⟨S50000x128, .f32⟩ : BufTy).Contents (Elt F) → (⟨S50000x128, .f32⟩ : BufTy).Contents (Elt F) → (⟨S50000x128, .f32⟩ : BufTy).Contents (Elt F)),
    StableHlo.TRef.nullary main_call6.cst (constant S_ .f32 0x00000000#32),
    StableHlo.TRef.unary main_call6.cst main_call6.v0 (broadcastInDim S50000x128 ![] bcast_S_S50000x128),
    StableHlo.TRef.binary (.of main_v173 : StableHlo.TRef sig ⟨S50000x128, .f32⟩) main_call6.v0 main_call6.v1 maximumf,
    StableHlo.binary main_v174 main_v128 main_v175 (addf : (⟨S50000x128, .f32⟩ : BufTy).Contents (Elt F) → (⟨S50000x128, .f32⟩ : BufTy).Contents (Elt F) → (⟨S50000x128, .f32⟩ : BufTy).Contents (Elt F)) ]
/-- Each operation of `opsL2` touches TensorCore references only. -/
theorem opsL2_sub : (opsL2 : List (HloOp τ sig (Elt F))).Forall fun op => op.bufs ⊆ tcRefs τ sig :=
  ⟨unary_bufs_sub .., reshape_bufs_sub .., unary_bufs_sub .., reshape_bufs_sub .., unary_bufs_sub .., binary_bufs_sub .., nullary_bufs_sub .., unary_bufs_sub ..,
    binary_bufs_sub .., nullary_bufs_sub .., unary_bufs_sub .., binary_bufs_sub .., ternary_bufs_sub .., unary_bufs_sub .., binary_bufs_sub .., unary_bufs_sub ..,
    unary_bufs_sub .., binary_bufs_sub .., nullary_bufs_sub .., unary_bufs_sub .., unary_bufs_sub .., ternary_bufs_sub .., unary_bufs_sub .., unary_bufs_sub ..,
    binary_bufs_sub .., unary_bufs_sub .., reshape_bufs_sub .., unary_bufs_sub .., reshape_bufs_sub .., nullary_bufs_sub .., binary_bufs_sub .., nullary_bufs_sub ..,
    unary_bufs_sub .., binary_bufs_sub .., nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub .., unary_bufs_sub .., unary_bufs_sub ..,
    ternary_bufs_sub .., unary_bufs_sub .., unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub .., unary_bufs_sub .., unary_bufs_sub ..,
    binary_bufs_sub .., nullary_bufs_sub .., unary_bufs_sub .., binary_bufs_sub .., binary_bufs_sub ..⟩
/-- Each operation of `opsL2` determines its results. -/
theorem opsL2_fresh : (opsL2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl⟩
/-- The references the operations of `opsL2` write, in order: each operation writes exactly one. -/
abbrev opsL2_W : List (Ref sig .tc) :=
  [ main_v129, main_v130, main_v131, main_v132, main_v133, main_v134, main_c_20, main_v135, main_v136, main_c_21,
    main_v137, main_v138, main_v139, main_v140, main_v141, main_v142, main_v143, main_v144, main_cst_22, main_v145,
    main_v146, main_v147, main_v148, main_v149, main_v150, main_v151, main_v152, main_v153, main_v154, main_cst_23,
    main_v155, main_cst_24, main_v156, main_v157, main_c_25, main_call5_cst, main_call5_v0, main_call5_v1, main_call5_cst_0, main_call5_v2,
    main_call5_v3, main_call5_v4, main_call5_v5, main_call5_v6, main_call5_v7, main_call5_cst_1, main_call5_v8, main_call5_cst_2, main_call5_v9, main_call5_v10,
    main_call5_v11, main_call5_cst_3, main_call5_v12, main_call5_cst_4, main_call5_call0_v0, main_call5_call0_v1, main_v158, main_v159, main_v160, main_v161,
    main_cst_26, main_v162, main_v163, main_v164, main_v165, main_v166, main_v167, main_v168, main_v169, main_v170,
    main_v171, main_v172, main_v173, main_call6_cst, main_call6_v0, main_v174, main_v175 ]
theorem opsL2_writes : (opsL2 : List (HloOp τ sig (Elt F))).map HloOp.writes
    = opsL2_W.map fun y => ({Proc.devRef .tc y} : Finset (DevRef τ sig)) := by
  chain_rfl

/-- Statements %176 … %222, layer 3: as layer 0 at slice 3, from %175, ending with the residual sum %222 = %221 + %175. -/
abbrev opsL3 : List (HloOp τ sig (Elt F)) :=
  [ StableHlo.unary main_arg5 main_v176 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v176 main_v177 rfl shapeCasts_S1x128x128_S128x128,
    StableHlo.unary main_arg6 main_v178 ((extractStridedSlice S1x128 ![3, 0] · slices_S4x128_S1x128_3_0) : (⟨S4x128, .f32⟩ : BufTy).Contents (Elt F) → (⟨S1x128, .f32⟩ : BufTy).Contents (Elt F)),
    StableHlo.reshape main_v178 main_v179 rfl shapeCasts_S1x128_S128,
    StableHlo.unary main_v177 main_v180 ((transpose S128x128 [1, 0] · transposes_S128x128_S128x128_1_0) : (⟨S128x128, .f32⟩ : BufTy).Contents (Elt F) → (⟨S128x128, .f32⟩ : BufTy).Contents (Elt F)),
    StableHlo.binary main_v175 main_v180 main_v181 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_27 (constantI S_ 32 0#32),
    StableHlo.unary main_c_27 main_v182 (broadcastInDim S650000 ![] bcast_S_S650000 : (⟨S_, .i32⟩ : BufTy).Contents (Elt F) → (⟨S650000, .i32⟩ : BufTy).Contents (Elt F)),
    StableHlo.binary main_v3 main_v182 main_v183 (cmpi .slt : (⟨S650000, .i32⟩ : BufTy).Contents (Elt F) → (⟨S650000, .i32⟩ : BufTy).Contents (Elt F) → (⟨S650000, .i1⟩ : BufTy).Contents (Elt F)),
    StableHlo.nullary main_c_28 (constantI S_ 32 50000#32),
    StableHlo.unary main_c_28 main_v184 (broadcastInDim S650000 ![] bcast_S_S650000 : (⟨S_, .i32⟩ : BufTy).Contents (Elt F) → (⟨S650000, .i32⟩ : BufTy).Contents (Elt F)),
    StableHlo.binary main_v3 main_v184 main_v185 (addi : (⟨S650000, .i32⟩ : BufTy).Contents (Elt F) → (⟨S650000, .i32⟩ : BufTy).Contents (Elt F) → (⟨S650000, .i32⟩ : BufTy).Contents (Elt F)),
    StableHlo.ternary main_v183 main_v185 main_v3 main_v186 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    StableHlo.unary main_v186 main_v187 (broadcastInDim S650000x1 ![0] bcast_S650000_S650000x1_0 : (⟨S650000, .i32⟩ : BufTy).Contents (Elt F) → (⟨S650000x1, .i32⟩ : BufTy).Contents (Elt F)),
    StableHlo.binary main_v181 main_v187 main_v188 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    StableHlo.unary main_v29 main_v189 (broadcastInDim S650000x1 ![0] bcast_S650000_S650000x1_0 : (⟨S650000, .f32⟩ : BufTy).Contents (Elt F) → (⟨S650000x1, .f32⟩ : BufTy).Contents (Elt F)),
    StableHlo.unary main_v189 main_v190 (broadcastInDim S650000x128 ![0, 1] bcast_S650000x1_S650000x128_0_1 : (⟨S650000x1, .f32⟩ : BufTy).Contents (Elt F) → (⟨S650000x128, .f32⟩ : BufTy).Contents (Elt F)),
    StableHlo.binary main_v188 main_v190 main_v191 (mulf : (⟨S650000x128, .f32⟩ : BufTy).Contents (Elt F) → (⟨S650000x128, .f32⟩ : BufTy).Contents (Elt F) → (⟨S650000x128, .f32⟩ : BufTy).Contents (Elt F)),
    StableHlo.nullary main_cst_29 (constant S_ .f32 0x00000000#32),
    StableHlo.unary main_cst_29 main_v192 (broadcastInDim S50000x128 ![] bcast_S_S50000x128 : (⟨S_, .f32⟩ : BufTy).Contents (Elt F) → (⟨S50000x128, .f32⟩ : BufTy).Contents (Elt F)),
    StableHlo.unary main_v6 main_v193 (broadcastInDim S650000x1 ![0] bcast_S650000_S650000x1_0 : (⟨S650000, .i32⟩ : BufTy).Contents (Elt F) → (⟨S650000x1, .i32⟩ : BufTy).Contents (Elt F)),
    StableHlo.ternary main_v192 main_v193 main_v191 main_v194 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)),
    StableHlo.unary main_v179 main_v195 (broadcastInDim S1x128 ![1] bcast_S128_S1x128_1 : (⟨S128, .f32⟩ : BufTy).Contents (Elt F) → (⟨S1x128, .f32⟩ : BufTy).Contents (Elt F)),
    StableHlo.unary main_v195 main_v196 (broadcastInDim S50000x128 ![0, 1] bcast_S1x128_S50000x128_0_1 : (⟨S1x128, .f32⟩ : BufTy).Contents (Elt F) → (⟨S50000x128, .f32⟩ : BufTy).Contents (Elt F)),
    StableHlo.binary main_v194 main_v196 main_v197 (addf : (⟨S50000x128, .f32⟩ : BufTy).Contents (Elt F) → (⟨S50000x128, .f32⟩ : BufTy).Contents (Elt F) → (⟨S50000x128, .f32⟩ : BufTy).Contents (Elt F)),
    StableHlo.unary main_arg7 main_v198 ((extractStridedSlice S1x128 ![3, 0] · slices_S4x128_S1x128_3_0) : (⟨S4x128, .f32⟩ : BufTy).Contents (Elt F) → (⟨S1x128, .f32⟩ : BufTy).Contents (Elt F)),
    StableHlo.reshape main_v198 main_v199 rfl shapeCasts_S1x128_S128,
    StableHlo.unary main_arg8 main_v200 ((extractStridedSlice S1x128 ![3, 0] · slices_S4x128_S1x128_3_0) : (⟨S4x128, .f32⟩ : BufTy).Contents (Elt F) → (⟨S1x128, .f32⟩ : BufTy).Contents (Elt F)),
    StableHlo.reshape main_v200 main_v201 rfl shapeCasts_S1x128_S128,
    StableHlo.nullary main_cst_30 (constant S_ .f32 0x00000000#32),
    StableHlo.binary main_v197 main_cst_30 main_v202 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_31 (constant S_ .f32 0x47435000#32),
    StableHlo.unary main_cst_31 main_v203 (broadcastInDim S128 ![] bcast_S_S128 : (⟨S_, .f32⟩ : BufTy).Contents (Elt F) → (⟨S128, .f32⟩ : BufTy).Contents (Elt F)),
    StableHlo.binary main_v202 main_v203 main_v204 (Host.divf : (⟨S128, .f32⟩ : BufTy).Contents (Elt F) → (⟨S128, .f32⟩ : BufTy).Contents (Elt F) → (⟨S128, .f32⟩ : BufTy).Contents (Elt F)),
    StableHlo.nullary main_c_32 (constantI S_ 32 0#32),
    StableHlo.TRef.nullary main_call7.cst (constant S_ .f32 0x00000000#32),
    StableHlo.TRef.binary (.of main_v197 : StableHlo.TRef sig ⟨S50000x128, .f32⟩) main_call7.cst main_call7.v0 (fun x v => Host.reduceAdd x v reducesTo_S50000x128_S128_d0 h_S_),
    StableHlo.TRef.unary main_call7.v0 main_call7.v1 (broadcastInDim S1x128 ![1] bcast_S128_S1x128_1),
    StableHlo.TRef.nullary main_call7.cst_0 (constant S_ .f32 0x47435000#32),
    StableHlo.TRef.unary main_call7.cst_0 main_call7.v2 (broadcastInDim S1x128 ![] bcast_S_S1x128),
    StableHlo.TRef.binary main_call7.v1 main_call7.v2 main_call7.v3 Host.divf,
    StableHlo.TRef.unary main_call7.v3 main_call7.v4 (broadcastInDim S50000x128 ![0, 1] bcast_S1x128_S50000x128_0_1),
    StableHlo.TRef.binary (.of main_v197 : StableHlo.TRef sig ⟨S50000x128, .f32⟩) main_call7.v4 main_call7.v5 subf,
    StableHlo.TRef.binary main_call7.v5 main_call7.v5 main_call7.v6 mulf,
    StableHlo.TRef.unary (.of main_c_32 : StableHlo.TRef sig ⟨S_, .i32⟩) main_call7.v7 (sitofp .f32),
    StableHlo.TRef.nullary main_call7.cst_1 (constant S_ .f32 0x47435000#32),
    StableHlo.TRef.binary main_call7.cst_1 main_call7.v7 main_call7.v8 subf,
    StableHlo.TRef.nullary main_call7.cst_2 (constant S_ .f32 0x00000000#32),
    StableHlo.TRef.binary main_call7.v6 main_call7.cst_2 main_call7.v9 (fun x v => Host.reduceAdd x v reducesTo_S50000x128_S128_d0 h_S_),
    StableHlo.TRef.unary main_call7.v8 main_call7.v10 (broadcastInDim S128 ![] bcast_S_S128),
    StableHlo.TRef.binary main_call7.v9 main_call7.v10 main_call7.v11 Host.divf,
    StableHlo.TRef.nullary main_call7.cst_3 (constant S_ .f32 0x00000000#32),
    StableHlo.TRef.binary main_call7.v8 main_call7.cst_3 main_call7.v12 (cmpf .ogt),
    StableHlo.TRef.nullary main_call7.cst_4 (constant S_ .f32 0x7FC00000#32),
    StableHlo.TRef.unary main_call7.cst_4 main_call7.call0.v0 id,
    StableHlo.TRef.unary main_call7.call0.v0 main_call7.call0.v1 (broadcastInDim S128 ![] bcast_S_S128),
    StableHlo.TRef.ternary main_call7.v12 main_call7.v11 main_call7.call0.v1 main_call7.call0.v2 (fun p a b => select (broadcastInDim S128 ![] bcast_S_S128 p) a b),
    StableHlo.unary main_v204 main_v206 (broadcastInDim S1x128 ![1] bcast_S128_S1x128_1 : (⟨S128, .f32⟩ : BufTy).Contents (Elt F) → (⟨S1x128, .f32⟩ : BufTy).Contents (Elt F)),
    StableHlo.unary main_v206 main_v207 (broadcastInDim S50000x128 ![0, 1] bcast_S1x128_S50000x128_0_1 : (⟨S1x128, .f32⟩ : BufTy).Contents (Elt F) → (⟨S50000x128, .f32⟩ : BufTy).Contents (Elt F)),
    StableHlo.binary main_v197 main_v207 main_v208 (subf : (⟨S50000x128, .f32⟩ : BufTy).Contents (Elt F) → (⟨S50000x128, .f32⟩ : BufTy).Contents (Elt F) → (⟨S50000x128, .f32⟩ : BufTy).Contents (Elt F)),
    StableHlo.nullary main_cst_33 (constant S_ .f32 0x3727C5AC#32),
    StableHlo.unary main_cst_33 main_v209 (broadcastInDim S128 ![] bcast_S_S128 : (⟨S_, .f32⟩ : BufTy).Contents (Elt F) → (⟨S128, .f32⟩ : BufTy).Contents (Elt F)),
    StableHlo.binary main_v205 main_v209 main_v210 (addf : (⟨S128, .f32⟩ : BufTy).Contents (Elt F) → (⟨S128, .f32⟩ : BufTy).Contents (Elt F) → (⟨S128, .f32⟩ : BufTy).Contents (Elt F)),
    StableHlo.unary main_v210 main_v211 (Host.rsqrt : (⟨S128, .f32⟩ : BufTy).Contents (Elt F) → (⟨S128, .f32⟩ : BufTy).Contents (Elt F)),
    StableHlo.unary main_v211 main_v212 (broadcastInDim S1x128 ![1] bcast_S128_S1x128_1 : (⟨S128, .f32⟩ : BufTy).Contents (Elt F) → (⟨S1x128, .f32⟩ : BufTy).Contents (Elt F)),
    StableHlo.unary main_v212 main_v213 (broadcastInDim S50000x128 ![0, 1] bcast_S1x128_S50000x128_0_1 : (⟨S1x128, .f32⟩ : BufTy).Contents (Elt F) → (⟨S50000x128, .f32⟩ : BufTy).Contents (Elt F)),
    StableHlo.binary main_v208 main_v213 main_v214 (mulf : (⟨S50000x128, .f32⟩ : BufTy).Contents (Elt F) → (⟨S50000x128, .f32⟩ : BufTy).Contents (Elt F) → (⟨S50000x128, .f32⟩ : BufTy).Contents (Elt F)),
    StableHlo.unary main_v199 main_v215 (broadcastInDim S1x128 ![1] bcast_S128_S1x128_1 : (⟨S128, .f32⟩ : BufTy).Contents (Elt F) → (⟨S1x128, .f32⟩ : BufTy).Contents (Elt F)),
    StableHlo.unary main_v215 main_v216 (broadcastInDim S50000x128 ![0, 1] bcast_S1x128_S50000x128_0_1 : (⟨S1x128, .f32⟩ : BufTy).Contents (Elt F) → (⟨S50000x128, .f32⟩ : BufTy).Contents (Elt F)),
    StableHlo.binary main_v214 main_v216 main_v217 (mulf : (⟨S50000x128, .f32⟩ : BufTy).Contents (Elt F) → (⟨S50000x128, .f32⟩ : BufTy).Contents (Elt F) → (⟨S50000x128, .f32⟩ : BufTy).Contents (Elt F)),
    StableHlo.unary main_v201 main_v218 (broadcastInDim S1x128 ![1] bcast_S128_S1x128_1 : (⟨S128, .f32⟩ : BufTy).Contents (Elt F) → (⟨S1x128, .f32⟩ : BufTy).Contents (Elt F)),
    StableHlo.unary main_v218 main_v219 (broadcastInDim S50000x128 ![0, 1] bcast_S1x128_S50000x128_0_1 : (⟨S1x128, .f32⟩ : BufTy).Contents (Elt F) → (⟨S50000x128, .f32⟩ : BufTy).Contents (Elt F)),
    StableHlo.binary main_v217 main_v219 main_v220 (addf : (⟨S50000x128, .f32⟩ : BufTy).Contents (Elt F) → (⟨S50000x128, .f32⟩ : BufTy).Contents (Elt F) → (⟨S50000x128, .f32⟩ : BufTy).Contents (Elt F)),
    StableHlo.TRef.nullary main_call8.cst (constant S_ .f32 0x00000000#32),
    StableHlo.TRef.unary main_call8.cst main_call8.v0 (broadcastInDim S50000x128 ![] bcast_S_S50000x128),
    StableHlo.TRef.binary (.of main_v220 : StableHlo.TRef sig ⟨S50000x128, .f32⟩) main_call8.v0 main_call8.v1 maximumf,
    StableHlo.binary main_v221 main_v175 main_v222 (addf : (⟨S50000x128, .f32⟩ : BufTy).Contents (Elt F) → (⟨S50000x128, .f32⟩ : BufTy).Contents (Elt F) → (⟨S50000x128, .f32⟩ : BufTy).Contents (Elt F)) ]
/-- Each operation of `opsL3` touches TensorCore references only. -/
theorem opsL3_sub : (opsL3 : List (HloOp τ sig (Elt F))).Forall fun op => op.bufs ⊆ tcRefs τ sig :=
  ⟨unary_bufs_sub .., reshape_bufs_sub .., unary_bufs_sub .., reshape_bufs_sub .., unary_bufs_sub .., binary_bufs_sub .., nullary_bufs_sub .., unary_bufs_sub ..,
    binary_bufs_sub .., nullary_bufs_sub .., unary_bufs_sub .., binary_bufs_sub .., ternary_bufs_sub .., unary_bufs_sub .., binary_bufs_sub .., unary_bufs_sub ..,
    unary_bufs_sub .., binary_bufs_sub .., nullary_bufs_sub .., unary_bufs_sub .., unary_bufs_sub .., ternary_bufs_sub .., unary_bufs_sub .., unary_bufs_sub ..,
    binary_bufs_sub .., unary_bufs_sub .., reshape_bufs_sub .., unary_bufs_sub .., reshape_bufs_sub .., nullary_bufs_sub .., binary_bufs_sub .., nullary_bufs_sub ..,
    unary_bufs_sub .., binary_bufs_sub .., nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub .., unary_bufs_sub .., unary_bufs_sub ..,
    ternary_bufs_sub .., unary_bufs_sub .., unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub .., unary_bufs_sub .., unary_bufs_sub ..,
    binary_bufs_sub .., nullary_bufs_sub .., unary_bufs_sub .., binary_bufs_sub .., binary_bufs_sub ..⟩
/-- Each operation of `opsL3` determines its results. -/
theorem opsL3_fresh : (opsL3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl,
    rfl, rfl, rfl, rfl, rfl⟩
/-- The references the operations of `opsL3` write, in order: each operation writes exactly one. -/
abbrev opsL3_W : List (Ref sig .tc) :=
  [ main_v176, main_v177, main_v178, main_v179, main_v180, main_v181, main_c_27, main_v182, main_v183, main_c_28,
    main_v184, main_v185, main_v186, main_v187, main_v188, main_v189, main_v190, main_v191, main_cst_29, main_v192,
    main_v193, main_v194, main_v195, main_v196, main_v197, main_v198, main_v199, main_v200, main_v201, main_cst_30,
    main_v202, main_cst_31, main_v203, main_v204, main_c_32, main_call7_cst, main_call7_v0, main_call7_v1, main_call7_cst_0, main_call7_v2,
    main_call7_v3, main_call7_v4, main_call7_v5, main_call7_v6, main_call7_v7, main_call7_cst_1, main_call7_v8, main_call7_cst_2, main_call7_v9, main_call7_v10,
    main_call7_v11, main_call7_cst_3, main_call7_v12, main_call7_cst_4, main_call7_call0_v0, main_call7_call0_v1, main_v205, main_v206, main_v207, main_v208,
    main_cst_33, main_v209, main_v210, main_v211, main_v212, main_v213, main_v214, main_v215, main_v216, main_v217,
    main_v218, main_v219, main_v220, main_call8_cst, main_call8_v0, main_v221, main_v222 ]
theorem opsL3_writes : (opsL3 : List (HloOp τ sig (Elt F))).map HloOp.writes
    = opsL3_W.map fun y => ({Proc.devRef .tc y} : Finset (DevRef τ sig)) := by
  chain_rfl

/-- Statements %223 … %251: the rows scatter-added by graph index (%225) and divided by the graph sizes, themselves a scatter-add of ones bounded below by one (%234), then three dense layers, the first two followed by the rectifier (the calls of @relu_1 and @relu_2), ending with %251. -/
abbrev opsTail : List (HloOp τ sig (Elt F)) :=
  [ StableHlo.nullary main_cst_34 (constant S_ .f32 0x00000000#32),
    StableHlo.unary main_cst_34 main_v223 (broadcastInDim S128x128 ![] bcast_S_S128x128 : (⟨S_, .f32⟩ : BufTy).Contents (Elt F) → (⟨S128x128, .f32⟩ : BufTy).Contents (Elt F)),
    StableHlo.unary main_arg2 main_v224 (broadcastInDim S50000x1 ![0] bcast_S50000_S50000x1_0 : (⟨S50000, .i32⟩ : BufTy).Contents (Elt F) → (⟨S50000x1, .i32⟩ : BufTy).Contents (Elt F)),
    StableHlo.ternary main_v223 main_v224 main_v222 main_v225 ((fun x i u => Host.scatterAdd scatter_S128x128_S50000x1_S50000x128_1_0_0_1 x i u) : (⟨S128x128, .f32⟩ : BufTy).Contents (Elt F) → (⟨S50000x1, .i32⟩ : BufTy).Contents (Elt F) → (⟨S50000x128, .f32⟩ : BufTy).Contents (Elt F) → (⟨S128x128, .f32⟩ : BufTy).Contents (Elt F)),
    StableHlo.nullary main_cst_35 (constant S_ .f32 0x3F800000#32),
    StableHlo.unary main_cst_35 main_v226 (broadcastInDim S50000 ![] bcast_S_S50000 : (⟨S_, .f32⟩ : BufTy).Contents (Elt F) → (⟨S50000, .f32⟩ : BufTy).Contents (Elt F)),
    StableHlo.nullary main_cst_36 (constant S_ .f32 0x00000000#32),
    StableHlo.unary main_cst_36 main_v227 (broadcastInDim S128 ![] bcast_S_S128 : (⟨S_, .f32⟩ : BufTy).Contents (Elt F) → (⟨S128, .f32⟩ : BufTy).Contents (Elt F)),
    StableHlo.unary main_arg2 main_v228 (broadcastInDim S50000x1 ![0] bcast_S50000_S50000x1_0 : (⟨S50000, .i32⟩ : BufTy).Contents (Elt F) → (⟨S50000x1, .i32⟩ : BufTy).Contents (Elt F)),
    StableHlo.ternary main_v227 main_v228 main_v226 main_v229 ((fun x i u => Host.scatterAdd scatter_S128_S50000x1_S50000_n_0_0_1 x i u) : (⟨S128, .f32⟩ : BufTy).Contents (Elt F) → (⟨S50000x1, .i32⟩ : BufTy).Contents (Elt F) → (⟨S50000, .f32⟩ : BufTy).Contents (Elt F) → (⟨S128, .f32⟩ : BufTy).Contents (Elt F)),
    StableHlo.nullary main_cst_37 (constant S_ .f32 0x3F800000#32),
    StableHlo.unary main_cst_37 main_v230 (broadcastInDim S128 ![] bcast_S_S128 : (⟨S_, .f32⟩ : BufTy).Contents (Elt F) → (⟨S128, .f32⟩ : BufTy).Contents (Elt F)),
    StableHlo.binary main_v229 main_v230 main_v231 (maximumf : (⟨S128, .f32⟩ : BufTy).Contents (Elt F) → (⟨S128, .f32⟩ : BufTy).Contents (Elt F) → (⟨S128, .f32⟩ : BufTy).Contents (Elt F)),
    StableHlo.unary main_v231 main_v232 (broadcastInDim S128x1 ![0] bcast_S128_S128x1_0 : (⟨S128, .f32⟩ : BufTy).Contents (Elt F) → (⟨S128x1, .f32⟩ : BufTy).Contents (Elt F)),
    StableHlo.unary main_v232 main_v233 (broadcastInDim S128x128 ![0, 1] bcast_S128x1_S128x128_0_1 : (⟨S128x1, .f32⟩ : BufTy).Contents (Elt F) → (⟨S128x128, .f32⟩ : BufTy).Contents (Elt F)),
    StableHlo.binary main_v225 main_v233 main_v234 (Host.divf : (⟨S128x128, .f32⟩ : BufTy).Contents (Elt F) → (⟨S128x128, .f32⟩ : BufTy).Contents (Elt F) → (⟨S128x128, .f32⟩ : BufTy).Contents (Elt F)),
    StableHlo.unary main_arg9 main_v235 ((transpose S128x64 [1, 0] · transposes_S64x128_S128x64_1_0) : (⟨S64x128, .f32⟩ : BufTy).Contents (Elt F) → (⟨S128x64, .f32⟩ : BufTy).Contents (Elt F)),
    StableHlo.binary main_v234 main_v235 main_v236 ((fun l r => Host.dotGeneral dot_S128x128_S128x64_S128x64_1_0_0_1_n_n none l r) : (⟨S128x128, .f32⟩ : BufTy).Contents (Elt F) → (⟨S128x64, .f32⟩ : BufTy).Contents (Elt F) → (⟨S128x64, .f32⟩ : BufTy).Contents (Elt F)),
    StableHlo.unary main_arg10 main_v237 (broadcastInDim S1x64 ![1] bcast_S64_S1x64_1 : (⟨S64, .f32⟩ : BufTy).Contents (Elt F) → (⟨S1x64, .f32⟩ : BufTy).Contents (Elt F)),
    StableHlo.unary main_v237 main_v238 (broadcastInDim S128x64 ![0, 1] bcast_S1x64_S128x64_0_1 : (⟨S1x64, .f32⟩ : BufTy).Contents (Elt F) → (⟨S128x64, .f32⟩ : BufTy).Contents (Elt F)),
    StableHlo.binary main_v236 main_v238 main_v239 (addf : (⟨S128x64, .f32⟩ : BufTy).Contents (Elt F) → (⟨S128x64, .f32⟩ : BufTy).Contents (Elt F) → (⟨S128x64, .f32⟩ : BufTy).Contents (Elt F)),
    StableHlo.TRef.nullary main_call9.cst (constant S_ .f32 0x00000000#32),
    StableHlo.TRef.unary main_call9.cst main_call9.v0 (broadcastInDim S128x64 ![] bcast_S_S128x64),
    StableHlo.TRef.binary (.of main_v239 : StableHlo.TRef sig ⟨S128x64, .f32⟩) main_call9.v0 main_call9.v1 maximumf,
    StableHlo.unary main_arg11 main_v241 ((transpose S64x32 [1, 0] · transposes_S32x64_S64x32_1_0) : (⟨S32x64, .f32⟩ : BufTy).Contents (Elt F) → (⟨S64x32, .f32⟩ : BufTy).Contents (Elt F)),
    StableHlo.binary main_v240 main_v241 main_v242 ((fun l r => Host.dotGeneral dot_S128x64_S64x32_S128x32_1_0_0_1_n_n none l r) : (⟨S128x64, .f32⟩ : BufTy).Contents (Elt F) → (⟨S64x32, .f32⟩ : BufTy).Contents (Elt F) → (⟨S128x32, .f32⟩ : BufTy).Contents (Elt F)),
    StableHlo.unary main_arg12 main_v243 (broadcastInDim S1x32 ![1] bcast_S32_S1x32_1 : (⟨S32, .f32⟩ : BufTy).Contents (Elt F) → (⟨S1x32, .f32⟩ : BufTy).Contents (Elt F)),
    StableHlo.unary main_v243 main_v244 (broadcastInDim S128x32 ![0, 1] bcast_S1x32_S128x32_0_1 : (⟨S1x32, .f32⟩ : BufTy).Contents (Elt F) → (⟨S128x32, .f32⟩ : BufTy).Contents (Elt F)),
    StableHlo.binary main_v242 main_v244 main_v245 (addf : (⟨S128x32, .f32⟩ : BufTy).Contents (Elt F) → (⟨S128x32, .f32⟩ : BufTy).Contents (Elt F) → (⟨S128x32, .f32⟩ : BufTy).Contents (Elt F)),
    StableHlo.TRef.nullary main_call10.cst (constant S_ .f32 0x00000000#32),
    StableHlo.TRef.unary main_call10.cst main_call10.v0 (broadcastInDim S128x32 ![] bcast_S_S128x32),
    StableHlo.TRef.binary (.of main_v245 : StableHlo.TRef sig ⟨S128x32, .f32⟩) main_call10.v0 main_call10.v1 maximumf,
    StableHlo.unary main_arg13 main_v247 ((transpose S32x10 [1, 0] · transposes_S10x32_S32x10_1_0) : (⟨S10x32, .f32⟩ : BufTy).Contents (Elt F) → (⟨S32x10, .f32⟩ : BufTy).Contents (Elt F)),
    StableHlo.binary main_v246 main_v247 main_v248 ((fun l r => Host.dotGeneral dot_S128x32_S32x10_S128x10_1_0_0_1_n_n none l r) : (⟨S128x32, .f32⟩ : BufTy).Contents (Elt F) → (⟨S32x10, .f32⟩ : BufTy).Contents (Elt F) → (⟨S128x10, .f32⟩ : BufTy).Contents (Elt F)),
    StableHlo.unary main_arg14 main_v249 (broadcastInDim S1x10 ![1] bcast_S10_S1x10_1 : (⟨S10, .f32⟩ : BufTy).Contents (Elt F) → (⟨S1x10, .f32⟩ : BufTy).Contents (Elt F)),
    StableHlo.unary main_v249 main_v250 (broadcastInDim S128x10 ![0, 1] bcast_S1x10_S128x10_0_1 : (⟨S1x10, .f32⟩ : BufTy).Contents (Elt F) → (⟨S128x10, .f32⟩ : BufTy).Contents (Elt F)),
    StableHlo.binary main_v248 main_v250 main_v251 (addf : (⟨S128x10, .f32⟩ : BufTy).Contents (Elt F) → (⟨S128x10, .f32⟩ : BufTy).Contents (Elt F) → (⟨S128x10, .f32⟩ : BufTy).Contents (Elt F)) ]
/-- Each operation of `opsTail` touches TensorCore references only. -/
theorem opsTail_sub : (opsTail : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub ..,
    unary_bufs_sub .., ternary_bufs_sub .., nullary_bufs_sub .., unary_bufs_sub .., binary_bufs_sub .., unary_bufs_sub .., unary_bufs_sub .., binary_bufs_sub ..,
    unary_bufs_sub .., binary_bufs_sub .., unary_bufs_sub .., unary_bufs_sub .., binary_bufs_sub .., nullary_bufs_sub .., unary_bufs_sub .., binary_bufs_sub ..,
    unary_bufs_sub .., binary_bufs_sub .., unary_bufs_sub .., unary_bufs_sub .., binary_bufs_sub .., nullary_bufs_sub .., unary_bufs_sub .., binary_bufs_sub ..,
    unary_bufs_sub .., binary_bufs_sub .., unary_bufs_sub .., unary_bufs_sub .., binary_bufs_sub ..⟩
/-- Each operation of `opsTail` determines its results. -/
theorem opsTail_fresh : (opsTail : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl⟩
/-- The references the operations of `opsTail` write, in order: each operation writes exactly one. -/
abbrev opsTail_W : List (Ref sig .tc) :=
  [ main_cst_34, main_v223, main_v224, main_v225, main_cst_35, main_v226, main_cst_36, main_v227, main_v228, main_v229,
    main_cst_37, main_v230, main_v231, main_v232, main_v233, main_v234, main_v235, main_v236, main_v237, main_v238,
    main_v239, main_call9_cst, main_call9_v0, main_v240, main_v241, main_v242, main_v243, main_v244, main_v245, main_call10_cst,
    main_call10_v0, main_v246, main_v247, main_v248, main_v249, main_v250, main_v251 ]
theorem opsTail_writes : (opsTail : List (HloOp τ sig (Elt F))).map HloOp.writes
    = opsTail_W.map fun y => ({Proc.devRef .tc y} : Finset (DevRef τ sig)) := by
  chain_rfl

end Cert.ReferenceIdeal.RefRun

end
-- ==== Proof.RefWin.lean ====
/- The reference program's five printed windows, each the straight line of its operations: a window's program is
   the sequence of its statements, a call being the callee's statements over the call's buffers, so each equation
   holds by unfolding the definitions on both sides. -/
import proofs.«115673_j47373489274965_1_alg».proof.Proof.Gen.ReferenceIdeal
import Idealize.ShloMosaic.Lib.StableHlo.Run
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of @main's window 0 (statements 1 … 60), the callees' operations at the call sites. -/
abbrev win0 : List (HloOp τ sig (Elt F)) :=
  [ StableHlo.nullary main_v0 (iotaInDim S50000 32 0),
    StableHlo.unary main_arg1 main_v1 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v1 main_v2 rfl shapeCasts_S1x600000_S600000,
    StableHlo.binary main_v2 main_v0 main_v3 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    StableHlo.unary main_arg1 main_v4 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v4 main_v5 rfl shapeCasts_S1x600000_S600000,
    StableHlo.binary main_v5 main_v0 main_v6 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    StableHlo.nullary main_cst (constant S_ .f32 0x3F800000#32),
    StableHlo.unary main_cst main_v7 (broadcastInDim S650000 ![] bcast_S_S650000 : (⟨S_, .f32⟩ : BufTy).Contents (Elt F) → (⟨S650000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S650000x1 ![0] bcast_S650000_S650000x1_0 : (⟨S650000, .i32⟩ : BufTy).Contents (Elt F) → (⟨S650000x1, .i32⟩ : BufTy).Contents (Elt F)),
    StableHlo.ternary main_v8 main_v9 main_v7 main_v10 ((fun x i u => Host.scatterAdd scatter_S50000_S650000x1_S650000_n_0_0_1 x i u) : (⟨S50000, .f32⟩ : BufTy).Contents (Elt F) → (⟨S650000x1, .i32⟩ : BufTy).Contents (Elt F) → (⟨S650000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.unary main_v10 main_v13 (Host.rsqrt : (⟨S50000, .f32⟩ : BufTy).Contents (Elt F) → (⟨S50000, .f32⟩ : BufTy).Contents (Elt F)),
    StableHlo.nullary main_cst_2 (constant S_ .f32 0x00000000#32),
    StableHlo.TRef.unary (.of main_cst_2 : StableHlo.TRef sig ⟨S_, .f32⟩) main_call0.v0 id,
    StableHlo.TRef.unary main_call0.v0 main_call0.v1 (broadcastInDim S50000 ![] bcast_S_S50000),
    StableHlo.TRef.ternary (.of main_v12 : StableHlo.TRef sig ⟨S50000, .i1⟩) (.of main_v13 : StableHlo.TRef sig ⟨S50000, .f32⟩) main_call0.v1 main_call0.v2 select,
    StableHlo.nullary main_c (constantI S_ 32 0#32),
    StableHlo.unary main_c main_v15 (broadcastInDim S650000 ![] bcast_S_S650000 : (⟨S_, .i32⟩ : BufTy).Contents (Elt F) → (⟨S650000, .i32⟩ : BufTy).Contents (Elt F)),
    StableHlo.binary main_v3 main_v15 main_v16 (cmpi .slt : (⟨S650000, .i32⟩ : BufTy).Contents (Elt F) → (⟨S650000, .i32⟩ : BufTy).Contents (Elt F) → (⟨S650000, .i1⟩ : BufTy).Contents (Elt F)),
    StableHlo.nullary main_c_3 (constantI S_ 32 50000#32),
    StableHlo.unary main_c_3 main_v17 (broadcastInDim S650000 ![] bcast_S_S650000 : (⟨S_, .i32⟩ : BufTy).Contents (Elt F) → (⟨S650000, .i32⟩ : BufTy).Contents (Elt F)),
    StableHlo.binary main_v3 main_v17 main_v18 (addi : (⟨S650000, .i32⟩ : BufTy).Contents (Elt F) → (⟨S650000, .i32⟩ : BufTy).Contents (Elt F) → (⟨S650000, .i32⟩ : BufTy).Contents (Elt F)),
    StableHlo.ternary main_v16 main_v18 main_v3 main_v19 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    StableHlo.unary main_v19 main_v20 (broadcastInDim S650000x1 ![0] bcast_S650000_S650000x1_0 : (⟨S650000, .i32⟩ : BufTy).Contents (Elt F) → (⟨S650000x1, .i32⟩ : BufTy).Contents (Elt F)),
    StableHlo.binary main_v14 main_v20 main_v21 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
    StableHlo.nullary main_c_4 (constantI S_ 32 0#32),
    StableHlo.unary main_c_4 main_v22 (broadcastInDim S650000 ![] bcast_S_S650000 : (⟨S_, .i32⟩ : BufTy).Contents (Elt F) → (⟨S650000, .i32⟩ : BufTy).Contents (Elt F)),
    StableHlo.binary main_v6 main_v22 main_v23 (cmpi .slt : (⟨S650000, .i32⟩ : BufTy).Contents (Elt F) → (⟨S650000, .i32⟩ : BufTy).Contents (Elt F) → (⟨S650000, .i1⟩ : BufTy).Contents (Elt F)),
    StableHlo.nullary main_c_5 (constantI S_ 32 50000#32),
    StableHlo.unary main_c_5 main_v24 (broadcastInDim S650000 ![] bcast_S_S650000 : (⟨S_, .i32⟩ : BufTy).Contents (Elt F) → (⟨S650000, .i32⟩ : BufTy).Contents (Elt F)),
    StableHlo.binary main_v6 main_v24 main_v25 (addi : (⟨S650000, .i32⟩ : BufTy).Contents (Elt F) → (⟨S650000, .i32⟩ : BufTy).Contents (Elt F) → (⟨S650000, .i32⟩ : BufTy).Contents (Elt F)),
    StableHlo.ternary main_v23 main_v25 main_v6 main_v26 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    StableHlo.unary main_v26 main_v27 (broadcastInDim S650000x1 ![0] bcast_S650000_S650000x1_0 : (⟨S650000, .i32⟩ : BufTy).Contents (Elt F) → (⟨S650000x1, .i32⟩ : BufTy).Contents (Elt F)),
    StableHlo.binary main_v14 main_v27 main_v28 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
    StableHlo.binary main_v21 main_v28 main_v29 (mulf : (⟨S650000, .f32⟩ : BufTy).Contents (Elt F) → (⟨S650000, .f32⟩ : BufTy).Contents (Elt F) → (⟨S650000, .f32⟩ : BufTy).Contents (Elt F)),
    StableHlo.unary main_arg3 main_v30 ((transpose S128x128 [1, 0] · transposes_S128x128_S128x128_1_0) : (⟨S128x128, .f32⟩ : BufTy).Contents (Elt F) → (⟨S128x128, .f32⟩ : BufTy).Contents (Elt F)),
    StableHlo.binary main_arg0 main_v30 main_v31 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v32 (broadcastInDim S1x128 ![1] bcast_S128_S1x128_1 : (⟨S128, .f32⟩ : BufTy).Contents (Elt F) → (⟨S1x128, .f32⟩ : BufTy).Contents (Elt F)),
    StableHlo.unary main_v32 main_v33 (broadcastInDim S50000x128 ![0, 1] bcast_S1x128_S50000x128_0_1 : (⟨S1x128, .f32⟩ : BufTy).Contents (Elt F) → (⟨S50000x128, .f32⟩ : BufTy).Contents (Elt F)),
    StableHlo.binary main_v31 main_v33 main_v34 (addf : (⟨S50000x128, .f32⟩ : BufTy).Contents (Elt F) → (⟨S50000x128, .f32⟩ : BufTy).Contents (Elt F) → (⟨S50000x128, .f32⟩ : BufTy).Contents (Elt F)),
    StableHlo.unary main_arg5 main_v35 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v35 main_v36 rfl shapeCasts_S1x128x128_S128x128,
    StableHlo.unary main_arg6 main_v37 ((extractStridedSlice S1x128 ![0, 0] · slices_S4x128_S1x128_0_0) : (⟨S4x128, .f32⟩ : BufTy).Contents (Elt F) → (⟨S1x128, .f32⟩ : BufTy).Contents (Elt F)),
    StableHlo.reshape main_v37 main_v38 rfl shapeCasts_S1x128_S128,
    StableHlo.unary main_v36 main_v39 ((transpose S128x128 [1, 0] · transposes_S128x128_S128x128_1_0) : (⟨S128x128, .f32⟩ : BufTy).Contents (Elt F) → (⟨S128x128, .f32⟩ : BufTy).Contents (Elt F)),
    StableHlo.binary main_v34 main_v39 main_v40 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_6 (constantI S_ 32 0#32),
    StableHlo.unary main_c_6 main_v41 (broadcastInDim S650000 ![] bcast_S_S650000 : (⟨S_, .i32⟩ : BufTy).Contents (Elt F) → (⟨S650000, .i32⟩ : BufTy).Contents (Elt F)),
    StableHlo.binary main_v3 main_v41 main_v42 (cmpi .slt : (⟨S650000, .i32⟩ : BufTy).Contents (Elt F) → (⟨S650000, .i32⟩ : BufTy).Contents (Elt F) → (⟨S650000, .i1⟩ : BufTy).Contents (Elt F)),
    StableHlo.nullary main_c_7 (constantI S_ 32 50000#32),
    StableHlo.unary main_c_7 main_v43 (broadcastInDim S650000 ![] bcast_S_S650000 : (⟨S_, .i32⟩ : BufTy).Contents (Elt F) → (⟨S650000, .i32⟩ : BufTy).Contents (Elt F)),
    StableHlo.binary main_v3 main_v43 main_v44 (addi : (⟨S650000, .i32⟩ : BufTy).Contents (Elt F) → (⟨S650000, .i32⟩ : BufTy).Contents (Elt F) → (⟨S650000, .i32⟩ : BufTy).Contents (Elt F)),
    StableHlo.ternary main_v42 main_v44 main_v3 main_v45 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    StableHlo.unary main_v45 main_v46 (broadcastInDim S650000x1 ![0] bcast_S650000_S650000x1_0 : (⟨S650000, .i32⟩ : BufTy).Contents (Elt F) → (⟨S650000x1, .i32⟩ : BufTy).Contents (Elt F)),
    StableHlo.binary main_v40 main_v46 main_v47 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    StableHlo.unary main_v29 main_v48 (broadcastInDim S650000x1 ![0] bcast_S650000_S650000x1_0 : (⟨S650000, .f32⟩ : BufTy).Contents (Elt F) → (⟨S650000x1, .f32⟩ : BufTy).Contents (Elt F)),
    StableHlo.unary main_v48 main_v49 (broadcastInDim S650000x128 ![0, 1] bcast_S650000x1_S650000x128_0_1 : (⟨S650000x1, .f32⟩ : BufTy).Contents (Elt F) → (⟨S650000x128, .f32⟩ : BufTy).Contents (Elt F)) ]
/-- Window 0 is the straight line of its operations: both sides unfold to the same chain of steps. -/
theorem main_part0_eq (d : Dev nD) : main_part0 (F := F) d = seq win0 := by
  chain_rfl

/-- The operations of @main's window 1 (statements 61 … 120), the callees' operations at the call sites. -/
abbrev win1 : List (HloOp τ sig (Elt F)) :=
  [ StableHlo.binary main_v47 main_v49 main_v50 (mulf : (⟨S650000x128, .f32⟩ : BufTy).Contents (Elt F) → (⟨S650000x128, .f32⟩ : BufTy).Contents (Elt F) → (⟨S650000x128, .f32⟩ : BufTy).Contents (Elt F)),
    StableHlo.nullary main_cst_8 (constant S_ .f32 0x00000000#32),
    StableHlo.unary main_cst_8 main_v51 (broadcastInDim S50000x128 ![] bcast_S_S50000x128 : (⟨S_, .f32⟩ : BufTy).Contents (Elt F) → (⟨S50000x128, .f32⟩ : BufTy).Contents (Elt F)),
    StableHlo.unary main_v6 main_v52 (broadcastInDim S650000x1 ![0] bcast_S650000_S650000x1_0 : (⟨S650000, .i32⟩ : BufTy).Contents (Elt F) → (⟨S650000x1, .i32⟩ : BufTy).Contents (Elt F)),
    StableHlo.ternary main_v51 main_v52 main_v50 main_v53 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)),
    StableHlo.unary main_v38 main_v54 (broadcastInDim S1x128 ![1] bcast_S128_S1x128_1 : (⟨S128, .f32⟩ : BufTy).Contents (Elt F) → (⟨S1x128, .f32⟩ : BufTy).Contents (Elt F)),
    StableHlo.unary main_v54 main_v55 (broadcastInDim S50000x128 ![0, 1] bcast_S1x128_S50000x128_0_1 : (⟨S1x128, .f32⟩ : BufTy).Contents (Elt F) → (⟨S50000x128, .f32⟩ : BufTy).Contents (Elt F)),
    StableHlo.binary main_v53 main_v55 main_v56 (addf : (⟨S50000x128, .f32⟩ : BufTy).Contents (Elt F) → (⟨S50000x128, .f32⟩ : BufTy).Contents (Elt F) → (⟨S50000x128, .f32⟩ : BufTy).Contents (Elt F)),
    StableHlo.unary main_arg7 main_v57 ((extractStridedSlice S1x128 ![0, 0] · slices_S4x128_S1x128_0_0) : (⟨S4x128, .f32⟩ : BufTy).Contents (Elt F) → (⟨S1x128, .f32⟩ : BufTy).Contents (Elt F)),
    StableHlo.reshape main_v57 main_v58 rfl shapeCasts_S1x128_S128,
    StableHlo.unary main_arg8 main_v59 ((extractStridedSlice S1x128 ![0, 0] · slices_S4x128_S1x128_0_0) : (⟨S4x128, .f32⟩ : BufTy).Contents (Elt F) → (⟨S1x128, .f32⟩ : BufTy).Contents (Elt F)),
    StableHlo.reshape main_v59 main_v60 rfl shapeCasts_S1x128_S128,
    StableHlo.nullary main_cst_9 (constant S_ .f32 0x00000000#32),
    StableHlo.binary main_v56 main_cst_9 main_v61 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_10 (constant S_ .f32 0x47435000#32),
    StableHlo.unary main_cst_10 main_v62 (broadcastInDim S128 ![] bcast_S_S128 : (⟨S_, .f32⟩ : BufTy).Contents (Elt F) → (⟨S128, .f32⟩ : BufTy).Contents (Elt F)),
    StableHlo.binary main_v61 main_v62 main_v63 (Host.divf : (⟨S128, .f32⟩ : BufTy).Contents (Elt F) → (⟨S128, .f32⟩ : BufTy).Contents (Elt F) → (⟨S128, .f32⟩ : BufTy).Contents (Elt F)),
    StableHlo.nullary main_c_11 (constantI S_ 32 0#32),
    StableHlo.TRef.nullary main_call1.cst (constant S_ .f32 0x00000000#32),
    StableHlo.TRef.binary (.of main_v56 : StableHlo.TRef sig ⟨S50000x128, .f32⟩) main_call1.cst main_call1.v0 (fun x v => Host.reduceAdd x v reducesTo_S50000x128_S128_d0 h_S_),
    StableHlo.TRef.unary main_call1.v0 main_call1.v1 (broadcastInDim S1x128 ![1] bcast_S128_S1x128_1),
    StableHlo.TRef.nullary main_call1.cst_0 (constant S_ .f32 0x47435000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S50000x128 ![0, 1] bcast_S1x128_S50000x128_0_1),
    StableHlo.TRef.binary (.of main_v56 : StableHlo.TRef sig ⟨S50000x128, .f32⟩) main_call1.v4 main_call1.v5 subf,
    StableHlo.TRef.binary main_call1.v5 main_call1.v5 main_call1.v6 mulf,
    StableHlo.TRef.unary (.of main_c_11 : StableHlo.TRef sig ⟨S_, .i32⟩) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b),
    StableHlo.unary main_v63 main_v65 (broadcastInDim S1x128 ![1] bcast_S128_S1x128_1 : (⟨S128, .f32⟩ : BufTy).Contents (Elt F) → (⟨S1x128, .f32⟩ : BufTy).Contents (Elt F)),
    StableHlo.unary main_v65 main_v66 (broadcastInDim S50000x128 ![0, 1] bcast_S1x128_S50000x128_0_1 : (⟨S1x128, .f32⟩ : BufTy).Contents (Elt F) → (⟨S50000x128, .f32⟩ : BufTy).Contents (Elt F)),
    StableHlo.binary main_v56 main_v66 main_v67 (subf : (⟨S50000x128, .f32⟩ : BufTy).Contents (Elt F) → (⟨S50000x128, .f32⟩ : BufTy).Contents (Elt F) → (⟨S50000x128, .f32⟩ : BufTy).Contents (Elt F)),
    StableHlo.nullary main_cst_12 (constant S_ .f32 0x3727C5AC#32),
    StableHlo.unary main_cst_12 main_v68 (broadcastInDim S128 ![] bcast_S_S128 : (⟨S_, .f32⟩ : BufTy).Contents (Elt F) → (⟨S128, .f32⟩ : BufTy).Contents (Elt F)),
    StableHlo.binary main_v64 main_v68 main_v69 (addf : (⟨S128, .f32⟩ : BufTy).Contents (Elt F) → (⟨S128, .f32⟩ : BufTy).Contents (Elt F) → (⟨S128, .f32⟩ : BufTy).Contents (Elt F)),
    StableHlo.unary main_v69 main_v70 (Host.rsqrt : (⟨S128, .f32⟩ : BufTy).Contents (Elt F) → (⟨S128, .f32⟩ : BufTy).Contents (Elt F)),
    StableHlo.unary main_v70 main_v71 (broadcastInDim S1x128 ![1] bcast_S128_S1x128_1 : (⟨S128, .f32⟩ : BufTy).Contents (Elt F) → (⟨S1x128, .f32⟩ : BufTy).Contents (Elt F)),
    StableHlo.unary main_v71 main_v72 (broadcastInDim S50000x128 ![0, 1] bcast_S1x128_S50000x128_0_1 : (⟨S1x128, .f32⟩ : BufTy).Contents (Elt F) → (⟨S50000x128, .f32⟩ : BufTy).Contents (Elt F)),
    StableHlo.binary main_v67 main_v72 main_v73 (mulf : (⟨S50000x128, .f32⟩ : BufTy).Contents (Elt F) → (⟨S50000x128, .f32⟩ : BufTy).Contents (Elt F) → (⟨S50000x128, .f32⟩ : BufTy).Contents (Elt F)),
    StableHlo.unary main_v58 main_v74 (broadcastInDim S1x128 ![1] bcast_S128_S1x128_1 : (⟨S128, .f32⟩ : BufTy).Contents (Elt F) → (⟨S1x128, .f32⟩ : BufTy).Contents (Elt F)),
    StableHlo.unary main_v74 main_v75 (broadcastInDim S50000x128 ![0, 1] bcast_S1x128_S50000x128_0_1 : (⟨S1x128, .f32⟩ : BufTy).Contents (Elt F) → (⟨S50000x128, .f32⟩ : BufTy).Contents (Elt F)),
    StableHlo.binary main_v73 main_v75 main_v76 (mulf : (⟨S50000x128, .f32⟩ : BufTy).Contents (Elt F) → (⟨S50000x128, .f32⟩ : BufTy).Contents (Elt F) → (⟨S50000x128, .f32⟩ : BufTy).Contents (Elt F)),
    StableHlo.unary main_v60 main_v77 (broadcastInDim S1x128 ![1] bcast_S128_S1x128_1 : (⟨S128, .f32⟩ : BufTy).Contents (Elt F) → (⟨S1x128, .f32⟩ : BufTy).Contents (Elt F)),
    StableHlo.unary main_v77 main_v78 (broadcastInDim S50000x128 ![0, 1] bcast_S1x128_S50000x128_0_1 : (⟨S1x128, .f32⟩ : BufTy).Contents (Elt F) → (⟨S50000x128, .f32⟩ : BufTy).Contents (Elt F)),
    StableHlo.binary main_v76 main_v78 main_v79 (addf : (⟨S50000x128, .f32⟩ : BufTy).Contents (Elt F) → (⟨S50000x128, .f32⟩ : BufTy).Contents (Elt F) → (⟨S50000x128, .f32⟩ : BufTy).Contents (Elt F)),
    StableHlo.TRef.nullary main_call2.cst (constant S_ .f32 0x00000000#32),
    StableHlo.TRef.unary main_call2.cst main_call2.v0 (broadcastInDim S50000x128 ![] bcast_S_S50000x128),
    StableHlo.TRef.binary (.of main_v79 : StableHlo.TRef sig ⟨S50000x128, .f32⟩) main_call2.v0 main_call2.v1 maximumf,
    StableHlo.binary main_v80 main_v34 main_v81 (addf : (⟨S50000x128, .f32⟩ : BufTy).Contents (Elt F) → (⟨S50000x128, .f32⟩ : BufTy).Contents (Elt F) → (⟨S50000x128, .f32⟩ : BufTy).Contents (Elt F)),
    StableHlo.unary main_arg5 main_v82 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v82 main_v83 rfl shapeCasts_S1x128x128_S128x128,
    StableHlo.unary main_arg6 main_v84 ((extractStridedSlice S1x128 ![1, 0] · slices_S4x128_S1x128_1_0) : (⟨S4x128, .f32⟩ : BufTy).Contents (Elt F) → (⟨S1x128, .f32⟩ : BufTy).Contents (Elt F)),
    StableHlo.reshape main_v84 main_v85 rfl shapeCasts_S1x128_S128,
    StableHlo.unary main_v83 main_v86 ((transpose S128x128 [1, 0] · transposes_S128x128_S128x128_1_0) : (⟨S128x128, .f32⟩ : BufTy).Contents (Elt F) → (⟨S128x128, .f32⟩ : BufTy).Contents (Elt F)),
    StableHlo.binary main_v81 main_v86 main_v87 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_13 (constantI S_ 32 0#32),
    StableHlo.unary main_c_13 main_v88 (broadcastInDim S650000 ![] bcast_S_S650000 : (⟨S_, .i32⟩ : BufTy).Contents (Elt F) → (⟨S650000, .i32⟩ : BufTy).Contents (Elt F)),
    StableHlo.binary main_v3 main_v88 main_v89 (cmpi .slt : (⟨S650000, .i32⟩ : BufTy).Contents (Elt F) → (⟨S650000, .i32⟩ : BufTy).Contents (Elt F) → (⟨S650000, .i1⟩ : BufTy).Contents (Elt F)),
    StableHlo.nullary main_c_14 (constantI S_ 32 50000#32),
    StableHlo.unary main_c_14 main_v90 (broadcastInDim S650000 ![] bcast_S_S650000 : (⟨S_, .i32⟩ : BufTy).Contents (Elt F) → (⟨S650000, .i32⟩ : BufTy).Contents (Elt F)),
    StableHlo.binary main_v3 main_v90 main_v91 (addi : (⟨S650000, .i32⟩ : BufTy).Contents (Elt F) → (⟨S650000, .i32⟩ : BufTy).Contents (Elt F) → (⟨S650000, .i32⟩ : BufTy).Contents (Elt F)),
    StableHlo.ternary main_v89 main_v91 main_v3 main_v92 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    StableHlo.unary main_v92 main_v93 (broadcastInDim S650000x1 ![0] bcast_S650000_S650000x1_0 : (⟨S650000, .i32⟩ : BufTy).Contents (Elt F) → (⟨S650000x1, .i32⟩ : BufTy).Contents (Elt F)),
    StableHlo.binary main_v87 main_v93 main_v94 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    StableHlo.unary main_v29 main_v95 (broadcastInDim S650000x1 ![0] bcast_S650000_S650000x1_0 : (⟨S650000, .f32⟩ : BufTy).Contents (Elt F) → (⟨S650000x1, .f32⟩ : BufTy).Contents (Elt F)),
    StableHlo.unary main_v95 main_v96 (broadcastInDim S650000x128 ![0, 1] bcast_S650000x1_S650000x128_0_1 : (⟨S650000x1, .f32⟩ : BufTy).Contents (Elt F) → (⟨S650000x128, .f32⟩ : BufTy).Contents (Elt F)),
    StableHlo.binary main_v94 main_v96 main_v97 (mulf : (⟨S650000x128, .f32⟩ : BufTy).Contents (Elt F) → (⟨S650000x128, .f32⟩ : BufTy).Contents (Elt F) → (⟨S650000x128, .f32⟩ : BufTy).Contents (Elt F)),
    StableHlo.nullary main_cst_15 (constant S_ .f32 0x00000000#32),
    StableHlo.unary main_cst_15 main_v98 (broadcastInDim S50000x128 ![] bcast_S_S50000x128 : (⟨S_, .f32⟩ : BufTy).Contents (Elt F) → (⟨S50000x128, .f32⟩ : BufTy).Contents (Elt F)),
    StableHlo.unary main_v6 main_v99 (broadcastInDim S650000x1 ![0] bcast_S650000_S650000x1_0 : (⟨S650000, .i32⟩ : BufTy).Contents (Elt F) → (⟨S650000x1, .i32⟩ : BufTy).Contents (Elt F)),
    StableHlo.ternary main_v98 main_v99 main_v97 main_v100 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)),
    StableHlo.unary main_v85 main_v101 (broadcastInDim S1x128 ![1] bcast_S128_S1x128_1 : (⟨S128, .f32⟩ : BufTy).Contents (Elt F) → (⟨S1x128, .f32⟩ : BufTy).Contents (Elt F)) ]
/-- Window 1 is the straight line of its operations: both sides unfold to the same chain of steps. -/
theorem main_part1_eq (d : Dev nD) : main_part1 (F := F) d = seq win1 := by
  chain_rfl

/-- The operations of @main's window 2 (statements 121 … 180), the callees' operations at the call sites. -/
abbrev win2 : List (HloOp τ sig (Elt F)) :=
  [ StableHlo.unary main_v101 main_v102 (broadcastInDim S50000x128 ![0, 1] bcast_S1x128_S50000x128_0_1 : (⟨S1x128, .f32⟩ : BufTy).Contents (Elt F) → (⟨S50000x128, .f32⟩ : BufTy).Contents (Elt F)),
    StableHlo.binary main_v100 main_v102 main_v103 (addf : (⟨S50000x128, .f32⟩ : BufTy).Contents (Elt F) → (⟨S50000x128, .f32⟩ : BufTy).Contents (Elt F) → (⟨S50000x128, .f32⟩ : BufTy).Contents (Elt F)),
    StableHlo.unary main_arg7 main_v104 ((extractStridedSlice S1x128 ![1, 0] · slices_S4x128_S1x128_1_0) : (⟨S4x128, .f32⟩ : BufTy).Contents (Elt F) → (⟨S1x128, .f32⟩ : BufTy).Contents (Elt F)),
    StableHlo.reshape main_v104 main_v105 rfl shapeCasts_S1x128_S128,
    StableHlo.unary main_arg8 main_v106 ((extractStridedSlice S1x128 ![1, 0] · slices_S4x128_S1x128_1_0) : (⟨S4x128, .f32⟩ : BufTy).Contents (Elt F) → (⟨S1x128, .f32⟩ : BufTy).Contents (Elt F)),
    StableHlo.reshape main_v106 main_v107 rfl shapeCasts_S1x128_S128,
    StableHlo.nullary main_cst_16 (constant S_ .f32 0x00000000#32),
    StableHlo.binary main_v103 main_cst_16 main_v108 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_17 (constant S_ .f32 0x47435000#32),
    StableHlo.unary main_cst_17 main_v109 (broadcastInDim S128 ![] bcast_S_S128 : (⟨S_, .f32⟩ : BufTy).Contents (Elt F) → (⟨S128, .f32⟩ : BufTy).Contents (Elt F)),
    StableHlo.binary main_v108 main_v109 main_v110 (Host.divf : (⟨S128, .f32⟩ : BufTy).Contents (Elt F) → (⟨S128, .f32⟩ : BufTy).Contents (Elt F) → (⟨S128, .f32⟩ : BufTy).Contents (Elt F)),
    StableHlo.nullary main_c_18 (constantI S_ 32 0#32),
    StableHlo.TRef.nullary main_call3.cst (constant S_ .f32 0x00000000#32),
    StableHlo.TRef.binary (.of main_v103 : StableHlo.TRef sig ⟨S50000x128, .f32⟩) main_call3.cst main_call3.v0 (fun x v => Host.reduceAdd x v reducesTo_S50000x128_S128_d0 h_S_),
    StableHlo.TRef.unary main_call3.v0 main_call3.v1 (broadcastInDim S1x128 ![1] bcast_S128_S1x128_1),
    StableHlo.TRef.nullary main_call3.cst_0 (constant S_ .f32 0x47435000#32),
    StableHlo.TRef.unary main_call3.cst_0 main_call3.v2 (broadcastInDim S1x128 ![] bcast_S_S1x128),
    StableHlo.TRef.binary main_call3.v1 main_call3.v2 main_call3.v3 Host.divf,
    StableHlo.TRef.unary main_call3.v3 main_call3.v4 (broadcastInDim S50000x128 ![0, 1] bcast_S1x128_S50000x128_0_1),
    StableHlo.TRef.binary (.of main_v103 : StableHlo.TRef sig ⟨S50000x128, .f32⟩) main_call3.v4 main_call3.v5 subf,
    StableHlo.TRef.binary main_call3.v5 main_call3.v5 main_call3.v6 mulf,
    StableHlo.TRef.unary (.of main_c_18 : StableHlo.TRef sig ⟨S_, .i32⟩) main_call3.v7 (sitofp .f32),
    StableHlo.TRef.nullary main_call3.cst_1 (constant S_ .f32 0x47435000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S50000x128_S128_d0 h_S_),
    StableHlo.TRef.unary main_call3.v8 main_call3.v10 (broadcastInDim S128 ![] bcast_S_S128),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S128 ![] bcast_S_S128),
    StableHlo.TRef.ternary main_call3.v12 main_call3.v11 main_call3.call0.v1 main_call3.call0.v2 (fun p a b => select (broadcastInDim S128 ![] bcast_S_S128 p) a b),
    StableHlo.unary main_v110 main_v112 (broadcastInDim S1x128 ![1] bcast_S128_S1x128_1 : (⟨S128, .f32⟩ : BufTy).Contents (Elt F) → (⟨S1x128, .f32⟩ : BufTy).Contents (Elt F)),
    StableHlo.unary main_v112 main_v113 (broadcastInDim S50000x128 ![0, 1] bcast_S1x128_S50000x128_0_1 : (⟨S1x128, .f32⟩ : BufTy).Contents (Elt F) → (⟨S50000x128, .f32⟩ : BufTy).Contents (Elt F)),
    StableHlo.binary main_v103 main_v113 main_v114 (subf : (⟨S50000x128, .f32⟩ : BufTy).Contents (Elt F) → (⟨S50000x128, .f32⟩ : BufTy).Contents (Elt F) → (⟨S50000x128, .f32⟩ : BufTy).Contents (Elt F)),
    StableHlo.nullary main_cst_19 (constant S_ .f32 0x3727C5AC#32),
    StableHlo.unary main_cst_19 main_v115 (broadcastInDim S128 ![] bcast_S_S128 : (⟨S_, .f32⟩ : BufTy).Contents (Elt F) → (⟨S128, .f32⟩ : BufTy).Contents (Elt F)),
    StableHlo.binary main_v111 main_v115 main_v116 (addf : (⟨S128, .f32⟩ : BufTy).Contents (Elt F) → (⟨S128, .f32⟩ : BufTy).Contents (Elt F) → (⟨S128, .f32⟩ : BufTy).Contents (Elt F)),
    StableHlo.unary main_v116 main_v117 (Host.rsqrt : (⟨S128, .f32⟩ : BufTy).Contents (Elt F) → (⟨S128, .f32⟩ : BufTy).Contents (Elt F)),
    StableHlo.unary main_v117 main_v118 (broadcastInDim S1x128 ![1] bcast_S128_S1x128_1 : (⟨S128, .f32⟩ : BufTy).Contents (Elt F) → (⟨S1x128, .f32⟩ : BufTy).Contents (Elt F)),
    StableHlo.unary main_v118 main_v119 (broadcastInDim S50000x128 ![0, 1] bcast_S1x128_S50000x128_0_1 : (⟨S1x128, .f32⟩ : BufTy).Contents (Elt F) → (⟨S50000x128, .f32⟩ : BufTy).Contents (Elt F)),
    StableHlo.binary main_v114 main_v119 main_v120 (mulf : (⟨S50000x128, .f32⟩ : BufTy).Contents (Elt F) → (⟨S50000x128, .f32⟩ : BufTy).Contents (Elt F) → (⟨S50000x128, .f32⟩ : BufTy).Contents (Elt F)),
    StableHlo.unary main_v105 main_v121 (broadcastInDim S1x128 ![1] bcast_S128_S1x128_1 : (⟨S128, .f32⟩ : BufTy).Contents (Elt F) → (⟨S1x128, .f32⟩ : BufTy).Contents (Elt F)),
    StableHlo.unary main_v121 main_v122 (broadcastInDim S50000x128 ![0, 1] bcast_S1x128_S50000x128_0_1 : (⟨S1x128, .f32⟩ : BufTy).Contents (Elt F) → (⟨S50000x128, .f32⟩ : BufTy).Contents (Elt F)),
    StableHlo.binary main_v120 main_v122 main_v123 (mulf : (⟨S50000x128, .f32⟩ : BufTy).Contents (Elt F) → (⟨S50000x128, .f32⟩ : BufTy).Contents (Elt F) → (⟨S50000x128, .f32⟩ : BufTy).Contents (Elt F)),
    StableHlo.unary main_v107 main_v124 (broadcastInDim S1x128 ![1] bcast_S128_S1x128_1 : (⟨S128, .f32⟩ : BufTy).Contents (Elt F) → (⟨S1x128, .f32⟩ : BufTy).Contents (Elt F)),
    StableHlo.unary main_v124 main_v125 (broadcastInDim S50000x128 ![0, 1] bcast_S1x128_S50000x128_0_1 : (⟨S1x128, .f32⟩ : BufTy).Contents (Elt F) → (⟨S50000x128, .f32⟩ : BufTy).Contents (Elt F)),
    StableHlo.binary main_v123 main_v125 main_v126 (addf : (⟨S50000x128, .f32⟩ : BufTy).Contents (Elt F) → (⟨S50000x128, .f32⟩ : BufTy).Contents (Elt F) → (⟨S50000x128, .f32⟩ : BufTy).Contents (Elt F)),
    StableHlo.TRef.nullary main_call4.cst (constant S_ .f32 0x00000000#32),
    StableHlo.TRef.unary main_call4.cst main_call4.v0 (broadcastInDim S50000x128 ![] bcast_S_S50000x128),
    StableHlo.TRef.binary (.of main_v126 : StableHlo.TRef sig ⟨S50000x128, .f32⟩) main_call4.v0 main_call4.v1 maximumf,
    StableHlo.binary main_v127 main_v81 main_v128 (addf : (⟨S50000x128, .f32⟩ : BufTy).Contents (Elt F) → (⟨S50000x128, .f32⟩ : BufTy).Contents (Elt F) → (⟨S50000x128, .f32⟩ : BufTy).Contents (Elt F)),
    StableHlo.unary main_arg5 main_v129 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v129 main_v130 rfl shapeCasts_S1x128x128_S128x128,
    StableHlo.unary main_arg6 main_v131 ((extractStridedSlice S1x128 ![2, 0] · slices_S4x128_S1x128_2_0) : (⟨S4x128, .f32⟩ : BufTy).Contents (Elt F) → (⟨S1x128, .f32⟩ : BufTy).Contents (Elt F)),
    StableHlo.reshape main_v131 main_v132 rfl shapeCasts_S1x128_S128,
    StableHlo.unary main_v130 main_v133 ((transpose S128x128 [1, 0] · transposes_S128x128_S128x128_1_0) : (⟨S128x128, .f32⟩ : BufTy).Contents (Elt F) → (⟨S128x128, .f32⟩ : BufTy).Contents (Elt F)),
    StableHlo.binary main_v128 main_v133 main_v134 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_20 (constantI S_ 32 0#32),
    StableHlo.unary main_c_20 main_v135 (broadcastInDim S650000 ![] bcast_S_S650000 : (⟨S_, .i32⟩ : BufTy).Contents (Elt F) → (⟨S650000, .i32⟩ : BufTy).Contents (Elt F)),
    StableHlo.binary main_v3 main_v135 main_v136 (cmpi .slt : (⟨S650000, .i32⟩ : BufTy).Contents (Elt F) → (⟨S650000, .i32⟩ : BufTy).Contents (Elt F) → (⟨S650000, .i1⟩ : BufTy).Contents (Elt F)),
    StableHlo.nullary main_c_21 (constantI S_ 32 50000#32),
    StableHlo.unary main_c_21 main_v137 (broadcastInDim S650000 ![] bcast_S_S650000 : (⟨S_, .i32⟩ : BufTy).Contents (Elt F) → (⟨S650000, .i32⟩ : BufTy).Contents (Elt F)),
    StableHlo.binary main_v3 main_v137 main_v138 (addi : (⟨S650000, .i32⟩ : BufTy).Contents (Elt F) → (⟨S650000, .i32⟩ : BufTy).Contents (Elt F) → (⟨S650000, .i32⟩ : BufTy).Contents (Elt F)),
    StableHlo.ternary main_v136 main_v138 main_v3 main_v139 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    StableHlo.unary main_v139 main_v140 (broadcastInDim S650000x1 ![0] bcast_S650000_S650000x1_0 : (⟨S650000, .i32⟩ : BufTy).Contents (Elt F) → (⟨S650000x1, .i32⟩ : BufTy).Contents (Elt F)),
    StableHlo.binary main_v134 main_v140 main_v141 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    StableHlo.unary main_v29 main_v142 (broadcastInDim S650000x1 ![0] bcast_S650000_S650000x1_0 : (⟨S650000, .f32⟩ : BufTy).Contents (Elt F) → (⟨S650000x1, .f32⟩ : BufTy).Contents (Elt F)),
    StableHlo.unary main_v142 main_v143 (broadcastInDim S650000x128 ![0, 1] bcast_S650000x1_S650000x128_0_1 : (⟨S650000x1, .f32⟩ : BufTy).Contents (Elt F) → (⟨S650000x128, .f32⟩ : BufTy).Contents (Elt F)),
    StableHlo.binary main_v141 main_v143 main_v144 (mulf : (⟨S650000x128, .f32⟩ : BufTy).Contents (Elt F) → (⟨S650000x128, .f32⟩ : BufTy).Contents (Elt F) → (⟨S650000x128, .f32⟩ : BufTy).Contents (Elt F)),
    StableHlo.nullary main_cst_22 (constant S_ .f32 0x00000000#32),
    StableHlo.unary main_cst_22 main_v145 (broadcastInDim S50000x128 ![] bcast_S_S50000x128 : (⟨S_, .f32⟩ : BufTy).Contents (Elt F) → (⟨S50000x128, .f32⟩ : BufTy).Contents (Elt F)),
    StableHlo.unary main_v6 main_v146 (broadcastInDim S650000x1 ![0] bcast_S650000_S650000x1_0 : (⟨S650000, .i32⟩ : BufTy).Contents (Elt F) → (⟨S650000x1, .i32⟩ : BufTy).Contents (Elt F)),
    StableHlo.ternary main_v145 main_v146 main_v144 main_v147 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)),
    StableHlo.unary main_v132 main_v148 (broadcastInDim S1x128 ![1] bcast_S128_S1x128_1 : (⟨S128, .f32⟩ : BufTy).Contents (Elt F) → (⟨S1x128, .f32⟩ : BufTy).Contents (Elt F)),
    StableHlo.unary main_v148 main_v149 (broadcastInDim S50000x128 ![0, 1] bcast_S1x128_S50000x128_0_1 : (⟨S1x128, .f32⟩ : BufTy).Contents (Elt F) → (⟨S50000x128, .f32⟩ : BufTy).Contents (Elt F)),
    StableHlo.binary main_v147 main_v149 main_v150 (addf : (⟨S50000x128, .f32⟩ : BufTy).Contents (Elt F) → (⟨S50000x128, .f32⟩ : BufTy).Contents (Elt F) → (⟨S50000x128, .f32⟩ : BufTy).Contents (Elt F)),
    StableHlo.unary main_arg7 main_v151 ((extractStridedSlice S1x128 ![2, 0] · slices_S4x128_S1x128_2_0) : (⟨S4x128, .f32⟩ : BufTy).Contents (Elt F) → (⟨S1x128, .f32⟩ : BufTy).Contents (Elt F)),
    StableHlo.reshape main_v151 main_v152 rfl shapeCasts_S1x128_S128,
    StableHlo.unary main_arg8 main_v153 ((extractStridedSlice S1x128 ![2, 0] · slices_S4x128_S1x128_2_0) : (⟨S4x128, .f32⟩ : BufTy).Contents (Elt F) → (⟨S1x128, .f32⟩ : BufTy).Contents (Elt F)),
    StableHlo.reshape main_v153 main_v154 rfl shapeCasts_S1x128_S128 ]
/-- Window 2 is the straight line of its operations: both sides unfold to the same chain of steps. -/
theorem main_part2_eq (d : Dev nD) : main_part2 (F := F) d = seq win2 := by
  chain_rfl

/-- The operations of @main's window 3 (statements 181 … 240), the callees' operations at the call sites. -/
abbrev win3 : List (HloOp τ sig (Elt F)) :=
  [ StableHlo.nullary main_cst_23 (constant S_ .f32 0x00000000#32),
    StableHlo.binary main_v150 main_cst_23 main_v155 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_24 (constant S_ .f32 0x47435000#32),
    StableHlo.unary main_cst_24 main_v156 (broadcastInDim S128 ![] bcast_S_S128 : (⟨S_, .f32⟩ : BufTy).Contents (Elt F) → (⟨S128, .f32⟩ : BufTy).Contents (Elt F)),
    StableHlo.binary main_v155 main_v156 main_v157 (Host.divf : (⟨S128, .f32⟩ : BufTy).Contents (Elt F) → (⟨S128, .f32⟩ : BufTy).Contents (Elt F) → (⟨S128, .f32⟩ : BufTy).Contents (Elt F)),
    StableHlo.nullary main_c_25 (constantI S_ 32 0#32),
    StableHlo.TRef.nullary main_call5.cst (constant S_ .f32 0x00000000#32),
    StableHlo.TRef.binary (.of main_v150 : StableHlo.TRef sig ⟨S50000x128, .f32⟩) main_call5.cst main_call5.v0 (fun x v => Host.reduceAdd x v reducesTo_S50000x128_S128_d0 h_S_),
    StableHlo.TRef.unary main_call5.v0 main_call5.v1 (broadcastInDim S1x128 ![1] bcast_S128_S1x128_1),
    StableHlo.TRef.nullary main_call5.cst_0 (constant S_ .f32 0x47435000#32),
    StableHlo.TRef.unary main_call5.cst_0 main_call5.v2 (broadcastInDim S1x128 ![] bcast_S_S1x128),
    StableHlo.TRef.binary main_call5.v1 main_call5.v2 main_call5.v3 Host.divf,
    StableHlo.TRef.unary main_call5.v3 main_call5.v4 (broadcastInDim S50000x128 ![0, 1] bcast_S1x128_S50000x128_0_1),
    StableHlo.TRef.binary (.of main_v150 : StableHlo.TRef sig ⟨S50000x128, .f32⟩) main_call5.v4 main_call5.v5 subf,
    StableHlo.TRef.binary main_call5.v5 main_call5.v5 main_call5.v6 mulf,
    StableHlo.TRef.unary (.of main_c_25 : StableHlo.TRef sig ⟨S_, .i32⟩) main_call5.v7 (sitofp .f32),
    StableHlo.TRef.nullary main_call5.cst_1 (constant S_ .f32 0x47435000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S50000x128_S128_d0 h_S_),
    StableHlo.TRef.unary main_call5.v8 main_call5.v10 (broadcastInDim S128 ![] bcast_S_S128),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S128 ![] bcast_S_S128),
    StableHlo.TRef.ternary main_call5.v12 main_call5.v11 main_call5.call0.v1 main_call5.call0.v2 (fun p a b => select (broadcastInDim S128 ![] bcast_S_S128 p) a b),
    StableHlo.unary main_v157 main_v159 (broadcastInDim S1x128 ![1] bcast_S128_S1x128_1 : (⟨S128, .f32⟩ : BufTy).Contents (Elt F) → (⟨S1x128, .f32⟩ : BufTy).Contents (Elt F)),
    StableHlo.unary main_v159 main_v160 (broadcastInDim S50000x128 ![0, 1] bcast_S1x128_S50000x128_0_1 : (⟨S1x128, .f32⟩ : BufTy).Contents (Elt F) → (⟨S50000x128, .f32⟩ : BufTy).Contents (Elt F)),
    StableHlo.binary main_v150 main_v160 main_v161 (subf : (⟨S50000x128, .f32⟩ : BufTy).Contents (Elt F) → (⟨S50000x128, .f32⟩ : BufTy).Contents (Elt F) → (⟨S50000x128, .f32⟩ : BufTy).Contents (Elt F)),
    StableHlo.nullary main_cst_26 (constant S_ .f32 0x3727C5AC#32),
    StableHlo.unary main_cst_26 main_v162 (broadcastInDim S128 ![] bcast_S_S128 : (⟨S_, .f32⟩ : BufTy).Contents (Elt F) → (⟨S128, .f32⟩ : BufTy).Contents (Elt F)),
    StableHlo.binary main_v158 main_v162 main_v163 (addf : (⟨S128, .f32⟩ : BufTy).Contents (Elt F) → (⟨S128, .f32⟩ : BufTy).Contents (Elt F) → (⟨S128, .f32⟩ : BufTy).Contents (Elt F)),
    StableHlo.unary main_v163 main_v164 (Host.rsqrt : (⟨S128, .f32⟩ : BufTy).Contents (Elt F) → (⟨S128, .f32⟩ : BufTy).Contents (Elt F)),
    StableHlo.unary main_v164 main_v165 (broadcastInDim S1x128 ![1] bcast_S128_S1x128_1 : (⟨S128, .f32⟩ : BufTy).Contents (Elt F) → (⟨S1x128, .f32⟩ : BufTy).Contents (Elt F)),
    StableHlo.unary main_v165 main_v166 (broadcastInDim S50000x128 ![0, 1] bcast_S1x128_S50000x128_0_1 : (⟨S1x128, .f32⟩ : BufTy).Contents (Elt F) → (⟨S50000x128, .f32⟩ : BufTy).Contents (Elt F)),
    StableHlo.binary main_v161 main_v166 main_v167 (mulf : (⟨S50000x128, .f32⟩ : BufTy).Contents (Elt F) → (⟨S50000x128, .f32⟩ : BufTy).Contents (Elt F) → (⟨S50000x128, .f32⟩ : BufTy).Contents (Elt F)),
    StableHlo.unary main_v152 main_v168 (broadcastInDim S1x128 ![1] bcast_S128_S1x128_1 : (⟨S128, .f32⟩ : BufTy).Contents (Elt F) → (⟨S1x128, .f32⟩ : BufTy).Contents (Elt F)),
    StableHlo.unary main_v168 main_v169 (broadcastInDim S50000x128 ![0, 1] bcast_S1x128_S50000x128_0_1 : (⟨S1x128, .f32⟩ : BufTy).Contents (Elt F) → (⟨S50000x128, .f32⟩ : BufTy).Contents (Elt F)),
    StableHlo.binary main_v167 main_v169 main_v170 (mulf : (⟨S50000x128, .f32⟩ : BufTy).Contents (Elt F) → (⟨S50000x128, .f32⟩ : BufTy).Contents (Elt F) → (⟨S50000x128, .f32⟩ : BufTy).Contents (Elt F)),
    StableHlo.unary main_v154 main_v171 (broadcastInDim S1x128 ![1] bcast_S128_S1x128_1 : (⟨S128, .f32⟩ : BufTy).Contents (Elt F) → (⟨S1x128, .f32⟩ : BufTy).Contents (Elt F)),
    StableHlo.unary main_v171 main_v172 (broadcastInDim S50000x128 ![0, 1] bcast_S1x128_S50000x128_0_1 : (⟨S1x128, .f32⟩ : BufTy).Contents (Elt F) → (⟨S50000x128, .f32⟩ : BufTy).Contents (Elt F)),
    StableHlo.binary main_v170 main_v172 main_v173 (addf : (⟨S50000x128, .f32⟩ : BufTy).Contents (Elt F) → (⟨S50000x128, .f32⟩ : BufTy).Contents (Elt F) → (⟨S50000x128, .f32⟩ : BufTy).Contents (Elt F)),
    StableHlo.TRef.nullary main_call6.cst (constant S_ .f32 0x00000000#32),
    StableHlo.TRef.unary main_call6.cst main_call6.v0 (broadcastInDim S50000x128 ![] bcast_S_S50000x128),
    StableHlo.TRef.binary (.of main_v173 : StableHlo.TRef sig ⟨S50000x128, .f32⟩) main_call6.v0 main_call6.v1 maximumf,
    StableHlo.binary main_v174 main_v128 main_v175 (addf : (⟨S50000x128, .f32⟩ : BufTy).Contents (Elt F) → (⟨S50000x128, .f32⟩ : BufTy).Contents (Elt F) → (⟨S50000x128, .f32⟩ : BufTy).Contents (Elt F)),
    StableHlo.unary main_arg5 main_v176 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v176 main_v177 rfl shapeCasts_S1x128x128_S128x128,
    StableHlo.unary main_arg6 main_v178 ((extractStridedSlice S1x128 ![3, 0] · slices_S4x128_S1x128_3_0) : (⟨S4x128, .f32⟩ : BufTy).Contents (Elt F) → (⟨S1x128, .f32⟩ : BufTy).Contents (Elt F)),
    StableHlo.reshape main_v178 main_v179 rfl shapeCasts_S1x128_S128,
    StableHlo.unary main_v177 main_v180 ((transpose S128x128 [1, 0] · transposes_S128x128_S128x128_1_0) : (⟨S128x128, .f32⟩ : BufTy).Contents (Elt F) → (⟨S128x128, .f32⟩ : BufTy).Contents (Elt F)),
    StableHlo.binary main_v175 main_v180 main_v181 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_27 (constantI S_ 32 0#32),
    StableHlo.unary main_c_27 main_v182 (broadcastInDim S650000 ![] bcast_S_S650000 : (⟨S_, .i32⟩ : BufTy).Contents (Elt F) → (⟨S650000, .i32⟩ : BufTy).Contents (Elt F)),
    StableHlo.binary main_v3 main_v182 main_v183 (cmpi .slt : (⟨S650000, .i32⟩ : BufTy).Contents (Elt F) → (⟨S650000, .i32⟩ : BufTy).Contents (Elt F) → (⟨S650000, .i1⟩ : BufTy).Contents (Elt F)),
    StableHlo.nullary main_c_28 (constantI S_ 32 50000#32),
    StableHlo.unary main_c_28 main_v184 (broadcastInDim S650000 ![] bcast_S_S650000 : (⟨S_, .i32⟩ : BufTy).Contents (Elt F) → (⟨S650000, .i32⟩ : BufTy).Contents (Elt F)),
    StableHlo.binary main_v3 main_v184 main_v185 (addi : (⟨S650000, .i32⟩ : BufTy).Contents (Elt F) → (⟨S650000, .i32⟩ : BufTy).Contents (Elt F) → (⟨S650000, .i32⟩ : BufTy).Contents (Elt F)),
    StableHlo.ternary main_v183 main_v185 main_v3 main_v186 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    StableHlo.unary main_v186 main_v187 (broadcastInDim S650000x1 ![0] bcast_S650000_S650000x1_0 : (⟨S650000, .i32⟩ : BufTy).Contents (Elt F) → (⟨S650000x1, .i32⟩ : BufTy).Contents (Elt F)),
    StableHlo.binary main_v181 main_v187 main_v188 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    StableHlo.unary main_v29 main_v189 (broadcastInDim S650000x1 ![0] bcast_S650000_S650000x1_0 : (⟨S650000, .f32⟩ : BufTy).Contents (Elt F) → (⟨S650000x1, .f32⟩ : BufTy).Contents (Elt F)),
    StableHlo.unary main_v189 main_v190 (broadcastInDim S650000x128 ![0, 1] bcast_S650000x1_S650000x128_0_1 : (⟨S650000x1, .f32⟩ : BufTy).Contents (Elt F) → (⟨S650000x128, .f32⟩ : BufTy).Contents (Elt F)),
    StableHlo.binary main_v188 main_v190 main_v191 (mulf : (⟨S650000x128, .f32⟩ : BufTy).Contents (Elt F) → (⟨S650000x128, .f32⟩ : BufTy).Contents (Elt F) → (⟨S650000x128, .f32⟩ : BufTy).Contents (Elt F)),
    StableHlo.nullary main_cst_29 (constant S_ .f32 0x00000000#32),
    StableHlo.unary main_cst_29 main_v192 (broadcastInDim S50000x128 ![] bcast_S_S50000x128 : (⟨S_, .f32⟩ : BufTy).Contents (Elt F) → (⟨S50000x128, .f32⟩ : BufTy).Contents (Elt F)),
    StableHlo.unary main_v6 main_v193 (broadcastInDim S650000x1 ![0] bcast_S650000_S650000x1_0 : (⟨S650000, .i32⟩ : BufTy).Contents (Elt F) → (⟨S650000x1, .i32⟩ : BufTy).Contents (Elt F)),
    StableHlo.ternary main_v192 main_v193 main_v191 main_v194 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)),
    StableHlo.unary main_v179 main_v195 (broadcastInDim S1x128 ![1] bcast_S128_S1x128_1 : (⟨S128, .f32⟩ : BufTy).Contents (Elt F) → (⟨S1x128, .f32⟩ : BufTy).Contents (Elt F)),
    StableHlo.unary main_v195 main_v196 (broadcastInDim S50000x128 ![0, 1] bcast_S1x128_S50000x128_0_1 : (⟨S1x128, .f32⟩ : BufTy).Contents (Elt F) → (⟨S50000x128, .f32⟩ : BufTy).Contents (Elt F)),
    StableHlo.binary main_v194 main_v196 main_v197 (addf : (⟨S50000x128, .f32⟩ : BufTy).Contents (Elt F) → (⟨S50000x128, .f32⟩ : BufTy).Contents (Elt F) → (⟨S50000x128, .f32⟩ : BufTy).Contents (Elt F)),
    StableHlo.unary main_arg7 main_v198 ((extractStridedSlice S1x128 ![3, 0] · slices_S4x128_S1x128_3_0) : (⟨S4x128, .f32⟩ : BufTy).Contents (Elt F) → (⟨S1x128, .f32⟩ : BufTy).Contents (Elt F)),
    StableHlo.reshape main_v198 main_v199 rfl shapeCasts_S1x128_S128,
    StableHlo.unary main_arg8 main_v200 ((extractStridedSlice S1x128 ![3, 0] · slices_S4x128_S1x128_3_0) : (⟨S4x128, .f32⟩ : BufTy).Contents (Elt F) → (⟨S1x128, .f32⟩ : BufTy).Contents (Elt F)),
    StableHlo.reshape main_v200 main_v201 rfl shapeCasts_S1x128_S128,
    StableHlo.nullary main_cst_30 (constant S_ .f32 0x00000000#32),
    StableHlo.binary main_v197 main_cst_30 main_v202 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_31 (constant S_ .f32 0x47435000#32),
    StableHlo.unary main_cst_31 main_v203 (broadcastInDim S128 ![] bcast_S_S128 : (⟨S_, .f32⟩ : BufTy).Contents (Elt F) → (⟨S128, .f32⟩ : BufTy).Contents (Elt F)),
    StableHlo.binary main_v202 main_v203 main_v204 (Host.divf : (⟨S128, .f32⟩ : BufTy).Contents (Elt F) → (⟨S128, .f32⟩ : BufTy).Contents (Elt F) → (⟨S128, .f32⟩ : BufTy).Contents (Elt F)),
    StableHlo.nullary main_c_32 (constantI S_ 32 0#32) ]
/-- Window 3 is the straight line of its operations: both sides unfold to the same chain of steps. -/
theorem main_part3_eq (d : Dev nD) : main_part3 (F := F) d = seq win3 := by
  chain_rfl

/-- The operations of @main's window 4 (statements 241 … 293), the callees' operations at the call sites. -/
abbrev win4 : List (HloOp τ sig (Elt F)) :=
  [ StableHlo.TRef.nullary main_call7.cst (constant S_ .f32 0x00000000#32),
    StableHlo.TRef.binary (.of main_v197 : StableHlo.TRef sig ⟨S50000x128, .f32⟩) main_call7.cst main_call7.v0 (fun x v => Host.reduceAdd x v reducesTo_S50000x128_S128_d0 h_S_),
    StableHlo.TRef.unary main_call7.v0 main_call7.v1 (broadcastInDim S1x128 ![1] bcast_S128_S1x128_1),
    StableHlo.TRef.nullary main_call7.cst_0 (constant S_ .f32 0x47435000#32),
    StableHlo.TRef.unary main_call7.cst_0 main_call7.v2 (broadcastInDim S1x128 ![] bcast_S_S1x128),
    StableHlo.TRef.binary main_call7.v1 main_call7.v2 main_call7.v3 Host.divf,
    StableHlo.TRef.unary main_call7.v3 main_call7.v4 (broadcastInDim S50000x128 ![0, 1] bcast_S1x128_S50000x128_0_1),
    StableHlo.TRef.binary (.of main_v197 : StableHlo.TRef sig ⟨S50000x128, .f32⟩) main_call7.v4 main_call7.v5 subf,
    StableHlo.TRef.binary main_call7.v5 main_call7.v5 main_call7.v6 mulf,
    StableHlo.TRef.unary (.of main_c_32 : StableHlo.TRef sig ⟨S_, .i32⟩) main_call7.v7 (sitofp .f32),
    StableHlo.TRef.nullary main_call7.cst_1 (constant S_ .f32 0x47435000#32),
    StableHlo.TRef.binary main_call7.cst_1 main_call7.v7 main_call7.v8 subf,
    StableHlo.TRef.nullary main_call7.cst_2 (constant S_ .f32 0x00000000#32),
    StableHlo.TRef.binary main_call7.v6 main_call7.cst_2 main_call7.v9 (fun x v => Host.reduceAdd x v reducesTo_S50000x128_S128_d0 h_S_),
    StableHlo.TRef.unary main_call7.v8 main_call7.v10 (broadcastInDim S128 ![] bcast_S_S128),
    StableHlo.TRef.binary main_call7.v9 main_call7.v10 main_call7.v11 Host.divf,
    StableHlo.TRef.nullary main_call7.cst_3 (constant S_ .f32 0x00000000#32),
    StableHlo.TRef.binary main_call7.v8 main_call7.cst_3 main_call7.v12 (cmpf .ogt),
    StableHlo.TRef.nullary main_call7.cst_4 (constant S_ .f32 0x7FC00000#32),
    StableHlo.TRef.unary main_call7.cst_4 main_call7.call0.v0 id,
    StableHlo.TRef.unary main_call7.call0.v0 main_call7.call0.v1 (broadcastInDim S128 ![] bcast_S_S128),
    StableHlo.TRef.ternary main_call7.v12 main_call7.v11 main_call7.call0.v1 main_call7.call0.v2 (fun p a b => select (broadcastInDim S128 ![] bcast_S_S128 p) a b),
    StableHlo.unary main_v204 main_v206 (broadcastInDim S1x128 ![1] bcast_S128_S1x128_1 : (⟨S128, .f32⟩ : BufTy).Contents (Elt F) → (⟨S1x128, .f32⟩ : BufTy).Contents (Elt F)),
    StableHlo.unary main_v206 main_v207 (broadcastInDim S50000x128 ![0, 1] bcast_S1x128_S50000x128_0_1 : (⟨S1x128, .f32⟩ : BufTy).Contents (Elt F) → (⟨S50000x128, .f32⟩ : BufTy).Contents (Elt F)),
    StableHlo.binary main_v197 main_v207 main_v208 (subf : (⟨S50000x128, .f32⟩ : BufTy).Contents (Elt F) → (⟨S50000x128, .f32⟩ : BufTy).Contents (Elt F) → (⟨S50000x128, .f32⟩ : BufTy).Contents (Elt F)),
    StableHlo.nullary main_cst_33 (constant S_ .f32 0x3727C5AC#32),
    StableHlo.unary main_cst_33 main_v209 (broadcastInDim S128 ![] bcast_S_S128 : (⟨S_, .f32⟩ : BufTy).Contents (Elt F) → (⟨S128, .f32⟩ : BufTy).Contents (Elt F)),
    StableHlo.binary main_v205 main_v209 main_v210 (addf : (⟨S128, .f32⟩ : BufTy).Contents (Elt F) → (⟨S128, .f32⟩ : BufTy).Contents (Elt F) → (⟨S128, .f32⟩ : BufTy).Contents (Elt F)),
    StableHlo.unary main_v210 main_v211 (Host.rsqrt : (⟨S128, .f32⟩ : BufTy).Contents (Elt F) → (⟨S128, .f32⟩ : BufTy).Contents (Elt F)),
    StableHlo.unary main_v211 main_v212 (broadcastInDim S1x128 ![1] bcast_S128_S1x128_1 : (⟨S128, .f32⟩ : BufTy).Contents (Elt F) → (⟨S1x128, .f32⟩ : BufTy).Contents (Elt F)),
    StableHlo.unary main_v212 main_v213 (broadcastInDim S50000x128 ![0, 1] bcast_S1x128_S50000x128_0_1 : (⟨S1x128, .f32⟩ : BufTy).Contents (Elt F) → (⟨S50000x128, .f32⟩ : BufTy).Contents (Elt F)),
    StableHlo.binary main_v208 main_v213 main_v214 (mulf : (⟨S50000x128, .f32⟩ : BufTy).Contents (Elt F) → (⟨S50000x128, .f32⟩ : BufTy).Contents (Elt F) → (⟨S50000x128, .f32⟩ : BufTy).Contents (Elt F)),
    StableHlo.unary main_v199 main_v215 (broadcastInDim S1x128 ![1] bcast_S128_S1x128_1 : (⟨S128, .f32⟩ : BufTy).Contents (Elt F) → (⟨S1x128, .f32⟩ : BufTy).Contents (Elt F)),
    StableHlo.unary main_v215 main_v216 (broadcastInDim S50000x128 ![0, 1] bcast_S1x128_S50000x128_0_1 : (⟨S1x128, .f32⟩ : BufTy).Contents (Elt F) → (⟨S50000x128, .f32⟩ : BufTy).Contents (Elt F)),
    StableHlo.binary main_v214 main_v216 main_v217 (mulf : (⟨S50000x128, .f32⟩ : BufTy).Contents (Elt F) → (⟨S50000x128, .f32⟩ : BufTy).Contents (Elt F) → (⟨S50000x128, .f32⟩ : BufTy).Contents (Elt F)),
    StableHlo.unary main_v201 main_v218 (broadcastInDim S1x128 ![1] bcast_S128_S1x128_1 : (⟨S128, .f32⟩ : BufTy).Contents (Elt F) → (⟨S1x128, .f32⟩ : BufTy).Contents (Elt F)),
    StableHlo.unary main_v218 main_v219 (broadcastInDim S50000x128 ![0, 1] bcast_S1x128_S50000x128_0_1 : (⟨S1x128, .f32⟩ : BufTy).Contents (Elt F) → (⟨S50000x128, .f32⟩ : BufTy).Contents (Elt F)),
    StableHlo.binary main_v217 main_v219 main_v220 (addf : (⟨S50000x128, .f32⟩ : BufTy).Contents (Elt F) → (⟨S50000x128, .f32⟩ : BufTy).Contents (Elt F) → (⟨S50000x128, .f32⟩ : BufTy).Contents (Elt F)),
    StableHlo.TRef.nullary main_call8.cst (constant S_ .f32 0x00000000#32),
    StableHlo.TRef.unary main_call8.cst main_call8.v0 (broadcastInDim S50000x128 ![] bcast_S_S50000x128),
    StableHlo.TRef.binary (.of main_v220 : StableHlo.TRef sig ⟨S50000x128, .f32⟩) main_call8.v0 main_call8.v1 maximumf,
    StableHlo.binary main_v221 main_v175 main_v222 (addf : (⟨S50000x128, .f32⟩ : BufTy).Contents (Elt F) → (⟨S50000x128, .f32⟩ : BufTy).Contents (Elt F) → (⟨S50000x128, .f32⟩ : BufTy).Contents (Elt F)),
    StableHlo.nullary main_cst_34 (constant S_ .f32 0x00000000#32),
    StableHlo.unary main_cst_34 main_v223 (broadcastInDim S128x128 ![] bcast_S_S128x128 : (⟨S_, .f32⟩ : BufTy).Contents (Elt F) → (⟨S128x128, .f32⟩ : BufTy).Contents (Elt F)),
    StableHlo.unary main_arg2 main_v224 (broadcastInDim S50000x1 ![0] bcast_S50000_S50000x1_0 : (⟨S50000, .i32⟩ : BufTy).Contents (Elt F) → (⟨S50000x1, .i32⟩ : BufTy).Contents (Elt F)),
    StableHlo.ternary main_v223 main_v224 main_v222 main_v225 ((fun x i u => Host.scatterAdd scatter_S128x128_S50000x1_S50000x128_1_0_0_1 x i u) : (⟨S128x128, .f32⟩ : BufTy).Contents (Elt F) → (⟨S50000x1, .i32⟩ : BufTy).Contents (Elt F) → (⟨S50000x128, .f32⟩ : BufTy).Contents (Elt F) → (⟨S128x128, .f32⟩ : BufTy).Contents (Elt F)),
    StableHlo.nullary main_cst_35 (constant S_ .f32 0x3F800000#32),
    StableHlo.unary main_cst_35 main_v226 (broadcastInDim S50000 ![] bcast_S_S50000 : (⟨S_, .f32⟩ : BufTy).Contents (Elt F) → (⟨S50000, .f32⟩ : BufTy).Contents (Elt F)),
    StableHlo.nullary main_cst_36 (constant S_ .f32 0x00000000#32),
    StableHlo.unary main_cst_36 main_v227 (broadcastInDim S128 ![] bcast_S_S128 : (⟨S_, .f32⟩ : BufTy).Contents (Elt F) → (⟨S128, .f32⟩ : BufTy).Contents (Elt F)),
    StableHlo.unary main_arg2 main_v228 (broadcastInDim S50000x1 ![0] bcast_S50000_S50000x1_0 : (⟨S50000, .i32⟩ : BufTy).Contents (Elt F) → (⟨S50000x1, .i32⟩ : BufTy).Contents (Elt F)),
    StableHlo.ternary main_v227 main_v228 main_v226 main_v229 ((fun x i u => Host.scatterAdd scatter_S128_S50000x1_S50000_n_0_0_1 x i u) : (⟨S128, .f32⟩ : BufTy).Contents (Elt F) → (⟨S50000x1, .i32⟩ : BufTy).Contents (Elt F) → (⟨S50000, .f32⟩ : BufTy).Contents (Elt F) → (⟨S128, .f32⟩ : BufTy).Contents (Elt F)),
    StableHlo.nullary main_cst_37 (constant S_ .f32 0x3F800000#32),
    StableHlo.unary main_cst_37 main_v230 (broadcastInDim S128 ![] bcast_S_S128 : (⟨S_, .f32⟩ : BufTy).Contents (Elt F) → (⟨S128, .f32⟩ : BufTy).Contents (Elt F)),
    StableHlo.binary main_v229 main_v230 main_v231 (maximumf : (⟨S128, .f32⟩ : BufTy).Contents (Elt F) → (⟨S128, .f32⟩ : BufTy).Contents (Elt F) → (⟨S128, .f32⟩ : BufTy).Contents (Elt F)),
    StableHlo.unary main_v231 main_v232 (broadcastInDim S128x1 ![0] bcast_S128_S128x1_0 : (⟨S128, .f32⟩ : BufTy).Contents (Elt F) → (⟨S128x1, .f32⟩ : BufTy).Contents (Elt F)),
    StableHlo.unary main_v232 main_v233 (broadcastInDim S128x128 ![0, 1] bcast_S128x1_S128x128_0_1 : (⟨S128x1, .f32⟩ : BufTy).Contents (Elt F) → (⟨S128x128, .f32⟩ : BufTy).Contents (Elt F)),
    StableHlo.binary main_v225 main_v233 main_v234 (Host.divf : (⟨S128x128, .f32⟩ : BufTy).Contents (Elt F) → (⟨S128x128, .f32⟩ : BufTy).Contents (Elt F) → (⟨S128x128, .f32⟩ : BufTy).Contents (Elt F)),
    StableHlo.unary main_arg9 main_v235 ((transpose S128x64 [1, 0] · transposes_S64x128_S128x64_1_0) : (⟨S64x128, .f32⟩ : BufTy).Contents (Elt F) → (⟨S128x64, .f32⟩ : BufTy).Contents (Elt F)),
    StableHlo.binary main_v234 main_v235 main_v236 ((fun l r => Host.dotGeneral dot_S128x128_S128x64_S128x64_1_0_0_1_n_n none l r) : (⟨S128x128, .f32⟩ : BufTy).Contents (Elt F) → (⟨S128x64, .f32⟩ : BufTy).Contents (Elt F) → (⟨S128x64, .f32⟩ : BufTy).Contents (Elt F)),
    StableHlo.unary main_arg10 main_v237 (broadcastInDim S1x64 ![1] bcast_S64_S1x64_1 : (⟨S64, .f32⟩ : BufTy).Contents (Elt F) → (⟨S1x64, .f32⟩ : BufTy).Contents (Elt F)),
    StableHlo.unary main_v237 main_v238 (broadcastInDim S128x64 ![0, 1] bcast_S1x64_S128x64_0_1 : (⟨S1x64, .f32⟩ : BufTy).Contents (Elt F) → (⟨S128x64, .f32⟩ : BufTy).Contents (Elt F)),
    StableHlo.binary main_v236 main_v238 main_v239 (addf : (⟨S128x64, .f32⟩ : BufTy).Contents (Elt F) → (⟨S128x64, .f32⟩ : BufTy).Contents (Elt F) → (⟨S128x64, .f32⟩ : BufTy).Contents (Elt F)),
    StableHlo.TRef.nullary main_call9.cst (constant S_ .f32 0x00000000#32),
    StableHlo.TRef.unary main_call9.cst main_call9.v0 (broadcastInDim S128x64 ![] bcast_S_S128x64),
    StableHlo.TRef.binary (.of main_v239 : StableHlo.TRef sig ⟨S128x64, .f32⟩) main_call9.v0 main_call9.v1 maximumf,
    StableHlo.unary main_arg11 main_v241 ((transpose S64x32 [1, 0] · transposes_S32x64_S64x32_1_0) : (⟨S32x64, .f32⟩ : BufTy).Contents (Elt F) → (⟨S64x32, .f32⟩ : BufTy).Contents (Elt F)),
    StableHlo.binary main_v240 main_v241 main_v242 ((fun l r => Host.dotGeneral dot_S128x64_S64x32_S128x32_1_0_0_1_n_n none l r) : (⟨S128x64, .f32⟩ : BufTy).Contents (Elt F) → (⟨S64x32, .f32⟩ : BufTy).Contents (Elt F) → (⟨S128x32, .f32⟩ : BufTy).Contents (Elt F)),
    StableHlo.unary main_arg12 main_v243 (broadcastInDim S1x32 ![1] bcast_S32_S1x32_1 : (⟨S32, .f32⟩ : BufTy).Contents (Elt F) → (⟨S1x32, .f32⟩ : BufTy).Contents (Elt F)),
    StableHlo.unary main_v243 main_v244 (broadcastInDim S128x32 ![0, 1] bcast_S1x32_S128x32_0_1 : (⟨S1x32, .f32⟩ : BufTy).Contents (Elt F) → (⟨S128x32, .f32⟩ : BufTy).Contents (Elt F)),
    StableHlo.binary main_v242 main_v244 main_v245 (addf : (⟨S128x32, .f32⟩ : BufTy).Contents (Elt F) → (⟨S128x32, .f32⟩ : BufTy).Contents (Elt F) → (⟨S128x32, .f32⟩ : BufTy).Contents (Elt F)),
    StableHlo.TRef.nullary main_call10.cst (constant S_ .f32 0x00000000#32),
    StableHlo.TRef.unary main_call10.cst main_call10.v0 (broadcastInDim S128x32 ![] bcast_S_S128x32),
    StableHlo.TRef.binary (.of main_v245 : StableHlo.TRef sig ⟨S128x32, .f32⟩) main_call10.v0 main_call10.v1 maximumf,
    StableHlo.unary main_arg13 main_v247 ((transpose S32x10 [1, 0] · transposes_S10x32_S32x10_1_0) : (⟨S10x32, .f32⟩ : BufTy).Contents (Elt F) → (⟨S32x10, .f32⟩ : BufTy).Contents (Elt F)),
    StableHlo.binary main_v246 main_v247 main_v248 ((fun l r => Host.dotGeneral dot_S128x32_S32x10_S128x10_1_0_0_1_n_n none l r) : (⟨S128x32, .f32⟩ : BufTy).Contents (Elt F) → (⟨S32x10, .f32⟩ : BufTy).Contents (Elt F) → (⟨S128x10, .f32⟩ : BufTy).Contents (Elt F)),
    StableHlo.unary main_arg14 main_v249 (broadcastInDim S1x10 ![1] bcast_S10_S1x10_1 : (⟨S10, .f32⟩ : BufTy).Contents (Elt F) → (⟨S1x10, .f32⟩ : BufTy).Contents (Elt F)),
    StableHlo.unary main_v249 main_v250 (broadcastInDim S128x10 ![0, 1] bcast_S1x10_S128x10_0_1 : (⟨S1x10, .f32⟩ : BufTy).Contents (Elt F) → (⟨S128x10, .f32⟩ : BufTy).Contents (Elt F)),
    StableHlo.binary main_v248 main_v250 main_v251 (addf : (⟨S128x10, .f32⟩ : BufTy).Contents (Elt F) → (⟨S128x10, .f32⟩ : BufTy).Contents (Elt F) → (⟨S128x10, .f32⟩ : BufTy).Contents (Elt F)) ]
/-- Window 4 is the straight line of its operations: both sides unfold to the same chain of steps. -/
theorem main_part4_eq (d : Dev nD) : main_part4 (F := F) d = seq win4 := by
  chain_rfl

end Cert.ReferenceIdeal.RefRun

end
-- ==== Proof.RefRun.lean ====
/- The reference program's run. Its @main is the straight line of the 390 operations of `ops` — the six lists of
   RefOps in program order —, because each printed window is the straight line of its own operations (RefWin) and
   the windows' operations, concatenated, are `ops`. A straight line runs to its end from any memory with zero
   counters, and every TensorCore buffer then holds the fold of the operations' results over its launch contents.
   The fold over a concatenation is the fold over the second list after the fold over the first, so the final
   contents can be read one list at a time; a list that does not write a reference leaves its contents alone. -/
import proofs.«115673_j47373489274965_1_alg».proof.Proof.RefOps
import proofs.«115673_j47373489274965_1_alg».proof.Proof.RefWin

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The fold over a concatenation, and over a list that does not write a reference -/

/-- The contents after two lists run one after the other: the second list's fold after the first's. -/
theorem after_append {τ' : Topo} {sig' : RefSig} {Val : EltTy → Type} (l₁ l₂ : List (HloOp τ' sig' Val))
    (V : Valuation τ' sig' Val) : after (l₁ ++ l₂) V = after l₂ (after l₁ V) := by
  induction l₁ generalizing V with
  | nil => rfl
  | cons op l ih => rw [List.cons_append, after_cons, after_cons, ih]

/-- When the operations of `l` write, one each and in order, the references `W`, every operation of `l` writes
    exactly one reference of `W`. -/
theorem exists_writes_of_map_eq {τ' : Topo} {sig' : RefSig} {Val : EltTy → Type} :
    ∀ (l : List (HloOp τ' sig' Val)) (W : List (Ref sig' .tc)),
      l.map HloOp.writes = W.map (fun y => ({Proc.devRef .tc y} : Finset (DevRef τ' sig'))) →
      ∀ op ∈ l, ∃ y ∈ W, op.writes = {Proc.devRef .tc y}
  | [], _, _, _, ho => nomatch ho
  | _ :: _, [], h, _, _ => by simp only [List.map_cons, List.map_nil, reduceCtorEq] at h
  | op :: l, y :: W, h, o, ho => by
    rw [List.map_cons, List.map_cons, List.cons.injEq] at h
    rcases List.mem_cons.mp ho with rfl | ho
    · exact ⟨y, List.mem_cons_self, h.1⟩
    · obtain ⟨y', hy', e⟩ := exists_writes_of_map_eq l W h.2 o ho
      exact ⟨y', List.mem_cons_of_mem _ hy', e⟩

/-- A reference that is not among the references a list writes keeps its contents across the list. -/
theorem after_of_not_written {τ' : Topo} {sig' : RefSig} {Val : EltTy → Type} {l : List (HloOp τ' sig' Val)}
    {W : List (Ref sig' .tc)}
    (h : l.map HloOp.writes = W.map fun y => ({Proc.devRef .tc y} : Finset (DevRef τ' sig')))
    {r : Ref sig' .tc} (hr : r ∉ W) (V : Valuation τ' sig' Val) :
    after l V (Proc.devRef .tc r) = V (Proc.devRef .tc r) :=
  after_of_forall_not_mem l V fun op hop hb => by
    obtain ⟨y, hy, e⟩ := exists_writes_of_map_eq l W h op hop
    rw [e, Finset.mem_singleton] at hb
    exact hr (Proc.devRef_injective _ hb ▸ hy)

/-! ## @main is the straight line of `ops` -/

/-- @main's 390 operations, in order: the six lists. -/
abbrev ops : List (HloOp τ sig (Elt F)) := opsPre ++ opsL0 ++ opsL1 ++ opsL2 ++ opsL3 ++ opsTail

/-- The five windows' operations, concatenated, are the six lists': the same 390 operations, cut at other places. -/
theorem windows_eq : (win0 ++ (win1 ++ (win2 ++ (win3 ++ win4))) : List (HloOp τ sig (Elt F))) = ops := by
  chain_rfl

/-- @main runs its windows in order, each the straight line of its operations; straight lines one after the other
    are the straight line of the concatenation. -/
theorem main_eq (d : Dev nD) : main (F := F) d = seq ops := by
  have h : main (F := F) d = (main_part0 d >>= fun _ => main_part1 d >>= fun _ => main_part2 d >>= fun _ =>
      main_part3 d >>= fun _ => main_part4 d) := rfl
  rw [h, main_part0_eq, main_part1_eq, main_part2_eq, main_part3_eq, main_part4_eq,
    ← seq_append, ← seq_append, ← seq_append, ← seq_append, windows_eq]

theorem ops_sub : (ops : List (HloOp τ sig (Elt F))).Forall fun op => op.bufs ⊆ tcRefs τ sig :=
  List.forall_append.mpr ⟨List.forall_append.mpr ⟨List.forall_append.mpr ⟨List.forall_append.mpr
    ⟨List.forall_append.mpr ⟨opsPre_sub, opsL0_sub⟩, opsL1_sub⟩, opsL2_sub⟩, opsL3_sub⟩, opsTail_sub⟩

theorem ops_fresh : ∀ op ∈ (ops : List (HloOp τ sig (Elt F))), op.fresh = ∅ :=
  List.forall_iff_forall_mem.mp (List.forall_append.mpr ⟨List.forall_append.mpr ⟨List.forall_append.mpr
    ⟨List.forall_append.mpr ⟨List.forall_append.mpr ⟨opsPre_fresh, opsL0_fresh⟩, opsL1_fresh⟩, opsL2_fresh⟩,
      opsL3_fresh⟩, opsTail_fresh⟩)

/-- The signature scopes no TensorCore buffer and no semaphore: a program of tensor values only. -/
theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of @main
    terminates, and every final state has each TensorCore buffer at the fold of `ops` over its launch contents. -/
theorem run (m : (ℓ : Loc nD τ sig) → Buf (Elt F) ℓ) (ρ : Dev nD → PrngReg) :
    θ_run defs (onTc (τ := τ) (main (F := F))) ⟨m, fun _ => 0, ρ⟩ (fun r =>
      ∀ (d : Dev nD) (b : Ref sig .tc),
        r.2.mem ((d.tc : Thread nD τ).loc b) = after ops (launchContents m d) (Proc.devRef .tc b)) :=
  run_seq scopedRefs_eq scopedSems_eq defs main (fun _ => ops) main_eq (fun _ => ops_sub) m ρ (fun _ => ops_fresh)

/-- The final contents, one list at a time. -/
theorem after_ops (V : Valuation τ sig (Elt F)) :
    after ops V = after opsTail (after opsL3 (after opsL2 (after opsL1 (after opsL0 (after opsPre V))))) :=
  (after_append (opsPre ++ opsL0 ++ opsL1 ++ opsL2 ++ opsL3) opsTail V).trans <| congrArg (after opsTail) <|
  (after_append (opsPre ++ opsL0 ++ opsL1 ++ opsL2) opsL3 V).trans <| congrArg (after opsL3) <|
  (after_append (opsPre ++ opsL0 ++ opsL1) opsL2 V).trans <| congrArg (after opsL2) <|
  (after_append (opsPre ++ opsL0) opsL1 V).trans <| congrArg (after opsL1) <|
  after_append opsPre opsL0 V

/-- A reference none of the six lists writes ends as launched. -/
theorem after_ops_of_not_written {r : Ref sig .tc}
    (h : r ∉ opsPre_W ++ opsL0_W ++ opsL1_W ++ opsL2_W ++ opsL3_W ++ opsTail_W) (V : Valuation τ sig (Elt F)) :
    after ops V (Proc.devRef .tc r) = V (Proc.devRef .tc r) := by
  simp only [List.mem_append, not_or] at h
  obtain ⟨⟨⟨⟨⟨h0, h1⟩, h2⟩, h3⟩, h4⟩, h5⟩ := h
  rw [after_ops, after_of_not_written opsTail_writes h5, after_of_not_written opsL3_writes h4,
    after_of_not_written opsL2_writes h3, after_of_not_written opsL1_writes h2,
    after_of_not_written opsL0_writes h1, after_of_not_written opsPre_writes h0]

end Cert.ReferenceIdeal.RefRun

end
-- ==== Proof.RefChainDefs.lean ====
/- The reference's own spellings of the pieces its run is read in: the dense product, the embedding, a layer's
   aggregate with the bias added, and the normalisation with rectifier and residual over given statistics. A layer
   as the reference computes it is the normalisation of the biased aggregate over that matrix's own column mean and
   variance. -/
import proofs.«115673_j47373489274965_1_alg».proof.Proof.RefRun
import proofs.«115673_j47373489274965_1_alg».proof.Proof.SpecK
import proofs.«115673_j47373489274965_1_alg».proof.Proof.Gen.KernelIdeal

noncomputable section

namespace Cert.ReferenceIdeal.RefChain

open Cert.ReferenceIdeal Cert.ReferenceIdeal.Gen Cert.ReferenceIdeal.RefRun Cert.KernelIdeal.Spec
open Idealize.ShloMosaic Idealize.ShloMosaic.TcCoe Idealize.SL.Sem Idealize.ShloMosaic.StableHlo

/-- The reference's dense product of a node matrix with a square weight matrix. -/
def dotR (x : Mat) (w : M128) : Mat :=
  Host.dotGeneral (F := Ideal) dot_S50000x128_S128x128_S50000x128_1_0_0_1_n_n none x w

/-- The embedding: the node features against the transposed weight, plus the bias down all rows. -/
def embR (x : Mat) (wemb : M128) (bemb : V128) : Mat :=
  addf (dotR x (transpose S128x128 [1, 0] wemb transposes_S128x128_S128x128_1_0)) (bb bemb)

/-- A layer's aggregate of the product, with the bias added down all rows. -/
def preNormR (h : Mat) (w : M128) (b : V128) (src dst : IE) (nrm : FE) : Mat :=
  addf (aggr (dotR h w) src dst nrm) (bb b)

/-- The normalisation with rectifier and residual, over a given mean and variance row. -/
def normR (y : Mat) (mu va g be : V128) (res : Mat) : Mat :=
  addf (maximumf
      (addf (mulf (mulf (subf y (bb mu))
        (bb (Host.rsqrt (F := Ideal) (addf va (broadcastInDim S128 ![] bcast_S_S128 (constant (F := Ideal) S_ .f32 0x3727C5AC#32))))))
        (bb g)) (bb be))
      (broadcastInDim S50000x128 ![] bcast_S_S50000x128 (constant (F := Ideal) S_ .f32 0x00000000#32)))
    res

/-- A layer as the reference computes it: the normalisation of the biased aggregate over its own statistics. -/
theorem layerR_eq (h : Mat) (w : M128) (b g be : V128) (src dst : IE) (nrm : FE) :
    layerR dotR h w b g be src dst nrm
      = normR (preNormR h w b src dst nrm) (meanv (preNormR h w b src dst nrm)) (varv (preNormR h w b src dst nrm)) g be h :=
  rfl

end Cert.ReferenceIdeal.RefChain

end
-- ==== Proof.RefChainPreL.lean ====
/- The first stretch of the reference's run, cut in five: the two edge lists with the self loops; the degrees with their
   positivity mask and inverse square roots; the choice between the inverse square root and zero; the per-edge norm;
   the embedding. -/
import proofs.«115673_j47373489274965_1_alg».proof.Proof.RefChainDefs

noncomputable section

namespace Cert.ReferenceIdeal.RefChain

open Cert.ReferenceIdeal Cert.ReferenceIdeal.Gen Cert.ReferenceIdeal.RefRun Cert.KernelIdeal.Spec
open Idealize.ShloMosaic Idealize.ShloMosaic.TcCoe Idealize.SL.Sem Idealize.ShloMosaic.StableHlo

section Lists
variable {F : FTy → Type} [FloatOps F]

/-- The node indices, and the two rows of the edge list, each followed by the self loops. -/
abbrev opsPreA : List (HloOp τ sig (Elt F)) :=
  [ StableHlo.nullary main_v0 (iotaInDim S50000 32 0),
    StableHlo.unary main_arg1 main_v1 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v1 main_v2 rfl shapeCasts_S1x600000_S600000,
    StableHlo.binary main_v2 main_v0 main_v3 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    StableHlo.unary main_arg1 main_v4 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v4 main_v5 rfl shapeCasts_S1x600000_S600000,
    StableHlo.binary main_v5 main_v0 main_v6 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)) ]
/-- The degrees as a scatter-add of ones over the targets, the mask of the positive ones, the inverse square roots, and the zero. -/
abbrev opsPreB1a : List (HloOp τ sig (Elt F)) :=
  [ StableHlo.nullary main_cst (constant S_ .f32 0x3F800000#32),
    StableHlo.unary main_cst main_v7 (broadcastInDim S650000 ![] bcast_S_S650000 : (⟨S_, .f32⟩ : BufTy).Contents (Elt F) → (⟨S650000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S650000x1 ![0] bcast_S650000_S650000x1_0 : (⟨S650000, .i32⟩ : BufTy).Contents (Elt F) → (⟨S650000x1, .i32⟩ : BufTy).Contents (Elt F)),
    StableHlo.ternary main_v8 main_v9 main_v7 main_v10 ((fun x i u => Host.scatterAdd scatter_S50000_S650000x1_S650000_n_0_0_1 x i u) : (⟨S50000, .f32⟩ : BufTy).Contents (Elt F) → (⟨S650000x1, .i32⟩ : BufTy).Contents (Elt F) → (⟨S650000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.unary main_v10 main_v13 (Host.rsqrt : (⟨S50000, .f32⟩ : BufTy).Contents (Elt F) → (⟨S50000, .f32⟩ : BufTy).Contents (Elt F)),
    StableHlo.nullary main_cst_2 (constant S_ .f32 0x00000000#32) ]
/-- The choice, entry by entry: the inverse square root where the mask holds, zero elsewhere. -/
abbrev opsPreB1b : List (HloOp τ sig (Elt F)) :=
  [ StableHlo.TRef.unary (.of main_cst_2 : StableHlo.TRef sig ⟨S_, .f32⟩) main_call0.v0 id,
    StableHlo.TRef.unary main_call0.v0 main_call0.v1 (broadcastInDim S50000 ![] bcast_S_S50000),
    StableHlo.TRef.ternary (.of main_v12 : StableHlo.TRef sig ⟨S50000, .i1⟩) (.of main_v13 : StableHlo.TRef sig ⟨S50000, .f32⟩) main_call0.v1 main_call0.v2 select ]
/-- The two gathers of the degree factors, at the sources and at the targets, and their product. -/
abbrev opsPreB2 : List (HloOp τ sig (Elt F)) :=
  [ StableHlo.nullary main_c (constantI S_ 32 0#32),
    StableHlo.unary main_c main_v15 (broadcastInDim S650000 ![] bcast_S_S650000 : (⟨S_, .i32⟩ : BufTy).Contents (Elt F) → (⟨S650000, .i32⟩ : BufTy).Contents (Elt F)),
    StableHlo.binary main_v3 main_v15 main_v16 (cmpi .slt : (⟨S650000, .i32⟩ : BufTy).Contents (Elt F) → (⟨S650000, .i32⟩ : BufTy).Contents (Elt F) → (⟨S650000, .i1⟩ : BufTy).Contents (Elt F)),
    StableHlo.nullary main_c_3 (constantI S_ 32 50000#32),
    StableHlo.unary main_c_3 main_v17 (broadcastInDim S650000 ![] bcast_S_S650000 : (⟨S_, .i32⟩ : BufTy).Contents (Elt F) → (⟨S650000, .i32⟩ : BufTy).Contents (Elt F)),
    StableHlo.binary main_v3 main_v17 main_v18 (addi : (⟨S650000, .i32⟩ : BufTy).Contents (Elt F) → (⟨S650000, .i32⟩ : BufTy).Contents (Elt F) → (⟨S650000, .i32⟩ : BufTy).Contents (Elt F)),
    StableHlo.ternary main_v16 main_v18 main_v3 main_v19 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    StableHlo.unary main_v19 main_v20 (broadcastInDim S650000x1 ![0] bcast_S650000_S650000x1_0 : (⟨S650000, .i32⟩ : BufTy).Contents (Elt F) → (⟨S650000x1, .i32⟩ : BufTy).Contents (Elt F)),
    StableHlo.binary main_v14 main_v20 main_v21 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
    StableHlo.nullary main_c_4 (constantI S_ 32 0#32),
    StableHlo.unary main_c_4 main_v22 (broadcastInDim S650000 ![] bcast_S_S650000 : (⟨S_, .i32⟩ : BufTy).Contents (Elt F) → (⟨S650000, .i32⟩ : BufTy).Contents (Elt F)),
    StableHlo.binary main_v6 main_v22 main_v23 (cmpi .slt : (⟨S650000, .i32⟩ : BufTy).Contents (Elt F) → (⟨S650000, .i32⟩ : BufTy).Contents (Elt F) → (⟨S650000, .i1⟩ : BufTy).Contents (Elt F)),
    StableHlo.nullary main_c_5 (constantI S_ 32 50000#32),
    StableHlo.unary main_c_5 main_v24 (broadcastInDim S650000 ![] bcast_S_S650000 : (⟨S_, .i32⟩ : BufTy).Contents (Elt F) → (⟨S650000, .i32⟩ : BufTy).Contents (Elt F)),
    StableHlo.binary main_v6 main_v24 main_v25 (addi : (⟨S650000, .i32⟩ : BufTy).Contents (Elt F) → (⟨S650000, .i32⟩ : BufTy).Contents (Elt F) → (⟨S650000, .i32⟩ : BufTy).Contents (Elt F)),
    StableHlo.ternary main_v23 main_v25 main_v6 main_v26 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    StableHlo.unary main_v26 main_v27 (broadcastInDim S650000x1 ![0] bcast_S650000_S650000x1_0 : (⟨S650000, .i32⟩ : BufTy).Contents (Elt F) → (⟨S650000x1, .i32⟩ : BufTy).Contents (Elt F)),
    StableHlo.binary main_v14 main_v27 main_v28 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
    StableHlo.binary main_v21 main_v28 main_v29 (mulf : (⟨S650000, .f32⟩ : BufTy).Contents (Elt F) → (⟨S650000, .f32⟩ : BufTy).Contents (Elt F) → (⟨S650000, .f32⟩ : BufTy).Contents (Elt F)) ]
/-- The embedding: the node features against the transposed weight, plus the bias. -/
abbrev opsPreB3 : List (HloOp τ sig (Elt F)) :=
  [ StableHlo.unary main_arg3 main_v30 ((transpose S128x128 [1, 0] · transposes_S128x128_S128x128_1_0) : (⟨S128x128, .f32⟩ : BufTy).Contents (Elt F) → (⟨S128x128, .f32⟩ : BufTy).Contents (Elt F)),
    StableHlo.binary main_arg0 main_v30 main_v31 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v32 (broadcastInDim S1x128 ![1] bcast_S128_S1x128_1 : (⟨S128, .f32⟩ : BufTy).Contents (Elt F) → (⟨S1x128, .f32⟩ : BufTy).Contents (Elt F)),
    StableHlo.unary main_v32 main_v33 (broadcastInDim S50000x128 ![0, 1] bcast_S1x128_S50000x128_0_1 : (⟨S1x128, .f32⟩ : BufTy).Contents (Elt F) → (⟨S50000x128, .f32⟩ : BufTy).Contents (Elt F)),
    StableHlo.binary main_v31 main_v33 main_v34 (addf : (⟨S50000x128, .f32⟩ : BufTy).Contents (Elt F) → (⟨S50000x128, .f32⟩ : BufTy).Contents (Elt F) → (⟨S50000x128, .f32⟩ : BufTy).Contents (Elt F)) ]
/-- The stretch is its five parts in order. -/
theorem opsPre_split : (opsPre : List (HloOp τ sig (Elt F))) = opsPreA ++ opsPreB1a ++ opsPreB1b ++ opsPreB2 ++ opsPreB3 := by
  chain_rfl
/-- The references `opsPreA` writes, in order. -/
abbrev opsPreA_W : List (Ref sig .tc) :=
  [ main_v0, main_v1, main_v2, main_v3, main_v4, main_v5, main_v6 ]
theorem opsPreA_writes : (opsPreA : List (HloOp τ sig (Elt F))).map HloOp.writes
    = opsPreA_W.map fun y => ({Proc.devRef .tc y} : Finset (DevRef τ sig)) := by
  chain_rfl
/-- The references `opsPreB1a` writes, in order. -/
abbrev opsPreB1a_W : List (Ref sig .tc) :=
  [ main_cst, main_v7, main_cst_0, main_v8, main_v9, main_v10, main_cst_1, main_v11, main_v12, main_v13,
    main_cst_2 ]
theorem opsPreB1a_writes : (opsPreB1a : List (HloOp τ sig (Elt F))).map HloOp.writes
    = opsPreB1a_W.map fun y => ({Proc.devRef .tc y} : Finset (DevRef τ sig)) := by
  chain_rfl
/-- The references `opsPreB1b` writes, in order. -/
abbrev opsPreB1b_W : List (Ref sig .tc) :=
  [ main_call0_v0, main_call0_v1, main_v14 ]
theorem opsPreB1b_writes : (opsPreB1b : List (HloOp τ sig (Elt F))).map HloOp.writes
    = opsPreB1b_W.map fun y => ({Proc.devRef .tc y} : Finset (DevRef τ sig)) := by
  chain_rfl
/-- The references `opsPreB2` writes, in order. -/
abbrev opsPreB2_W : List (Ref sig .tc) :=
  [ main_c, main_v15, main_v16, main_c_3, main_v17, main_v18, main_v19, main_v20, main_v21, main_c_4,
    main_v22, main_v23, main_c_5, main_v24, main_v25, main_v26, main_v27, main_v28, main_v29 ]
theorem opsPreB2_writes : (opsPreB2 : List (HloOp τ sig (Elt F))).map HloOp.writes
    = opsPreB2_W.map fun y => ({Proc.devRef .tc y} : Finset (DevRef τ sig)) := by
  chain_rfl
/-- The references `opsPreB3` writes, in order. -/
abbrev opsPreB3_W : List (Ref sig .tc) :=
  [ main_v30, main_v31, main_v32, main_v33, main_v34 ]
theorem opsPreB3_writes : (opsPreB3 : List (HloOp τ sig (Elt F))).map HloOp.writes
    = opsPreB3_W.map fun y => ({Proc.devRef .tc y} : Finset (DevRef τ sig)) := by
  chain_rfl

end Lists

/-- The per-edge norm over given degree factors. -/
def edgeNormOf (d : FVec Ideal S50000 .f32) (src dst : IE) : FE :=
  mulf (Host.gather gather_S50000_S650000x1_S650000_n_0_n_n_0_1_1 d (gidx src))
    (Host.gather gather_S50000_S650000x1_S650000_n_0_n_n_0_1_1 d (gidx dst))

theorem edgeNorm_eq (src dst : IE) : edgeNorm src dst = edgeNormOf (dinv dst) src dst := rfl

/-- The choice between a vector's entries and a scalar's, by a mask. -/
def whereR (p : IVec S50000 1) (a : FVec Ideal S50000 .f32) (c : FVec Ideal S_ .f32) : FVec Ideal S50000 .f32 :=
  select p a (broadcastInDim S50000 ![] bcast_S_S50000 (id c))

/-- The mask of the positive degrees. -/
def degPos (dst : IE) : IVec S50000 1 :=
  cmpf .ogt (degv dst) (broadcastInDim S50000 ![] bcast_S_S50000 (constant (F := Ideal) S_ .f32 0x00000000#32))

theorem dinv_eq (dst : IE) :
    dinv dst = whereR (degPos dst) (Host.rsqrt (F := Ideal) (degv dst)) (constant (F := Ideal) S_ .f32 0x00000000#32) := rfl

end Cert.ReferenceIdeal.RefChain

end
-- ==== Proof.RefChainPreV1.lean ====
/- The two edge lists, read off the first seven operations. -/
import proofs.«115673_j47373489274965_1_alg».proof.Proof.RefChainPreL

noncomputable section

namespace Cert.ReferenceIdeal.RefChain

open Cert.ReferenceIdeal Cert.ReferenceIdeal.Gen Cert.ReferenceIdeal.RefRun Cert.KernelIdeal.Spec
open Idealize.ShloMosaic Idealize.ShloMosaic.TcCoe Idealize.SL.Sem Idealize.ShloMosaic.StableHlo

set_option maxRecDepth 8192 in
theorem srcA (V : Valuation τ sig (Elt Ideal)) :
    after (opsPreA (F := Ideal)) V (Proc.devRef .tc main_v3) = edgeRow0 (V (Proc.devRef .tc main_arg1)) := by
  after_results_simp
  all_goals (try simp only [cast_eq])
  all_goals rfl

set_option maxRecDepth 8192 in
theorem dstA (V : Valuation τ sig (Elt Ideal)) :
    after (opsPreA (F := Ideal)) V (Proc.devRef .tc main_v6) = edgeRow1 (V (Proc.devRef .tc main_arg1)) := by
  after_results_simp
  all_goals (try simp only [cast_eq])
  all_goals rfl

end Cert.ReferenceIdeal.RefChain

end
-- ==== Proof.RefChainPreV2a.lean ====
/- The mask of the positive degrees, the inverse square roots of the degrees and the zero, read off their part of the
   first stretch over the targets as they stand. -/
import proofs.«115673_j47373489274965_1_alg».proof.Proof.RefChainPreL

noncomputable section

namespace Cert.ReferenceIdeal.RefChain

open Cert.ReferenceIdeal Cert.ReferenceIdeal.Gen Cert.ReferenceIdeal.RefRun Cert.KernelIdeal.Spec
open Idealize.ShloMosaic Idealize.ShloMosaic.TcCoe Idealize.SL.Sem Idealize.ShloMosaic.StableHlo

set_option maxRecDepth 8192 in
theorem posB1a (V : Valuation τ sig (Elt Ideal)) :
    after (opsPreB1a (F := Ideal)) V (Proc.devRef .tc main_v12) = degPos (V (Proc.devRef .tc main_v6)) := by
  after_results_simp
  all_goals (try simp only [cast_eq])
  all_goals rfl

set_option maxRecDepth 8192 in
theorem rsqB1a (V : Valuation τ sig (Elt Ideal)) :
    after (opsPreB1a (F := Ideal)) V (Proc.devRef .tc main_v13) = Host.rsqrt (F := Ideal) (degv (V (Proc.devRef .tc main_v6))) := by
  after_results_simp
  all_goals (try simp only [cast_eq])
  all_goals rfl

set_option maxRecDepth 8192 in
theorem zeroB1a (V : Valuation τ sig (Elt Ideal)) :
    after (opsPreB1a (F := Ideal)) V (Proc.devRef .tc main_cst_2) = constant (F := Ideal) S_ .f32 0x00000000#32 := by
  after_results_simp
  all_goals (try simp only [cast_eq])
  all_goals rfl

end Cert.ReferenceIdeal.RefChain

end
-- ==== Proof.RefChainPreV2b.lean ====
/- The choice between the inverse square root and zero, read off its three operations over the mask, the roots and
   the zero as they stand. -/
import proofs.«115673_j47373489274965_1_alg».proof.Proof.RefChainPreL

noncomputable section

namespace Cert.ReferenceIdeal.RefChain

open Cert.ReferenceIdeal Cert.ReferenceIdeal.Gen Cert.ReferenceIdeal.RefRun Cert.KernelIdeal.Spec
open Idealize.ShloMosaic Idealize.ShloMosaic.TcCoe Idealize.SL.Sem Idealize.ShloMosaic.StableHlo

set_option maxRecDepth 8192 in
theorem whereB1b (V : Valuation τ sig (Elt Ideal)) :
    after (opsPreB1b (F := Ideal)) V (Proc.devRef .tc main_v14)
      = whereR (V (Proc.devRef .tc main_v12)) (V (Proc.devRef .tc main_v13)) (V (Proc.devRef .tc main_cst_2)) := by
  after_results_simp
  all_goals (try simp only [cast_eq])
  all_goals rfl

end Cert.ReferenceIdeal.RefChain

end
-- ==== Proof.RefChainPreV2.lean ====
/- The inverse square roots of the degrees where positive, zero elsewhere, over the targets as they stand. -/
import proofs.«115673_j47373489274965_1_alg».proof.Proof.RefChainPreV2a
import proofs.«115673_j47373489274965_1_alg».proof.Proof.RefChainPreV2b

noncomputable section

namespace Cert.ReferenceIdeal.RefChain

open Cert.ReferenceIdeal Cert.ReferenceIdeal.Gen Cert.ReferenceIdeal.RefRun Cert.KernelIdeal.Spec
open Idealize.ShloMosaic Idealize.ShloMosaic.TcCoe Idealize.SL.Sem Idealize.ShloMosaic.StableHlo

theorem dinvB1 (V : Valuation τ sig (Elt Ideal)) :
    after (opsPreB1b (F := Ideal)) (after (opsPreB1a (F := Ideal)) V) (Proc.devRef .tc main_v14) = dinv (V (Proc.devRef .tc main_v6)) := by
  rw [whereB1b, posB1a, rsqB1a, zeroB1a, dinv_eq]

end Cert.ReferenceIdeal.RefChain

end
-- ==== Proof.RefChainPreV3.lean ====
/- The embedding, read off its part of the first stretch. -/
import proofs.«115673_j47373489274965_1_alg».proof.Proof.RefChainPreL

noncomputable section

namespace Cert.ReferenceIdeal.RefChain

open Cert.ReferenceIdeal Cert.ReferenceIdeal.Gen Cert.ReferenceIdeal.RefRun Cert.KernelIdeal.Spec
open Idealize.ShloMosaic Idealize.ShloMosaic.TcCoe Idealize.SL.Sem Idealize.ShloMosaic.StableHlo

set_option maxRecDepth 8192 in
theorem embB3 (V : Valuation τ sig (Elt Ideal)) :
    after (opsPreB3 (F := Ideal)) V (Proc.devRef .tc main_v34) = embR (V (Proc.devRef .tc main_arg0)) (V (Proc.devRef .tc main_arg3)) (V (Proc.devRef .tc main_arg4)) := by
  after_results_simp
  all_goals (try simp only [cast_eq])
  all_goals rfl

end Cert.ReferenceIdeal.RefChain

end
-- ==== Proof.RefChainPreV.lean ====
/- The edge lists, the degree factors and the embedding, each read off its own part of the first stretch. -/
import proofs.«115673_j47373489274965_1_alg».proof.Proof.RefChainPreV1
import proofs.«115673_j47373489274965_1_alg».proof.Proof.RefChainPreV2
import proofs.«115673_j47373489274965_1_alg».proof.Proof.RefChainPreV3
-- ==== Proof.RefChainPreN.lean ====
/- The per-edge norm, read off its part of the first stretch over the degree factors and the edge lists as they stand. -/
import proofs.«115673_j47373489274965_1_alg».proof.Proof.RefChainPreL

noncomputable section

namespace Cert.ReferenceIdeal.RefChain

open Cert.ReferenceIdeal Cert.ReferenceIdeal.Gen Cert.ReferenceIdeal.RefRun Cert.KernelIdeal.Spec
open Idealize.ShloMosaic Idealize.ShloMosaic.TcCoe Idealize.SL.Sem Idealize.ShloMosaic.StableHlo

set_option maxRecDepth 8192 in
theorem normB2 (V : Valuation τ sig (Elt Ideal)) :
    after (opsPreB2 (F := Ideal)) V (Proc.devRef .tc main_v29)
      = edgeNormOf (V (Proc.devRef .tc main_v14)) (V (Proc.devRef .tc main_v3)) (V (Proc.devRef .tc main_v6)) := by
  after_results_simp
  all_goals (try simp only [cast_eq])
  all_goals rfl

end Cert.ReferenceIdeal.RefChain

end
-- ==== Proof.RefChainPre.lean ====
/- The first stretch of the reference's run, read: the two edge lists with the self loops, the per-edge norm, and the
   embedding, each from the arguments. A part of the stretch leaves alone what it does not write. -/
import proofs.«115673_j47373489274965_1_alg».proof.Proof.RefChainPreV
import proofs.«115673_j47373489274965_1_alg».proof.Proof.RefChainPreN

noncomputable section

namespace Cert.ReferenceIdeal.RefChain

open Cert.ReferenceIdeal Cert.ReferenceIdeal.Gen Cert.ReferenceIdeal.RefRun Cert.KernelIdeal.Spec
open Idealize.ShloMosaic Idealize.ShloMosaic.TcCoe Idealize.SL.Sem Idealize.ShloMosaic.StableHlo

/-- The sources of the edges, self loops appended. -/
theorem pre_src (V : Valuation τ sig (Elt Ideal)) :
    after (opsPre (F := Ideal)) V (Proc.devRef .tc main_v3) = edgeRow0 (V (Proc.devRef .tc main_arg1)) := by
  rw [opsPre_split, after_append, after_append, after_append, after_append, after_of_not_written (opsPreB3_writes (F := Ideal)) (r := main_v3) (by decide +kernel),
    after_of_not_written (opsPreB2_writes (F := Ideal)) (r := main_v3) (by decide +kernel), after_of_not_written (opsPreB1b_writes (F := Ideal)) (r := main_v3) (by decide +kernel), after_of_not_written (opsPreB1a_writes (F := Ideal)) (r := main_v3) (by decide +kernel), srcA]

/-- The targets of the edges, self loops appended. -/
theorem pre_dst (V : Valuation τ sig (Elt Ideal)) :
    after (opsPre (F := Ideal)) V (Proc.devRef .tc main_v6) = edgeRow1 (V (Proc.devRef .tc main_arg1)) := by
  rw [opsPre_split, after_append, after_append, after_append, after_append, after_of_not_written (opsPreB3_writes (F := Ideal)) (r := main_v6) (by decide +kernel),
    after_of_not_written (opsPreB2_writes (F := Ideal)) (r := main_v6) (by decide +kernel), after_of_not_written (opsPreB1b_writes (F := Ideal)) (r := main_v6) (by decide +kernel), after_of_not_written (opsPreB1a_writes (F := Ideal)) (r := main_v6) (by decide +kernel), dstA]

/-- The per-edge norm. -/
theorem pre_norm (V : Valuation τ sig (Elt Ideal)) :
    after (opsPre (F := Ideal)) V (Proc.devRef .tc main_v29)
      = edgeNorm (edgeRow0 (V (Proc.devRef .tc main_arg1))) (edgeRow1 (V (Proc.devRef .tc main_arg1))) := by
  rw [opsPre_split, after_append, after_append, after_append, after_append, after_of_not_written (opsPreB3_writes (F := Ideal)) (r := main_v29) (by decide +kernel), normB2, dinvB1,
    after_of_not_written (opsPreB1b_writes (F := Ideal)) (r := main_v3) (by decide +kernel), after_of_not_written (opsPreB1a_writes (F := Ideal)) (r := main_v3) (by decide +kernel),
    after_of_not_written (opsPreB1b_writes (F := Ideal)) (r := main_v6) (by decide +kernel), after_of_not_written (opsPreB1a_writes (F := Ideal)) (r := main_v6) (by decide +kernel), srcA, dstA, edgeNorm_eq]

/-- The embedding. -/
theorem pre_emb (V : Valuation τ sig (Elt Ideal)) :
    after (opsPre (F := Ideal)) V (Proc.devRef .tc main_v34)
      = embR (V (Proc.devRef .tc main_arg0)) (V (Proc.devRef .tc main_arg3)) (V (Proc.devRef .tc main_arg4)) := by
  rw [opsPre_split, after_append, after_append, after_append, after_append, embB3,
    after_of_not_written (opsPreB2_writes (F := Ideal)) (r := main_arg0) (by decide +kernel), after_of_not_written (opsPreB1b_writes (F := Ideal)) (r := main_arg0) (by decide +kernel), after_of_not_written (opsPreB1a_writes (F := Ideal)) (r := main_arg0) (by decide +kernel), after_of_not_written (opsPreA_writes (F := Ideal)) (r := main_arg0) (by decide +kernel),
    after_of_not_written (opsPreB2_writes (F := Ideal)) (r := main_arg3) (by decide +kernel), after_of_not_written (opsPreB1b_writes (F := Ideal)) (r := main_arg3) (by decide +kernel), after_of_not_written (opsPreB1a_writes (F := Ideal)) (r := main_arg3) (by decide +kernel), after_of_not_written (opsPreA_writes (F := Ideal)) (r := main_arg3) (by decide +kernel),
    after_of_not_written (opsPreB2_writes (F := Ideal)) (r := main_arg4) (by decide +kernel), after_of_not_written (opsPreB1b_writes (F := Ideal)) (r := main_arg4) (by decide +kernel), after_of_not_written (opsPreB1a_writes (F := Ideal)) (r := main_arg4) (by decide +kernel), after_of_not_written (opsPreA_writes (F := Ideal)) (r := main_arg4) (by decide +kernel)]

end Cert.ReferenceIdeal.RefChain

end
-- ==== Proof.RefChainL0.lean ====
/- Layer 0 of the reference's run, read. The layer's operations are cut in three: the product, the aggregation over the
   edges and the bias, with the layer's scale and shift rows; the column mean and variance of that matrix; the
   normalisation with rectifier and residual. Each part is read over the contents it starts from, and the three
   compose to the layer as a function of its input, the layer's parameters, the edge lists and the per-edge norm. -/
import proofs.«115673_j47373489274965_1_alg».proof.Proof.RefChainDefs

noncomputable section

namespace Cert.ReferenceIdeal.RefChain

open Cert.ReferenceIdeal Cert.ReferenceIdeal.Gen Cert.ReferenceIdeal.RefRun Cert.KernelIdeal.Spec
open Idealize.ShloMosaic Idealize.ShloMosaic.TcCoe Idealize.SL.Sem Idealize.ShloMosaic.StableHlo

section Lists
variable {F : FTy → Type} [FloatOps F]

/-- Layer 0, first part: the slices of the parameters, the product, the gather at the sources scaled by the norm, the scatter-add at the targets, the bias. -/
abbrev L0a : List (HloOp τ sig (Elt F)) :=
  [ StableHlo.unary main_arg5 main_v35 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v35 main_v36 rfl shapeCasts_S1x128x128_S128x128,
    StableHlo.unary main_arg6 main_v37 ((extractStridedSlice S1x128 ![0, 0] · slices_S4x128_S1x128_0_0) : (⟨S4x128, .f32⟩ : BufTy).Contents (Elt F) → (⟨S1x128, .f32⟩ : BufTy).Contents (Elt F)),
    StableHlo.reshape main_v37 main_v38 rfl shapeCasts_S1x128_S128,
    StableHlo.unary main_v36 main_v39 ((transpose S128x128 [1, 0] · transposes_S128x128_S128x128_1_0) : (⟨S128x128, .f32⟩ : BufTy).Contents (Elt F) → (⟨S128x128, .f32⟩ : BufTy).Contents (Elt F)),
    StableHlo.binary main_v34 main_v39 main_v40 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_6 (constantI S_ 32 0#32),
    StableHlo.unary main_c_6 main_v41 (broadcastInDim S650000 ![] bcast_S_S650000 : (⟨S_, .i32⟩ : BufTy).Contents (Elt F) → (⟨S650000, .i32⟩ : BufTy).Contents (Elt F)),
    StableHlo.binary main_v3 main_v41 main_v42 (cmpi .slt : (⟨S650000, .i32⟩ : BufTy).Contents (Elt F) → (⟨S650000, .i32⟩ : BufTy).Contents (Elt F) → (⟨S650000, .i1⟩ : BufTy).Contents (Elt F)),
    StableHlo.nullary main_c_7 (constantI S_ 32 50000#32),
    StableHlo.unary main_c_7 main_v43 (broadcastInDim S650000 ![] bcast_S_S650000 : (⟨S_, .i32⟩ : BufTy).Contents (Elt F) → (⟨S650000, .i32⟩ : BufTy).Contents (Elt F)),
    StableHlo.binary main_v3 main_v43 main_v44 (addi : (⟨S650000, .i32⟩ : BufTy).Contents (Elt F) → (⟨S650000, .i32⟩ : BufTy).Contents (Elt F) → (⟨S650000, .i32⟩ : BufTy).Contents (Elt F)),
    StableHlo.ternary main_v42 main_v44 main_v3 main_v45 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    StableHlo.unary main_v45 main_v46 (broadcastInDim S650000x1 ![0] bcast_S650000_S650000x1_0 : (⟨S650000, .i32⟩ : BufTy).Contents (Elt F) → (⟨S650000x1, .i32⟩ : BufTy).Contents (Elt F)),
    StableHlo.binary main_v40 main_v46 main_v47 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    StableHlo.unary main_v29 main_v48 (broadcastInDim S650000x1 ![0] bcast_S650000_S650000x1_0 : (⟨S650000, .f32⟩ : BufTy).Contents (Elt F) → (⟨S650000x1, .f32⟩ : BufTy).Contents (Elt F)),
    StableHlo.unary main_v48 main_v49 (broadcastInDim S650000x128 ![0, 1] bcast_S650000x1_S650000x128_0_1 : (⟨S650000x1, .f32⟩ : BufTy).Contents (Elt F) → (⟨S650000x128, .f32⟩ : BufTy).Contents (Elt F)),
    StableHlo.binary main_v47 main_v49 main_v50 (mulf : (⟨S650000x128, .f32⟩ : BufTy).Contents (Elt F) → (⟨S650000x128, .f32⟩ : BufTy).Contents (Elt F) → (⟨S650000x128, .f32⟩ : BufTy).Contents (Elt F)),
    StableHlo.nullary main_cst_8 (constant S_ .f32 0x00000000#32),
    StableHlo.unary main_cst_8 main_v51 (broadcastInDim S50000x128 ![] bcast_S_S50000x128 : (⟨S_, .f32⟩ : BufTy).Contents (Elt F) → (⟨S50000x128, .f32⟩ : BufTy).Contents (Elt F)),
    StableHlo.unary main_v6 main_v52 (broadcastInDim S650000x1 ![0] bcast_S650000_S650000x1_0 : (⟨S650000, .i32⟩ : BufTy).Contents (Elt F) → (⟨S650000x1, .i32⟩ : BufTy).Contents (Elt F)),
    StableHlo.ternary main_v51 main_v52 main_v50 main_v53 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)),
    StableHlo.unary main_v38 main_v54 (broadcastInDim S1x128 ![1] bcast_S128_S1x128_1 : (⟨S128, .f32⟩ : BufTy).Contents (Elt F) → (⟨S1x128, .f32⟩ : BufTy).Contents (Elt F)),
    StableHlo.unary main_v54 main_v55 (broadcastInDim S50000x128 ![0, 1] bcast_S1x128_S50000x128_0_1 : (⟨S1x128, .f32⟩ : BufTy).Contents (Elt F) → (⟨S50000x128, .f32⟩ : BufTy).Contents (Elt F)),
    StableHlo.binary main_v53 main_v55 main_v56 (addf : (⟨S50000x128, .f32⟩ : BufTy).Contents (Elt F) → (⟨S50000x128, .f32⟩ : BufTy).Contents (Elt F) → (⟨S50000x128, .f32⟩ : BufTy).Contents (Elt F)),
    StableHlo.unary main_arg7 main_v57 ((extractStridedSlice S1x128 ![0, 0] · slices_S4x128_S1x128_0_0) : (⟨S4x128, .f32⟩ : BufTy).Contents (Elt F) → (⟨S1x128, .f32⟩ : BufTy).Contents (Elt F)),
    StableHlo.reshape main_v57 main_v58 rfl shapeCasts_S1x128_S128,
    StableHlo.unary main_arg8 main_v59 ((extractStridedSlice S1x128 ![0, 0] · slices_S4x128_S1x128_0_0) : (⟨S4x128, .f32⟩ : BufTy).Contents (Elt F) → (⟨S1x128, .f32⟩ : BufTy).Contents (Elt F)),
    StableHlo.reshape main_v59 main_v60 rfl shapeCasts_S1x128_S128 ]
/-- Layer 0, second part: the column mean and the column variance of the biased aggregate. -/
abbrev L0b : List (HloOp τ sig (Elt F)) :=
  [ StableHlo.nullary main_cst_9 (constant S_ .f32 0x00000000#32),
    StableHlo.binary main_v56 main_cst_9 main_v61 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_10 (constant S_ .f32 0x47435000#32),
    StableHlo.unary main_cst_10 main_v62 (broadcastInDim S128 ![] bcast_S_S128 : (⟨S_, .f32⟩ : BufTy).Contents (Elt F) → (⟨S128, .f32⟩ : BufTy).Contents (Elt F)),
    StableHlo.binary main_v61 main_v62 main_v63 (Host.divf : (⟨S128, .f32⟩ : BufTy).Contents (Elt F) → (⟨S128, .f32⟩ : BufTy).Contents (Elt F) → (⟨S128, .f32⟩ : BufTy).Contents (Elt F)),
    StableHlo.nullary main_c_11 (constantI S_ 32 0#32),
    StableHlo.TRef.nullary main_call1.cst (constant S_ .f32 0x00000000#32),
    StableHlo.TRef.binary (.of main_v56 : StableHlo.TRef sig ⟨S50000x128, .f32⟩) main_call1.cst main_call1.v0 (fun x v => Host.reduceAdd x v reducesTo_S50000x128_S128_d0 h_S_),
    StableHlo.TRef.unary main_call1.v0 main_call1.v1 (broadcastInDim S1x128 ![1] bcast_S128_S1x128_1),
    StableHlo.TRef.nullary main_call1.cst_0 (constant S_ .f32 0x47435000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S50000x128 ![0, 1] bcast_S1x128_S50000x128_0_1),
    StableHlo.TRef.binary (.of main_v56 : StableHlo.TRef sig ⟨S50000x128, .f32⟩) main_call1.v4 main_call1.v5 subf,
    StableHlo.TRef.binary main_call1.v5 main_call1.v5 main_call1.v6 mulf,
    StableHlo.TRef.unary (.of main_c_11 : StableHlo.TRef sig ⟨S_, .i32⟩) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b) ]
/-- Layer 0, third part: the normalisation, the scale and shift, the rectifier, the residual sum. -/
abbrev L0c : List (HloOp τ sig (Elt F)) :=
  [ StableHlo.unary main_v63 main_v65 (broadcastInDim S1x128 ![1] bcast_S128_S1x128_1 : (⟨S128, .f32⟩ : BufTy).Contents (Elt F) → (⟨S1x128, .f32⟩ : BufTy).Contents (Elt F)),
    StableHlo.unary main_v65 main_v66 (broadcastInDim S50000x128 ![0, 1] bcast_S1x128_S50000x128_0_1 : (⟨S1x128, .f32⟩ : BufTy).Contents (Elt F) → (⟨S50000x128, .f32⟩ : BufTy).Contents (Elt F)),
    StableHlo.binary main_v56 main_v66 main_v67 (subf : (⟨S50000x128, .f32⟩ : BufTy).Contents (Elt F) → (⟨S50000x128, .f32⟩ : BufTy).Contents (Elt F) → (⟨S50000x128, .f32⟩ : BufTy).Contents (Elt F)),
    StableHlo.nullary main_cst_12 (constant S_ .f32 0x3727C5AC#32),
    StableHlo.unary main_cst_12 main_v68 (broadcastInDim S128 ![] bcast_S_S128 : (⟨S_, .f32⟩ : BufTy).Contents (Elt F) → (⟨S128, .f32⟩ : BufTy).Contents (Elt F)),
    StableHlo.binary main_v64 main_v68 main_v69 (addf : (⟨S128, .f32⟩ : BufTy).Contents (Elt F) → (⟨S128, .f32⟩ : BufTy).Contents (Elt F) → (⟨S128, .f32⟩ : BufTy).Contents (Elt F)),
    StableHlo.unary main_v69 main_v70 (Host.rsqrt : (⟨S128, .f32⟩ : BufTy).Contents (Elt F) → (⟨S128, .f32⟩ : BufTy).Contents (Elt F)),
    StableHlo.unary main_v70 main_v71 (broadcastInDim S1x128 ![1] bcast_S128_S1x128_1 : (⟨S128, .f32⟩ : BufTy).Contents (Elt F) → (⟨S1x128, .f32⟩ : BufTy).Contents (Elt F)),
    StableHlo.unary main_v71 main_v72 (broadcastInDim S50000x128 ![0, 1] bcast_S1x128_S50000x128_0_1 : (⟨S1x128, .f32⟩ : BufTy).Contents (Elt F) → (⟨S50000x128, .f32⟩ : BufTy).Contents (Elt F)),
    StableHlo.binary main_v67 main_v72 main_v73 (mulf : (⟨S50000x128, .f32⟩ : BufTy).Contents (Elt F) → (⟨S50000x128, .f32⟩ : BufTy).Contents (Elt F) → (⟨S50000x128, .f32⟩ : BufTy).Contents (Elt F)),
    StableHlo.unary main_v58 main_v74 (broadcastInDim S1x128 ![1] bcast_S128_S1x128_1 : (⟨S128, .f32⟩ : BufTy).Contents (Elt F) → (⟨S1x128, .f32⟩ : BufTy).Contents (Elt F)),
    StableHlo.unary main_v74 main_v75 (broadcastInDim S50000x128 ![0, 1] bcast_S1x128_S50000x128_0_1 : (⟨S1x128, .f32⟩ : BufTy).Contents (Elt F) → (⟨S50000x128, .f32⟩ : BufTy).Contents (Elt F)),
    StableHlo.binary main_v73 main_v75 main_v76 (mulf : (⟨S50000x128, .f32⟩ : BufTy).Contents (Elt F) → (⟨S50000x128, .f32⟩ : BufTy).Contents (Elt F) → (⟨S50000x128, .f32⟩ : BufTy).Contents (Elt F)),
    StableHlo.unary main_v60 main_v77 (broadcastInDim S1x128 ![1] bcast_S128_S1x128_1 : (⟨S128, .f32⟩ : BufTy).Contents (Elt F) → (⟨S1x128, .f32⟩ : BufTy).Contents (Elt F)),
    StableHlo.unary main_v77 main_v78 (broadcastInDim S50000x128 ![0, 1] bcast_S1x128_S50000x128_0_1 : (⟨S1x128, .f32⟩ : BufTy).Contents (Elt F) → (⟨S50000x128, .f32⟩ : BufTy).Contents (Elt F)),
    StableHlo.binary main_v76 main_v78 main_v79 (addf : (⟨S50000x128, .f32⟩ : BufTy).Contents (Elt F) → (⟨S50000x128, .f32⟩ : BufTy).Contents (Elt F) → (⟨S50000x128, .f32⟩ : BufTy).Contents (Elt F)),
    StableHlo.TRef.nullary main_call2.cst (constant S_ .f32 0x00000000#32),
    StableHlo.TRef.unary main_call2.cst main_call2.v0 (broadcastInDim S50000x128 ![] bcast_S_S50000x128),
    StableHlo.TRef.binary (.of main_v79 : StableHlo.TRef sig ⟨S50000x128, .f32⟩) main_call2.v0 main_call2.v1 maximumf,
    StableHlo.binary main_v80 main_v34 main_v81 (addf : (⟨S50000x128, .f32⟩ : BufTy).Contents (Elt F) → (⟨S50000x128, .f32⟩ : BufTy).Contents (Elt F) → (⟨S50000x128, .f32⟩ : BufTy).Contents (Elt F)) ]
/-- The layer's operations are the three parts in order. -/
theorem opsL0_split : (opsL0 : List (HloOp τ sig (Elt F))) = L0a ++ L0b ++ L0c := by
  chain_rfl
/-- The references `L0a` writes, in order. -/
abbrev L0a_W : List (Ref sig .tc) :=
  [ main_v35, main_v36, main_v37, main_v38, main_v39, main_v40, main_c_6, main_v41, main_v42, main_c_7,
    main_v43, main_v44, main_v45, main_v46, main_v47, main_v48, main_v49, main_v50, main_cst_8, main_v51,
    main_v52, main_v53, main_v54, main_v55, main_v56, main_v57, main_v58, main_v59, main_v60 ]
theorem L0a_writes : (L0a : List (HloOp τ sig (Elt F))).map HloOp.writes
    = L0a_W.map fun y => ({Proc.devRef .tc y} : Finset (DevRef τ sig)) := by
  chain_rfl
/-- The references `L0b` writes, in order. -/
abbrev L0b_W : List (Ref sig .tc) :=
  [ main_cst_9, main_v61, main_cst_10, main_v62, main_v63, main_c_11, main_call1_cst, main_call1_v0, main_call1_v1, main_call1_cst_0,
    main_call1_v2, main_call1_v3, main_call1_v4, main_call1_v5, main_call1_v6, main_call1_v7, main_call1_cst_1, main_call1_v8, main_call1_cst_2, main_call1_v9,
    main_call1_v10, main_call1_v11, main_call1_cst_3, main_call1_v12, main_call1_cst_4, main_call1_call0_v0, main_call1_call0_v1, main_v64 ]
theorem L0b_writes : (L0b : List (HloOp τ sig (Elt F))).map HloOp.writes
    = L0b_W.map fun y => ({Proc.devRef .tc y} : Finset (DevRef τ sig)) := by
  chain_rfl

end Lists

set_option maxRecDepth 8192 in
/-- The biased aggregate. -/
theorem yA_0 (V : Valuation τ sig (Elt Ideal)) :
    after (L0a (F := Ideal)) V (Proc.devRef .tc main_v56)
      = preNormR (V (Proc.devRef .tc main_v34)) (wT 0 slices_S4x128x128_S1x128x128_0_0_0 (V (Proc.devRef .tc main_arg5))) (vsl 0 slices_S4x128_S1x128_0_0 (V (Proc.devRef .tc main_arg6)))
          (V (Proc.devRef .tc main_v3)) (V (Proc.devRef .tc main_v6)) (V (Proc.devRef .tc main_v29)) := by
  after_results_simp
  all_goals (try simp only [cast_eq])
  all_goals rfl

set_option maxRecDepth 8192 in
theorem gA_0 (V : Valuation τ sig (Elt Ideal)) :
    after (L0a (F := Ideal)) V (Proc.devRef .tc main_v58) = vsl 0 slices_S4x128_S1x128_0_0 (V (Proc.devRef .tc main_arg7)) := by
  after_results_simp
  all_goals (try simp only [cast_eq])
  all_goals rfl

set_option maxRecDepth 8192 in
theorem beA_0 (V : Valuation τ sig (Elt Ideal)) :
    after (L0a (F := Ideal)) V (Proc.devRef .tc main_v60) = vsl 0 slices_S4x128_S1x128_0_0 (V (Proc.devRef .tc main_arg8)) := by
  after_results_simp
  all_goals (try simp only [cast_eq])
  all_goals rfl

set_option maxRecDepth 8192 in
/-- The column means of the matrix the statistics are taken of. -/
theorem muB_0 (V : Valuation τ sig (Elt Ideal)) :
    after (L0b (F := Ideal)) V (Proc.devRef .tc main_v63) = meanv (V (Proc.devRef .tc main_v56)) := by
  after_results_simp
  all_goals (try simp only [cast_eq])
  all_goals rfl

set_option maxRecDepth 8192 in
/-- Its column variances. -/
theorem vaB_0 (V : Valuation τ sig (Elt Ideal)) :
    after (L0b (F := Ideal)) V (Proc.devRef .tc main_v64) = varv (V (Proc.devRef .tc main_v56)) := by
  after_results_simp
  all_goals (try simp only [cast_eq])
  all_goals rfl

set_option maxRecDepth 8192 in
/-- The normalisation with rectifier and residual over the statistics as they stand. -/
theorem outC_0 (V : Valuation τ sig (Elt Ideal)) :
    after (L0c (F := Ideal)) V (Proc.devRef .tc main_v81)
      = normR (V (Proc.devRef .tc main_v56)) (V (Proc.devRef .tc main_v63)) (V (Proc.devRef .tc main_v64)) (V (Proc.devRef .tc main_v58)) (V (Proc.devRef .tc main_v60)) (V (Proc.devRef .tc main_v34)) := by
  after_results_simp
  all_goals (try simp only [cast_eq])
  all_goals rfl

/-- Layer 0 as a function of its input, its parameters, the edge lists and the per-edge norm. -/
theorem layer_0 (V : Valuation τ sig (Elt Ideal)) :
    after (opsL0 (F := Ideal)) V (Proc.devRef .tc main_v81)
      = layerR dotR (V (Proc.devRef .tc main_v34)) (wT 0 slices_S4x128x128_S1x128x128_0_0_0 (V (Proc.devRef .tc main_arg5))) (vsl 0 slices_S4x128_S1x128_0_0 (V (Proc.devRef .tc main_arg6)))
          (vsl 0 slices_S4x128_S1x128_0_0 (V (Proc.devRef .tc main_arg7))) (vsl 0 slices_S4x128_S1x128_0_0 (V (Proc.devRef .tc main_arg8)))
          (V (Proc.devRef .tc main_v3)) (V (Proc.devRef .tc main_v6)) (V (Proc.devRef .tc main_v29)) := by
  rw [opsL0_split, after_append, after_append, outC_0, muB_0, vaB_0,
    after_of_not_written (L0b_writes (F := Ideal)) (r := main_v56) (by decide +kernel), after_of_not_written (L0b_writes (F := Ideal)) (r := main_v58) (by decide +kernel),
    after_of_not_written (L0b_writes (F := Ideal)) (r := main_v60) (by decide +kernel), after_of_not_written (L0b_writes (F := Ideal)) (r := main_v34) (by decide +kernel),
    yA_0, gA_0, beA_0, after_of_not_written (L0a_writes (F := Ideal)) (r := main_v34) (by decide +kernel), layerR_eq]

end Cert.ReferenceIdeal.RefChain

end
-- ==== Proof.RefChainL1.lean ====
/- Layer 1 of the reference's run, read. The layer's operations are cut in three: the product, the aggregation over the
   edges and the bias, with the layer's scale and shift rows; the column mean and variance of that matrix; the
   normalisation with rectifier and residual. Each part is read over the contents it starts from, and the three
   compose to the layer as a function of its input, the layer's parameters, the edge lists and the per-edge norm. -/
import proofs.«115673_j47373489274965_1_alg».proof.Proof.RefChainDefs

noncomputable section

namespace Cert.ReferenceIdeal.RefChain

open Cert.ReferenceIdeal Cert.ReferenceIdeal.Gen Cert.ReferenceIdeal.RefRun Cert.KernelIdeal.Spec
open Idealize.ShloMosaic Idealize.ShloMosaic.TcCoe Idealize.SL.Sem Idealize.ShloMosaic.StableHlo

section Lists
variable {F : FTy → Type} [FloatOps F]

/-- Layer 1, first part: the slices of the parameters, the product, the gather at the sources scaled by the norm, the scatter-add at the targets, the bias. -/
abbrev L1a : List (HloOp τ sig (Elt F)) :=
  [ StableHlo.unary main_arg5 main_v82 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v82 main_v83 rfl shapeCasts_S1x128x128_S128x128,
    StableHlo.unary main_arg6 main_v84 ((extractStridedSlice S1x128 ![1, 0] · slices_S4x128_S1x128_1_0) : (⟨S4x128, .f32⟩ : BufTy).Contents (Elt F) → (⟨S1x128, .f32⟩ : BufTy).Contents (Elt F)),
    StableHlo.reshape main_v84 main_v85 rfl shapeCasts_S1x128_S128,
    StableHlo.unary main_v83 main_v86 ((transpose S128x128 [1, 0] · transposes_S128x128_S128x128_1_0) : (⟨S128x128, .f32⟩ : BufTy).Contents (Elt F) → (⟨S128x128, .f32⟩ : BufTy).Contents (Elt F)),
    StableHlo.binary main_v81 main_v86 main_v87 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_13 (constantI S_ 32 0#32),
    StableHlo.unary main_c_13 main_v88 (broadcastInDim S650000 ![] bcast_S_S650000 : (⟨S_, .i32⟩ : BufTy).Contents (Elt F) → (⟨S650000, .i32⟩ : BufTy).Contents (Elt F)),
    StableHlo.binary main_v3 main_v88 main_v89 (cmpi .slt : (⟨S650000, .i32⟩ : BufTy).Contents (Elt F) → (⟨S650000, .i32⟩ : BufTy).Contents (Elt F) → (⟨S650000, .i1⟩ : BufTy).Contents (Elt F)),
    StableHlo.nullary main_c_14 (constantI S_ 32 50000#32),
    StableHlo.unary main_c_14 main_v90 (broadcastInDim S650000 ![] bcast_S_S650000 : (⟨S_, .i32⟩ : BufTy).Contents (Elt F) → (⟨S650000, .i32⟩ : BufTy).Contents (Elt F)),
    StableHlo.binary main_v3 main_v90 main_v91 (addi : (⟨S650000, .i32⟩ : BufTy).Contents (Elt F) → (⟨S650000, .i32⟩ : BufTy).Contents (Elt F) → (⟨S650000, .i32⟩ : BufTy).Contents (Elt F)),
    StableHlo.ternary main_v89 main_v91 main_v3 main_v92 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    StableHlo.unary main_v92 main_v93 (broadcastInDim S650000x1 ![0] bcast_S650000_S650000x1_0 : (⟨S650000, .i32⟩ : BufTy).Contents (Elt F) → (⟨S650000x1, .i32⟩ : BufTy).Contents (Elt F)),
    StableHlo.binary main_v87 main_v93 main_v94 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    StableHlo.unary main_v29 main_v95 (broadcastInDim S650000x1 ![0] bcast_S650000_S650000x1_0 : (⟨S650000, .f32⟩ : BufTy).Contents (Elt F) → (⟨S650000x1, .f32⟩ : BufTy).Contents (Elt F)),
    StableHlo.unary main_v95 main_v96 (broadcastInDim S650000x128 ![0, 1] bcast_S650000x1_S650000x128_0_1 : (⟨S650000x1, .f32⟩ : BufTy).Contents (Elt F) → (⟨S650000x128, .f32⟩ : BufTy).Contents (Elt F)),
    StableHlo.binary main_v94 main_v96 main_v97 (mulf : (⟨S650000x128, .f32⟩ : BufTy).Contents (Elt F) → (⟨S650000x128, .f32⟩ : BufTy).Contents (Elt F) → (⟨S650000x128, .f32⟩ : BufTy).Contents (Elt F)),
    StableHlo.nullary main_cst_15 (constant S_ .f32 0x00000000#32),
    StableHlo.unary main_cst_15 main_v98 (broadcastInDim S50000x128 ![] bcast_S_S50000x128 : (⟨S_, .f32⟩ : BufTy).Contents (Elt F) → (⟨S50000x128, .f32⟩ : BufTy).Contents (Elt F)),
    StableHlo.unary main_v6 main_v99 (broadcastInDim S650000x1 ![0] bcast_S650000_S650000x1_0 : (⟨S650000, .i32⟩ : BufTy).Contents (Elt F) → (⟨S650000x1, .i32⟩ : BufTy).Contents (Elt F)),
    StableHlo.ternary main_v98 main_v99 main_v97 main_v100 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)),
    StableHlo.unary main_v85 main_v101 (broadcastInDim S1x128 ![1] bcast_S128_S1x128_1 : (⟨S128, .f32⟩ : BufTy).Contents (Elt F) → (⟨S1x128, .f32⟩ : BufTy).Contents (Elt F)),
    StableHlo.unary main_v101 main_v102 (broadcastInDim S50000x128 ![0, 1] bcast_S1x128_S50000x128_0_1 : (⟨S1x128, .f32⟩ : BufTy).Contents (Elt F) → (⟨S50000x128, .f32⟩ : BufTy).Contents (Elt F)),
    StableHlo.binary main_v100 main_v102 main_v103 (addf : (⟨S50000x128, .f32⟩ : BufTy).Contents (Elt F) → (⟨S50000x128, .f32⟩ : BufTy).Contents (Elt F) → (⟨S50000x128, .f32⟩ : BufTy).Contents (Elt F)),
    StableHlo.unary main_arg7 main_v104 ((extractStridedSlice S1x128 ![1, 0] · slices_S4x128_S1x128_1_0) : (⟨S4x128, .f32⟩ : BufTy).Contents (Elt F) → (⟨S1x128, .f32⟩ : BufTy).Contents (Elt F)),
    StableHlo.reshape main_v104 main_v105 rfl shapeCasts_S1x128_S128,
    StableHlo.unary main_arg8 main_v106 ((extractStridedSlice S1x128 ![1, 0] · slices_S4x128_S1x128_1_0) : (⟨S4x128, .f32⟩ : BufTy).Contents (Elt F) → (⟨S1x128, .f32⟩ : BufTy).Contents (Elt F)),
    StableHlo.reshape main_v106 main_v107 rfl shapeCasts_S1x128_S128 ]
/-- Layer 1, second part: the column mean and the column variance of the biased aggregate. -/
abbrev L1b : List (HloOp τ sig (Elt F)) :=
  [ StableHlo.nullary main_cst_16 (constant S_ .f32 0x00000000#32),
    StableHlo.binary main_v103 main_cst_16 main_v108 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_17 (constant S_ .f32 0x47435000#32),
    StableHlo.unary main_cst_17 main_v109 (broadcastInDim S128 ![] bcast_S_S128 : (⟨S_, .f32⟩ : BufTy).Contents (Elt F) → (⟨S128, .f32⟩ : BufTy).Contents (Elt F)),
    StableHlo.binary main_v108 main_v109 main_v110 (Host.divf : (⟨S128, .f32⟩ : BufTy).Contents (Elt F) → (⟨S128, .f32⟩ : BufTy).Contents (Elt F) → (⟨S128, .f32⟩ : BufTy).Contents (Elt F)),
    StableHlo.nullary main_c_18 (constantI S_ 32 0#32),
    StableHlo.TRef.nullary main_call3.cst (constant S_ .f32 0x00000000#32),
    StableHlo.TRef.binary (.of main_v103 : StableHlo.TRef sig ⟨S50000x128, .f32⟩) main_call3.cst main_call3.v0 (fun x v => Host.reduceAdd x v reducesTo_S50000x128_S128_d0 h_S_),
    StableHlo.TRef.unary main_call3.v0 main_call3.v1 (broadcastInDim S1x128 ![1] bcast_S128_S1x128_1),
    StableHlo.TRef.nullary main_call3.cst_0 (constant S_ .f32 0x47435000#32),
    StableHlo.TRef.unary main_call3.cst_0 main_call3.v2 (broadcastInDim S1x128 ![] bcast_S_S1x128),
    StableHlo.TRef.binary main_call3.v1 main_call3.v2 main_call3.v3 Host.divf,
    StableHlo.TRef.unary main_call3.v3 main_call3.v4 (broadcastInDim S50000x128 ![0, 1] bcast_S1x128_S50000x128_0_1),
    StableHlo.TRef.binary (.of main_v103 : StableHlo.TRef sig ⟨S50000x128, .f32⟩) main_call3.v4 main_call3.v5 subf,
    StableHlo.TRef.binary main_call3.v5 main_call3.v5 main_call3.v6 mulf,
    StableHlo.TRef.unary (.of main_c_18 : StableHlo.TRef sig ⟨S_, .i32⟩) main_call3.v7 (sitofp .f32),
    StableHlo.TRef.nullary main_call3.cst_1 (constant S_ .f32 0x47435000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S50000x128_S128_d0 h_S_),
    StableHlo.TRef.unary main_call3.v8 main_call3.v10 (broadcastInDim S128 ![] bcast_S_S128),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S128 ![] bcast_S_S128),
    StableHlo.TRef.ternary main_call3.v12 main_call3.v11 main_call3.call0.v1 main_call3.call0.v2 (fun p a b => select (broadcastInDim S128 ![] bcast_S_S128 p) a b) ]
/-- Layer 1, third part: the normalisation, the scale and shift, the rectifier, the residual sum. -/
abbrev L1c : List (HloOp τ sig (Elt F)) :=
  [ StableHlo.unary main_v110 main_v112 (broadcastInDim S1x128 ![1] bcast_S128_S1x128_1 : (⟨S128, .f32⟩ : BufTy).Contents (Elt F) → (⟨S1x128, .f32⟩ : BufTy).Contents (Elt F)),
    StableHlo.unary main_v112 main_v113 (broadcastInDim S50000x128 ![0, 1] bcast_S1x128_S50000x128_0_1 : (⟨S1x128, .f32⟩ : BufTy).Contents (Elt F) → (⟨S50000x128, .f32⟩ : BufTy).Contents (Elt F)),
    StableHlo.binary main_v103 main_v113 main_v114 (subf : (⟨S50000x128, .f32⟩ : BufTy).Contents (Elt F) → (⟨S50000x128, .f32⟩ : BufTy).Contents (Elt F) → (⟨S50000x128, .f32⟩ : BufTy).Contents (Elt F)),
    StableHlo.nullary main_cst_19 (constant S_ .f32 0x3727C5AC#32),
    StableHlo.unary main_cst_19 main_v115 (broadcastInDim S128 ![] bcast_S_S128 : (⟨S_, .f32⟩ : BufTy).Contents (Elt F) → (⟨S128, .f32⟩ : BufTy).Contents (Elt F)),
    StableHlo.binary main_v111 main_v115 main_v116 (addf : (⟨S128, .f32⟩ : BufTy).Contents (Elt F) → (⟨S128, .f32⟩ : BufTy).Contents (Elt F) → (⟨S128, .f32⟩ : BufTy).Contents (Elt F)),
    StableHlo.unary main_v116 main_v117 (Host.rsqrt : (⟨S128, .f32⟩ : BufTy).Contents (Elt F) → (⟨S128, .f32⟩ : BufTy).Contents (Elt F)),
    StableHlo.unary main_v117 main_v118 (broadcastInDim S1x128 ![1] bcast_S128_S1x128_1 : (⟨S128, .f32⟩ : BufTy).Contents (Elt F) → (⟨S1x128, .f32⟩ : BufTy).Contents (Elt F)),
    StableHlo.unary main_v118 main_v119 (broadcastInDim S50000x128 ![0, 1] bcast_S1x128_S50000x128_0_1 : (⟨S1x128, .f32⟩ : BufTy).Contents (Elt F) → (⟨S50000x128, .f32⟩ : BufTy).Contents (Elt F)),
    StableHlo.binary main_v114 main_v119 main_v120 (mulf : (⟨S50000x128, .f32⟩ : BufTy).Contents (Elt F) → (⟨S50000x128, .f32⟩ : BufTy).Contents (Elt F) → (⟨S50000x128, .f32⟩ : BufTy).Contents (Elt F)),
    StableHlo.unary main_v105 main_v121 (broadcastInDim S1x128 ![1] bcast_S128_S1x128_1 : (⟨S128, .f32⟩ : BufTy).Contents (Elt F) → (⟨S1x128, .f32⟩ : BufTy).Contents (Elt F)),
    StableHlo.unary main_v121 main_v122 (broadcastInDim S50000x128 ![0, 1] bcast_S1x128_S50000x128_0_1 : (⟨S1x128, .f32⟩ : BufTy).Contents (Elt F) → (⟨S50000x128, .f32⟩ : BufTy).Contents (Elt F)),
    StableHlo.binary main_v120 main_v122 main_v123 (mulf : (⟨S50000x128, .f32⟩ : BufTy).Contents (Elt F) → (⟨S50000x128, .f32⟩ : BufTy).Contents (Elt F) → (⟨S50000x128, .f32⟩ : BufTy).Contents (Elt F)),
    StableHlo.unary main_v107 main_v124 (broadcastInDim S1x128 ![1] bcast_S128_S1x128_1 : (⟨S128, .f32⟩ : BufTy).Contents (Elt F) → (⟨S1x128, .f32⟩ : BufTy).Contents (Elt F)),
    StableHlo.unary main_v124 main_v125 (broadcastInDim S50000x128 ![0, 1] bcast_S1x128_S50000x128_0_1 : (⟨S1x128, .f32⟩ : BufTy).Contents (Elt F) → (⟨S50000x128, .f32⟩ : BufTy).Contents (Elt F)),
    StableHlo.binary main_v123 main_v125 main_v126 (addf : (⟨S50000x128, .f32⟩ : BufTy).Contents (Elt F) → (⟨S50000x128, .f32⟩ : BufTy).Contents (Elt F) → (⟨S50000x128, .f32⟩ : BufTy).Contents (Elt F)),
    StableHlo.TRef.nullary main_call4.cst (constant S_ .f32 0x00000000#32),
    StableHlo.TRef.unary main_call4.cst main_call4.v0 (broadcastInDim S50000x128 ![] bcast_S_S50000x128),
    StableHlo.TRef.binary (.of main_v126 : StableHlo.TRef sig ⟨S50000x128, .f32⟩) main_call4.v0 main_call4.v1 maximumf,
    StableHlo.binary main_v127 main_v81 main_v128 (addf : (⟨S50000x128, .f32⟩ : BufTy).Contents (Elt F) → (⟨S50000x128, .f32⟩ : BufTy).Contents (Elt F) → (⟨S50000x128, .f32⟩ : BufTy).Contents (Elt F)) ]
/-- The layer's operations are the three parts in order. -/
theorem opsL1_split : (opsL1 : List (HloOp τ sig (Elt F))) = L1a ++ L1b ++ L1c := by
  chain_rfl
/-- The references `L1a` writes, in order. -/
abbrev L1a_W : List (Ref sig .tc) :=
  [ main_v82, main_v83, main_v84, main_v85, main_v86, main_v87, main_c_13, main_v88, main_v89, main_c_14,
    main_v90, main_v91, main_v92, main_v93, main_v94, main_v95, main_v96, main_v97, main_cst_15, main_v98,
    main_v99, main_v100, main_v101, main_v102, main_v103, main_v104, main_v105, main_v106, main_v107 ]
theorem L1a_writes : (L1a : List (HloOp τ sig (Elt F))).map HloOp.writes
    = L1a_W.map fun y => ({Proc.devRef .tc y} : Finset (DevRef τ sig)) := by
  chain_rfl
/-- The references `L1b` writes, in order. -/
abbrev L1b_W : List (Ref sig .tc) :=
  [ main_cst_16, main_v108, main_cst_17, main_v109, main_v110, main_c_18, main_call3_cst, main_call3_v0, main_call3_v1, main_call3_cst_0,
    main_call3_v2, main_call3_v3, main_call3_v4, main_call3_v5, main_call3_v6, main_call3_v7, main_call3_cst_1, main_call3_v8, main_call3_cst_2, main_call3_v9,
    main_call3_v10, main_call3_v11, main_call3_cst_3, main_call3_v12, main_call3_cst_4, main_call3_call0_v0, main_call3_call0_v1, main_v111 ]
theorem L1b_writes : (L1b : List (HloOp τ sig (Elt F))).map HloOp.writes
    = L1b_W.map fun y => ({Proc.devRef .tc y} : Finset (DevRef τ sig)) := by
  chain_rfl

end Lists

set_option maxRecDepth 8192 in
/-- The biased aggregate. -/
theorem yA_1 (V : Valuation τ sig (Elt Ideal)) :
    after (L1a (F := Ideal)) V (Proc.devRef .tc main_v103)
      = preNormR (V (Proc.devRef .tc main_v81)) (wT 1 slices_S4x128x128_S1x128x128_1_0_0 (V (Proc.devRef .tc main_arg5))) (vsl 1 slices_S4x128_S1x128_1_0 (V (Proc.devRef .tc main_arg6)))
          (V (Proc.devRef .tc main_v3)) (V (Proc.devRef .tc main_v6)) (V (Proc.devRef .tc main_v29)) := by
  after_results_simp
  all_goals (try simp only [cast_eq])
  all_goals rfl

set_option maxRecDepth 8192 in
theorem gA_1 (V : Valuation τ sig (Elt Ideal)) :
    after (L1a (F := Ideal)) V (Proc.devRef .tc main_v105) = vsl 1 slices_S4x128_S1x128_1_0 (V (Proc.devRef .tc main_arg7)) := by
  after_results_simp
  all_goals (try simp only [cast_eq])
  all_goals rfl

set_option maxRecDepth 8192 in
theorem beA_1 (V : Valuation τ sig (Elt Ideal)) :
    after (L1a (F := Ideal)) V (Proc.devRef .tc main_v107) = vsl 1 slices_S4x128_S1x128_1_0 (V (Proc.devRef .tc main_arg8)) := by
  after_results_simp
  all_goals (try simp only [cast_eq])
  all_goals rfl

set_option maxRecDepth 8192 in
/-- The column means of the matrix the statistics are taken of. -/
theorem muB_1 (V : Valuation τ sig (Elt Ideal)) :
    after (L1b (F := Ideal)) V (Proc.devRef .tc main_v110) = meanv (V (Proc.devRef .tc main_v103)) := by
  after_results_simp
  all_goals (try simp only [cast_eq])
  all_goals rfl

set_option maxRecDepth 8192 in
/-- Its column variances. -/
theorem vaB_1 (V : Valuation τ sig (Elt Ideal)) :
    after (L1b (F := Ideal)) V (Proc.devRef .tc main_v111) = varv (V (Proc.devRef .tc main_v103)) := by
  after_results_simp
  all_goals (try simp only [cast_eq])
  all_goals rfl

set_option maxRecDepth 8192 in
/-- The normalisation with rectifier and residual over the statistics as they stand. -/
theorem outC_1 (V : Valuation τ sig (Elt Ideal)) :
    after (L1c (F := Ideal)) V (Proc.devRef .tc main_v128)
      = normR (V (Proc.devRef .tc main_v103)) (V (Proc.devRef .tc main_v110)) (V (Proc.devRef .tc main_v111)) (V (Proc.devRef .tc main_v105)) (V (Proc.devRef .tc main_v107)) (V (Proc.devRef .tc main_v81)) := by
  after_results_simp
  all_goals (try simp only [cast_eq])
  all_goals rfl

/-- Layer 1 as a function of its input, its parameters, the edge lists and the per-edge norm. -/
theorem layer_1 (V : Valuation τ sig (Elt Ideal)) :
    after (opsL1 (F := Ideal)) V (Proc.devRef .tc main_v128)
      = layerR dotR (V (Proc.devRef .tc main_v81)) (wT 1 slices_S4x128x128_S1x128x128_1_0_0 (V (Proc.devRef .tc main_arg5))) (vsl 1 slices_S4x128_S1x128_1_0 (V (Proc.devRef .tc main_arg6)))
          (vsl 1 slices_S4x128_S1x128_1_0 (V (Proc.devRef .tc main_arg7))) (vsl 1 slices_S4x128_S1x128_1_0 (V (Proc.devRef .tc main_arg8)))
          (V (Proc.devRef .tc main_v3)) (V (Proc.devRef .tc main_v6)) (V (Proc.devRef .tc main_v29)) := by
  rw [opsL1_split, after_append, after_append, outC_1, muB_1, vaB_1,
    after_of_not_written (L1b_writes (F := Ideal)) (r := main_v103) (by decide +kernel), after_of_not_written (L1b_writes (F := Ideal)) (r := main_v105) (by decide +kernel),
    after_of_not_written (L1b_writes (F := Ideal)) (r := main_v107) (by decide +kernel), after_of_not_written (L1b_writes (F := Ideal)) (r := main_v81) (by decide +kernel),
    yA_1, gA_1, beA_1, after_of_not_written (L1a_writes (F := Ideal)) (r := main_v81) (by decide +kernel), layerR_eq]

end Cert.ReferenceIdeal.RefChain

end
-- ==== Proof.RefChainL2.lean ====
/- Layer 2 of the reference's run, read. The layer's operations are cut in three: the product, the aggregation over the
   edges and the bias, with the layer's scale and shift rows; the column mean and variance of that matrix; the
   normalisation with rectifier and residual. Each part is read over the contents it starts from, and the three
   compose to the layer as a function of its input, the layer's parameters, the edge lists and the per-edge norm. -/
import proofs.«115673_j47373489274965_1_alg».proof.Proof.RefChainDefs

noncomputable section

namespace Cert.ReferenceIdeal.RefChain

open Cert.ReferenceIdeal Cert.ReferenceIdeal.Gen Cert.ReferenceIdeal.RefRun Cert.KernelIdeal.Spec
open Idealize.ShloMosaic Idealize.ShloMosaic.TcCoe Idealize.SL.Sem Idealize.ShloMosaic.StableHlo

section Lists
variable {F : FTy → Type} [FloatOps F]

/-- Layer 2, first part: the slices of the parameters, the product, the gather at the sources scaled by the norm, the scatter-add at the targets, the bias. -/
abbrev L2a : List (HloOp τ sig (Elt F)) :=
  [ StableHlo.unary main_arg5 main_v129 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v129 main_v130 rfl shapeCasts_S1x128x128_S128x128,
    StableHlo.unary main_arg6 main_v131 ((extractStridedSlice S1x128 ![2, 0] · slices_S4x128_S1x128_2_0) : (⟨S4x128, .f32⟩ : BufTy).Contents (Elt F) → (⟨S1x128, .f32⟩ : BufTy).Contents (Elt F)),
    StableHlo.reshape main_v131 main_v132 rfl shapeCasts_S1x128_S128,
    StableHlo.unary main_v130 main_v133 ((transpose S128x128 [1, 0] · transposes_S128x128_S128x128_1_0) : (⟨S128x128, .f32⟩ : BufTy).Contents (Elt F) → (⟨S128x128, .f32⟩ : BufTy).Contents (Elt F)),
    StableHlo.binary main_v128 main_v133 main_v134 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_20 (constantI S_ 32 0#32),
    StableHlo.unary main_c_20 main_v135 (broadcastInDim S650000 ![] bcast_S_S650000 : (⟨S_, .i32⟩ : BufTy).Contents (Elt F) → (⟨S650000, .i32⟩ : BufTy).Contents (Elt F)),
    StableHlo.binary main_v3 main_v135 main_v136 (cmpi .slt : (⟨S650000, .i32⟩ : BufTy).Contents (Elt F) → (⟨S650000, .i32⟩ : BufTy).Contents (Elt F) → (⟨S650000, .i1⟩ : BufTy).Contents (Elt F)),
    StableHlo.nullary main_c_21 (constantI S_ 32 50000#32),
    StableHlo.unary main_c_21 main_v137 (broadcastInDim S650000 ![] bcast_S_S650000 : (⟨S_, .i32⟩ : BufTy).Contents (Elt F) → (⟨S650000, .i32⟩ : BufTy).Contents (Elt F)),
    StableHlo.binary main_v3 main_v137 main_v138 (addi : (⟨S650000, .i32⟩ : BufTy).Contents (Elt F) → (⟨S650000, .i32⟩ : BufTy).Contents (Elt F) → (⟨S650000, .i32⟩ : BufTy).Contents (Elt F)),
    StableHlo.ternary main_v136 main_v138 main_v3 main_v139 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    StableHlo.unary main_v139 main_v140 (broadcastInDim S650000x1 ![0] bcast_S650000_S650000x1_0 : (⟨S650000, .i32⟩ : BufTy).Contents (Elt F) → (⟨S650000x1, .i32⟩ : BufTy).Contents (Elt F)),
    StableHlo.binary main_v134 main_v140 main_v141 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    StableHlo.unary main_v29 main_v142 (broadcastInDim S650000x1 ![0] bcast_S650000_S650000x1_0 : (⟨S650000, .f32⟩ : BufTy).Contents (Elt F) → (⟨S650000x1, .f32⟩ : BufTy).Contents (Elt F)),
    StableHlo.unary main_v142 main_v143 (broadcastInDim S650000x128 ![0, 1] bcast_S650000x1_S650000x128_0_1 : (⟨S650000x1, .f32⟩ : BufTy).Contents (Elt F) → (⟨S650000x128, .f32⟩ : BufTy).Contents (Elt F)),
    StableHlo.binary main_v141 main_v143 main_v144 (mulf : (⟨S650000x128, .f32⟩ : BufTy).Contents (Elt F) → (⟨S650000x128, .f32⟩ : BufTy).Contents (Elt F) → (⟨S650000x128, .f32⟩ : BufTy).Contents (Elt F)),
    StableHlo.nullary main_cst_22 (constant S_ .f32 0x00000000#32),
    StableHlo.unary main_cst_22 main_v145 (broadcastInDim S50000x128 ![] bcast_S_S50000x128 : (⟨S_, .f32⟩ : BufTy).Contents (Elt F) → (⟨S50000x128, .f32⟩ : BufTy).Contents (Elt F)),
    StableHlo.unary main_v6 main_v146 (broadcastInDim S650000x1 ![0] bcast_S650000_S650000x1_0 : (⟨S650000, .i32⟩ : BufTy).Contents (Elt F) → (⟨S650000x1, .i32⟩ : BufTy).Contents (Elt F)),
    StableHlo.ternary main_v145 main_v146 main_v144 main_v147 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)),
    StableHlo.unary main_v132 main_v148 (broadcastInDim S1x128 ![1] bcast_S128_S1x128_1 : (⟨S128, .f32⟩ : BufTy).Contents (Elt F) → (⟨S1x128, .f32⟩ : BufTy).Contents (Elt F)),
    StableHlo.unary main_v148 main_v149 (broadcastInDim S50000x128 ![0, 1] bcast_S1x128_S50000x128_0_1 : (⟨S1x128, .f32⟩ : BufTy).Contents (Elt F) → (⟨S50000x128, .f32⟩ : BufTy).Contents (Elt F)),
    StableHlo.binary main_v147 main_v149 main_v150 (addf : (⟨S50000x128, .f32⟩ : BufTy).Contents (Elt F) → (⟨S50000x128, .f32⟩ : BufTy).Contents (Elt F) → (⟨S50000x128, .f32⟩ : BufTy).Contents (Elt F)),
    StableHlo.unary main_arg7 main_v151 ((extractStridedSlice S1x128 ![2, 0] · slices_S4x128_S1x128_2_0) : (⟨S4x128, .f32⟩ : BufTy).Contents (Elt F) → (⟨S1x128, .f32⟩ : BufTy).Contents (Elt F)),
    StableHlo.reshape main_v151 main_v152 rfl shapeCasts_S1x128_S128,
    StableHlo.unary main_arg8 main_v153 ((extractStridedSlice S1x128 ![2, 0] · slices_S4x128_S1x128_2_0) : (⟨S4x128, .f32⟩ : BufTy).Contents (Elt F) → (⟨S1x128, .f32⟩ : BufTy).Contents (Elt F)),
    StableHlo.reshape main_v153 main_v154 rfl shapeCasts_S1x128_S128 ]
/-- Layer 2, second part: the column mean and the column variance of the biased aggregate. -/
abbrev L2b : List (HloOp τ sig (Elt F)) :=
  [ StableHlo.nullary main_cst_23 (constant S_ .f32 0x00000000#32),
    StableHlo.binary main_v150 main_cst_23 main_v155 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_24 (constant S_ .f32 0x47435000#32),
    StableHlo.unary main_cst_24 main_v156 (broadcastInDim S128 ![] bcast_S_S128 : (⟨S_, .f32⟩ : BufTy).Contents (Elt F) → (⟨S128, .f32⟩ : BufTy).Contents (Elt F)),
    StableHlo.binary main_v155 main_v156 main_v157 (Host.divf : (⟨S128, .f32⟩ : BufTy).Contents (Elt F) → (⟨S128, .f32⟩ : BufTy).Contents (Elt F) → (⟨S128, .f32⟩ : BufTy).Contents (Elt F)),
    StableHlo.nullary main_c_25 (constantI S_ 32 0#32),
    StableHlo.TRef.nullary main_call5.cst (constant S_ .f32 0x00000000#32),
    StableHlo.TRef.binary (.of main_v150 : StableHlo.TRef sig ⟨S50000x128, .f32⟩) main_call5.cst main_call5.v0 (fun x v => Host.reduceAdd x v reducesTo_S50000x128_S128_d0 h_S_),
    StableHlo.TRef.unary main_call5.v0 main_call5.v1 (broadcastInDim S1x128 ![1] bcast_S128_S1x128_1),
    StableHlo.TRef.nullary main_call5.cst_0 (constant S_ .f32 0x47435000#32),
    StableHlo.TRef.unary main_call5.cst_0 main_call5.v2 (broadcastInDim S1x128 ![] bcast_S_S1x128),
    StableHlo.TRef.binary main_call5.v1 main_call5.v2 main_call5.v3 Host.divf,
    StableHlo.TRef.unary main_call5.v3 main_call5.v4 (broadcastInDim S50000x128 ![0, 1] bcast_S1x128_S50000x128_0_1),
    StableHlo.TRef.binary (.of main_v150 : StableHlo.TRef sig ⟨S50000x128, .f32⟩) main_call5.v4 main_call5.v5 subf,
    StableHlo.TRef.binary main_call5.v5 main_call5.v5 main_call5.v6 mulf,
    StableHlo.TRef.unary (.of main_c_25 : StableHlo.TRef sig ⟨S_, .i32⟩) main_call5.v7 (sitofp .f32),
    StableHlo.TRef.nullary main_call5.cst_1 (constant S_ .f32 0x47435000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S50000x128_S128_d0 h_S_),
    StableHlo.TRef.unary main_call5.v8 main_call5.v10 (broadcastInDim S128 ![] bcast_S_S128),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S128 ![] bcast_S_S128),
    StableHlo.TRef.ternary main_call5.v12 main_call5.v11 main_call5.call0.v1 main_call5.call0.v2 (fun p a b => select (broadcastInDim S128 ![] bcast_S_S128 p) a b) ]
/-- Layer 2, third part: the normalisation, the scale and shift, the rectifier, the residual sum. -/
abbrev L2c : List (HloOp τ sig (Elt F)) :=
  [ StableHlo.unary main_v157 main_v159 (broadcastInDim S1x128 ![1] bcast_S128_S1x128_1 : (⟨S128, .f32⟩ : BufTy).Contents (Elt F) → (⟨S1x128, .f32⟩ : BufTy).Contents (Elt F)),
    StableHlo.unary main_v159 main_v160 (broadcastInDim S50000x128 ![0, 1] bcast_S1x128_S50000x128_0_1 : (⟨S1x128, .f32⟩ : BufTy).Contents (Elt F) → (⟨S50000x128, .f32⟩ : BufTy).Contents (Elt F)),
    StableHlo.binary main_v150 main_v160 main_v161 (subf : (⟨S50000x128, .f32⟩ : BufTy).Contents (Elt F) → (⟨S50000x128, .f32⟩ : BufTy).Contents (Elt F) → (⟨S50000x128, .f32⟩ : BufTy).Contents (Elt F)),
    StableHlo.nullary main_cst_26 (constant S_ .f32 0x3727C5AC#32),
    StableHlo.unary main_cst_26 main_v162 (broadcastInDim S128 ![] bcast_S_S128 : (⟨S_, .f32⟩ : BufTy).Contents (Elt F) → (⟨S128, .f32⟩ : BufTy).Contents (Elt F)),
    StableHlo.binary main_v158 main_v162 main_v163 (addf : (⟨S128, .f32⟩ : BufTy).Contents (Elt F) → (⟨S128, .f32⟩ : BufTy).Contents (Elt F) → (⟨S128, .f32⟩ : BufTy).Contents (Elt F)),
    StableHlo.unary main_v163 main_v164 (Host.rsqrt : (⟨S128, .f32⟩ : BufTy).Contents (Elt F) → (⟨S128, .f32⟩ : BufTy).Contents (Elt F)),
    StableHlo.unary main_v164 main_v165 (broadcastInDim S1x128 ![1] bcast_S128_S1x128_1 : (⟨S128, .f32⟩ : BufTy).Contents (Elt F) → (⟨S1x128, .f32⟩ : BufTy).Contents (Elt F)),
    StableHlo.unary main_v165 main_v166 (broadcastInDim S50000x128 ![0, 1] bcast_S1x128_S50000x128_0_1 : (⟨S1x128, .f32⟩ : BufTy).Contents (Elt F) → (⟨S50000x128, .f32⟩ : BufTy).Contents (Elt F)),
    StableHlo.binary main_v161 main_v166 main_v167 (mulf : (⟨S50000x128, .f32⟩ : BufTy).Contents (Elt F) → (⟨S50000x128, .f32⟩ : BufTy).Contents (Elt F) → (⟨S50000x128, .f32⟩ : BufTy).Contents (Elt F)),
    StableHlo.unary main_v152 main_v168 (broadcastInDim S1x128 ![1] bcast_S128_S1x128_1 : (⟨S128, .f32⟩ : BufTy).Contents (Elt F) → (⟨S1x128, .f32⟩ : BufTy).Contents (Elt F)),
    StableHlo.unary main_v168 main_v169 (broadcastInDim S50000x128 ![0, 1] bcast_S1x128_S50000x128_0_1 : (⟨S1x128, .f32⟩ : BufTy).Contents (Elt F) → (⟨S50000x128, .f32⟩ : BufTy).Contents (Elt F)),
    StableHlo.binary main_v167 main_v169 main_v170 (mulf : (⟨S50000x128, .f32⟩ : BufTy).Contents (Elt F) → (⟨S50000x128, .f32⟩ : BufTy).Contents (Elt F) → (⟨S50000x128, .f32⟩ : BufTy).Contents (Elt F)),
    StableHlo.unary main_v154 main_v171 (broadcastInDim S1x128 ![1] bcast_S128_S1x128_1 : (⟨S128, .f32⟩ : BufTy).Contents (Elt F) → (⟨S1x128, .f32⟩ : BufTy).Contents (Elt F)),
    StableHlo.unary main_v171 main_v172 (broadcastInDim S50000x128 ![0, 1] bcast_S1x128_S50000x128_0_1 : (⟨S1x128, .f32⟩ : BufTy).Contents (Elt F) → (⟨S50000x128, .f32⟩ : BufTy).Contents (Elt F)),
    StableHlo.binary main_v170 main_v172 main_v173 (addf : (⟨S50000x128, .f32⟩ : BufTy).Contents (Elt F) → (⟨S50000x128, .f32⟩ : BufTy).Contents (Elt F) → (⟨S50000x128, .f32⟩ : BufTy).Contents (Elt F)),
    StableHlo.TRef.nullary main_call6.cst (constant S_ .f32 0x00000000#32),
    StableHlo.TRef.unary main_call6.cst main_call6.v0 (broadcastInDim S50000x128 ![] bcast_S_S50000x128),
    StableHlo.TRef.binary (.of main_v173 : StableHlo.TRef sig ⟨S50000x128, .f32⟩) main_call6.v0 main_call6.v1 maximumf,
    StableHlo.binary main_v174 main_v128 main_v175 (addf : (⟨S50000x128, .f32⟩ : BufTy).Contents (Elt F) → (⟨S50000x128, .f32⟩ : BufTy).Contents (Elt F) → (⟨S50000x128, .f32⟩ : BufTy).Contents (Elt F)) ]
/-- The layer's operations are the three parts in order. -/
theorem opsL2_split : (opsL2 : List (HloOp τ sig (Elt F))) = L2a ++ L2b ++ L2c := by
  chain_rfl
/-- The references `L2a` writes, in order. -/
abbrev L2a_W : List (Ref sig .tc) :=
  [ main_v129, main_v130, main_v131, main_v132, main_v133, main_v134, main_c_20, main_v135, main_v136, main_c_21,
    main_v137, main_v138, main_v139, main_v140, main_v141, main_v142, main_v143, main_v144, main_cst_22, main_v145,
    main_v146, main_v147, main_v148, main_v149, main_v150, main_v151, main_v152, main_v153, main_v154 ]
theorem L2a_writes : (L2a : List (HloOp τ sig (Elt F))).map HloOp.writes
    = L2a_W.map fun y => ({Proc.devRef .tc y} : Finset (DevRef τ sig)) := by
  chain_rfl
/-- The references `L2b` writes, in order. -/
abbrev L2b_W : List (Ref sig .tc) :=
  [ main_cst_23, main_v155, main_cst_24, main_v156, main_v157, main_c_25, main_call5_cst, main_call5_v0, main_call5_v1, main_call5_cst_0,
    main_call5_v2, main_call5_v3, main_call5_v4, main_call5_v5, main_call5_v6, main_call5_v7, main_call5_cst_1, main_call5_v8, main_call5_cst_2, main_call5_v9,
    main_call5_v10, main_call5_v11, main_call5_cst_3, main_call5_v12, main_call5_cst_4, main_call5_call0_v0, main_call5_call0_v1, main_v158 ]
theorem L2b_writes : (L2b : List (HloOp τ sig (Elt F))).map HloOp.writes
    = L2b_W.map fun y => ({Proc.devRef .tc y} : Finset (DevRef τ sig)) := by
  chain_rfl

end Lists

set_option maxRecDepth 8192 in
/-- The biased aggregate. -/
theorem yA_2 (V : Valuation τ sig (Elt Ideal)) :
    after (L2a (F := Ideal)) V (Proc.devRef .tc main_v150)
      = preNormR (V (Proc.devRef .tc main_v128)) (wT 2 slices_S4x128x128_S1x128x128_2_0_0 (V (Proc.devRef .tc main_arg5))) (vsl 2 slices_S4x128_S1x128_2_0 (V (Proc.devRef .tc main_arg6)))
          (V (Proc.devRef .tc main_v3)) (V (Proc.devRef .tc main_v6)) (V (Proc.devRef .tc main_v29)) := by
  after_results_simp
  all_goals (try simp only [cast_eq])
  all_goals rfl

set_option maxRecDepth 8192 in
theorem gA_2 (V : Valuation τ sig (Elt Ideal)) :
    after (L2a (F := Ideal)) V (Proc.devRef .tc main_v152) = vsl 2 slices_S4x128_S1x128_2_0 (V (Proc.devRef .tc main_arg7)) := by
  after_results_simp
  all_goals (try simp only [cast_eq])
  all_goals rfl

set_option maxRecDepth 8192 in
theorem beA_2 (V : Valuation τ sig (Elt Ideal)) :
    after (L2a (F := Ideal)) V (Proc.devRef .tc main_v154) = vsl 2 slices_S4x128_S1x128_2_0 (V (Proc.devRef .tc main_arg8)) := by
  after_results_simp
  all_goals (try simp only [cast_eq])
  all_goals rfl

set_option maxRecDepth 8192 in
/-- The column means of the matrix the statistics are taken of. -/
theorem muB_2 (V : Valuation τ sig (Elt Ideal)) :
    after (L2b (F := Ideal)) V (Proc.devRef .tc main_v157) = meanv (V (Proc.devRef .tc main_v150)) := by
  after_results_simp
  all_goals (try simp only [cast_eq])
  all_goals rfl

set_option maxRecDepth 8192 in
/-- Its column variances. -/
theorem vaB_2 (V : Valuation τ sig (Elt Ideal)) :
    after (L2b (F := Ideal)) V (Proc.devRef .tc main_v158) = varv (V (Proc.devRef .tc main_v150)) := by
  after_results_simp
  all_goals (try simp only [cast_eq])
  all_goals rfl

set_option maxRecDepth 8192 in
/-- The normalisation with rectifier and residual over the statistics as they stand. -/
theorem outC_2 (V : Valuation τ sig (Elt Ideal)) :
    after (L2c (F := Ideal)) V (Proc.devRef .tc main_v175)
      = normR (V (Proc.devRef .tc main_v150)) (V (Proc.devRef .tc main_v157)) (V (Proc.devRef .tc main_v158)) (V (Proc.devRef .tc main_v152)) (V (Proc.devRef .tc main_v154)) (V (Proc.devRef .tc main_v128)) := by
  after_results_simp
  all_goals (try simp only [cast_eq])
  all_goals rfl

/-- Layer 2 as a function of its input, its parameters, the edge lists and the per-edge norm. -/
theorem layer_2 (V : Valuation τ sig (Elt Ideal)) :
    after (opsL2 (F := Ideal)) V (Proc.devRef .tc main_v175)
      = layerR dotR (V (Proc.devRef .tc main_v128)) (wT 2 slices_S4x128x128_S1x128x128_2_0_0 (V (Proc.devRef .tc main_arg5))) (vsl 2 slices_S4x128_S1x128_2_0 (V (Proc.devRef .tc main_arg6)))
          (vsl 2 slices_S4x128_S1x128_2_0 (V (Proc.devRef .tc main_arg7))) (vsl 2 slices_S4x128_S1x128_2_0 (V (Proc.devRef .tc main_arg8)))
          (V (Proc.devRef .tc main_v3)) (V (Proc.devRef .tc main_v6)) (V (Proc.devRef .tc main_v29)) := by
  rw [opsL2_split, after_append, after_append, outC_2, muB_2, vaB_2,
    after_of_not_written (L2b_writes (F := Ideal)) (r := main_v150) (by decide +kernel), after_of_not_written (L2b_writes (F := Ideal)) (r := main_v152) (by decide +kernel),
    after_of_not_written (L2b_writes (F := Ideal)) (r := main_v154) (by decide +kernel), after_of_not_written (L2b_writes (F := Ideal)) (r := main_v128) (by decide +kernel),
    yA_2, gA_2, beA_2, after_of_not_written (L2a_writes (F := Ideal)) (r := main_v128) (by decide +kernel), layerR_eq]

end Cert.ReferenceIdeal.RefChain

end
-- ==== Proof.RefChainL3.lean ====
/- Layer 3 of the reference's run, read. The layer's operations are cut in three: the product, the aggregation over the
   edges and the bias, with the layer's scale and shift rows; the column mean and variance of that matrix; the
   normalisation with rectifier and residual. Each part is read over the contents it starts from, and the three
   compose to the layer as a function of its input, the layer's parameters, the edge lists and the per-edge norm. -/
import proofs.«115673_j47373489274965_1_alg».proof.Proof.RefChainDefs

noncomputable section

namespace Cert.ReferenceIdeal.RefChain

open Cert.ReferenceIdeal Cert.ReferenceIdeal.Gen Cert.ReferenceIdeal.RefRun Cert.KernelIdeal.Spec
open Idealize.ShloMosaic Idealize.ShloMosaic.TcCoe Idealize.SL.Sem Idealize.ShloMosaic.StableHlo

section Lists
variable {F : FTy → Type} [FloatOps F]

/-- Layer 3, first part: the slices of the parameters, the product, the gather at the sources scaled by the norm, the scatter-add at the targets, the bias. -/
abbrev L3a : List (HloOp τ sig (Elt F)) :=
  [ StableHlo.unary main_arg5 main_v176 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v176 main_v177 rfl shapeCasts_S1x128x128_S128x128,
    StableHlo.unary main_arg6 main_v178 ((extractStridedSlice S1x128 ![3, 0] · slices_S4x128_S1x128_3_0) : (⟨S4x128, .f32⟩ : BufTy).Contents (Elt F) → (⟨S1x128, .f32⟩ : BufTy).Contents (Elt F)),
    StableHlo.reshape main_v178 main_v179 rfl shapeCasts_S1x128_S128,
    StableHlo.unary main_v177 main_v180 ((transpose S128x128 [1, 0] · transposes_S128x128_S128x128_1_0) : (⟨S128x128, .f32⟩ : BufTy).Contents (Elt F) → (⟨S128x128, .f32⟩ : BufTy).Contents (Elt F)),
    StableHlo.binary main_v175 main_v180 main_v181 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_27 (constantI S_ 32 0#32),
    StableHlo.unary main_c_27 main_v182 (broadcastInDim S650000 ![] bcast_S_S650000 : (⟨S_, .i32⟩ : BufTy).Contents (Elt F) → (⟨S650000, .i32⟩ : BufTy).Contents (Elt F)),
    StableHlo.binary main_v3 main_v182 main_v183 (cmpi .slt : (⟨S650000, .i32⟩ : BufTy).Contents (Elt F) → (⟨S650000, .i32⟩ : BufTy).Contents (Elt F) → (⟨S650000, .i1⟩ : BufTy).Contents (Elt F)),
    StableHlo.nullary main_c_28 (constantI S_ 32 50000#32),
    StableHlo.unary main_c_28 main_v184 (broadcastInDim S650000 ![] bcast_S_S650000 : (⟨S_, .i32⟩ : BufTy).Contents (Elt F) → (⟨S650000, .i32⟩ : BufTy).Contents (Elt F)),
    StableHlo.binary main_v3 main_v184 main_v185 (addi : (⟨S650000, .i32⟩ : BufTy).Contents (Elt F) → (⟨S650000, .i32⟩ : BufTy).Contents (Elt F) → (⟨S650000, .i32⟩ : BufTy).Contents (Elt F)),
    StableHlo.ternary main_v183 main_v185 main_v3 main_v186 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    StableHlo.unary main_v186 main_v187 (broadcastInDim S650000x1 ![0] bcast_S650000_S650000x1_0 : (⟨S650000, .i32⟩ : BufTy).Contents (Elt F) → (⟨S650000x1, .i32⟩ : BufTy).Contents (Elt F)),
    StableHlo.binary main_v181 main_v187 main_v188 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    StableHlo.unary main_v29 main_v189 (broadcastInDim S650000x1 ![0] bcast_S650000_S650000x1_0 : (⟨S650000, .f32⟩ : BufTy).Contents (Elt F) → (⟨S650000x1, .f32⟩ : BufTy).Contents (Elt F)),
    StableHlo.unary main_v189 main_v190 (broadcastInDim S650000x128 ![0, 1] bcast_S650000x1_S650000x128_0_1 : (⟨S650000x1, .f32⟩ : BufTy).Contents (Elt F) → (⟨S650000x128, .f32⟩ : BufTy).Contents (Elt F)),
    StableHlo.binary main_v188 main_v190 main_v191 (mulf : (⟨S650000x128, .f32⟩ : BufTy).Contents (Elt F) → (⟨S650000x128, .f32⟩ : BufTy).Contents (Elt F) → (⟨S650000x128, .f32⟩ : BufTy).Contents (Elt F)),
    StableHlo.nullary main_cst_29 (constant S_ .f32 0x00000000#32),
    StableHlo.unary main_cst_29 main_v192 (broadcastInDim S50000x128 ![] bcast_S_S50000x128 : (⟨S_, .f32⟩ : BufTy).Contents (Elt F) → (⟨S50000x128, .f32⟩ : BufTy).Contents (Elt F)),
    StableHlo.unary main_v6 main_v193 (broadcastInDim S650000x1 ![0] bcast_S650000_S650000x1_0 : (⟨S650000, .i32⟩ : BufTy).Contents (Elt F) → (⟨S650000x1, .i32⟩ : BufTy).Contents (Elt F)),
    StableHlo.ternary main_v192 main_v193 main_v191 main_v194 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)),
    StableHlo.unary main_v179 main_v195 (broadcastInDim S1x128 ![1] bcast_S128_S1x128_1 : (⟨S128, .f32⟩ : BufTy).Contents (Elt F) → (⟨S1x128, .f32⟩ : BufTy).Contents (Elt F)),
    StableHlo.unary main_v195 main_v196 (broadcastInDim S50000x128 ![0, 1] bcast_S1x128_S50000x128_0_1 : (⟨S1x128, .f32⟩ : BufTy).Contents (Elt F) → (⟨S50000x128, .f32⟩ : BufTy).Contents (Elt F)),
    StableHlo.binary main_v194 main_v196 main_v197 (addf : (⟨S50000x128, .f32⟩ : BufTy).Contents (Elt F) → (⟨S50000x128, .f32⟩ : BufTy).Contents (Elt F) → (⟨S50000x128, .f32⟩ : BufTy).Contents (Elt F)),
    StableHlo.unary main_arg7 main_v198 ((extractStridedSlice S1x128 ![3, 0] · slices_S4x128_S1x128_3_0) : (⟨S4x128, .f32⟩ : BufTy).Contents (Elt F) → (⟨S1x128, .f32⟩ : BufTy).Contents (Elt F)),
    StableHlo.reshape main_v198 main_v199 rfl shapeCasts_S1x128_S128,
    StableHlo.unary main_arg8 main_v200 ((extractStridedSlice S1x128 ![3, 0] · slices_S4x128_S1x128_3_0) : (⟨S4x128, .f32⟩ : BufTy).Contents (Elt F) → (⟨S1x128, .f32⟩ : BufTy).Contents (Elt F)),
    StableHlo.reshape main_v200 main_v201 rfl shapeCasts_S1x128_S128 ]
/-- Layer 3, second part: the column mean and the column variance of the biased aggregate. -/
abbrev L3b : List (HloOp τ sig (Elt F)) :=
  [ StableHlo.nullary main_cst_30 (constant S_ .f32 0x00000000#32),
    StableHlo.binary main_v197 main_cst_30 main_v202 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_31 (constant S_ .f32 0x47435000#32),
    StableHlo.unary main_cst_31 main_v203 (broadcastInDim S128 ![] bcast_S_S128 : (⟨S_, .f32⟩ : BufTy).Contents (Elt F) → (⟨S128, .f32⟩ : BufTy).Contents (Elt F)),
    StableHlo.binary main_v202 main_v203 main_v204 (Host.divf : (⟨S128, .f32⟩ : BufTy).Contents (Elt F) → (⟨S128, .f32⟩ : BufTy).Contents (Elt F) → (⟨S128, .f32⟩ : BufTy).Contents (Elt F)),
    StableHlo.nullary main_c_32 (constantI S_ 32 0#32),
    StableHlo.TRef.nullary main_call7.cst (constant S_ .f32 0x00000000#32),
    StableHlo.TRef.binary (.of main_v197 : StableHlo.TRef sig ⟨S50000x128, .f32⟩) main_call7.cst main_call7.v0 (fun x v => Host.reduceAdd x v reducesTo_S50000x128_S128_d0 h_S_),
    StableHlo.TRef.unary main_call7.v0 main_call7.v1 (broadcastInDim S1x128 ![1] bcast_S128_S1x128_1),
    StableHlo.TRef.nullary main_call7.cst_0 (constant S_ .f32 0x47435000#32),
    StableHlo.TRef.unary main_call7.cst_0 main_call7.v2 (broadcastInDim S1x128 ![] bcast_S_S1x128),
    StableHlo.TRef.binary main_call7.v1 main_call7.v2 main_call7.v3 Host.divf,
    StableHlo.TRef.unary main_call7.v3 main_call7.v4 (broadcastInDim S50000x128 ![0, 1] bcast_S1x128_S50000x128_0_1),
    StableHlo.TRef.binary (.of main_v197 : StableHlo.TRef sig ⟨S50000x128, .f32⟩) main_call7.v4 main_call7.v5 subf,
    StableHlo.TRef.binary main_call7.v5 main_call7.v5 main_call7.v6 mulf,
    StableHlo.TRef.unary (.of main_c_32 : StableHlo.TRef sig ⟨S_, .i32⟩) main_call7.v7 (sitofp .f32),
    StableHlo.TRef.nullary main_call7.cst_1 (constant S_ .f32 0x47435000#32),
    StableHlo.TRef.binary main_call7.cst_1 main_call7.v7 main_call7.v8 subf,
    StableHlo.TRef.nullary main_call7.cst_2 (constant S_ .f32 0x00000000#32),
    StableHlo.TRef.binary main_call7.v6 main_call7.cst_2 main_call7.v9 (fun x v => Host.reduceAdd x v reducesTo_S50000x128_S128_d0 h_S_),
    StableHlo.TRef.unary main_call7.v8 main_call7.v10 (broadcastInDim S128 ![] bcast_S_S128),
    StableHlo.TRef.binary main_call7.v9 main_call7.v10 main_call7.v11 Host.divf,
    StableHlo.TRef.nullary main_call7.cst_3 (constant S_ .f32 0x00000000#32),
    StableHlo.TRef.binary main_call7.v8 main_call7.cst_3 main_call7.v12 (cmpf .ogt),
    StableHlo.TRef.nullary main_call7.cst_4 (constant S_ .f32 0x7FC00000#32),
    StableHlo.TRef.unary main_call7.cst_4 main_call7.call0.v0 id,
    StableHlo.TRef.unary main_call7.call0.v0 main_call7.call0.v1 (broadcastInDim S128 ![] bcast_S_S128),
    StableHlo.TRef.ternary main_call7.v12 main_call7.v11 main_call7.call0.v1 main_call7.call0.v2 (fun p a b => select (broadcastInDim S128 ![] bcast_S_S128 p) a b) ]
/-- Layer 3, third part: the normalisation, the scale and shift, the rectifier, the residual sum. -/
abbrev L3c : List (HloOp τ sig (Elt F)) :=
  [ StableHlo.unary main_v204 main_v206 (broadcastInDim S1x128 ![1] bcast_S128_S1x128_1 : (⟨S128, .f32⟩ : BufTy).Contents (Elt F) → (⟨S1x128, .f32⟩ : BufTy).Contents (Elt F)),
    StableHlo.unary main_v206 main_v207 (broadcastInDim S50000x128 ![0, 1] bcast_S1x128_S50000x128_0_1 : (⟨S1x128, .f32⟩ : BufTy).Contents (Elt F) → (⟨S50000x128, .f32⟩ : BufTy).Contents (Elt F)),
    StableHlo.binary main_v197 main_v207 main_v208 (subf : (⟨S50000x128, .f32⟩ : BufTy).Contents (Elt F) → (⟨S50000x128, .f32⟩ : BufTy).Contents (Elt F) → (⟨S50000x128, .f32⟩ : BufTy).Contents (Elt F)),
    StableHlo.nullary main_cst_33 (constant S_ .f32 0x3727C5AC#32),
    StableHlo.unary main_cst_33 main_v209 (broadcastInDim S128 ![] bcast_S_S128 : (⟨S_, .f32⟩ : BufTy).Contents (Elt F) → (⟨S128, .f32⟩ : BufTy).Contents (Elt F)),
    StableHlo.binary main_v205 main_v209 main_v210 (addf : (⟨S128, .f32⟩ : BufTy).Contents (Elt F) → (⟨S128, .f32⟩ : BufTy).Contents (Elt F) → (⟨S128, .f32⟩ : BufTy).Contents (Elt F)),
    StableHlo.unary main_v210 main_v211 (Host.rsqrt : (⟨S128, .f32⟩ : BufTy).Contents (Elt F) → (⟨S128, .f32⟩ : BufTy).Contents (Elt F)),
    StableHlo.unary main_v211 main_v212 (broadcastInDim S1x128 ![1] bcast_S128_S1x128_1 : (⟨S128, .f32⟩ : BufTy).Contents (Elt F) → (⟨S1x128, .f32⟩ : BufTy).Contents (Elt F)),
    StableHlo.unary main_v212 main_v213 (broadcastInDim S50000x128 ![0, 1] bcast_S1x128_S50000x128_0_1 : (⟨S1x128, .f32⟩ : BufTy).Contents (Elt F) → (⟨S50000x128, .f32⟩ : BufTy).Contents (Elt F)),
    StableHlo.binary main_v208 main_v213 main_v214 (mulf : (⟨S50000x128, .f32⟩ : BufTy).Contents (Elt F) → (⟨S50000x128, .f32⟩ : BufTy).Contents (Elt F) → (⟨S50000x128, .f32⟩ : BufTy).Contents (Elt F)),
    StableHlo.unary main_v199 main_v215 (broadcastInDim S1x128 ![1] bcast_S128_S1x128_1 : (⟨S128, .f32⟩ : BufTy).Contents (Elt F) → (⟨S1x128, .f32⟩ : BufTy).Contents (Elt F)),
    StableHlo.unary main_v215 main_v216 (broadcastInDim S50000x128 ![0, 1] bcast_S1x128_S50000x128_0_1 : (⟨S1x128, .f32⟩ : BufTy).Contents (Elt F) → (⟨S50000x128, .f32⟩ : BufTy).Contents (Elt F)),
    StableHlo.binary main_v214 main_v216 main_v217 (mulf : (⟨S50000x128, .f32⟩ : BufTy).Contents (Elt F) → (⟨S50000x128, .f32⟩ : BufTy).Contents (Elt F) → (⟨S50000x128, .f32⟩ : BufTy).Contents (Elt F)),
    StableHlo.unary main_v201 main_v218 (broadcastInDim S1x128 ![1] bcast_S128_S1x128_1 : (⟨S128, .f32⟩ : BufTy).Contents (Elt F) → (⟨S1x128, .f32⟩ : BufTy).Contents (Elt F)),
    StableHlo.unary main_v218 main_v219 (broadcastInDim S50000x128 ![0, 1] bcast_S1x128_S50000x128_0_1 : (⟨S1x128, .f32⟩ : BufTy).Contents (Elt F) → (⟨S50000x128, .f32⟩ : BufTy).Contents (Elt F)),
    StableHlo.binary main_v217 main_v219 main_v220 (addf : (⟨S50000x128, .f32⟩ : BufTy).Contents (Elt F) → (⟨S50000x128, .f32⟩ : BufTy).Contents (Elt F) → (⟨S50000x128, .f32⟩ : BufTy).Contents (Elt F)),
    StableHlo.TRef.nullary main_call8.cst (constant S_ .f32 0x00000000#32),
    StableHlo.TRef.unary main_call8.cst main_call8.v0 (broadcastInDim S50000x128 ![] bcast_S_S50000x128),
    StableHlo.TRef.binary (.of main_v220 : StableHlo.TRef sig ⟨S50000x128, .f32⟩) main_call8.v0 main_call8.v1 maximumf,
    StableHlo.binary main_v221 main_v175 main_v222 (addf : (⟨S50000x128, .f32⟩ : BufTy).Contents (Elt F) → (⟨S50000x128, .f32⟩ : BufTy).Contents (Elt F) → (⟨S50000x128, .f32⟩ : BufTy).Contents (Elt F)) ]
/-- The layer's operations are the three parts in order. -/
theorem opsL3_split : (opsL3 : List (HloOp τ sig (Elt F))) = L3a ++ L3b ++ L3c := by
  chain_rfl
/-- The references `L3a` writes, in order. -/
abbrev L3a_W : List (Ref sig .tc) :=
  [ main_v176, main_v177, main_v178, main_v179, main_v180, main_v181, main_c_27, main_v182, main_v183, main_c_28,
    main_v184, main_v185, main_v186, main_v187, main_v188, main_v189, main_v190, main_v191, main_cst_29, main_v192,
    main_v193, main_v194, main_v195, main_v196, main_v197, main_v198, main_v199, main_v200, main_v201 ]
theorem L3a_writes : (L3a : List (HloOp τ sig (Elt F))).map HloOp.writes
    = L3a_W.map fun y => ({Proc.devRef .tc y} : Finset (DevRef τ sig)) := by
  chain_rfl
/-- The references `L3b` writes, in order. -/
abbrev L3b_W : List (Ref sig .tc) :=
  [ main_cst_30, main_v202, main_cst_31, main_v203, main_v204, main_c_32, main_call7_cst, main_call7_v0, main_call7_v1, main_call7_cst_0,
    main_call7_v2, main_call7_v3, main_call7_v4, main_call7_v5, main_call7_v6, main_call7_v7, main_call7_cst_1, main_call7_v8, main_call7_cst_2, main_call7_v9,
    main_call7_v10, main_call7_v11, main_call7_cst_3, main_call7_v12, main_call7_cst_4, main_call7_call0_v0, main_call7_call0_v1, main_v205 ]
theorem L3b_writes : (L3b : List (HloOp τ sig (Elt F))).map HloOp.writes
    = L3b_W.map fun y => ({Proc.devRef .tc y} : Finset (DevRef τ sig)) := by
  chain_rfl

end Lists

set_option maxRecDepth 8192 in
/-- The biased aggregate. -/
theorem yA_3 (V : Valuation τ sig (Elt Ideal)) :
    after (L3a (F := Ideal)) V (Proc.devRef .tc main_v197)
      = preNormR (V (Proc.devRef .tc main_v175)) (wT 3 slices_S4x128x128_S1x128x128_3_0_0 (V (Proc.devRef .tc main_arg5))) (vsl 3 slices_S4x128_S1x128_3_0 (V (Proc.devRef .tc main_arg6)))
          (V (Proc.devRef .tc main_v3)) (V (Proc.devRef .tc main_v6)) (V (Proc.devRef .tc main_v29)) := by
  after_results_simp
  all_goals (try simp only [cast_eq])
  all_goals rfl

set_option maxRecDepth 8192 in
theorem gA_3 (V : Valuation τ sig (Elt Ideal)) :
    after (L3a (F := Ideal)) V (Proc.devRef .tc main_v199) = vsl 3 slices_S4x128_S1x128_3_0 (V (Proc.devRef .tc main_arg7)) := by
  after_results_simp
  all_goals (try simp only [cast_eq])
  all_goals rfl

set_option maxRecDepth 8192 in
theorem beA_3 (V : Valuation τ sig (Elt Ideal)) :
    after (L3a (F := Ideal)) V (Proc.devRef .tc main_v201) = vsl 3 slices_S4x128_S1x128_3_0 (V (Proc.devRef .tc main_arg8)) := by
  after_results_simp
  all_goals (try simp only [cast_eq])
  all_goals rfl

set_option maxRecDepth 8192 in
/-- The column means of the matrix the statistics are taken of. -/
theorem muB_3 (V : Valuation τ sig (Elt Ideal)) :
    after (L3b (F := Ideal)) V (Proc.devRef .tc main_v204) = meanv (V (Proc.devRef .tc main_v197)) := by
  after_results_simp
  all_goals (try simp only [cast_eq])
  all_goals rfl

set_option maxRecDepth 8192 in
/-- Its column variances. -/
theorem vaB_3 (V : Valuation τ sig (Elt Ideal)) :
    after (L3b (F := Ideal)) V (Proc.devRef .tc main_v205) = varv (V (Proc.devRef .tc main_v197)) := by
  after_results_simp
  all_goals (try simp only [cast_eq])
  all_goals rfl

set_option maxRecDepth 8192 in
/-- The normalisation with rectifier and residual over the statistics as they stand. -/
theorem outC_3 (V : Valuation τ sig (Elt Ideal)) :
    after (L3c (F := Ideal)) V (Proc.devRef .tc main_v222)
      = normR (V (Proc.devRef .tc main_v197)) (V (Proc.devRef .tc main_v204)) (V (Proc.devRef .tc main_v205)) (V (Proc.devRef .tc main_v199)) (V (Proc.devRef .tc main_v201)) (V (Proc.devRef .tc main_v175)) := by
  after_results_simp
  all_goals (try simp only [cast_eq])
  all_goals rfl

/-- Layer 3 as a function of its input, its parameters, the edge lists and the per-edge norm. -/
theorem layer_3 (V : Valuation τ sig (Elt Ideal)) :
    after (opsL3 (F := Ideal)) V (Proc.devRef .tc main_v222)
      = layerR dotR (V (Proc.devRef .tc main_v175)) (wT 3 slices_S4x128x128_S1x128x128_3_0_0 (V (Proc.devRef .tc main_arg5))) (vsl 3 slices_S4x128_S1x128_3_0 (V (Proc.devRef .tc main_arg6)))
          (vsl 3 slices_S4x128_S1x128_3_0 (V (Proc.devRef .tc main_arg7))) (vsl 3 slices_S4x128_S1x128_3_0 (V (Proc.devRef .tc main_arg8)))
          (V (Proc.devRef .tc main_v3)) (V (Proc.devRef .tc main_v6)) (V (Proc.devRef .tc main_v29)) := by
  rw [opsL3_split, after_append, after_append, outC_3, muB_3, vaB_3,
    after_of_not_written (L3b_writes (F := Ideal)) (r := main_v197) (by decide +kernel), after_of_not_written (L3b_writes (F := Ideal)) (r := main_v199) (by decide +kernel),
    after_of_not_written (L3b_writes (F := Ideal)) (r := main_v201) (by decide +kernel), after_of_not_written (L3b_writes (F := Ideal)) (r := main_v175) (by decide +kernel),
    yA_3, gA_3, beA_3, after_of_not_written (L3a_writes (F := Ideal)) (r := main_v175) (by decide +kernel), layerR_eq]

end Cert.ReferenceIdeal.RefChain

end
-- ==== Proof.RefChainTail.lean ====
/- The last stretch of the reference's run, read: the mean of the node rows of every graph, then the three dense
   layers in the host's spelling, the first two rectified. -/
import proofs.«115673_j47373489274965_1_alg».proof.Proof.RefChainDefs
import proofs.«115673_j47373489274965_1_alg».proof.Proof.HeadBridge

noncomputable section

namespace Cert.ReferenceIdeal.RefChain

open Cert.ReferenceIdeal Cert.ReferenceIdeal.Gen Cert.ReferenceIdeal.RefRun Cert.KernelIdeal.Spec
open Idealize.ShloMosaic Idealize.ShloMosaic.TcCoe Idealize.SL.Sem Idealize.ShloMosaic.StableHlo

set_option maxRecDepth 8192 in
/-- The result as the dense head of the pooled rows. -/
theorem tail (V : Valuation τ sig (Elt Ideal)) :
    after (opsTail (F := Ideal)) V (Proc.devRef .tc main_v251)
      = mlpHost dot_S128x128_S128x64_S128x64_1_0_0_1_n_n_wf dot_S128x64_S64x32_S128x32_1_0_0_1_n_n_wf
          dot_S128x32_S32x10_S128x10_1_0_0_1_n_n_wf bcast_S64_S1x64_1 bcast_S1x64_S128x64_0_1 bcast_S_S128x64
          bcast_S32_S1x32_1 bcast_S1x32_S128x32_0_1 bcast_S_S128x32 bcast_S10_S1x10_1 bcast_S1x10_S128x10_0_1
          (pool (V (Proc.devRef .tc main_v222)) (V (Proc.devRef .tc main_arg2)))
          (transpose S128x64 [1, 0] ((V (Proc.devRef .tc main_arg9)) : FVec Ideal S64x128 .f32) transposes_S64x128_S128x64_1_0)
          (V (Proc.devRef .tc main_arg10))
          (transpose S64x32 [1, 0] ((V (Proc.devRef .tc main_arg11)) : FVec Ideal S32x64 .f32) transposes_S32x64_S64x32_1_0)
          (V (Proc.devRef .tc main_arg12))
          (transpose S32x10 [1, 0] ((V (Proc.devRef .tc main_arg13)) : FVec Ideal S10x32 .f32) transposes_S10x32_S32x10_1_0)
          (V (Proc.devRef .tc main_arg14)) := by
  after_results_simp
  all_goals (try simp only [cast_eq])
  all_goals rfl

end Cert.ReferenceIdeal.RefChain

end
-- ==== Proof.RefChain.lean ====
/- The reference's result as a function of its fifteen arguments. The run is read one list at a time, last list
   first: the dense head of the pooled rows of layer 3's output; each layer's output from its input, the parameters,
   the edge lists and the per-edge norm; the embedding, the edge lists and the norm from the arguments. A list leaves
   alone every reference it does not write, so the arguments, the edge lists and the norm are carried back unchanged
   to where they are defined. -/
import proofs.«115673_j47373489274965_1_alg».proof.Proof.RefChainPre
import proofs.«115673_j47373489274965_1_alg».proof.Proof.RefChainL0
import proofs.«115673_j47373489274965_1_alg».proof.Proof.RefChainL1
import proofs.«115673_j47373489274965_1_alg».proof.Proof.RefChainL2
import proofs.«115673_j47373489274965_1_alg».proof.Proof.RefChainL3
import proofs.«115673_j47373489274965_1_alg».proof.Proof.RefChainTail
import proofs.«115673_j47373489274965_1_alg».proof.Proof.SpecOut

noncomputable section

namespace Cert.ReferenceIdeal.RefChain

open Cert.ReferenceIdeal Cert.ReferenceIdeal.Gen Cert.ReferenceIdeal.RefRun Cert.KernelIdeal.Spec
open Idealize.ShloMosaic Idealize.ShloMosaic.TcCoe Idealize.SL.Sem Idealize.ShloMosaic.StableHlo

set_option maxRecDepth 8192 in
/-- The contents of the result buffer after the run, from any contents of the arguments. -/
theorem result (V : Valuation τ sig (Elt Ideal)) :
    after (ops (F := Ideal)) V (Proc.devRef .tc main_v251)
      = refOut Facts₀.dot_S50000x128_S128x128_S50000x128_1_0_0_1_n_n_wf Facts₀.dot_S128x128_S128x64_S128x64_1_0_0_1_n_n_wf
          Facts₀.dot_S128x64_S64x32_S128x32_1_0_0_1_n_n_wf Facts₀.dot_S128x32_S32x10_S128x10_1_0_0_1_n_n_wf
          Facts₀.bcast_S64_S1x64_1 Facts₀.bcast_S1x64_S128x64_0_1 Facts₀.bcast_S_S128x64 Facts₀.bcast_S32_S1x32_1
          Facts₀.bcast_S1x32_S128x32_0_1 Facts₀.bcast_S_S128x32 Facts₀.bcast_S10_S1x10_1 Facts₀.bcast_S1x10_S128x10_0_1
          (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) := by
  rw [after_ops, tail, layer_3,
    after_of_not_written (opsL3_writes (F := Ideal)) (r := main_arg2) (by decide +kernel),
    after_of_not_written (opsL3_writes (F := Ideal)) (r := main_arg9) (by decide +kernel),
    after_of_not_written (opsL3_writes (F := Ideal)) (r := main_arg10) (by decide +kernel),
    after_of_not_written (opsL3_writes (F := Ideal)) (r := main_arg11) (by decide +kernel),
    after_of_not_written (opsL3_writes (F := Ideal)) (r := main_arg12) (by decide +kernel),
    after_of_not_written (opsL3_writes (F := Ideal)) (r := main_arg13) (by decide +kernel),
    after_of_not_written (opsL3_writes (F := Ideal)) (r := main_arg14) (by decide +kernel)]
  rw [layer_2,
    after_of_not_written (opsL2_writes (F := Ideal)) (r := main_arg2) (by decide +kernel),
    after_of_not_written (opsL2_writes (F := Ideal)) (r := main_arg5) (by decide +kernel),
    after_of_not_written (opsL2_writes (F := Ideal)) (r := main_arg6) (by decide +kernel),
    after_of_not_written (opsL2_writes (F := Ideal)) (r := main_arg7) (by decide +kernel),
    after_of_not_written (opsL2_writes (F := Ideal)) (r := main_arg8) (by decide +kernel),
    after_of_not_written (opsL2_writes (F := Ideal)) (r := main_arg9) (by decide +kernel),
    after_of_not_written (opsL2_writes (F := Ideal)) (r := main_arg10) (by decide +kernel),
    after_of_not_written (opsL2_writes (F := Ideal)) (r := main_arg11) (by decide +kernel),
    after_of_not_written (opsL2_writes (F := Ideal)) (r := main_arg12) (by decide +kernel),
    after_of_not_written (opsL2_writes (F := Ideal)) (r := main_arg13) (by decide +kernel),
    after_of_not_written (opsL2_writes (F := Ideal)) (r := main_arg14) (by decide +kernel),
    after_of_not_written (opsL2_writes (F := Ideal)) (r := main_v3) (by decide +kernel),
    after_of_not_written (opsL2_writes (F := Ideal)) (r := main_v6) (by decide +kernel),
    after_of_not_written (opsL2_writes (F := Ideal)) (r := main_v29) (by decide +kernel)]
  rw [layer_1,
    after_of_not_written (opsL1_writes (F := Ideal)) (r := main_arg2) (by decide +kernel),
    after_of_not_written (opsL1_writes (F := Ideal)) (r := main_arg5) (by decide +kernel),
    after_of_not_written (opsL1_writes (F := Ideal)) (r := main_arg6) (by decide +kernel),
    after_of_not_written (opsL1_writes (F := Ideal)) (r := main_arg7) (by decide +kernel),
    after_of_not_written (opsL1_writes (F := Ideal)) (r := main_arg8) (by decide +kernel),
    after_of_not_written (opsL1_writes (F := Ideal)) (r := main_arg9) (by decide +kernel),
    after_of_not_written (opsL1_writes (F := Ideal)) (r := main_arg10) (by decide +kernel),
    after_of_not_written (opsL1_writes (F := Ideal)) (r := main_arg11) (by decide +kernel),
    after_of_not_written (opsL1_writes (F := Ideal)) (r := main_arg12) (by decide +kernel),
    after_of_not_written (opsL1_writes (F := Ideal)) (r := main_arg13) (by decide +kernel),
    after_of_not_written (opsL1_writes (F := Ideal)) (r := main_arg14) (by decide +kernel),
    after_of_not_written (opsL1_writes (F := Ideal)) (r := main_v3) (by decide +kernel),
    after_of_not_written (opsL1_writes (F := Ideal)) (r := main_v6) (by decide +kernel),
    after_of_not_written (opsL1_writes (F := Ideal)) (r := main_v29) (by decide +kernel)]
  rw [layer_0,
    after_of_not_written (opsL0_writes (F := Ideal)) (r := main_arg2) (by decide +kernel),
    after_of_not_written (opsL0_writes (F := Ideal)) (r := main_arg5) (by decide +kernel),
    after_of_not_written (opsL0_writes (F := Ideal)) (r := main_arg6) (by decide +kernel),
    after_of_not_written (opsL0_writes (F := Ideal)) (r := main_arg7) (by decide +kernel),
    after_of_not_written (opsL0_writes (F := Ideal)) (r := main_arg8) (by decide +kernel),
    after_of_not_written (opsL0_writes (F := Ideal)) (r := main_arg9) (by decide +kernel),
    after_of_not_written (opsL0_writes (F := Ideal)) (r := main_arg10) (by decide +kernel),
    after_of_not_written (opsL0_writes (F := Ideal)) (r := main_arg11) (by decide +kernel),
    after_of_not_written (opsL0_writes (F := Ideal)) (r := main_arg12) (by decide +kernel),
    after_of_not_written (opsL0_writes (F := Ideal)) (r := main_arg13) (by decide +kernel),
    after_of_not_written (opsL0_writes (F := Ideal)) (r := main_arg14) (by decide +kernel),
    after_of_not_written (opsL0_writes (F := Ideal)) (r := main_v3) (by decide +kernel),
    after_of_not_written (opsL0_writes (F := Ideal)) (r := main_v6) (by decide +kernel),
    after_of_not_written (opsL0_writes (F := Ideal)) (r := main_v29) (by decide +kernel)]
  rw [pre_emb, pre_src, pre_dst, pre_norm,
    after_of_not_written (opsPre_writes (F := Ideal)) (r := main_arg2) (by decide +kernel),
    after_of_not_written (opsPre_writes (F := Ideal)) (r := main_arg5) (by decide +kernel),
    after_of_not_written (opsPre_writes (F := Ideal)) (r := main_arg6) (by decide +kernel),
    after_of_not_written (opsPre_writes (F := Ideal)) (r := main_arg7) (by decide +kernel),
    after_of_not_written (opsPre_writes (F := Ideal)) (r := main_arg8) (by decide +kernel),
    after_of_not_written (opsPre_writes (F := Ideal)) (r := main_arg9) (by decide +kernel),
    after_of_not_written (opsPre_writes (F := Ideal)) (r := main_arg10) (by decide +kernel),
    after_of_not_written (opsPre_writes (F := Ideal)) (r := main_arg11) (by decide +kernel),
    after_of_not_written (opsPre_writes (F := Ideal)) (r := main_arg12) (by decide +kernel),
    after_of_not_written (opsPre_writes (F := Ideal)) (r := main_arg13) (by decide +kernel),
    after_of_not_written (opsPre_writes (F := Ideal)) (r := main_arg14) (by decide +kernel)]
  rfl

end Cert.ReferenceIdeal.RefChain

end
-- ==== Proof.LayerBridge.lean ====
/-
  One whole layer: the kernel program's spelling (transform with a zero bias row, aggregate, statistics of the raw
  aggregate, normalise the aggregate plus bias with the mean shifted by the bias) is the reference's spelling over
  the host's product (product, aggregate, add the bias, normalise by the statistics of that sum), for a bias of real
  numbers.
-/
import proofs.«115673_j47373489274965_1_alg».proof.Proof.DenseBridge

noncomputable section

namespace Cert.KernelIdeal.Spec

open Idealize.ShloMosaic Idealize.ShloMosaic.ValueIdx Cert.KernelIdeal
variable [Facts]
open Facts₀ Facts

theorem layerKR_eq (wf : DotDims.WF S50000x128 S128x128 S50000x128 [1] [0] [0] [1] [] []) (h : Mat) (w : M128)
    (b g be : V128) (src dst : IE) (nrm : FE) (hb : ∀ q : S128.Idx, ∃ r : ℝ, b q = (r : EReal)) :
    layerK h w b g be src dst nrm
      = layerR (fun x m => Host.dotGeneral (F := Ideal)
          (⟨[1], [0], [0], [1], [], [], wf⟩ : DotDims S50000x128 S128x128 S50000x128) none x m) h w b g be src dst nrm := by
  unfold layerK layerR
  rw [norm_eq _ h b g be hb, lin_eq_dot wf]

end Cert.KernelIdeal.Spec

end
-- ==== Proof.OutEq.lean ====
/-
  The kernel program's result and the reference's result are one function of the fifteen arguments, given that the
  four layers' biases are vectors of real numbers: the embedding transform is the host's product plus the bias, each
  layer is the reference's layer over the host's product, and the head's entries are the host's spelling of the head.
-/
import proofs.«115673_j47373489274965_1_alg».proof.Proof.SpecOut
import proofs.«115673_j47373489274965_1_alg».proof.Proof.LayerBridge

noncomputable section

namespace Cert.KernelIdeal.Spec

open Idealize.ShloMosaic Idealize.ShloMosaic.ValueIdx Cert.KernelIdeal
variable [Facts]
open Facts₀ Facts

/-- Layer l of the kernel program is layer l of the reference over the host's product. -/
theorem layer_eq (wf : DotDims.WF S50000x128 S128x128 S50000x128 [1] [0] [0] [1] [] []) (l : ℕ)
    (hw : S4x128x128.Slices ![l, 0, 0] S1x128x128) (hv : S4x128.Slices ![l, 0] S1x128) (h : Mat)
    (wc : FVec Ideal S4x128x128 .f32) (bc gam bet : FVec Ideal S4x128 .f32) (ei : EI)
    (hb : ∀ q : S128.Idx, ∃ r : ℝ, vsl l hv bc q = (r : EReal)) :
    kLayer l hw hv h wc bc gam bet ei
      = rLayer (fun a w => Host.dotGeneral (F := Ideal)
          (⟨[1], [0], [0], [1], [], [], wf⟩ : DotDims S50000x128 S128x128 S50000x128) none a w) l hw hv h wc bc gam bet ei := by
  unfold kLayer rLayer
  exact layerKR_eq wf h (wT l hw wc) (vsl l hv bc) (vsl l hv gam) (vsl l hv bet) (edgeRow0 ei) (edgeRow1 ei)
    (edgeNorm (edgeRow0 ei) (edgeRow1 ei)) hb

/-- The two results agree. -/
theorem out_eq (wf : DotDims.WF S50000x128 S128x128 S50000x128 [1] [0] [0] [1] [] [])
    (wf1 : DotDims.WF S128x128 S128x64 S128x64 [1] [0] [0] [1] [] []) (wf2 : DotDims.WF S128x64 S64x32 S128x32 [1] [0] [0] [1] [] [])
    (wf3 : DotDims.WF S128x32 S32x10 S128x10 [1] [0] [0] [1] [] [])
    (h1a : S64.BroadcastsInDim S1x64 ![1]) (h1b : S1x64.BroadcastsInDim S128x64 ![0, 1]) (hs1 : S_.BroadcastsInDim S128x64 ![])
    (h2a : S32.BroadcastsInDim S1x32 ![1]) (h2b : S1x32.BroadcastsInDim S128x32 ![0, 1]) (hs2 : S_.BroadcastsInDim S128x32 ![])
    (h3a : S10.BroadcastsInDim S1x10 ![1]) (h3b : S1x10.BroadcastsInDim S128x10 ![0, 1])
    (x : Mat) (ei : EI) (batch : IN) (wemb : M128) (bemb : V128) (wc : FVec Ideal S4x128x128 .f32)
    (bc gam bet : FVec Ideal S4x128 .f32) (w1 : FVec Ideal S64x128 .f32) (b1 : FVec Ideal S64 .f32) (w2 : FVec Ideal S32x64 .f32)
    (b2 : FVec Ideal S32 .f32) (w3 : FVec Ideal S10x32 .f32) (b3 : FVec Ideal S10 .f32)
    (hb0 : ∀ q : S128.Idx, ∃ r : ℝ, vsl 0 slices_S4x128_S1x128_0_0 bc q = (r : EReal))
    (hb1 : ∀ q : S128.Idx, ∃ r : ℝ, vsl 1 slices_S4x128_S1x128_1_0 bc q = (r : EReal))
    (hb2 : ∀ q : S128.Idx, ∃ r : ℝ, vsl 2 slices_S4x128_S1x128_2_0 bc q = (r : EReal))
    (hb3 : ∀ q : S128.Idx, ∃ r : ℝ, vsl 3 slices_S4x128_S1x128_3_0 bc q = (r : EReal)) :
    kerOut x ei batch wemb bemb wc bc gam bet w1 b1 w2 b2 w3 b3
      = refOut wf wf1 wf2 wf3 h1a h1b hs1 h2a h2b hs2 h3a h3b x ei batch wemb bemb wc bc gam bet w1 b1 w2 b2 w3 b3 := by
  unfold kerOut refOut
  rw [emb_eq wf, layer_eq wf 0 _ _ _ wc bc gam bet ei hb0, layer_eq wf 1 _ _ _ wc bc gam bet ei hb1,
    layer_eq wf 2 _ _ _ wc bc gam bet ei hb2, layer_eq wf 3 _ _ _ wc bc gam bet ei hb3,
    mlp_eq wf1 wf2 wf3 h1a h1b hs1 h2a h2b hs2 h3a h3b]

end Cert.KernelIdeal.Spec

end
-- ==== Proof.Finite.lean ====
/-
  From the precondition to the realness of the convolution biases. The precondition is a conjunction of thirteen
  tests, one per float argument: every entry has absolute value below plus infinity. On the extended reals an entry
  whose absolute value (the larger of the entry and its negation) is below the top element is neither infinity, so it
  is a real number. The bias of layer l is row l of the four-row bias argument, cut out and laid flat; each of its
  entries is an entry of the argument.
-/
import proofs.«115673_j47373489274965_1_alg».proof.Defs
import proofs.«115673_j47373489274965_1_alg».proof.Proof.Gen.Pre_finite_inputs
import proofs.«115673_j47373489274965_1_alg».proof.Proof.Gen.KernelIdeal
import Idealize.ShloMosaic.Lib.ReduceAll
import Idealize.ShloMosaic.Lib.ValueIdx
import Idealize.ShloMosaic.Lib.IdealHost
import Idealize.ShloMosaic.Lib.Pipeline.Value

noncomputable section

namespace Cert.KernelIdeal.Spec

open Idealize.ShloMosaic Idealize.ShloMosaic.ValueIdx Cert.KernelIdeal
open Facts₀ Facts

/-- The scalar shape has one index. -/
instance subsingleton_scalar_idx : Subsingleton (⟨0, ![]⟩ : Shape).Idx := ⟨fun _ _ => funext fun d => d.elim0⟩

/-- The pattern of plus infinity denotes the top element. -/
theorem ofBits_inf : Ideal.ofBits .f32 0x7F800000#32 = ⊤ := by simp [Ideal.ofBits, Ideal.ieee]

/-- An extended real whose absolute value is below the top element is a real number. -/
theorem real_of_abs_lt_top (x : EReal) (h : max x (-x) < ⊤) : ∃ r : ℝ, x = (r : EReal) := by
  induction x using EReal.rec with
  | bot => simp at h
  | top => simp at h
  | coe r => exact ⟨r, rfl⟩

/-- One entry's test read back: where the comparison of the absolute value against plus infinity answers one, the
    entry is a real number. -/
theorem real_of_finite_bit {s : Shape} (hb : (⟨0, ![]⟩ : Shape).BroadcastsInDim s ![]) (x : FVec Ideal s .f32) (i : s.Idx)
    (h : cmpf .olt (Host.absf x) (broadcastInDim s ![] hb (constant (F := Ideal) ⟨0, ![]⟩ .f32 0x7F800000#32)) i = 1#1) :
    ∃ r : ℝ, x i = (r : EReal) := by
  rw [cmpf_apply, broadcastInDim_scalar_apply, constant_apply, ofBits_inf] at h
  refine real_of_abs_lt_top (x i) ?_
  by_contra hn
  have h0 : FloatOps.cmpf (F := Ideal) .olt (Host.absf x i) ⊤ = 0#1 := by
    show BitVec.ofBool (decide (max (x i) (-(x i)) < ⊤)) = 0#1
    rw [decide_eq_false hn]; rfl
  rw [h0] at h
  exact absurd h (by decide)

/-- Every entry of the four-row bias argument is a real number. -/
theorem bias_real (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i, ∃ r : ℝ, (m ((c.tc : Thread Cert.KernelIdeal.nD Cert.KernelIdeal.τ).loc Cert.KernelIdeal.main_arg6)) i = (r : EReal) := by
  intro i
  have h := congrFun (hpre c) ValueIdx.ix0
  dsimp only [Cert.Pre_finite_inputs.fn, Cert.Pre_finite_inputs.fn_part1, Cert.Pre_finite_inputs.fn_part2,
    Cert.Pre_finite_inputs.fn_part3] at h
  have h22 := (IntOp.andi_eq_one.mp (IntOp.andi_eq_one.mp (IntOp.andi_eq_one.mp (IntOp.andi_eq_one.mp
    (IntOp.andi_eq_one.mp (IntOp.andi_eq_one.mp (IntOp.andi_eq_one.mp (IntOp.andi_eq_one.mp
    (IntOp.andi_eq_one.mp h).1).1).1).1).1).1).1).1).2
  exact real_of_finite_bit _ _ i (Host.reduce_andi_all _ _ _ _ _ h22 i)

/-- The bias of layer 0: row 0 of the argument cut out and laid flat. Each entry is an entry of the argument. -/
theorem bias_slice_real_0 [Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ q : S128.Idx, ∃ r : ℝ,
      (shapeCast S128 (extractStridedSlice S1x128 ![0, 0]
        (m ((c.tc : Thread Cert.KernelIdeal.nD Cert.KernelIdeal.τ).loc Cert.KernelIdeal.main_arg6)) slices_S4x128_S1x128_0_0)
        shapeCasts_S1x128_S128) q = (r : EReal) := by
  intro q
  unfold shapeCast extractStridedSlice
  exact bias_real m hpre c _

/-- The bias of layer 1: row 1 of the argument cut out and laid flat. Each entry is an entry of the argument. -/
theorem bias_slice_real_1 [Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ q : S128.Idx, ∃ r : ℝ,
      (shapeCast S128 (extractStridedSlice S1x128 ![1, 0]
        (m ((c.tc : Thread Cert.KernelIdeal.nD Cert.KernelIdeal.τ).loc Cert.KernelIdeal.main_arg6)) slices_S4x128_S1x128_1_0)
        shapeCasts_S1x128_S128) q = (r : EReal) := by
  intro q
  unfold shapeCast extractStridedSlice
  exact bias_real m hpre c _

/-- The bias of layer 2: row 2 of the argument cut out and laid flat. Each entry is an entry of the argument. -/
theorem bias_slice_real_2 [Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ q : S128.Idx, ∃ r : ℝ,
      (shapeCast S128 (extractStridedSlice S1x128 ![2, 0]
        (m ((c.tc : Thread Cert.KernelIdeal.nD Cert.KernelIdeal.τ).loc Cert.KernelIdeal.main_arg6)) slices_S4x128_S1x128_2_0)
        shapeCasts_S1x128_S128) q = (r : EReal) := by
  intro q
  unfold shapeCast extractStridedSlice
  exact bias_real m hpre c _

/-- The bias of layer 3: row 3 of the argument cut out and laid flat. Each entry is an entry of the argument. -/
theorem bias_slice_real_3 [Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ q : S128.Idx, ∃ r : ℝ,
      (shapeCast S128 (extractStridedSlice S1x128 ![3, 0]
        (m ((c.tc : Thread Cert.KernelIdeal.nD Cert.KernelIdeal.τ).loc Cert.KernelIdeal.main_arg6)) slices_S4x128_S1x128_3_0)
        shapeCasts_S1x128_S128) q = (r : EReal) := by
  intro q
  unfold shapeCast extractStridedSlice
  exact bias_real m hpre c _

end Cert.KernelIdeal.Spec

end
-- ==== Proof.Algebraic.lean ====
/-
  The algebraic claim: at the ideal values the kernel program's result is a closed function of the fifteen arguments
  (its segments walked boundary by boundary, each region's output read entry by entry), the reference's result is
  another (its host operations read window by window), and the two functions agree wherever the layers' bias vectors
  are finite — which the precondition gives. The one law used is that adding a finite bias to every row of a matrix
  shifts its column means by the bias and leaves its centred matrix, hence its column variances, unchanged; matrix
  products in a region and on the host are the same sums.
-/
import proofs.«115673_j47373489274965_1_alg».proof.Defs
import proofs.«115673_j47373489274965_1_alg».proof.Proof.Gen.KernelIdeal
import proofs.«115673_j47373489274965_1_alg».proof.Proof.Gen.KernelIdeal.Frame
import proofs.«115673_j47373489274965_1_alg».proof.Proof.Gen.ReferenceIdeal
import proofs.«115673_j47373489274965_1_alg».proof.Proof.Gen.Pre_finite_inputs
import proofs.«115673_j47373489274965_1_alg».proof.Proof.RunValue
import proofs.«115673_j47373489274965_1_alg».proof.Proof.KernelResult
import proofs.«115673_j47373489274965_1_alg».proof.Proof.RefChain
import proofs.«115673_j47373489274965_1_alg».proof.Proof.OutEq
import proofs.«115673_j47373489274965_1_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem

theorem frame_ki : Cert.frame_KernelIdeal := fun m ρ _ => Cert.KernelIdeal.Gen.frame m ρ

theorem preserves : Cert.preserves_Kernel_KernelIdeal := trivial

/-- Both programs end at one function of the arguments. -/
theorem algebraic : Cert.algebraic_KernelIdeal_ReferenceIdeal := by
  intro m ρ m' ρ' hpre hagree
  refine ⟨fun c => Cert.KernelIdeal.Spec.kerOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.ChainK.kernel_result m ρ c), (h c).2⟩)
      (Cert.KernelIdeal.Gen.run_value (F := Ideal) m ρ)
  · refine (θ_run Cert.ReferenceIdeal.defs _ _).mono (fun r h c => ?_) (Cert.ReferenceIdeal.RefRun.run (F := Ideal) m' ρ')
    refine ⟨?_, (h c Cert.ReferenceIdeal.main_arg0).trans (Cert.ReferenceIdeal.RefRun.after_ops_of_not_written (by decide +kernel) _),
      (h c Cert.ReferenceIdeal.main_arg1).trans (Cert.ReferenceIdeal.RefRun.after_ops_of_not_written (by decide +kernel) _),
      (h c Cert.ReferenceIdeal.main_arg2).trans (Cert.ReferenceIdeal.RefRun.after_ops_of_not_written (by decide +kernel) _),
      (h c Cert.ReferenceIdeal.main_arg3).trans (Cert.ReferenceIdeal.RefRun.after_ops_of_not_written (by decide +kernel) _),
      (h c Cert.ReferenceIdeal.main_arg4).trans (Cert.ReferenceIdeal.RefRun.after_ops_of_not_written (by decide +kernel) _),
      (h c Cert.ReferenceIdeal.main_arg5).trans (Cert.ReferenceIdeal.RefRun.after_ops_of_not_written (by decide +kernel) _),
      (h c Cert.ReferenceIdeal.main_arg6).trans (Cert.ReferenceIdeal.RefRun.after_ops_of_not_written (by decide +kernel) _),
      (h c Cert.ReferenceIdeal.main_arg7).trans (Cert.ReferenceIdeal.RefRun.after_ops_of_not_written (by decide +kernel) _),
      (h c Cert.ReferenceIdeal.main_arg8).trans (Cert.ReferenceIdeal.RefRun.after_ops_of_not_written (by decide +kernel) _),
      (h c Cert.ReferenceIdeal.main_arg9).trans (Cert.ReferenceIdeal.RefRun.after_ops_of_not_written (by decide +kernel) _),
      (h c Cert.ReferenceIdeal.main_arg10).trans (Cert.ReferenceIdeal.RefRun.after_ops_of_not_written (by decide +kernel) _),
      (h c Cert.ReferenceIdeal.main_arg11).trans (Cert.ReferenceIdeal.RefRun.after_ops_of_not_written (by decide +kernel) _),
      (h c Cert.ReferenceIdeal.main_arg12).trans (Cert.ReferenceIdeal.RefRun.after_ops_of_not_written (by decide +kernel) _),
      (h c Cert.ReferenceIdeal.main_arg13).trans (Cert.ReferenceIdeal.RefRun.after_ops_of_not_written (by decide +kernel) _),
      (h c Cert.ReferenceIdeal.main_arg14).trans (Cert.ReferenceIdeal.RefRun.after_ops_of_not_written (by decide +kernel) _)⟩
    rw [h c Cert.ReferenceIdeal.main_v251, Cert.ReferenceIdeal.RefChain.result]
    have ha := hagree c
    show Cert.KernelIdeal.Spec.refOut _ _ _ _ _ _ _ _ _ _ _ _
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg10))
        (m' ((c.tc : Thread Cert.ReferenceIdeal.nD Cert.ReferenceIdeal.τ).loc Cert.ReferenceIdeal.main_arg11))
        (m' ((c.tc : Thread Cert.ReferenceIdeal.nD Cert.ReferenceIdeal.τ).loc Cert.ReferenceIdeal.main_arg12))
        (m' ((c.tc : Thread Cert.ReferenceIdeal.nD Cert.ReferenceIdeal.τ).loc Cert.ReferenceIdeal.main_arg13))
        (m' ((c.tc : Thread Cert.ReferenceIdeal.nD Cert.ReferenceIdeal.τ).loc Cert.ReferenceIdeal.main_arg14)) = _
    rw [ha.1, ha.2.1, ha.2.2.1, ha.2.2.2.1, ha.2.2.2.2.1, ha.2.2.2.2.2.1, ha.2.2.2.2.2.2.1, ha.2.2.2.2.2.2.2.1, ha.2.2.2.2.2.2.2.2.1, ha.2.2.2.2.2.2.2.2.2.1, ha.2.2.2.2.2.2.2.2.2.2.1, ha.2.2.2.2.2.2.2.2.2.2.2.1, ha.2.2.2.2.2.2.2.2.2.2.2.2.1, ha.2.2.2.2.2.2.2.2.2.2.2.2.2.1, ha.2.2.2.2.2.2.2.2.2.2.2.2.2.2]
    exact (Cert.KernelIdeal.Spec.out_eq _ _ _ _ _ _ _ _ _ _ _ _ _ _ _ _ _ _ _ _ _ _ _ _ _ _ _
      (Cert.KernelIdeal.Spec.bias_slice_real_0 m hpre c) (Cert.KernelIdeal.Spec.bias_slice_real_1 m hpre c)
      (Cert.KernelIdeal.Spec.bias_slice_real_2 m hpre c) (Cert.KernelIdeal.Spec.bias_slice_real_3 m hpre c)).symm

end Cert.Proof

end
-- ==== Proof.RefFrame.lean ====
/- The reference program's frame: it runs, and its fifteen arguments end as launched — no operation of the run
   writes an argument's buffer, so the fold of the operations at that buffer is the launch contents. -/
import proofs.«115673_j47373489274965_1_alg».proof.Defs
import proofs.«115673_j47373489274965_1_alg».proof.Proof.RefRun
import proofs.«115673_j47373489274965_1_alg».proof.Proof.Gen.Pre_finite_inputs

noncomputable section

namespace Cert.ReferenceIdeal.RefRun

open Cert.ReferenceIdeal Cert.ReferenceIdeal.Gen Idealize.ShloMosaic Idealize.ShloMosaic.TcCoe Idealize.SL.Sem Idealize.ShloMosaic.StableHlo

/-- The arguments are the first fifteen references; the operations write later ones. -/
theorem frame_ri : Cert.frame_ReferenceIdeal (hReferenceIdeal := Cert.ReferenceIdeal.Gen.facts)
    (hPre_finite_inputs := Cert.Pre_finite_inputs.Gen.facts) := fun m g _ =>
  (θ_run (defs (F := Ideal)) _ _).mono (fun _ h c =>
    ⟨(h c main_arg0).trans (after_ops_of_not_written (by decide +kernel) _),
     (h c main_arg1).trans (after_ops_of_not_written (by decide +kernel) _),
     (h c main_arg2).trans (after_ops_of_not_written (by decide +kernel) _),
     (h c main_arg3).trans (after_ops_of_not_written (by decide +kernel) _),
     (h c main_arg4).trans (after_ops_of_not_written (by decide +kernel) _),
     (h c main_arg5).trans (after_ops_of_not_written (by decide +kernel) _),
     (h c main_arg6).trans (after_ops_of_not_written (by decide +kernel) _),
     (h c main_arg7).trans (after_ops_of_not_written (by decide +kernel) _),
     (h c main_arg8).trans (after_ops_of_not_written (by decide +kernel) _),
     (h c main_arg9).trans (after_ops_of_not_written (by decide +kernel) _),
     (h c main_arg10).trans (after_ops_of_not_written (by decide +kernel) _),
     (h c main_arg11).trans (after_ops_of_not_written (by decide +kernel) _),
     (h c main_arg12).trans (after_ops_of_not_written (by decide +kernel) _),
     (h c main_arg13).trans (after_ops_of_not_written (by decide +kernel) _),
     (h c main_arg14).trans (after_ops_of_not_written (by decide +kernel) _)⟩)
    (run (F := Ideal) m g)

end Cert.ReferenceIdeal.RefRun

end
-- ==== Proof.lean ====
/-
  The certificate. The three frames are the generated runs (the reference's being its hand-listed host run with the
  result dropped); the idealization rewrote nothing; the algebraic claim is proved in the module imported below:
  both programs' results are one function of the arguments wherever the layers' bias vectors are finite.
-/
import proofs.«115673_j47373489274965_1_alg».proof.Defs
import proofs.«115673_j47373489274965_1_alg».proof.Proof.Gen.Kernel
import proofs.«115673_j47373489274965_1_alg».proof.Proof.Gen.Kernel.Frame
import proofs.«115673_j47373489274965_1_alg».proof.Proof.Algebraic
import proofs.«115673_j47373489274965_1_alg».proof.Proof.RefFrame
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem claim : Cert.Claim := ⟨Cert.Kernel.Gen.facts, Cert.KernelIdeal.Gen.facts, Cert.ReferenceIdeal.Gen.facts, Cert.Pre_finite_inputs.Gen.facts,
  frame_k, frame_ki, Cert.ReferenceIdeal.RefRun.frame_ri, preserves, algebraic⟩

end Cert.Proof

end
